-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S6x4096 : Shape := ⟨2, ![6, 4096]⟩
abbrev S4096 : Shape := ⟨1, ![4096]⟩
abbrev S6 : Shape := ⟨1, ![6]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S6x4096 : S_.BroadcastsInDim S6x4096 (![] : Fin 0 → Fin S6x4096.rank)
  reducesTo_S6x4096_S_d0_1 : S6x4096.ReducesTo [0, 1] S_
  bcast_S_S4096 : S_.BroadcastsInDim S4096 (![] : Fin 0 → Fin S4096.rank)
  reducesTo_S4096_S_d0 : S4096.ReducesTo [0] S_
  bcast_S_S6 : S_.BroadcastsInDim S6 (![] : Fin 0 → Fin S6.rank)
  reducesTo_S6_S_d0 : S6.ReducesTo [0] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S6x4096 .f32) (main_arg5 : FVec F S6 .f32) (main_arg6 : FVec F S4096x4096 .f32) (main_arg7 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S6x4096 .f32 := Host.absf main_arg4
  let main_cst_6 : FVec F S_ .f32 := constant S_ .f32 0x7F800000#32
  let main_v20 : FVec F S6x4096 .f32 := broadcastInDim S6x4096 ![] bcast_S_S6x4096 main_cst_6
  let main_v21 : IVec S6x4096 1 := cmpf .olt main_v19 main_v20
  let main_c_7 : IVec S_ 1 := constantI S_ 1 1#1
  let main_v22 : IVec S_ 1 := (fun x v => Host.reduce IntOp.andi x v reducesTo_S6x4096_S_d0_1 h_S_) main_v21 main_c_7
  let main_v23 : IVec S_ 1 := andi main_v18 main_v22
  let main_v24 : FVec F S6 .f32 := Host.absf main_arg5
  let main_cst_8 : FVec F S_ .f32 := constant S_ .f32 0x7F800000#32
  let main_v25 : FVec F S6 .f32 := broadcastInDim S6 ![] bcast_S_S6 main_cst_8
  let main_v26 : IVec S6 1 := cmpf .olt main_v24 main_v25
  let main_c_9 : IVec S_ 1 := constantI S_ 1 1#1
  let main_v27 : IVec S_ 1 := (fun x v => Host.reduce IntOp.andi x v reducesTo_S6_S_d0 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_v33

def fn {F : FTy → Type} [FloatOps F] (main_arg0 : FVec F S4096x4096 .f32) (main_arg1 : FVec F S6x4096 .f32) (main_arg2 : FVec F S4096x4096 .f32) (main_arg3 : FVec F S4096 .f32) (main_arg4 : FVec F S6x4096 .f32) (main_arg5 : FVec F S6 .f32) (main_arg6 : FVec F S4096x4096 .f32) (main_arg7 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S6x4096 .f32 := Host.absf main_arg1
  let main_cst_0 : FVec F S_ .f32 := constant S_ .f32 0x7F800000#32
  let main_v5 : FVec F S6x4096 .f32 := broadcastInDim S6x4096 ![] bcast_S_S6x4096 main_cst_0
  let main_v6 : IVec S6x4096 1 := cmpf .olt main_v4 main_v5
  let main_c_1 : IVec S_ 1 := constantI S_ 1 1#1
  let main_v7 : IVec S_ 1 := (fun x v => Host.reduce IntOp.andi x v reducesTo_S6x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S4096x4096 : Shape := ⟨2, ![4096, 4096]⟩
abbrev S6x4096 : Shape := ⟨2, ![6, 4096]⟩
abbrev S4096 : Shape := ⟨1, ![4096]⟩
abbrev S6 : Shape := ⟨1, ![6]⟩
abbrev S1x4096 : Shape := ⟨2, ![1, 4096]⟩
abbrev S1024x1024 : Shape := ⟨2, ![1024, 1024]⟩
abbrev S1x1024 : Shape := ⟨2, ![1, 1024]⟩
abbrev S6x1 : Shape := ⟨2, ![6, 1]⟩
abbrev S512x2048 : Shape := ⟨2, ![512, 2048]⟩
abbrev S6x512 : Shape := ⟨2, ![6, 512]⟩
abbrev S2048x512 : Shape := ⟨2, ![2048, 512]⟩
abbrev S1x2048 : Shape := ⟨2, ![1, 2048]⟩
abbrev S6x2048 : Shape := ⟨2, ![6, 2048]⟩
abbrev S4096x6 : Shape := ⟨2, ![4096, 6]⟩
abbrev S1024x2048 : Shape := ⟨2, ![1024, 2048]⟩
abbrev S1024x6 : Shape := ⟨2, ![1024, 6]⟩

abbrev nBuf : Space → Nat
  | .hbm => 14
  | .vmem => 31
  | .smem => 0
  | _ => 0

abbrev bufTy : (tb : Table) → Fin (tcTables nBuf tb) → BufTy
  | .hbm, ⟨0, _⟩ => ⟨S4096x4096, .f32⟩
  | .hbm, ⟨1, _⟩ => ⟨S6x4096, .f32⟩
  | .hbm, ⟨2, _⟩ => ⟨S4096x4096, .f32⟩
  | .hbm, ⟨3, _⟩ => ⟨S4096, .f32⟩
  | .hbm, ⟨4, _⟩ => ⟨S6x4096, .f32⟩
  | .hbm, ⟨5, _⟩ => ⟨S6, .f32⟩
  | .hbm, ⟨6, _⟩ => ⟨S4096x4096, .f32⟩
  | .hbm, ⟨7, _⟩ => ⟨S4096, .f32⟩
  | .hbm, ⟨8, _⟩ => ⟨S1x4096, .f32⟩
  | .hbm, ⟨9, _⟩ => ⟨S4096x4096, .bf16⟩
  | .hbm, ⟨10, _⟩ => ⟨S6x1, .f32⟩
  | .hbm, ⟨11, _⟩ => ⟨S1x4096, .f32⟩
  | .hbm, ⟨12, _⟩ => ⟨S6x4096, .bf16⟩
  | .hbm, ⟨13, _⟩ => ⟨S4096x6, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S512x2048, .bf16⟩
  | .local _ .vmem, ⟨10, _⟩ => ⟨S512x2048, .bf16⟩
  | .local _ .vmem, ⟨11, _⟩ => ⟨S6x512, .f32⟩
  | .local _ .vmem, ⟨12, _⟩ => ⟨S6x512, .f32⟩
  | .local _ .vmem, ⟨13, _⟩ => ⟨S6x1, .f32⟩
  | .local _ .vmem, ⟨14, _⟩ => ⟨S6x512, .f32⟩
  | .local _ .vmem, ⟨15, _⟩ => ⟨S6x512, .f32⟩
  | .local _ .vmem, ⟨16, _⟩ => ⟨S2048x512, .f32⟩
  | .local _ .vmem, ⟨17, _⟩ => ⟨S2048x512, .f32⟩
  | .local _ .vmem, ⟨18, _⟩ => ⟨S1x2048, .f32⟩
  | .local _ .vmem, ⟨19, _⟩ => ⟨S1x2048, .f32⟩
  | .local _ .vmem, ⟨20, _⟩ => ⟨S6x2048, .bf16⟩
  | .local _ .vmem, ⟨21, _⟩ => ⟨S6x2048, .bf16⟩
  | .local _ .vmem, ⟨22, _⟩ => ⟨S6x2048, .f32⟩
  | .local _ .vmem, ⟨23, _⟩ => ⟨S6x2048, .f32⟩
  | .local _ .vmem, ⟨24, _⟩ => ⟨S1024x2048, .bf16⟩
  | .local _ .vmem, ⟨25, _⟩ => ⟨S1024x2048, .bf16⟩
  | .local _ .vmem, ⟨26, _⟩ => ⟨S6x2048, .bf16⟩
  | .local _ .vmem, ⟨27, _⟩ => ⟨S6x2048, .bf16⟩
  | .local _ .vmem, ⟨28, _⟩ => ⟨S1024x6, .f32⟩
  | .local _ .vmem, ⟨29, _⟩ => ⟨S1024x6, .f32⟩
  | .local _ .vmem, ⟨30, _⟩ => ⟨S1024x6, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_scratch0 : Ref sig .tc := ⟨.vmem, 22, rfl⟩
abbrev cc1_scratch1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨2, ![2, 8], ![false, false]⟩

def k1_cond2 (i : grid1.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_17 : BitVec 32 := 0#32
  let v25 : BitVec 1 := Scalar.cmpi .ne v24 c0_i32_17
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S6x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S6x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S6x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S2048x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S6x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![4, 2], ![false, false]⟩

def k2_cond2 (i : grid2.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S6x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x6 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S6_S6x1 : S6.ShapeCasts S6x1
  inb_S6x2048_S6x2048_0_0 : ∀ a, (![0, 0] : Fin 2 → Nat) a + S6x2048.size a ≤ S6x2048.size a
  h_S6x2048 : 0 < S6x2048.numel
  shapeCasts_S6x2048_S6x2048 : S6x2048.ShapeCasts S6x2048
  inb_S6x512_S6x512_0_0 : ∀ a, (![0, 0] : Fin 2 → Nat) a + S6x512.size a ≤ S6x512.size a
  h_S6x512 : 0 < S6x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x512_S2048x512_0_0 : ∀ a, (![0, 0] : Fin 2 → Nat) a + S2048x512.size a ≤ S2048x512.size a
  h_S2048x512 : 0 < S2048x512.numel
  inb_S6x1_S6x1_0_0 : ∀ a, (![0, 0] : Fin 2 → Nat) a + S6x1.size a ≤ S6x1.size a
  h_S6x1 : 0 < S6x1.numel
  shapeCasts_S6x1_S6x1 : S6x1.ShapeCasts S6x1
  broadcasts_S6x1_S6x2048 : S6x1.Broadcasts S6x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S6x2048 : S1x2048.Broadcasts S6x2048
  packedbf16_S6x2048_S6x2048_0_0 : (Rect.unit (s := S6x2048) ![0, 0] S6x2048.size inb_S6x2048_S6x2048_0_0).PackedRows (EltTy.packing .bf16)
  inb_S1024x6_S1024x6_0_0 : ∀ a, (![0, 0] : Fin 2 → Nat) a + S1024x6.size a ≤ S1024x6.size a
  h_S1024x6 : 0 < S1024x6.numel
  shapeCasts_S1024x6_S1024x6 : S1024x6.ShapeCasts S1024x6
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  dot_S1024x1024_S1024x1024_S1024x1024_1_1_0_0_n_n_wf : DotDims.WF S1024x1024 S1024x1024 S1024x1024 [1] [1] [0] [0] [] []
  dot_S6x512_S512x2048_S6x2048_1_0_0_1_n_n_wf : DotDims.WF S6x512 S512x2048 S6x2048 [1] [0] [0] [1] [] []
  dot_S6x512_S2048x512_S6x2048_1_1_0_0_n_n_wf : DotDims.WF S6x512 S2048x512 S6x2048 [1] [1] [0] [0] [] []
  dot_S1024x2048_S6x2048_S1024x6_1_1_0_0_n_n_wf : DotDims.WF S1024x2048 S6x2048 S1024x6 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x4096.size a
  hwx1_0 : ∀ i : grid1.Coords, EltTy.bits .bf16 = 32 ∨ (Rect.block (s := S4096x4096) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6x512.size a ≤ S6x4096.size a
  hwx1_1 : ∀ i : grid1.Coords, EltTy.bits .f32 = 32 ∨ (Rect.block (s := S6x4096) S6x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S6x1.size a ≤ S6x1.size a
  hwx1_2 : ∀ i : grid1.Coords, EltTy.bits .f32 = 32 ∨ (Rect.block (s := S6x1) S6x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6x512.size a ≤ S6x4096.size a
  hwx1_3 : ∀ i : grid1.Coords, EltTy.bits .f32 = 32 ∨ (Rect.block (s := S6x4096) S6x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x512.size a ≤ S4096x4096.size a
  hwx1_4 : ∀ i : grid1.Coords, EltTy.bits .f32 = 32 ∨ (Rect.block (s := S4096x4096) S2048x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2048.size a ≤ S1x4096.size a
  hwx1_5 : ∀ i : grid1.Coords, EltTy.bits .f32 = 32 ∨ (Rect.block (s := S1x4096) S1x2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S6x2048.size a ≤ S6x4096.size a
  hwx1_6 : ∀ i : grid1.Coords, EltTy.bits .bf16 = 32 ∨ (Rect.block (s := S6x4096) S6x2048.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S4096x4096.size a
  hwx2_0 : ∀ i : grid2.Coords, EltTy.bits .bf16 = 32 ∨ (Rect.block (s := S4096x4096) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6x2048.size a ≤ S6x4096.size a
  hwx2_1 : ∀ i : grid2.Coords, EltTy.bits .bf16 = 32 ∨ (Rect.block (s := S6x4096) S6x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x6.size a ≤ S4096x6.size a
  hwx2_2 : ∀ i : grid2.Coords, EltTy.bits .f32 = 32 ∨ (Rect.block (s := S4096x6) S1024x6.size (cc2_transform_2 i) (hinb2_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S6x512_S512x2048_S6x2048_1_0_0_1_n_n : DotDims S6x512 S512x2048 S6x2048 where
  lhsContracting := [1]
  rhsContracting := [0]
  lhsNonContracting := [0]
  rhsNonContracting := [1]
  lhsBatch := []
  rhsBatch := []
  wf := dot_S6x512_S512x2048_S6x2048_1_0_0_1_n_n_wf
def dot_S6x512_S2048x512_S6x2048_1_1_0_0_n_n : DotDims S6x512 S2048x512 S6x2048 where
  lhsContracting := [1]
  rhsContracting := [1]
  lhsNonContracting := [0]
  rhsNonContracting := [0]
  lhsBatch := []
  rhsBatch := []
  wf := dot_S6x512_S2048x512_S6x2048_1_1_0_0_n_n_wf
def dot_S1024x2048_S6x2048_S1024x6_1_1_0_0_n_n : DotDims S1024x2048 S6x2048 S1024x6 where
  lhsContracting := [1]
  rhsContracting := [1]
  lhsNonContracting := [0]
  rhsNonContracting := [0]
  lhsBatch := []
  rhsBatch := []
  wf := dot_S1024x2048_S6x2048_S1024x6_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S6x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S6x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S6x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S2048x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x2048.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v4) S6x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v1) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S6x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1024x6.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S6x4096 : Shape := ⟨2, ![6, 4096]⟩
abbrev S4096 : Shape := ⟨1, ![4096]⟩
abbrev S6 : Shape := ⟨1, ![6]⟩
abbrev S1x4096 : Shape := ⟨2, ![1, 4096]⟩
abbrev S4096x6 : Shape := ⟨2, ![4096, 6]⟩
abbrev S1x6 : Shape := ⟨2, ![1, 6]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S6x4096, .f32⟩
  | .hbm, ⟨2, _⟩ => ⟨S4096x4096, .f32⟩
  | .hbm, ⟨3, _⟩ => ⟨S4096, .f32⟩
  | .hbm, ⟨4, _⟩ => ⟨S6x4096, .f32⟩
  | .hbm, ⟨5, _⟩ => ⟨S6, .f32⟩
  | .hbm, ⟨6, _⟩ => ⟨S4096x4096, .f32⟩
  | .hbm, ⟨7, _⟩ => ⟨S4096, .f32⟩
  | .hbm, ⟨8, _⟩ => ⟨S4096x4096, .f32⟩
  | .hbm, ⟨9, _⟩ => ⟨S4096x4096, .f32⟩
  | .hbm, ⟨10, _⟩ => ⟨S1x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x6, .f32⟩
  | .hbm, ⟨15, _⟩ => ⟨S4096x6, .f32⟩
  | .hbm, ⟨16, _⟩ => ⟨S1x6, .f32⟩
  | .hbm, ⟨17, _⟩ => ⟨S4096x6, .f32⟩
  | .hbm, ⟨18, _⟩ => ⟨S4096x6, .f32⟩
  | .hbm, ⟨19, _⟩ => ⟨S4096x4096, .f32⟩
  | .hbm, ⟨20, _⟩ => ⟨S6x4096, .f32⟩
  | .hbm, ⟨21, _⟩ => ⟨S1x4096, .f32⟩
  | .hbm, ⟨22, _⟩ => ⟨S6x4096, .f32⟩
  | .hbm, ⟨23, _⟩ => ⟨S6x4096, .f32⟩
  | .hbm, ⟨24, _⟩ => ⟨S6x4096, .f32⟩
  | .hbm, ⟨25, _⟩ => ⟨S6x4096, .f32⟩
  | .hbm, ⟨26, _⟩ => ⟨S_, .f32⟩
  | .hbm, ⟨27, _⟩ => ⟨S6x4096, .f32⟩
  | .hbm, ⟨28, _⟩ => ⟨S6x4096, .f32⟩
  | .hbm, ⟨29, _⟩ => ⟨S6x4096, .f32⟩
  | .hbm, ⟨30, _⟩ => ⟨S6x4096, .f32⟩
  | .hbm, ⟨31, _⟩ => ⟨S_, .f32⟩
  | .hbm, ⟨32, _⟩ => ⟨S6x4096, .f32⟩
  | .hbm, ⟨33, _⟩ => ⟨S6x4096, .f32⟩
  | .hbm, ⟨34, _⟩ => ⟨S6x4096, .f32⟩
  | .hbm, ⟨35, _⟩ => ⟨S6x4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S6x4096, .f32⟩
  | .hbm, ⟨40, _⟩ => ⟨S6x4096, .f32⟩
  | .hbm, ⟨41, _⟩ => ⟨S_, .f32⟩
  | .hbm, ⟨42, _⟩ => ⟨S6x4096, .f32⟩
  | .hbm, ⟨43, _⟩ => ⟨S6x4096, .f32⟩
  | .hbm, ⟨44, _⟩ => ⟨S4096x6, .f32⟩
  | .hbm, ⟨45, _⟩ => ⟨S4096x6, .f32⟩
  | .hbm, ⟨46, _⟩ => ⟨S_, .f32⟩
  | .hbm, ⟨47, _⟩ => ⟨S4096x6, .f32⟩
  | .hbm, ⟨48, _⟩ => ⟨S4096x6, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  transposes_S6x4096_S4096x6_1_0 : S6x4096.Transposes [1, 0] S4096x6
  bcast_S6_S1x6_1 : S6.BroadcastsInDim S1x6 (![1] : Fin 1 → Fin S1x6.rank)
  bcast_S1x6_S4096x6_0_1 : S1x6.BroadcastsInDim S4096x6 (![0, 1] : Fin 2 → Fin S4096x6.rank)
  bcast_S1x4096_S6x4096_0_1 : S1x4096.BroadcastsInDim S6x4096 (![0, 1] : Fin 2 → Fin S6x4096.rank)
  transposes_S4096x6_S6x4096_1_0 : S4096x6.Transposes [1, 0] S6x4096
  bcast_S_S6x4096 : S_.BroadcastsInDim S6x4096 (![] : Fin 0 → Fin S6x4096.rank)
  bcast_S_S4096x6 : S_.BroadcastsInDim S4096x6 (![] : Fin 0 → Fin S4096x6.rank)
  dot_S4096x4096_S4096x4096_S4096x4096_1_0_0_1_n_n_wf : DotDims.WF S4096x4096 S4096x4096 S4096x4096 [1] [0] [0] [1] [] []
  dot_S4096x4096_S4096x6_S4096x6_1_0_0_1_n_n_wf : DotDims.WF S4096x4096 S4096x6 S4096x6 [1] [0] [0] [1] [] []
  dot_S6x4096_S4096x4096_S6x4096_1_0_0_1_n_n_wf : DotDims.WF S6x4096 S4096x4096 S6x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x6_S4096x6_1_0_0_1_n_n : DotDims S4096x4096 S4096x6 S4096x6 where
  lhsContracting := [1]
  rhsContracting := [0]
  lhsNonContracting := [0]
  rhsNonContracting := [1]
  lhsBatch := []
  rhsBatch := []
  wf := dot_S4096x4096_S4096x6_S4096x6_1_0_0_1_n_n_wf
def dot_S6x4096_S4096x4096_S6x4096_1_0_0_1_n_n : DotDims S6x4096 S4096x4096 S6x4096 where
  lhsContracting := [1]
  rhsContracting := [0]
  lhsNonContracting := [0]
  rhsNonContracting := [1]
  lhsBatch := []
  rhsBatch := []
  wf := dot_S6x4096_S4096x4096_S6x4096_1_0_0_1_n_n_wf

class Facts : Prop extends Facts₀ where

variable [Facts]
-- ==== Proof.K.R0.Runs.lean ====
import proofs.«179627_j38019050504386_2_alg».proof.Proof.Gen.Kernel.Launch
import proofs.«179627_j38019050504386_2_alg».proof.Proof.Gen.Kernel.Skeleton
import proofs.«179627_j38019050504386_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the projection's operands -/

/-- The block of window `w` at grid point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The data block (window 0) is in its staging buffer at every point, for any proof data over `V` whose body
    leaves it in place. -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight block (window 1) likewise. -/
theorem before_w_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The bias row (window 2) likewise: it is fetched at the first reduction step only, and its block index does
    not move over the steps that follow. -/
theorem before_b_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two conditions on the reduction step -/

/-- The body's first conditional: the reduction step is the first one (the accumulator is zeroed). -/
abbrev firstStep (i : grid0.Coords) : Prop := (Scalar.cmpi .ne (Scalar.extui (Scalar.cmpi .eq (BitVec.ofNat 32 (i 2).val) 0#32)) 0#32) = 1#1
/-- It holds at the points ≡ 0 (mod 4). -/
theorem firstStep_iff : ∀ t : Fin cfg0.N, firstStep (grid0.coords t) ↔ t.val % 4 = 0 :=
  (by decide +kernel : ∀ t : Fin grid0.N, firstStep (grid0.coords t) ↔ t.val % 4 = 0)

/-- The body's second conditional: the reduction step is the last one (the bias is added, the result stored). -/
abbrev lastStep (i : grid0.Coords) : Prop := k0_cond2 i = 1#1
/-- It holds at the points ≡ 3 (mod 4). -/
theorem lastStep_iff : ∀ t : Fin cfg0.N, lastStep (grid0.coords t) ↔ t.val % 4 = 3 :=
  (by decide +kernel : ∀ t : Fin grid0.N, lastStep (grid0.coords t) ↔ t.val % 4 = 3)

/-! ## Where the windows are idle -/

theorem live_x : ∀ t : Fin cfg0.N, cfg0.idle 0 (grid0.coords t) = false := by decide +kernel
theorem live_w : ∀ t : Fin cfg0.N, cfg0.idle 1 (grid0.coords t) = false := by decide +kernel
theorem live_b : ∀ t : Fin cfg0.N, cfg0.idle 2 (grid0.coords t) = false := by decide +kernel
/-- Before the last reduction step the output window is idle: nothing is stored into it. -/
theorem idle_q : ∀ t : Fin cfg0.N, ¬lastStep (grid0.coords t) → cfg0.idle 3 (grid0.coords t) = true := by decide +kernel
/-- And it is not written back there. -/
theorem noFlush_q : ∀ t : Fin cfg0.N, ¬lastStep (grid0.coords t) → (cfg0.win 3).flush t = false := by decide +kernel
/-- At the last reduction step it is live. -/
theorem live_q : ∀ t : Fin cfg0.N, lastStep (grid0.coords t) → cfg0.idle 3 (grid0.coords t) = false := by decide +kernel

/-! ## The memrefs the body is called with -/

/-- One staging buffer of the output window, through which its contents are stated. -/
abbrev VO : View sig .tc .vmem S1024x1024 .bf16 := ((cfg0.win 3).stage (cfg0.slots ⟨0, by decide⟩ 3)).view
abbrev xM (t : Fin cfg0.N) : Memref sig .tc .vmem S1024x1024 .f32 := win0_0.stage (cfg0.slots t 0)
abbrev hxM (t : Fin cfg0.N) : (xM t).IsWhole := hstage0_0 ((cfg0.slots t 0).cast nbuf0_0)
abbrev wM (t : Fin cfg0.N) : Memref sig .tc .vmem S1024x1024 .f32 := win0_1.stage (cfg0.slots t 1)
abbrev hwM (t : Fin cfg0.N) : (wM t).IsWhole := hstage0_1 ((cfg0.slots t 1).cast nbuf0_1)
abbrev bM (t : Fin cfg0.N) : Memref sig .tc .vmem S1x1024 .f32 := win0_2.stage (cfg0.slots t 2)
abbrev hbM (t : Fin cfg0.N) : (bM t).IsWhole := hstage0_2 ((cfg0.slots t 2).cast nbuf0_2)
abbrev qM (t : Fin cfg0.N) : Memref sig .tc .vmem S1024x1024 .bf16 := win0_3.stage (cfg0.slots t 3)
abbrev hqM (t : Fin cfg0.N) : (qM t).IsWhole := hstage0_3 ((cfg0.slots t 3).cast nbuf0_3)
/-- The accumulator: a whole scoped buffer of the kernel's own, carried from one grid point to the next. -/
abbrev accM : Memref sig .tc .vmem S1024x1024 .f32 := Memref.whole cc0_scratch0
/-- The same as a view. -/
abbrev VS : View sig .tc .vmem S1024x1024 .f32 := (accM).view

/-- The region invariant as the launch hands it over, with the accumulator split off: the accumulator owned at some
    contents, every other scoped buffer unopened, the generator register at some state. -/
theorem PhiA_eq (c : Dev nD) :
    (Pipeline.ΦA spec0 c : sProp 𝕄)
      = iprop(iprop(iprop((∃ d, owns (c : Thread nD τ) accM fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [accM, owns_whole]; try rfl

end Cert.Kernel.R0

end
-- ==== Proof.K.R0.RunA.lean ====
import proofs.«179627_j38019050504386_2_alg».proof.Proof.K.R0.Runs

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- THE FIRST REDUCTION STEP. On whole memrefs — the data block `x`, the weight block `w` and the bias row `b` in
    place, the output's buffer at contents `y` handed back untouched, the accumulator at anything — the body zeroes
    the accumulator and adds the product of the two blocks to it: the pieces it leaves in the accumulator are the
    witness. -/
noncomputable def runFirst (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : firstStep i) (hl : ¬lastStep i)
    (x : Vec F S1024x1024 .f32) (w : Vec F S1024x1024 .f32) (b : Vec F S1x1024 .f32) :
    Σ' (LQ : List (View.Piece (Elt F) S1024x1024 .bf16)), { LS : List (View.Piece (Elt F) S1024x1024 .f32) //
      ∀ (y : Vec F S1024x1024 .bf16) (E : Set ℕ) (K : PUnit → sProp 𝕄),
        iprop(owns (c : Thread nD τ) arg3 fullShare x ∗ owns (c : Thread nD τ) arg4 fullShare w ∗ owns (c : Thread nD τ) arg5 fullShare b ∗ owns (c : Thread nD τ) arg6 fullShare y ∗ (∃ d, owns (c : Thread nD τ) arg7 fullShare d)
            ∗ (iprop(owns (c : Thread nD τ) arg3 fullShare x ∗ owns (c : Thread nD τ) arg4 fullShare w ∗ owns (c : Thread nD τ) arg5 fullShare b ∗ owns (c : Thread nD τ) arg6 fullShare y ∗ (∃ f, arg7.view.loc (c : Thread nD τ) ↦[arg7.view.set]{fullShare} arg7.view.writes (Elt F) f LS)) -∗ K ⟨⟩))
          ⊢ wp frame (wpE (defs₀ (F := F)) Variants.none c none) E (cc0__qmm_kernel i arg3 harg3 arg4 harg4 arg5 harg5 arg6 harg6 arg7 harg7) K } := by
  refine ⟨[], ?_, fun y E K => ?run⟩
  case run =>
    simp only [cc0__qmm_kernel_eq_skeleton]; unfold cc0__qmm_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hz | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.R0

end
-- ==== Proof.K.R0.RunB.lean ====
import proofs.«179627_j38019050504386_2_alg».proof.Proof.K.R0.RunA

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- A MIDDLE REDUCTION STEP. The accumulator comes in at what the step before left (`a`); the body adds the product
    of the two blocks to it and stores nothing into the output, whose buffer is handed back untouched. -/
noncomputable def runMid (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : ¬firstStep i) (hl : ¬lastStep i)
    (x : Vec F S1024x1024 .f32) (w : Vec F S1024x1024 .f32) (b : Vec F S1x1024 .f32) (a : Vec F S1024x1024 .f32) :
    Σ' (LQ : List (View.Piece (Elt F) S1024x1024 .bf16)), { LS : List (View.Piece (Elt F) S1024x1024 .f32) //
      ∀ (y : Vec F S1024x1024 .bf16) (E : Set ℕ) (K : PUnit → sProp 𝕄),
        iprop(owns (c : Thread nD τ) arg3 fullShare x ∗ owns (c : Thread nD τ) arg4 fullShare w ∗ owns (c : Thread nD τ) arg5 fullShare b ∗ owns (c : Thread nD τ) arg6 fullShare y ∗ owns (c : Thread nD τ) arg7 fullShare a
            ∗ (iprop(owns (c : Thread nD τ) arg3 fullShare x ∗ owns (c : Thread nD τ) arg4 fullShare w ∗ owns (c : Thread nD τ) arg5 fullShare b ∗ owns (c : Thread nD τ) arg6 fullShare y ∗ (∃ f, arg7.view.loc (c : Thread nD τ) ↦[arg7.view.set]{fullShare} arg7.view.writes (Elt F) f LS)) -∗ K ⟨⟩))
          ⊢ wp frame (wpE (defs₀ (F := F)) Variants.none c none) E (cc0__qmm_kernel i arg3 harg3 arg4 harg4 arg5 harg5 arg6 harg6 arg7 harg7) K } := by
  refine ⟨[], ?_, fun y E K => ?run⟩
  case run =>
    simp only [cc0__qmm_kernel_eq_skeleton]; unfold cc0__qmm_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hz | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.R0

end
-- ==== Proof.K.R0.RunC.lean ====
import proofs.«179627_j38019050504386_2_alg».proof.Proof.K.R0.RunB

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- THE LAST REDUCTION STEP. The accumulator comes in at what the step before left (`a`), the output's buffer at
    anything; the body adds the last product to the accumulator, then the bias row to that, and stores the sum
    rounded to bf16 over the whole output block. -/
noncomputable def runLast (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : ¬firstStep i) (hl : lastStep i)
    (x : Vec F S1024x1024 .f32) (w : Vec F S1024x1024 .f32) (b : Vec F S1x1024 .f32) (a : Vec F S1024x1024 .f32) :
    Σ' (LQ : List (View.Piece (Elt F) S1024x1024 .bf16)), { LS : List (View.Piece (Elt F) S1024x1024 .f32) //
      ∀ (E : Set ℕ) (K : PUnit → sProp 𝕄),
        iprop(owns (c : Thread nD τ) arg3 fullShare x ∗ owns (c : Thread nD τ) arg4 fullShare w ∗ owns (c : Thread nD τ) arg5 fullShare b ∗ (∃ d, owns (c : Thread nD τ) arg6 fullShare d) ∗ owns (c : Thread nD τ) arg7 fullShare a
            ∗ (iprop(owns (c : Thread nD τ) arg3 fullShare x ∗ owns (c : Thread nD τ) arg4 fullShare w ∗ owns (c : Thread nD τ) arg5 fullShare b ∗ (∃ f, arg6.view.loc (c : Thread nD τ) ↦[arg6.view.set]{fullShare} arg6.view.writes (Elt F) f LQ) ∗ (∃ f, arg7.view.loc (c : Thread nD τ) ↦[arg7.view.set]{fullShare} arg7.view.writes (Elt F) f LS)) -∗ K ⟨⟩))
          ⊢ wp frame (wpE (defs₀ (F := F)) Variants.none c none) E (cc0__qmm_kernel i arg3 harg3 arg4 harg4 arg5 harg5 arg6 harg6 arg7 harg7) K } := by
  refine ⟨?_, ?_, fun E K => ?run⟩
  case run =>
    simp only [cc0__qmm_kernel_eq_skeleton]; unfold cc0__qmm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hz | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.R0

end
-- ==== Proof.K.R0.lean ====
import proofs.«179627_j38019050504386_2_alg».proof.Proof.K.R0.RunC

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each reduction step leaves -/

/-- The first step stores nothing into the output: no pieces, a placeholder nothing consults (the window is idle
    there and not written back). -/
def qFirst (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : firstStep i) (hl : ¬lastStep i) (x : Vec F S1024x1024 .f32) (w : Vec F S1024x1024 .f32) (b : Vec F S1x1024 .f32) : Vec F S1024x1024 .bf16 :=
  VO.read (Elt F) (VO.writes (Elt F) VO.junk (runFirst c i arg3 harg3 arg4 harg4 arg5 harg5 arg6 harg6 arg7 harg7 hz hl x w b).1)

/-- The first step's pieces cover the accumulator. -/
theorem accFirst_cover (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : firstStep i) (hl : ¬lastStep i) (x : Vec F S1024x1024 .f32) (w : Vec F S1024x1024 .f32) (b : Vec F S1x1024 .f32) (y : S1024x1024.Idx) :
    ∃ pc ∈ (runFirst c i arg3 harg3 arg4 harg4 arg5 harg5 arg6 harg6 arg7 harg7 hz hl x w b).2.1, y ∈ pc.1.set :=
  View.cover_of_tiledL (runFirst c i arg3 harg3 arg4 harg4 arg5 harg5 arg6 harg6 arg7 harg7 hz hl x w b).2.1 S1024x1024.size (by sl_kernel_rfl) y

/-- What the first step leaves in the accumulator. -/
def accFirst (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : firstStep i) (hl : ¬lastStep i) (x : Vec F S1024x1024 .f32) (w : Vec F S1024x1024 .f32) (b : Vec F S1x1024 .f32) : Vec F S1024x1024 .f32 :=
  VS.read (Elt F) (VS.writes (Elt F) VS.junk (runFirst c i arg3 harg3 arg4 harg4 arg5 harg5 arg6 harg6 arg7 harg7 hz hl x w b).2.1)

/-- A middle step stores nothing into the output either. -/
def qMid (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : ¬firstStep i) (hl : ¬lastStep i) (x : Vec F S1024x1024 .f32) (w : Vec F S1024x1024 .f32) (b : Vec F S1x1024 .f32) (a : Vec F S1024x1024 .f32) : Vec F S1024x1024 .bf16 :=
  VO.read (Elt F) (VO.writes (Elt F) VO.junk (runMid c i arg3 harg3 arg4 harg4 arg5 harg5 arg6 harg6 arg7 harg7 hz hl x w b a).1)

/-- A middle step's pieces cover the accumulator. -/
theorem accMid_cover (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : ¬firstStep i) (hl : ¬lastStep i) (x : Vec F S1024x1024 .f32) (w : Vec F S1024x1024 .f32) (b : Vec F S1x1024 .f32) (a : Vec F S1024x1024 .f32) (y : S1024x1024.Idx) :
    ∃ pc ∈ (runMid c i arg3 harg3 arg4 harg4 arg5 harg5 arg6 harg6 arg7 harg7 hz hl x w b a).2.1, y ∈ pc.1.set :=
  View.cover_of_tiledL (runMid c i arg3 harg3 arg4 harg4 arg5 harg5 arg6 harg6 arg7 harg7 hz hl x w b a).2.1 S1024x1024.size (by sl_kernel_rfl) y

/-- What a middle step leaves in the accumulator, from what the step before left (`a`). -/
def accMid (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : ¬firstStep i) (hl : ¬lastStep i) (x : Vec F S1024x1024 .f32) (w : Vec F S1024x1024 .f32) (b : Vec F S1x1024 .f32) (a : Vec F S1024x1024 .f32) : Vec F S1024x1024 .f32 :=
  VS.read (Elt F) (VS.writes (Elt F) VS.junk (runMid c i arg3 harg3 arg4 harg4 arg5 harg5 arg6 harg6 arg7 harg7 hz hl x w b a).2.1)

/-- The last step's store covers the output block. -/
theorem qLast_cover (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : ¬firstStep i) (hl : lastStep i) (x : Vec F S1024x1024 .f32) (w : Vec F S1024x1024 .f32) (b : Vec F S1x1024 .f32) (a : Vec F S1024x1024 .f32) (y : S1024x1024.Idx) :
    ∃ pc ∈ (runLast c i arg3 harg3 arg4 harg4 arg5 harg5 arg6 harg6 arg7 harg7 hz hl x w b a).1, y ∈ pc.1.set :=
  View.cover_of_tiledL (runLast c i arg3 harg3 arg4 harg4 arg5 harg5 arg6 harg6 arg7 harg7 hz hl x w b a).1 S1024x1024.size (by sl_kernel_rfl) y

/-- What the last step leaves in the output's staging buffer. -/
def qLast (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : ¬firstStep i) (hl : lastStep i) (x : Vec F S1024x1024 .f32) (w : Vec F S1024x1024 .f32) (b : Vec F S1x1024 .f32) (a : Vec F S1024x1024 .f32) : Vec F S1024x1024 .bf16 :=
  VO.read (Elt F) (VO.writes (Elt F) VO.junk (runLast c i arg3 harg3 arg4 harg4 arg5 harg5 arg6 harg6 arg7 harg7 hz hl x w b a).1)

/-- The last step's pieces cover the accumulator. -/
theorem accLast_cover (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : ¬firstStep i) (hl : lastStep i) (x : Vec F S1024x1024 .f32) (w : Vec F S1024x1024 .f32) (b : Vec F S1x1024 .f32) (a : Vec F S1024x1024 .f32) (y : S1024x1024.Idx) :
    ∃ pc ∈ (runLast c i arg3 harg3 arg4 harg4 arg5 harg5 arg6 harg6 arg7 harg7 hz hl x w b a).2.1, y ∈ pc.1.set :=
  View.cover_of_tiledL (runLast c i arg3 harg3 arg4 harg4 arg5 harg5 arg6 harg6 arg7 harg7 hz hl x w b a).2.1 S1024x1024.size (by sl_kernel_rfl) y

/-- What the last step leaves in the accumulator. -/
def accLast (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : ¬firstStep i) (hl : lastStep i) (x : Vec F S1024x1024 .f32) (w : Vec F S1024x1024 .f32) (b : Vec F S1x1024 .f32) (a : Vec F S1024x1024 .f32) : Vec F S1024x1024 .f32 :=
  VS.read (Elt F) (VS.writes (Elt F) VS.junk (runLast c i arg3 harg3 arg4 harg4 arg5 harg5 arg6 harg6 arg7 harg7 hz hl x w b a).2.1)

/-! ## The steps at a grid point: its memrefs, its blocks -/

theorem not_last_of_first (t : Fin cfg0.N) (h0 : t.val % 4 = 0) : ¬lastStep (grid0.coords t) :=
  fun h => by have := (lastStep_iff t).mp h; omega
theorem not_first_of_last (t : Fin cfg0.N) (h1 : t.val % 4 = 3) : ¬firstStep (grid0.coords t) :=
  fun h => by have := (firstStep_iff t).mp h; omega

/-- (output buffer, accumulator) after the body at a point of the first reduction step. -/
def firstAt (c : Dev nD) (t : Fin cfg0.N) (h0 : t.val % 4 = 0) : Vec F S1024x1024 .bf16 × Vec F S1024x1024 .f32 :=
  (qFirst c (grid0.coords t) (xM t) (hxM t) (wM t) (hwM t) (bM t) (hbM t) (qM t) (hqM t) accM (Memref.isWhole_whole _) ((firstStep_iff t).mpr h0) (not_last_of_first t h0) (iblk V c 0 t) (iblk V c 1 t) (iblk V c 2 t),
   accFirst c (grid0.coords t) (xM t) (hxM t) (wM t) (hwM t) (bM t) (hbM t) (qM t) (hqM t) accM (Memref.isWhole_whole _) ((firstStep_iff t).mpr h0) (not_last_of_first t h0) (iblk V c 0 t) (iblk V c 1 t) (iblk V c 2 t))

/-- The same at a point of a middle step, the accumulator coming in at `a`. -/
def midAt (c : Dev nD) (t : Fin cfg0.N) (h0 : ¬t.val % 4 = 0) (h1 : ¬t.val % 4 = 3) (a : Vec F S1024x1024 .f32) : Vec F S1024x1024 .bf16 × Vec F S1024x1024 .f32 :=
  (qMid c (grid0.coords t) (xM t) (hxM t) (wM t) (hwM t) (bM t) (hbM t) (qM t) (hqM t) accM (Memref.isWhole_whole _) (fun h => h0 ((firstStep_iff t).mp h)) (fun h => h1 ((lastStep_iff t).mp h)) (iblk V c 0 t) (iblk V c 1 t) (iblk V c 2 t) a,
   accMid c (grid0.coords t) (xM t) (hxM t) (wM t) (hwM t) (bM t) (hbM t) (qM t) (hqM t) accM (Memref.isWhole_whole _) (fun h => h0 ((firstStep_iff t).mp h)) (fun h => h1 ((lastStep_iff t).mp h)) (iblk V c 0 t) (iblk V c 1 t) (iblk V c 2 t) a)

/-- The same at a point of the last step. -/
def lastAt (c : Dev nD) (t : Fin cfg0.N) (h1 : t.val % 4 = 3) (a : Vec F S1024x1024 .f32) : Vec F S1024x1024 .bf16 × Vec F S1024x1024 .f32 :=
  (qLast c (grid0.coords t) (xM t) (hxM t) (wM t) (hwM t) (bM t) (hbM t) (qM t) (hqM t) accM (Memref.isWhole_whole _) (not_first_of_last t h1) ((lastStep_iff t).mpr h1) (iblk V c 0 t) (iblk V c 1 t) (iblk V c 2 t) a,
   accLast c (grid0.coords t) (xM t) (hxM t) (wM t) (hwM t) (bM t) (hbM t) (qM t) (hqM t) accM (Memref.isWhole_whole _) (not_first_of_last t h1) ((lastStep_iff t).mpr h1) (iblk V c 0 t) (iblk V c 1 t) (iblk V c 2 t) a)

/-- THE ACCUMULATION: what the output's staging buffer and the accumulator hold after the body at position `n` —
    the step the position is at, run on the point's blocks, the accumulator coming in at what position `n - 1` left. -/
def outsAt (c : Dev nD) : (n : ℕ) → n < cfg0.N → Vec F S1024x1024 .bf16 × Vec F S1024x1024 .f32
  | 0, hn => firstAt V c ⟨0, hn⟩ (Nat.zero_mod _)
  | n + 1, hn =>
    if h0 : (n + 1) % 4 = 0 then firstAt V c ⟨n + 1, hn⟩ h0
    else if h1 : (n + 1) % 4 = 3 then lastAt V c ⟨n + 1, hn⟩ h1 (outsAt c n (Nat.lt_of_succ_lt hn)).2
    else midAt V c ⟨n + 1, hn⟩ h0 h1 (outsAt c n (Nat.lt_of_succ_lt hn)).2

theorem outsAt_first (c : Dev nD) (t : Fin cfg0.N) (h0 : t.val % 4 = 0) :
    outsAt V c t.val t.isLt = firstAt V c t h0 := by
  obtain ⟨n, hn⟩ := t
  cases n with
  | zero => exact rfl
  | succ n => exact (dif_pos h0).trans rfl

theorem outsAt_mid (c : Dev nD) (t : Fin cfg0.N) (h0 : ¬t.val % 4 = 0) (h1 : ¬t.val % 4 = 3) :
    outsAt V c t.val t.isLt = midAt V c t h0 h1 (outsAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h1 : t.val % 4 = 3) :
    outsAt V c t.val t.isLt = lastAt V c t h1 (outsAt V c (t.val - 1) (Nat.lt_of_le_of_lt (Nat.sub_le _ _) t.isLt)).2 := by
  obtain ⟨n, hn⟩ := t
  cases n with
  | zero => exact (by exfalso; (try dsimp only at h1); omega)
  | succ n => exact (dif_neg (by (try dsimp only at h1); omega)).trans ((dif_pos h1).trans rfl)

/-! ## The region invariant -/

/-- Before position `n`: at 0 what the launch hands over; afterwards the accumulator owned at what position `n - 1`
    left in it, every other scoped buffer unopened, the generator register at some state. -/
def PhiS (c : Dev nD) : (n : ℕ) → n ≤ cfg0.N → sProp 𝕄
  | 0, _ => Pipeline.ΦA spec0 c
  | n + 1, hn => iprop(iprop(owns (c : Thread nD τ) accM fullShare ((outsAt V c n hn).2) ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare ((outsAt V c n hn).2) ∗ Pipeline.scopedRestBut (Ix := Unit) (Name := ℕ) (U := UR sig nD τ) (Lvl := ℕ) (Val := Elt F) spec0 c [cc0_scratch0]) ∗ (∃ r, prngReg c r)) := rfl

theorem PhiS_pos (c : Dev nD) (n : ℕ) (h : n ≤ cfg0.N) (hz : n ≠ 0) :
    PhiS V c n h = iprop(iprop(owns (c : Thread nD τ) accM fullShare ((outsAt V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- Region 0's proof data at the entry contents `V`: the arrays as the region finds them; after the body each input's
    buffer at its block, the output's at the accumulation's first component; the invariant above; nothing owed;
    full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem q_full (c : Dev nD) (w : Fin cfg0.W) : (dat V c).q w = fullShare := rfl
theorem owed_zero (c : Dev nD) (t : Fin (cfg0.N + 1)) : (dat V c).owed t = 0 := rfl
theorem recorded_univ (c : Dev nD) (t : Fin (cfg0.N + 1)) : (dat V c).recorded t = Set.univ := rfl
theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_x (c : Dev nD) (t : Fin cfg0.N) : (dat V c).after 0 t = iblk V c 0 t := by dsimp only [dat]
theorem after_w (c : Dev nD) (t : Fin cfg0.N) : (dat V c).after 1 t = iblk V c 1 t := by dsimp only [dat]
theorem after_b (c : Dev nD) (t : Fin cfg0.N) : (dat V c).after 2 t = iblk V c 2 t := by dsimp only [dat]
theorem after_q (c : Dev nD) (t : Fin cfg0.N) : (dat V c).after 3 t = (outsAt V c t.val t.isLt).1 := by dsimp only [dat]

theorem before_x (c : Dev nD) (t : Fin cfg0.N) (d) : (dat V c).before 0 t d = iblk V c 0 t :=
  before_x_of V (dat V c) (A_eq V c 0) (after_x V c) t d
theorem before_w (c : Dev nD) (t : Fin cfg0.N) (d) : (dat V c).before 1 t d = iblk V c 1 t :=
  before_w_of V (dat V c) (A_eq V c 1) (after_w V c) t d
theorem before_b (c : Dev nD) (t : Fin cfg0.N) (d) : (dat V c).before 2 t d = iblk V c 2 t :=
  before_b_of V (dat V c) (A_eq V c 2) (after_b V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (xM t) fullShare ((dat V c).before 0 t d))
    ∗ (∃ d, owns (c : Thread nD τ) (wM t) fullShare ((dat V c).before 1 t d))
    ∗ (∃ d, owns (c : Thread nD τ) (bM t) fullShare ((dat V c).before 2 t d))
    ∗ (∃ d, owns (c : Thread nD τ) (qM t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the inputs' buffers hold their blocks; the closed forms say which reduction step the
    point is at; that step's run applies, the invariant handing it the accumulator at what the point before left
    (at anything at the first point) and taking it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w, before_b]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  rw [show (dat V c).leavesExact 0 t = owns (c : Thread nD τ) (xM t) fullShare ((dat V c).after 0 t) from by
    unfold Dat.leavesExact; rw [live_x t], after_x]
  rw [show (dat V c).leavesExact 1 t = owns (c : Thread nD τ) (wM t) fullShare ((dat V c).after 1 t) from by
    unfold Dat.leavesExact; rw [live_w t], after_w]
  rw [show (dat V c).leavesExact 2 t = owns (c : Thread nD τ) (bM t) fullShare ((dat V c).after 2 t) from by
    unfold Dat.leavesExact; rw [live_b t], after_b]
  by_cases h0 : t.val % 4 = 0
  · have hl := not_last_of_first t h0
    rw [Dat.leavesExact_idle (dat V c) 3 t (idle_q t hl) (noFlush_q t hl)]
    rw [outsAt_first V c t h0]
    unfold firstAt accFirst; (try dsimp only)
    by_cases hz : t.val = 0
    · rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩⟩
      iapply ((runFirst c (grid0.coords t) _ _ _ _ _ _ _ _ _ _ ((firstStep_iff t).mpr h0) hl (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (accFirst_cover c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runFirst c (grid0.coords t) _ _ _ _ _ _ _ _ _ _ ((firstStep_iff t).mpr h0) hl (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (accFirst_cover c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat V c).leavesExact 3 t = owns (c : Thread nD τ) (qM t) fullShare ((dat V c).after 3 t) from by
        unfold Dat.leavesExact; rw [live_q t ((lastStep_iff t).mpr h1)], after_q]
      rw [outsAt_last V c t h1]
      unfold lastAt qLast accLast; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runLast c (grid0.coords t) _ _ _ _ _ _ _ _ _ _ (not_first_of_last t h1) ((lastStep_iff t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (accLast_cover c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (qLast_cover c _ _ _ _ _ _ _ _ _ _ _ _ _ _ _ _ _)
    · have hl : ¬lastStep (grid0.coords t) := fun h => h1 ((lastStep_iff t).mp h)
      rw [Dat.leavesExact_idle (dat V c) 3 t (idle_q t hl) (noFlush_q t hl)]
      rw [outsAt_mid V c t h0 h1]
      unfold midAt accMid; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runMid c (grid0.coords t) _ _ _ _ _ _ _ _ _ _ (fun h => h0 ((firstStep_iff t).mp h)) hl (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (accMid_cover c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : (Pipeline.ΦA spec0 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives that back: the accumulator's named contents are forgotten. -/
theorem Phi_out (c : Dev nD) (t : Fin (cfg0.N + 1)) (ht : t.val ≠ 0) : (dat V c).Φ t ⊢ (Pipeline.ΦA spec0 c : sProp 𝕄) := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

/-- The same after the last point. -/
theorem hout (c : Dev nD) : (dat V c).Φ (Fin.last cfg0.N) ⊢ (Pipeline.ΦA spec0 c : sProp 𝕄) :=
  Phi_out V c _ (by rw [Fin.val_last]; have : cfg0.N = 64 := N_0; omega)

end Cert.Kernel.R0

end
-- ==== Proof.K.R1.Runs.lean ====
import proofs.«179627_j38019050504386_2_alg».proof.Proof.Gen.Kernel.Launch
import proofs.«179627_j38019050504386_2_alg».proof.Proof.Gen.Kernel.Skeleton
import proofs.«179627_j38019050504386_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditions on the grid point -/

/-- The first conditional of the body: the reduction step is the first one (both accumulators are zeroed). -/
abbrev cond_0 (i : grid1.Coords) : Prop := (Scalar.cmpi .ne (Scalar.extui (Scalar.cmpi .eq (BitVec.ofNat 32 (i 1).val) 0#32)) 0#32) = 1#1
/-- It holds exactly at the points ≡ 0 (mod 8). -/
theorem hcond_0 : ∀ t : Fin cfg1.N, cond_0 (grid1.coords t) ↔ t.val % 8 = 0 :=
  (by decide +kernel : ∀ t : Fin grid1.N, cond_0 (grid1.coords t) ↔ t.val % 8 = 0)

/-- The second conditional of the body: the reduction step is the last one (the epilogue runs). -/
abbrev cond_1 (i : grid1.Coords) : Prop := k1_cond2 i = 1#1
/-- It holds exactly at the points ≡ 7 (mod 8). -/
theorem hcond_1 : ∀ t : Fin cfg1.N, cond_1 (grid1.coords t) ↔ t.val % 8 = 7 :=
  (by decide +kernel : ∀ t : Fin grid1.N, cond_1 (grid1.coords t) ↔ t.val % 8 = 7)

/-! ## Where the windows are idle -/

/-- Input window 0 is never idle. -/
theorem liveAt_0 : ∀ t : Fin cfg1.N, cfg1.idle 0 (grid1.coords t) = false := by decide +kernel
/-- Input window 1 is never idle. -/
theorem liveAt_1 : ∀ t : Fin cfg1.N, cfg1.idle 1 (grid1.coords t) = false := by decide +kernel
/-- Input window 2 is never idle. -/
theorem liveAt_2 : ∀ t : Fin cfg1.N, cfg1.idle 2 (grid1.coords t) = false := by decide +kernel
/-- Input window 3 is never idle. -/
theorem liveAt_3 : ∀ t : Fin cfg1.N, cfg1.idle 3 (grid1.coords t) = false := by decide +kernel
/-- Input window 4 is never idle. -/
theorem liveAt_4 : ∀ t : Fin cfg1.N, cfg1.idle 4 (grid1.coords t) = false := by decide +kernel
/-- Input window 5 is never idle. -/
theorem liveAt_5 : ∀ t : Fin cfg1.N, cfg1.idle 5 (grid1.coords t) = false := by decide +kernel
/-- At a first reduction step the output window is idle and not written back. -/
theorem idleAt_6_A : ∀ t : Fin cfg1.N, cond_0 (grid1.coords t) → ¬cond_1 (grid1.coords t) → cfg1.idle 6 (grid1.coords t) = true := by decide +kernel
theorem noFlush_6_A : ∀ t : Fin cfg1.N, cond_0 (grid1.coords t) → ¬cond_1 (grid1.coords t) → (cfg1.win 6).flush t = false := by decide +kernel
/-- At a middle reduction step the output window is idle and not written back. -/
theorem idleAt_6_B : ∀ t : Fin cfg1.N, ¬cond_0 (grid1.coords t) → ¬cond_1 (grid1.coords t) → cfg1.idle 6 (grid1.coords t) = true := by decide +kernel
theorem noFlush_6_B : ∀ t : Fin cfg1.N, ¬cond_0 (grid1.coords t) → ¬cond_1 (grid1.coords t) → (cfg1.win 6).flush t = false := by decide +kernel
/-- At a last reduction step the output window is live. -/
theorem liveAt_6_C : ∀ t : Fin cfg1.N, ¬cond_0 (grid1.coords t) → cond_1 (grid1.coords t) → cfg1.idle 6 (grid1.coords t) = false := by decide +kernel

/-! ## The staging and scratch memrefs -/

/-- One staging buffer of the output window, through which its contents are stated. -/
abbrev VO_6 : View sig .tc .vmem S6x2048 .bf16 := (Memref.whole cc1_stg6_0 : Memref sig .tc .vmem S6x2048 .bf16).view
abbrev ms_0 (t : Fin cfg1.N) : Memref sig .tc .vmem S512x2048 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S6x512 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S6x1 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S6x512 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S2048x512 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S1x2048 .f32 := win1_5.stage (cfg1.slots t 5)
abbrev hs_5 (t : Fin cfg1.N) : (ms_5 t).IsWhole := hstage1_5 ((cfg1.slots t 5).cast nbuf1_5)
abbrev ms_6 (t : Fin cfg1.N) : Memref sig .tc .vmem S6x2048 .bf16 := win1_6.stage (cfg1.slots t 6)
abbrev hs_6 (t : Fin cfg1.N) : (ms_6 t).IsWhole := hstage1_6 ((cfg1.slots t 6).cast nbuf1_6)
/-- The two accumulators carried between points: the context accumulator and the key accumulator. -/
abbrev scM_0 : Memref sig .tc .vmem S6x2048 .f32 := Memref.whole cc1_scratch0
abbrev scM_1 : Memref sig .tc .vmem S6x2048 .f32 := Memref.whole cc1_scratch1
abbrev VS_0 : View sig .tc .vmem S6x2048 .f32 := scM_0.view
abbrev VS_1 : View sig .tc .vmem S6x2048 .f32 := scM_1.view

/-- The scoped buffers that are neither a staging buffer of this region nor one of its two accumulators, unopened. -/
abbrev restBut (c : Dev nD) : sProp 𝕄 :=
  Pipeline.scopedRestBut (Ix := Unit) (Name := ℕ) (U := UR sig nD τ) (Lvl := ℕ) (Val := Elt F) spec1 c [cc1_scratch0, cc1_scratch1]

/-- The class's invariant with the two accumulators split off as memrefs owned at some contents. -/
theorem PhiA_eq (c : Dev nD) :
    (Pipeline.ΦA spec1 c : sProp 𝕄)
      = iprop(iprop(iprop((∃ d, owns (c : Thread nD τ) scM_0 fullShare d) ∗ (∃ d, owns (c : Thread nD τ) scM_1 fullShare d)) ∗ restBut c) ∗ (∃ r, prngReg c r)) := by
  unfold Pipeline.ΦA
  rw [Pipeline.scopedRest_split_of_list spec1 c [cc1_scratch0, cc1_scratch1] (by decide) (by decide)]
  simp only [scM_0, scM_1, owns_whole]; try rfl

/-! ## The windows' blocks, read off the arrays as the region finds them -/

variable (V : (c : Dev nD) → (b : Ref sig .tc) → Buf (Elt F) ((c : Thread nD τ).loc b))

/-- Window `w`'s block at point `t`, read off its array at the region-entry contents `V`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetches it or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetches it or not. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetches it or not. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the point fetches it or not. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the point fetches it or not. -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, whether the point fetches it or not. -/
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.Kernel.R1

end
-- ==== Proof.K.R1.RunA.lean ====
import proofs.«179627_j38019050504386_2_alg».proof.Proof.K.R1.Runs

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a first reduction step (both accumulators zeroed, then one block product added to each; the output untouched): the pieces its stores leave in the output's staging memref and in the two accumulators
    (last first), with the proof that on whole memrefs — the inputs at their contents — the body runs to any continuation that takes the
    inputs as they were and each stored buffer with its pieces written. -/
noncomputable def kernelRun_A (c : Dev nD) (i : grid1.Coords) (arg2 : Memref sig .tc .vmem S512x2048 .bf16) (harg2 : arg2.IsWhole) (arg3 : Memref sig .tc .vmem S6x512 .f32) (harg3 : arg3.IsWhole) (arg4 : Memref sig .tc .vmem S6x1 .f32) (harg4 : arg4.IsWhole) (arg5 : Memref sig .tc .vmem S6x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S6x2048 .bf16) (harg8 : arg8.IsWhole) (arg9 : Memref sig .tc .vmem S6x2048 .f32) (harg9 : arg9.IsWhole) (arg10 : Memref sig .tc .vmem S6x2048 .f32) (harg10 : arg10.IsWhole) (hc0 : cond_0 i) (hc1 : ¬cond_1 i)
    (x0 : Vec F S512x2048 .bf16) (x1 : Vec F S6x512 .f32) (x2 : Vec F S6x1 .f32) (x3 : Vec F S6x512 .f32) (x4 : Vec F S2048x512 .f32) (x5 : Vec F S1x2048 .f32) :
    Σ' (L6 : List (View.Piece (Elt F) S6x2048 .bf16)) (LS0 : List (View.Piece (Elt F) S6x2048 .f32)), { LS1 : List (View.Piece (Elt F) S6x2048 .f32) //
      ∀ (xi6 : Vec F S6x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__kctx_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc1__kctx_kernel_eq_skeleton]; unfold cc1__kctx_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.R1

end
-- ==== Proof.K.R1.RunB.lean ====
import proofs.«179627_j38019050504386_2_alg».proof.Proof.K.R1.RunA

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a middle reduction step (one block product added to each accumulator; the output untouched): the pieces its stores leave in the output's staging memref and in the two accumulators
    (last first), with the proof that on whole memrefs — the inputs at their contents — the body runs to any continuation that takes the
    inputs as they were and each stored buffer with its pieces written. -/
noncomputable def kernelRun_B (c : Dev nD) (i : grid1.Coords) (arg2 : Memref sig .tc .vmem S512x2048 .bf16) (harg2 : arg2.IsWhole) (arg3 : Memref sig .tc .vmem S6x512 .f32) (harg3 : arg3.IsWhole) (arg4 : Memref sig .tc .vmem S6x1 .f32) (harg4 : arg4.IsWhole) (arg5 : Memref sig .tc .vmem S6x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S6x2048 .bf16) (harg8 : arg8.IsWhole) (arg9 : Memref sig .tc .vmem S6x2048 .f32) (harg9 : arg9.IsWhole) (arg10 : Memref sig .tc .vmem S6x2048 .f32) (harg10 : arg10.IsWhole) (hc0 : ¬cond_0 i) (hc1 : ¬cond_1 i)
    (x0 : Vec F S512x2048 .bf16) (x1 : Vec F S6x512 .f32) (x2 : Vec F S6x1 .f32) (x3 : Vec F S6x512 .f32) (x4 : Vec F S2048x512 .f32) (x5 : Vec F S1x2048 .f32) (xs0 : Vec F S6x2048 .f32) (xs1 : Vec F S6x2048 .f32) :
    Σ' (L6 : List (View.Piece (Elt F) S6x2048 .bf16)) (LS0 : List (View.Piece (Elt F) S6x2048 .f32)), { LS1 : List (View.Piece (Elt F) S6x2048 .f32) //
      ∀ (xi6 : Vec F S6x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__kctx_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc1__kctx_kernel_eq_skeleton]; unfold cc1__kctx_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.R1

end
-- ==== Proof.K.R1.RunC.lean ====
import proofs.«179627_j38019050504386_2_alg».proof.Proof.K.R1.RunB

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a last reduction step (one block product added to each accumulator, then the epilogue stored into the output): the pieces its stores leave in the output's staging memref and in the two accumulators
    (last first), with the proof that on whole memrefs — the inputs at their contents — the body runs to any continuation that takes the
    inputs as they were and each stored buffer with its pieces written. -/
noncomputable def kernelRun_C (c : Dev nD) (i : grid1.Coords) (arg2 : Memref sig .tc .vmem S512x2048 .bf16) (harg2 : arg2.IsWhole) (arg3 : Memref sig .tc .vmem S6x512 .f32) (harg3 : arg3.IsWhole) (arg4 : Memref sig .tc .vmem S6x1 .f32) (harg4 : arg4.IsWhole) (arg5 : Memref sig .tc .vmem S6x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S6x2048 .bf16) (harg8 : arg8.IsWhole) (arg9 : Memref sig .tc .vmem S6x2048 .f32) (harg9 : arg9.IsWhole) (arg10 : Memref sig .tc .vmem S6x2048 .f32) (harg10 : arg10.IsWhole) (hc0 : ¬cond_0 i) (hc1 : cond_1 i)
    (x0 : Vec F S512x2048 .bf16) (x1 : Vec F S6x512 .f32) (x2 : Vec F S6x1 .f32) (x3 : Vec F S6x512 .f32) (x4 : Vec F S2048x512 .f32) (x5 : Vec F S1x2048 .f32) (xs0 : Vec F S6x2048 .f32) (xs1 : Vec F S6x2048 .f32) :
    Σ' (L6 : List (View.Piece (Elt F) S6x2048 .bf16)) (LS0 : List (View.Piece (Elt F) S6x2048 .f32)), { LS1 : List (View.Piece (Elt F) S6x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__kctx_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc1__kctx_kernel_eq_skeleton]; unfold cc1__kctx_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.Kernel.R1

end
-- ==== Proof.K.R1.lean ====
import proofs.«179627_j38019050504386_2_alg».proof.Proof.K.R1.RunC

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a point of the grid -/

/-- The body's run at a first reduction step `t`, on the point's staging memrefs, the two accumulators and the windows' blocks. -/
def atA (c : Dev nD) (t : Fin cfg1.N) (h0 : t.val % 8 = 0) :=
  kernelRun_A c (grid1.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) ((hcond_0 t).mpr h0) (fun h => by have := (hcond_1 t).mp h; omega) (iblk V c 0 t) (iblk V c 1 t) (iblk V c 2 t) (iblk V c 3 t) (iblk V c 4 t) (iblk V c 5 t)

/-- Its stores into the context accumulator cover it. -/
theorem scover_A_0 (c : Dev nD) (t : Fin cfg1.N) (h0 : t.val % 8 = 0) (y : S6x2048.Idx) :
    ∃ pc ∈ (atA V c t h0).2.1, y ∈ pc.1.set :=
  View.cover_of_tiledL (atA V c t h0).2.1 S6x2048.size (by sl_kernel_rfl) y

/-- Its stores into the key accumulator cover it. -/
theorem scover_A_1 (c : Dev nD) (t : Fin cfg1.N) (h0 : t.val % 8 = 0) (y : S6x2048.Idx) :
    ∃ pc ∈ (atA V c t h0).2.2.1, y ∈ pc.1.set :=
  View.cover_of_tiledL (atA V c t h0).2.2.1 S6x2048.size (by sl_kernel_rfl) y

/-- What a first reduction step leaves: in the output's staging buffer (nothing is stored there: a placeholder nobody reads), in the context accumulator and in the key
    accumulator — the pieces stored, read back. -/
def outA (c : Dev nD) (t : Fin cfg1.N) (h0 : t.val % 8 = 0) : Vec F S6x2048 .bf16 × Vec F S6x2048 .f32 × Vec F S6x2048 .f32 :=
  (VO_6.read (Elt F) (VO_6.writes (Elt F) VO_6.junk (atA V c t h0).1),
   VS_0.read (Elt F) (VS_0.writes (Elt F) VS_0.junk (atA V c t h0).2.1),
   VS_1.read (Elt F) (VS_1.writes (Elt F) VS_1.junk (atA V c t h0).2.2.1))

/-- The body's run at a middle reduction step `t`, on the point's staging memrefs, the two accumulators and the windows' blocks. -/
def atB (c : Dev nD) (t : Fin cfg1.N) (h0 : ¬t.val % 8 = 0) (h1 : ¬t.val % 8 = 7) (xs0 xs1 : Vec F S6x2048 .f32) :=
  kernelRun_B c (grid1.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) (iblk V c 5 t) xs0 xs1

/-- Its stores into the context accumulator cover it. -/
theorem scover_B_0 (c : Dev nD) (t : Fin cfg1.N) (h0 : ¬t.val % 8 = 0) (h1 : ¬t.val % 8 = 7) (xs0 xs1 : Vec F S6x2048 .f32) (y : S6x2048.Idx) :
    ∃ pc ∈ (atB V c t h0 h1 xs0 xs1).2.1, y ∈ pc.1.set :=
  View.cover_of_tiledL (atB V c t h0 h1 xs0 xs1).2.1 S6x2048.size (by sl_kernel_rfl) y

/-- Its stores into the key accumulator cover it. -/
theorem scover_B_1 (c : Dev nD) (t : Fin cfg1.N) (h0 : ¬t.val % 8 = 0) (h1 : ¬t.val % 8 = 7) (xs0 xs1 : Vec F S6x2048 .f32) (y : S6x2048.Idx) :
    ∃ pc ∈ (atB V c t h0 h1 xs0 xs1).2.2.1, y ∈ pc.1.set :=
  View.cover_of_tiledL (atB V c t h0 h1 xs0 xs1).2.2.1 S6x2048.size (by sl_kernel_rfl) y

/-- What a middle reduction step leaves: in the output's staging buffer (nothing is stored there: a placeholder nobody reads), in the context accumulator and in the key
    accumulator — the pieces stored, read back. -/
def outB (c : Dev nD) (t : Fin cfg1.N) (h0 : ¬t.val % 8 = 0) (h1 : ¬t.val % 8 = 7) (xs0 xs1 : Vec F S6x2048 .f32) : Vec F S6x2048 .bf16 × Vec F S6x2048 .f32 × Vec F S6x2048 .f32 :=
  (VO_6.read (Elt F) (VO_6.writes (Elt F) VO_6.junk (atB V c t h0 h1 xs0 xs1).1),
   VS_0.read (Elt F) (VS_0.writes (Elt F) VS_0.junk (atB V c t h0 h1 xs0 xs1).2.1),
   VS_1.read (Elt F) (VS_1.writes (Elt F) VS_1.junk (atB V c t h0 h1 xs0 xs1).2.2.1))

/-- The body's run at a last reduction step `t`, on the point's staging memrefs, the two accumulators and the windows' blocks. -/
def atC (c : Dev nD) (t : Fin cfg1.N) (h0 : ¬t.val % 8 = 0) (h1 : t.val % 8 = 7) (xs0 xs1 : Vec F S6x2048 .f32) :=
  kernelRun_C c (grid1.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) (iblk V c 5 t) xs0 xs1

/-- Its stores into the context accumulator cover it. -/
theorem scover_C_0 (c : Dev nD) (t : Fin cfg1.N) (h0 : ¬t.val % 8 = 0) (h1 : t.val % 8 = 7) (xs0 xs1 : Vec F S6x2048 .f32) (y : S6x2048.Idx) :
    ∃ pc ∈ (atC V c t h0 h1 xs0 xs1).2.1, y ∈ pc.1.set :=
  View.cover_of_tiledL (atC V c t h0 h1 xs0 xs1).2.1 S6x2048.size (by sl_kernel_rfl) y

/-- Its stores into the key accumulator cover it. -/
theorem scover_C_1 (c : Dev nD) (t : Fin cfg1.N) (h0 : ¬t.val % 8 = 0) (h1 : t.val % 8 = 7) (xs0 xs1 : Vec F S6x2048 .f32) (y : S6x2048.Idx) :
    ∃ pc ∈ (atC V c t h0 h1 xs0 xs1).2.2.1, y ∈ pc.1.set :=
  View.cover_of_tiledL (atC V c t h0 h1 xs0 xs1).2.2.1 S6x2048.size (by sl_kernel_rfl) y

/-- Its store into the output's staging buffer covers it. -/
theorem cover_C_6 (c : Dev nD) (t : Fin cfg1.N) (h0 : ¬t.val % 8 = 0) (h1 : t.val % 8 = 7) (xs0 xs1 : Vec F S6x2048 .f32) (y : S6x2048.Idx) :
    ∃ pc ∈ (atC V c t h0 h1 xs0 xs1).1, y ∈ pc.1.set :=
  View.cover_of_tiledL (atC V c t h0 h1 xs0 xs1).1 S6x2048.size (by sl_kernel_rfl) y

/-- What a last reduction step leaves: in the output's staging buffer, in the context accumulator and in the key
    accumulator — the pieces stored, read back. -/
def outC (c : Dev nD) (t : Fin cfg1.N) (h0 : ¬t.val % 8 = 0) (h1 : t.val % 8 = 7) (xs0 xs1 : Vec F S6x2048 .f32) : Vec F S6x2048 .bf16 × Vec F S6x2048 .f32 × Vec F S6x2048 .f32 :=
  (VO_6.read (Elt F) (VO_6.writes (Elt F) VO_6.junk (atC V c t h0 h1 xs0 xs1).1),
   VS_0.read (Elt F) (VS_0.writes (Elt F) VS_0.junk (atC V c t h0 h1 xs0 xs1).2.1),
   VS_1.read (Elt F) (VS_1.writes (Elt F) VS_1.junk (atC V c t h0 h1 xs0 xs1).2.2.1))

/-! ## What the output's buffer and the accumulators hold after each point -/

/-- After the body at position `n`: the case of `n`'s reduction step, the accumulators read at what position `n - 1` left. -/
def outsAt (c : Dev nD) : (n : ℕ) → n < cfg1.N → Vec F S6x2048 .bf16 × Vec F S6x2048 .f32 × Vec F S6x2048 .f32
  | 0, hn => outA V c ⟨0, hn⟩ (Nat.zero_mod _)
  | n + 1, hn =>
    if h0 : (n + 1) % 8 = 0 then outA V c ⟨n + 1, hn⟩ h0
    else if h1 : (n + 1) % 8 = 7 then
      outC V c ⟨n + 1, hn⟩ h0 h1 (outsAt c n (Nat.lt_of_succ_lt hn)).2.1 (outsAt c n (Nat.lt_of_succ_lt hn)).2.2
    else
      outB V c ⟨n + 1, hn⟩ h0 h1 (outsAt c n (Nat.lt_of_succ_lt hn)).2.1 (outsAt c n (Nat.lt_of_succ_lt hn)).2.2

theorem outsAt_A (c : Dev nD) (t : Fin cfg1.N) (h0 : t.val % 8 = 0) : outsAt V c t.val t.isLt = outA V c t h0 := by
  obtain ⟨n, hn⟩ := t
  cases n with
  | zero => rfl
  | succ n => exact dif_pos h0

theorem outsAt_B (c : Dev nD) (t : Fin cfg1.N) (h0 : ¬t.val % 8 = 0) (h1 : ¬t.val % 8 = 7) :
    outsAt V c t.val t.isLt = outB V c t h0 h1 (outsAt V c (t.val - 1) (Nat.lt_of_le_of_lt (Nat.sub_le _ _) t.isLt)).2.1
      (outsAt V c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_neg h1)

theorem outsAt_C (c : Dev nD) (t : Fin cfg1.N) (h0 : ¬t.val % 8 = 0) (h1 : t.val % 8 = 7) :
    outsAt V c t.val t.isLt = outC V c t h0 h1 (outsAt V c (t.val - 1) (Nat.lt_of_le_of_lt (Nat.sub_le _ _) t.isLt)).2.1
      (outsAt V c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_pos h1)

/-- The region's invariant before position `n`: at the start what the launch hands over; afterwards the two accumulators at
    what the point before left, the other scoped buffers unopened, and the generator register at some state. -/
def PhiS (c : Dev nD) : (n : ℕ) → n ≤ cfg1.N → sProp 𝕄
  | 0, _ => Pipeline.ΦA spec1 c
  | n + 1, hn => iprop(iprop(iprop(owns (c : Thread nD τ) scM_0 fullShare (outsAt V c n hn).2.1 ∗ owns (c : Thread nD τ) scM_1 fullShare (outsAt V c n hn).2.2) ∗ restBut c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM_0 fullShare (outsAt V c n hn).2.1 ∗ owns (c : Thread nD τ) scM_1 fullShare (outsAt V c n hn).2.2) ∗ restBut c) ∗ (∃ r, prngReg c r)) := rfl

theorem PhiS_pos (c : Dev nD) (n : ℕ) (h : n ≤ cfg1.N) (hz : n ≠ 0) :
    PhiS V c n h = iprop(iprop(iprop(owns (c : Thread nD τ) scM_0 fullShare (outsAt V c (n - 1) (by omega)).2.1 ∗ owns (c : Thread nD τ) scM_1 fullShare (outsAt V c (n - 1) (by omega)).2.2) ∗ restBut c) ∗ (∃ r, prngReg c r)) := by
  cases n with
  | zero => exact absurd rfl hz
  | succ n => rfl

/-! ## The region's proof data -/

/-- Region 1's proof data at the entry contents `V`: the arrays as the region finds them; after the body at a point each input's
    buffer at its block and the output's at `outsAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
  Φ t := PhiS V c t.val (Nat.le_of_lt_succ t.isLt)
  q _ := fullShare
  owed _ := 0

theorem q_full (c : Dev nD) (w : Fin cfg1.W) : (dat V c).q w = fullShare := rfl
theorem owed_zero (c : Dev nD) (t : Fin (cfg1.N + 1)) : (dat V c).owed t = 0 := rfl
theorem recorded_univ (c : Dev nD) (t : Fin (cfg1.N + 1)) : (dat V c).recorded t = Set.univ := rfl
theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 8000000 in
/-- The body at any point. The inputs' staging memrefs hold their blocks; the reduction step of the point says which of the three
    cases runs; the invariant hands the body the two accumulators — at what the point before left, or at anything before the first
    point — and takes them back at this point's contents; the other scoped buffers and the generator register pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg1.N = 16 from N_1)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  rw [show (dat V c).leavesExact 3 t = owns (c : Thread nD τ) (ms_3 t) fullShare ((dat V c).after 3 t) from by
    unfold Dat.leavesExact; rw [liveAt_3 t], after_3]
  rw [show (dat V c).leavesExact 4 t = owns (c : Thread nD τ) (ms_4 t) fullShare ((dat V c).after 4 t) from by
    unfold Dat.leavesExact; rw [liveAt_4 t], after_4]
  rw [show (dat V c).leavesExact 5 t = owns (c : Thread nD τ) (ms_5 t) fullShare ((dat V c).after 5 t) from by
    unfold Dat.leavesExact; rw [liveAt_5 t], after_5]
  by_cases h0 : t.val % 8 = 0
  · rw [Dat.leavesExact_idle (dat V c) 6 t (idleAt_6_A t ((hcond_0 t).mpr h0) (fun h => by have := (hcond_1 t).mp h; omega)) (noFlush_6_A t ((hcond_0 t).mpr h0) (fun h => by have := (hcond_1 t).mp h; omega))]
    rw [outsAt_A V c t h0]
    unfold outA; dsimp only
    by_cases hz : t.val = 0
    · rw [PhiS_castSucc V c t, PhiS_zero V c _ _ hz, PhiA_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((atA V c t h0).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover_A_0 V c t h0)
            · unfold owns; iexists _; isplitr
              swap; · iexact HS1
              ipureintro; exact View.read_writes_of_cover _ _ _ _ _ (scover_A_1 V c t h0)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc V c t, PhiS_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((atA V c t h0).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover_A_0 V c t h0)
            · unfold owns; iexists _; isplitr
              swap; · iexact HS1
              ipureintro; exact View.read_writes_of_cover _ _ _ _ _ (scover_A_1 V c t h0)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun hz => h0 (by rw [hz])
    by_cases h1 : t.val % 8 = 7
    · rw [show (dat V c).leavesExact 6 t = owns (c : Thread nD τ) (ms_6 t) fullShare ((dat V c).after 6 t) from by
        unfold Dat.leavesExact; rw [liveAt_6_C t (fun h => h0 ((hcond_0 t).mp h)) ((hcond_1 t).mpr h1)], after_6]
      rw [outsAt_C V c t h0 h1]
      unfold outC; dsimp only
      rw [PhiS_castSucc V c t, PhiS_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((atC V c t h0 h1 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover_C_0 V c t h0 h1 _ _)
            · unfold owns; iexists _; isplitr
              swap; · iexact HS1
              ipureintro; exact View.read_writes_of_cover _ _ _ _ _ (scover_C_1 V c t h0 h1 _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_C_6 V c t h0 h1 _ _)
    · rw [Dat.leavesExact_idle (dat V c) 6 t (idleAt_6_B t (fun h => h0 ((hcond_0 t).mp h)) (fun h => h1 ((hcond_1 t).mp h))) (noFlush_6_B t (fun h => h0 ((hcond_0 t).mp h)) (fun h => h1 ((hcond_1 t).mp h)))]
      rw [outsAt_B V c t h0 h1]
      unfold outB; dsimp only
      rw [PhiS_castSucc V c t, PhiS_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((atB V c t h0 h1 _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover_B_0 V c t h0 h1 _ _)
            · unfold owns; iexists _; isplitr
              swap; · iexact HS1
              ipureintro; exact View.read_writes_of_cover _ _ _ _ _ (scover_B_1 V c t h0 h1 _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives back what the launch handed over: the accumulators' contents are forgotten. -/
theorem Phi_out (c : Dev nD) (t : Fin (cfg1.N + 1)) (ht : t.val ≠ 0) : (dat V c).Φ t ⊢ (Pipeline.ΦA spec1 c : sProp 𝕄) := by
  rw [show (dat V c).Φ t = PhiS V c t.val (Nat.le_of_lt_succ t.isLt) from rfl, PhiS_pos V c _ _ ht, PhiA_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

/-- The same after the last point. -/
theorem hout (c : Dev nD) : (dat V c).Φ (Fin.last cfg1.N) ⊢ (Pipeline.ΦA spec1 c : sProp 𝕄) :=
  Phi_out V c _ (by rw [Fin.val_last]; have : cfg1.N = 16 := N_1; omega)

end Cert.Kernel.R1

end
-- ==== Proof.K.R2.Setup.lean ====
import proofs.«179627_j38019050504386_2_alg».proof.Proof.Gen.Kernel.Launch
import proofs.«179627_j38019050504386_2_alg».proof.Proof.Gen.Kernel.Skeleton
import proofs.«179627_j38019050504386_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The final product out = (q · kmodᵀ) · 2⁻⁶, accumulated over two halves of the contraction axis

The grid is (i, k) ∈ 4 × 2: i a band of 1024 rows of q, k a half (2048 columns) of the contraction axis.
At k = 0 the accumulator is zeroed and the first half-product added; at k = 1 the second half-product is
added, and the sum times 2⁻⁶ is stored as the band's output block. -/

section Blocks
variable (V : (c : Dev nD) → (b : Ref sig .tc) → Buf (Elt F) ((c : Thread nD τ).loc b))

/-- Window w's block at point t, read off its array at the entry contents V. -/
def blockIn (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The band of q (window 0) is in its current staging buffer at every point, for any proof data over V
    whose body leaves that block in place. -/
theorem before_q_of {c : Dev nD} (dat : Dat τ (Elt F) Unit ℕ (UR sig nD τ) ℕ cfg2 c) (hA : dat.A 0 = V c (Pipeline.arrRef spec2 0))
    (hafter : ∀ t, dat.after 0 t = blockIn V c 0 t) (t : Fin cfg2.N) (d) : dat.before 0 t d = blockIn V c 0 t :=
  (dat.before_in_eq_fetched 0 rfl (fun _ => rfl) (fun _ _ _ => rfl) (fun t => by rw [hafter]; unfold Dat.blockOf blockIn; rw [hA]; try rfl) t d).trans
    (by unfold Dat.fetched Dat.blockOf blockIn; rw [hA]; try rfl)

/-- The half of kmod (window 1) likewise. -/
theorem before_k_of {c : Dev nD} (dat : Dat τ (Elt F) Unit ℕ (UR sig nD τ) ℕ cfg2 c) (hA : dat.A 1 = V c (Pipeline.arrRef spec2 1))
    (hafter : ∀ t, dat.after 1 t = blockIn V c 1 t) (t : Fin cfg2.N) (d) : dat.before 1 t d = blockIn V c 1 t :=
  (dat.before_in_eq_fetched 1 rfl (fun _ => rfl) (fun _ _ _ => rfl) (fun t => by rw [hafter]; unfold Dat.blockOf blockIn; rw [hA]; try rfl) t d).trans
    (by unfold Dat.fetched Dat.blockOf blockIn; rw [hA]; try rfl)

end Blocks

/-! ## The two conditions on the half index -/

/-- "This is the first half" (k = 0), as the body computes it from the grid coordinates. -/
abbrev atFirstHalf (i : grid2.Coords) : Prop := (Scalar.cmpi .ne (Scalar.extui (Scalar.cmpi .eq (BitVec.ofNat 32 (i 1).val) 0#32)) 0#32) = 1#1
/-- It holds at the even points. -/
theorem atFirstHalf_iff : ∀ t : Fin cfg2.N, atFirstHalf (grid2.coords t) ↔ t.val % 2 = 0 :=
  (by decide +kernel : ∀ t : Fin grid2.N, atFirstHalf (grid2.coords t) ↔ t.val % 2 = 0)

/-- "This is the last half" (k = 1). -/
abbrev atLastHalf (i : grid2.Coords) : Prop := k2_cond2 i = 1#1
/-- It holds at the odd points. -/
theorem atLastHalf_iff : ∀ t : Fin cfg2.N, atLastHalf (grid2.coords t) ↔ t.val % 2 = 1 :=
  (by decide +kernel : ∀ t : Fin grid2.N, atLastHalf (grid2.coords t) ↔ t.val % 2 = 1)

/-! ## Where the windows are live -/

theorem live_q : ∀ t : Fin cfg2.N, cfg2.idle 0 (grid2.coords t) = false := by decide +kernel
theorem live_k : ∀ t : Fin cfg2.N, cfg2.idle 1 (grid2.coords t) = false := by decide +kernel
/-- At a first half the output block is not stored into, -/
theorem idle_out_first : ∀ t : Fin cfg2.N, atFirstHalf (grid2.coords t) → ¬atLastHalf (grid2.coords t) → cfg2.idle 2 (grid2.coords t) = true := by decide +kernel
/-- nor written back; -/
theorem noFlush_out_first : ∀ t : Fin cfg2.N, atFirstHalf (grid2.coords t) → ¬atLastHalf (grid2.coords t) → (cfg2.win 2).flush t = false := by decide +kernel
/-- at a last half it is stored. -/
theorem live_out_last : ∀ t : Fin cfg2.N, ¬atFirstHalf (grid2.coords t) → atLastHalf (grid2.coords t) → cfg2.idle 2 (grid2.coords t) = false := by decide +kernel

/-! ## The memrefs the body is called on -/

/-- One staging buffer of the output window, through which its contents are stated. -/
abbrev outView : View sig .tc .vmem S1024x6 .f32 := (Memref.whole cc2_stg2_0 : Memref sig .tc .vmem S1024x6 .f32).view
abbrev qM (t : Fin cfg2.N) : Memref sig .tc .vmem S1024x2048 .bf16 := win2_0.stage (cfg2.slots t 0)
abbrev qM_whole (t : Fin cfg2.N) : (qM t).IsWhole := hstage2_0 ((cfg2.slots t 0).cast nbuf2_0)
abbrev kM (t : Fin cfg2.N) : Memref sig .tc .vmem S6x2048 .bf16 := win2_1.stage (cfg2.slots t 1)
abbrev kM_whole (t : Fin cfg2.N) : (kM t).IsWhole := hstage2_1 ((cfg2.slots t 1).cast nbuf2_1)
abbrev outM (t : Fin cfg2.N) : Memref sig .tc .vmem S1024x6 .f32 := win2_2.stage (cfg2.slots t 2)
abbrev outM_whole (t : Fin cfg2.N) : (outM t).IsWhole := hstage2_2 ((cfg2.slots t 2).cast nbuf2_2)
/-- The accumulator: a whole scoped buffer of the kernel's own, carried from the first half to the last. -/
abbrev accM : Memref sig .tc .vmem S1024x6 .f32 := Memref.whole cc2_scratch0
abbrev accView : View sig .tc .vmem S1024x6 .f32 := accM.view

/-- The region's entry invariant with the accumulator split off as a memref owned at some contents; every other
    scoped buffer stays unopened. -/
theorem entry_eq (c : Dev nD) :
    (Pipeline.ΦA spec2 c : sProp 𝕄)
      = iprop(iprop(iprop((∃ d, owns (c : Thread nD τ) accM fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [accM, owns_whole]; try rfl

end Cert.Kernel.R2

end
-- ==== Proof.K.R2.RunFirst.lean ====
import proofs.«179627_j38019050504386_2_alg».proof.Proof.K.R2.Setup

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a first half (k = 0). On whole memrefs — the band of q and the half of kmod at their contents xq, xk,
    the output block at contents xo handed back untouched, the accumulator at anything — the body runs to a
    continuation holding the inputs and the output block as they were and the accumulator with the pieces its two
    stores wrote (the zeros, then the zeros plus the first half-product): the pieces are the witness the run finds. -/
noncomputable def runFirst (c : Dev nD) (i : grid2.Coords) (arg2 : Memref sig .tc .vmem S1024x2048 .bf16) (harg2 : arg2.IsWhole) (arg3 : Memref sig .tc .vmem S6x2048 .bf16) (harg3 : arg3.IsWhole) (arg4 : Memref sig .tc .vmem S1024x6 .f32) (harg4 : arg4.IsWhole) (arg5 : Memref sig .tc .vmem S1024x6 .f32) (harg5 : arg5.IsWhole) (hc0 : atFirstHalf i) (hc1 : ¬atLastHalf i)
    (xq : Vec F S1024x2048 .bf16) (xk : Vec F S6x2048 .bf16) :
    Σ' (Lout : List (View.Piece (Elt F) S1024x6 .f32)), { Lacc : List (View.Piece (Elt F) S1024x6 .f32) //
      ∀ (xo : Vec F S1024x6 .f32) (E : Set ℕ) (K : PUnit → sProp 𝕄),
        iprop(owns (c : Thread nD τ) arg2 fullShare xq ∗ owns (c : Thread nD τ) arg3 fullShare xk ∗ owns (c : Thread nD τ) arg4 fullShare xo ∗ (∃ d, owns (c : Thread nD τ) arg5 fullShare d)
            ∗ (iprop(owns (c : Thread nD τ) arg2 fullShare xq ∗ owns (c : Thread nD τ) arg3 fullShare xk ∗ owns (c : Thread nD τ) arg4 fullShare xo ∗ (∃ f, arg5.view.loc (c : Thread nD τ) ↦[arg5.view.set]{fullShare} arg5.view.writes (Elt F) f Lacc)) -∗ K ⟨⟩))
          ⊢ wp frame (wpE (defs₀ (F := F)) Variants.none c none) E (cc2__finaldot_kernel i arg2 harg2 arg3 harg3 arg4 harg4 arg5 harg5) K } := by
  refine ⟨[], ?_, fun xo E K => ?run⟩
  case run =>
    simp only [cc2__finaldot_kernel_eq_skeleton]; unfold cc2__finaldot_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.R2

end
-- ==== Proof.K.R2.RunLast.lean ====
import proofs.«179627_j38019050504386_2_alg».proof.Proof.K.R2.RunFirst

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a last half (k = 1). On whole memrefs — the band of q and the half of kmod at their contents xq, xk,
    the accumulator at what the first half left (xacc), the output block at anything — the body runs to a
    continuation holding the inputs as they were, the accumulator with the piece its store wrote (xacc plus the
    second half-product) and the output block with the piece its store wrote (that sum times 2⁻⁶): the pieces are
    the witness the run finds. -/
noncomputable def runLast (c : Dev nD) (i : grid2.Coords) (arg2 : Memref sig .tc .vmem S1024x2048 .bf16) (harg2 : arg2.IsWhole) (arg3 : Memref sig .tc .vmem S6x2048 .bf16) (harg3 : arg3.IsWhole) (arg4 : Memref sig .tc .vmem S1024x6 .f32) (harg4 : arg4.IsWhole) (arg5 : Memref sig .tc .vmem S1024x6 .f32) (harg5 : arg5.IsWhole) (hc0 : ¬atFirstHalf i) (hc1 : atLastHalf i)
    (xq : Vec F S1024x2048 .bf16) (xk : Vec F S6x2048 .bf16) (xacc : Vec F S1024x6 .f32) :
    Σ' (Lout : List (View.Piece (Elt F) S1024x6 .f32)), { Lacc : List (View.Piece (Elt F) S1024x6 .f32) //
      ∀ (E : Set ℕ) (K : PUnit → sProp 𝕄),
        iprop(owns (c : Thread nD τ) arg2 fullShare xq ∗ owns (c : Thread nD τ) arg3 fullShare xk ∗ (∃ d, owns (c : Thread nD τ) arg4 fullShare d) ∗ owns (c : Thread nD τ) arg5 fullShare xacc
            ∗ (iprop(owns (c : Thread nD τ) arg2 fullShare xq ∗ owns (c : Thread nD τ) arg3 fullShare xk ∗ (∃ f, arg4.view.loc (c : Thread nD τ) ↦[arg4.view.set]{fullShare} arg4.view.writes (Elt F) f Lout) ∗ (∃ f, arg5.view.loc (c : Thread nD τ) ↦[arg5.view.set]{fullShare} arg5.view.writes (Elt F) f Lacc)) -∗ K ⟨⟩))
          ⊢ wp frame (wpE (defs₀ (F := F)) Variants.none c none) E (cc2__finaldot_kernel i arg2 harg2 arg3 harg3 arg4 harg4 arg5 harg5) K } := by
  refine ⟨?_, ?_, fun E K => ?run⟩
  case run =>
    simp only [cc2__finaldot_kernel_eq_skeleton]; unfold cc2__finaldot_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.R2

end
-- ==== Proof.K.R2.lean ====
import proofs.«179627_j38019050504386_2_alg».proof.Proof.K.R2.RunLast

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each half leaves, read back from the pieces the runs found -/

/-- A first half stores nothing into the output block: a placeholder that nothing consults (the block is neither
    written back there nor read at the next point). -/
def outFirst (c : Dev nD) (i : grid2.Coords) (arg2 : Memref sig .tc .vmem S1024x2048 .bf16) (harg2 : arg2.IsWhole) (arg3 : Memref sig .tc .vmem S6x2048 .bf16) (harg3 : arg3.IsWhole) (arg4 : Memref sig .tc .vmem S1024x6 .f32) (harg4 : arg4.IsWhole) (arg5 : Memref sig .tc .vmem S1024x6 .f32) (harg5 : arg5.IsWhole) (hc0 : atFirstHalf i) (hc1 : ¬atLastHalf i)
    (xq : Vec F S1024x2048 .bf16) (xk : Vec F S6x2048 .bf16) : Vec F S1024x6 .f32 :=
  outView.read (Elt F) (outView.writes (Elt F) outView.junk (runFirst c i arg2 harg2 arg3 harg3 arg4 harg4 arg5 harg5 hc0 hc1 xq xk).1)

/-- A first half's two stores into the accumulator each tile it, so they cover it. -/
theorem accFirst_cover (c : Dev nD) (i : grid2.Coords) (arg2 : Memref sig .tc .vmem S1024x2048 .bf16) (harg2 : arg2.IsWhole) (arg3 : Memref sig .tc .vmem S6x2048 .bf16) (harg3 : arg3.IsWhole) (arg4 : Memref sig .tc .vmem S1024x6 .f32) (harg4 : arg4.IsWhole) (arg5 : Memref sig .tc .vmem S1024x6 .f32) (harg5 : arg5.IsWhole) (hc0 : atFirstHalf i) (hc1 : ¬atLastHalf i)
    (xq : Vec F S1024x2048 .bf16) (xk : Vec F S6x2048 .bf16) (y : S1024x6.Idx) :
    ∃ pc ∈ (runFirst c i arg2 harg2 arg3 harg3 arg4 harg4 arg5 harg5 hc0 hc1 xq xk).2.1, y ∈ pc.1.set :=
  View.cover_of_tiledL (runFirst c i arg2 harg2 arg3 harg3 arg4 harg4 arg5 harg5 hc0 hc1 xq xk).2.1 S1024x6.size (by sl_kernel_rfl) y

/-- What a first half leaves in the accumulator: zero plus the first half-product. -/
def accFirst (c : Dev nD) (i : grid2.Coords) (arg2 : Memref sig .tc .vmem S1024x2048 .bf16) (harg2 : arg2.IsWhole) (arg3 : Memref sig .tc .vmem S6x2048 .bf16) (harg3 : arg3.IsWhole) (arg4 : Memref sig .tc .vmem S1024x6 .f32) (harg4 : arg4.IsWhole) (arg5 : Memref sig .tc .vmem S1024x6 .f32) (harg5 : arg5.IsWhole) (hc0 : atFirstHalf i) (hc1 : ¬atLastHalf i)
    (xq : Vec F S1024x2048 .bf16) (xk : Vec F S6x2048 .bf16) : Vec F S1024x6 .f32 :=
  accView.read (Elt F) (accView.writes (Elt F) accView.junk (runFirst c i arg2 harg2 arg3 harg3 arg4 harg4 arg5 harg5 hc0 hc1 xq xk).2.1)

/-- A last half's store into the output block tiles it, so it covers it. -/
theorem outLast_cover (c : Dev nD) (i : grid2.Coords) (arg2 : Memref sig .tc .vmem S1024x2048 .bf16) (harg2 : arg2.IsWhole) (arg3 : Memref sig .tc .vmem S6x2048 .bf16) (harg3 : arg3.IsWhole) (arg4 : Memref sig .tc .vmem S1024x6 .f32) (harg4 : arg4.IsWhole) (arg5 : Memref sig .tc .vmem S1024x6 .f32) (harg5 : arg5.IsWhole) (hc0 : ¬atFirstHalf i) (hc1 : atLastHalf i)
    (xq : Vec F S1024x2048 .bf16) (xk : Vec F S6x2048 .bf16) (xacc : Vec F S1024x6 .f32) (y : S1024x6.Idx) :
    ∃ pc ∈ (runLast c i arg2 harg2 arg3 harg3 arg4 harg4 arg5 harg5 hc0 hc1 xq xk xacc).1, y ∈ pc.1.set :=
  View.cover_of_tiledL (runLast c i arg2 harg2 arg3 harg3 arg4 harg4 arg5 harg5 hc0 hc1 xq xk xacc).1 S1024x6.size (by sl_kernel_rfl) y

/-- What a last half leaves in the output block: the accumulated product times 2⁻⁶. -/
def outLast (c : Dev nD) (i : grid2.Coords) (arg2 : Memref sig .tc .vmem S1024x2048 .bf16) (harg2 : arg2.IsWhole) (arg3 : Memref sig .tc .vmem S6x2048 .bf16) (harg3 : arg3.IsWhole) (arg4 : Memref sig .tc .vmem S1024x6 .f32) (harg4 : arg4.IsWhole) (arg5 : Memref sig .tc .vmem S1024x6 .f32) (harg5 : arg5.IsWhole) (hc0 : ¬atFirstHalf i) (hc1 : atLastHalf i)
    (xq : Vec F S1024x2048 .bf16) (xk : Vec F S6x2048 .bf16) (xacc : Vec F S1024x6 .f32) : Vec F S1024x6 .f32 :=
  outView.read (Elt F) (outView.writes (Elt F) outView.junk (runLast c i arg2 harg2 arg3 harg3 arg4 harg4 arg5 harg5 hc0 hc1 xq xk xacc).1)

/-- A last half's store into the accumulator tiles it, so it covers it. -/
theorem accLast_cover (c : Dev nD) (i : grid2.Coords) (arg2 : Memref sig .tc .vmem S1024x2048 .bf16) (harg2 : arg2.IsWhole) (arg3 : Memref sig .tc .vmem S6x2048 .bf16) (harg3 : arg3.IsWhole) (arg4 : Memref sig .tc .vmem S1024x6 .f32) (harg4 : arg4.IsWhole) (arg5 : Memref sig .tc .vmem S1024x6 .f32) (harg5 : arg5.IsWhole) (hc0 : ¬atFirstHalf i) (hc1 : atLastHalf i)
    (xq : Vec F S1024x2048 .bf16) (xk : Vec F S6x2048 .bf16) (xacc : Vec F S1024x6 .f32) (y : S1024x6.Idx) :
    ∃ pc ∈ (runLast c i arg2 harg2 arg3 harg3 arg4 harg4 arg5 harg5 hc0 hc1 xq xk xacc).2.1, y ∈ pc.1.set :=
  View.cover_of_tiledL (runLast c i arg2 harg2 arg3 harg3 arg4 harg4 arg5 harg5 hc0 hc1 xq xk xacc).2.1 S1024x6.size (by sl_kernel_rfl) y

/-- What a last half leaves in the accumulator: what the first half left plus the second half-product. -/
def accLast (c : Dev nD) (i : grid2.Coords) (arg2 : Memref sig .tc .vmem S1024x2048 .bf16) (harg2 : arg2.IsWhole) (arg3 : Memref sig .tc .vmem S6x2048 .bf16) (harg3 : arg3.IsWhole) (arg4 : Memref sig .tc .vmem S1024x6 .f32) (harg4 : arg4.IsWhole) (arg5 : Memref sig .tc .vmem S1024x6 .f32) (harg5 : arg5.IsWhole) (hc0 : ¬atFirstHalf i) (hc1 : atLastHalf i)
    (xq : Vec F S1024x2048 .bf16) (xk : Vec F S6x2048 .bf16) (xacc : Vec F S1024x6 .f32) : Vec F S1024x6 .f32 :=
  accView.read (Elt F) (accView.writes (Elt F) accView.junk (runLast c i arg2 harg2 arg3 harg3 arg4 harg4 arg5 harg5 hc0 hc1 xq xk xacc).2.1)

/-- An even point is no last half, -/
theorem notLast_of_even (t : Fin cfg2.N) (h0 : t.val % 2 = 0) : ¬atLastHalf (grid2.coords t) :=
  fun h => by have := (atLastHalf_iff t).mp h; omega
/-- an odd point no first half. -/
theorem notFirst_of_odd (t : Fin cfg2.N) (h1 : t.val % 2 = 1) : ¬atFirstHalf (grid2.coords t) :=
  fun h => by have := (atFirstHalf_iff t).mp h; omega

section Region
variable (V : (c : Dev nD) → (b : Ref sig .tc) → Buf (Elt F) ((c : Thread nD τ).loc b))

/-! ## The accumulation, point by point -/

/-- What the output block's staging buffer and the accumulator hold after the body at position n (in that order):
    at an even position a first half on the point's blocks, at an odd one a last half on them over the
    accumulator the position before left. -/
def outsAt (c : Dev nD) : (n : ℕ) → n < cfg2.N → Vec F S1024x6 .f32 × Vec F S1024x6 .f32
  | 0, hn => (outFirst c (grid2.coords ⟨0, hn⟩) (qM ⟨0, hn⟩) (qM_whole ⟨0, hn⟩) (kM ⟨0, hn⟩) (kM_whole ⟨0, hn⟩) (outM ⟨0, hn⟩) (outM_whole ⟨0, hn⟩) accM (Memref.isWhole_whole _) ((atFirstHalf_iff ⟨0, hn⟩).mpr (Nat.zero_mod 2)) (notLast_of_even ⟨0, hn⟩ (Nat.zero_mod 2)) (blockIn V c 0 ⟨0, hn⟩) (blockIn V c 1 ⟨0, hn⟩), accFirst c (grid2.coords ⟨0, hn⟩) (qM ⟨0, hn⟩) (qM_whole ⟨0, hn⟩) (kM ⟨0, hn⟩) (kM_whole ⟨0, hn⟩) (outM ⟨0, hn⟩) (outM_whole ⟨0, hn⟩) accM (Memref.isWhole_whole _) ((atFirstHalf_iff ⟨0, hn⟩).mpr (Nat.zero_mod 2)) (notLast_of_even ⟨0, hn⟩ (Nat.zero_mod 2)) (blockIn V c 0 ⟨0, hn⟩) (blockIn V c 1 ⟨0, hn⟩))
  | n + 1, hn =>
    if h0 : (n + 1) % 2 = 0 then
      (outFirst c (grid2.coords ⟨n + 1, hn⟩) (qM ⟨n + 1, hn⟩) (qM_whole ⟨n + 1, hn⟩) (kM ⟨n + 1, hn⟩) (kM_whole ⟨n + 1, hn⟩) (outM ⟨n + 1, hn⟩) (outM_whole ⟨n + 1, hn⟩) accM (Memref.isWhole_whole _) ((atFirstHalf_iff ⟨n + 1, hn⟩).mpr h0) (notLast_of_even ⟨n + 1, hn⟩ h0) (blockIn V c 0 ⟨n + 1, hn⟩) (blockIn V c 1 ⟨n + 1, hn⟩), accFirst c (grid2.coords ⟨n + 1, hn⟩) (qM ⟨n + 1, hn⟩) (qM_whole ⟨n + 1, hn⟩) (kM ⟨n + 1, hn⟩) (kM_whole ⟨n + 1, hn⟩) (outM ⟨n + 1, hn⟩) (outM_whole ⟨n + 1, hn⟩) accM (Memref.isWhole_whole _) ((atFirstHalf_iff ⟨n + 1, hn⟩).mpr h0) (notLast_of_even ⟨n + 1, hn⟩ h0) (blockIn V c 0 ⟨n + 1, hn⟩) (blockIn V c 1 ⟨n + 1, hn⟩))
    else
      (outLast c (grid2.coords ⟨n + 1, hn⟩) (qM ⟨n + 1, hn⟩) (qM_whole ⟨n + 1, hn⟩) (kM ⟨n + 1, hn⟩) (kM_whole ⟨n + 1, hn⟩) (outM ⟨n + 1, hn⟩) (outM_whole ⟨n + 1, hn⟩) accM (Memref.isWhole_whole _) (notFirst_of_odd ⟨n + 1, hn⟩ (Nat.mod_two_ne_zero.mp h0)) ((atLastHalf_iff ⟨n + 1, hn⟩).mpr (Nat.mod_two_ne_zero.mp h0)) (blockIn V c 0 ⟨n + 1, hn⟩) (blockIn V c 1 ⟨n + 1, hn⟩) (outsAt c n (Nat.lt_of_succ_lt hn)).2, accLast c (grid2.coords ⟨n + 1, hn⟩) (qM ⟨n + 1, hn⟩) (qM_whole ⟨n + 1, hn⟩) (kM ⟨n + 1, hn⟩) (kM_whole ⟨n + 1, hn⟩) (outM ⟨n + 1, hn⟩) (outM_whole ⟨n + 1, hn⟩) accM (Memref.isWhole_whole _) (notFirst_of_odd ⟨n + 1, hn⟩ (Nat.mod_two_ne_zero.mp h0)) ((atLastHalf_iff ⟨n + 1, hn⟩).mpr (Nat.mod_two_ne_zero.mp h0)) (blockIn V c 0 ⟨n + 1, hn⟩) (blockIn V c 1 ⟨n + 1, hn⟩) (outsAt c n (Nat.lt_of_succ_lt hn)).2)

/-- At a first half. -/
theorem outsAt_first (c : Dev nD) (t : Fin cfg2.N) (h0 : t.val % 2 = 0) :
    outsAt V c t.val t.isLt = (outFirst c (grid2.coords t) (qM t) (qM_whole t) (kM t) (kM_whole t) (outM t) (outM_whole t) accM (Memref.isWhole_whole _) ((atFirstHalf_iff t).mpr h0) (notLast_of_even t h0) (blockIn V c 0 t) (blockIn V c 1 t), accFirst c (grid2.coords t) (qM t) (qM_whole t) (kM t) (kM_whole t) (outM t) (outM_whole t) accM (Memref.isWhole_whole _) ((atFirstHalf_iff t).mpr h0) (notLast_of_even t h0) (blockIn V c 0 t) (blockIn V c 1 t)) := by
  obtain ⟨n, hn⟩ := t
  cases n with
  | zero => exact rfl
  | succ n => exact (dif_pos h0).trans rfl

/-- At a last half, over what the point before left. -/
theorem outsAt_last (c : Dev nD) (t : Fin cfg2.N) (h1 : t.val % 2 = 1) :
    outsAt V c t.val t.isLt = (outLast c (grid2.coords t) (qM t) (qM_whole t) (kM t) (kM_whole t) (outM t) (outM_whole t) accM (Memref.isWhole_whole _) (notFirst_of_odd t h1) ((atLastHalf_iff t).mpr h1) (blockIn V c 0 t) (blockIn V c 1 t) (outsAt V c (t.val - 1) (Nat.lt_of_le_of_lt (Nat.sub_le _ _) t.isLt)).2, accLast c (grid2.coords t) (qM t) (qM_whole t) (kM t) (kM_whole t) (outM t) (outM_whole t) accM (Memref.isWhole_whole _) (notFirst_of_odd t h1) ((atLastHalf_iff t).mpr h1) (blockIn V c 0 t) (blockIn V c 1 t) (outsAt V c (t.val - 1) (Nat.lt_of_le_of_lt (Nat.sub_le _ _) t.isLt)).2) := by
  obtain ⟨n, hn⟩ := t
  cases n with
  | zero => exact (by exfalso; (try dsimp only at h1); omega)
  | succ n => exact (dif_neg (by (try dsimp only at h1); omega)).trans rfl

/-- The region's invariant before position n: at the entry the launch's own; afterwards the accumulator at what the
    point before left, every other scoped buffer unopened, and the generator register at some state. -/
def PhiS (c : Dev nD) : (n : ℕ) → n ≤ cfg2.N → sProp 𝕄
  | 0, _ => Pipeline.ΦA spec2 c
  | n + 1, hn => iprop(iprop(iprop(owns (c : Thread nD τ) accM fullShare ((outsAt V c n hn).2)) ∗ Pipeline.scopedRestBut (Ix := Unit) (Name := ℕ) (U := UR sig nD τ) (Lvl := ℕ) (Val := Elt F) spec2 c [cc2_scratch0]) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(iprop(owns (c : Thread nD τ) accM fullShare ((outsAt V c n hn).2)) ∗ Pipeline.scopedRestBut (Ix := Unit) (Name := ℕ) (U := UR sig nD τ) (Lvl := ℕ) (Val := Elt F) spec2 c [cc2_scratch0]) ∗ (∃ r, prngReg c r)) := rfl

theorem PhiS_pos (c : Dev nD) (n : ℕ) (h : n ≤ cfg2.N) (hz : n ≠ 0) :
    PhiS V c n h = iprop(iprop(iprop(owns (c : Thread nD τ) accM fullShare ((outsAt V c (n - 1) (by omega)).2)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- Region 2's proof data at the entry contents V: the arrays as found; after the body each input's buffer at its
    block and the output's at the accumulation's first component; the invariant above; full shares, nothing owed. -/
def dat (c : Dev nD) : Dat τ (Elt F) Unit ℕ (UR sig nD τ) ℕ cfg2 c where
  A w := V c (Pipeline.arrRef spec2 w)
  after w t := match w with
    | ⟨0, _⟩ => blockIn V c 0 t
    | ⟨1, _⟩ => blockIn V c 1 t
    | ⟨2, _⟩ => (outsAt V c t.val t.isLt).1
  Φ t := PhiS V c t.val (Nat.le_of_lt_succ t.isLt)
  q _ := fullShare
  owed _ := 0

theorem q_full (c : Dev nD) (w : Fin cfg2.W) : (dat V c).q w = fullShare := rfl
theorem owed_zero (c : Dev nD) (t : Fin (cfg2.N + 1)) : (dat V c).owed t = 0 := rfl
theorem recorded_univ (c : Dev nD) (t : Fin (cfg2.N + 1)) : (dat V c).recorded t = Set.univ := rfl
theorem A_eq (c : Dev nD) (w : Fin cfg2.W) : (dat V c).A w = V c (Pipeline.arrRef spec2 w) := by
  dsimp only [dat]

theorem Phi_castSucc (c : Dev nD) (t : Fin cfg2.N) :
    (dat V c).Φ t.castSucc = PhiS V c t.val (Nat.le_of_lt t.isLt) := by
  dsimp only [dat]; simp only [Fin.coe_castSucc]

theorem after_q (c : Dev nD) (t : Fin cfg2.N) : (dat V c).after 0 t = blockIn V c 0 t := by dsimp only [dat]
theorem after_k (c : Dev nD) (t : Fin cfg2.N) : (dat V c).after 1 t = blockIn V c 1 t := by dsimp only [dat]
theorem after_out (c : Dev nD) (t : Fin cfg2.N) : (dat V c).after 2 t = (outsAt V c t.val t.isLt).1 := by dsimp only [dat]

theorem before_q (c : Dev nD) (t : Fin cfg2.N) (d) : (dat V c).before 0 t d = blockIn V c 0 t :=
  before_q_of V (dat V c) (A_eq V c 0) (after_q V c) t d
theorem before_k (c : Dev nD) (t : Fin cfg2.N) (d) : (dat V c).before 1 t d = blockIn V c 1 t :=
  before_k_of V (dat V c) (A_eq V c 1) (after_k V c) t d

/-! ## The body at a generic point -/

/-- What the body is called with at point t, the windows one by one, -/
def bodyPre (c : Dev nD) (t : Fin cfg2.N) : sProp 𝕄 :=
  iprop((dat V c).Φ t.castSucc ∗ (dat V c).owesAt () t.castSucc
    ∗ (∃ d, owns (c : Thread nD τ) (qM t) fullShare ((dat V c).before 0 t d))
    ∗ (∃ d, owns (c : Thread nD τ) (kM t) fullShare ((dat V c).before 1 t d))
    ∗ (∃ d, owns (c : Thread nD τ) (outM t) fullShare ((dat V c).before 2 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' memrefs hold their blocks; the parity of the point says which half it is.
    At a first half the accumulator is handed over at anything and taken back at zero plus the first half-product,
    the output block returned untouched; at a last half the accumulator is handed over at what the first half
    left and taken back with the second half-product added, the output block at that sum times 2⁻⁶. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_q, before_k]
  rw [show (dat V c).owesAt () t.succ = (dat V c).owesAt () t.castSucc from rfl]
  rw [show (dat V c).Φ t.succ = PhiS V c (t.val + 1) t.isLt from rfl, PhiS_succ]
  have hN : t.val < 8 := lt_of_lt_of_eq t.isLt (show cfg2.N = 8 from N_2)
  rw [show (dat V c).leavesExact 0 t = owns (c : Thread nD τ) (qM t) fullShare ((dat V c).after 0 t) from by
    unfold Dat.leavesExact; rw [live_q t], after_q]
  rw [show (dat V c).leavesExact 1 t = owns (c : Thread nD τ) (kM t) fullShare ((dat V c).after 1 t) from by
    unfold Dat.leavesExact; rw [live_k t], after_k]
  by_cases h0 : t.val % 2 = 0
  · have hc0 := (atFirstHalf_iff t).mpr h0
    have hc1 := notLast_of_even t h0
    rw [Dat.leavesExact_idle (dat V c) 2 t (idle_out_first t hc0 hc1) (noFlush_out_first t hc0 hc1)]
    rw [outsAt_first V c t h0]
    unfold accFirst; (try dsimp only)
    by_cases hz : t.val = 0
    · rw [Phi_castSucc V c t, PhiS_zero V c _ _ hz, entry_eq]
      iintro ⟨⟨⟨HS, HR⟩, Hg⟩, Ho, ⟨%d0, H0⟩, ⟨%d1, H1⟩, ⟨%d2, H2⟩⟩
      iapply ((runFirst c (grid2.coords t) _ _ _ _ _ _ _ _ hc0 hc1 (blockIn V c 0 t) (blockIn V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (accFirst_cover c _ _ _ _ _ _ _ _ _ _ _ _ _)
          iexact HR
        iexact Hg
      isplitl [Ho]; · iexact Ho
      isplitl [H0]; · iexact H0
      isplitl [H1]; · iexact H1
      iexists _; iexact H2
    · rw [Phi_castSucc V c t, PhiS_pos V c _ _ hz]
      iintro ⟨⟨⟨HS, HR⟩, Hg⟩, Ho, ⟨%d0, H0⟩, ⟨%d1, H1⟩, ⟨%d2, H2⟩⟩
      iapply ((runFirst c (grid2.coords t) _ _ _ _ _ _ _ _ hc0 hc1 (blockIn V c 0 t) (blockIn V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (accFirst_cover c _ _ _ _ _ _ _ _ _ _ _ _ _)
          iexact HR
        iexact Hg
      isplitl [Ho]; · iexact Ho
      isplitl [H0]; · iexact H0
      isplitl [H1]; · iexact H1
      iexists _; iexact H2
  · have h1 : t.val % 2 = 1 := Nat.mod_two_ne_zero.mp h0
    have hc0 := notFirst_of_odd t h1
    have hc1 := (atLastHalf_iff t).mpr h1
    rw [show (dat V c).leavesExact 2 t = owns (c : Thread nD τ) (outM t) fullShare ((dat V c).after 2 t) from by
      unfold Dat.leavesExact; rw [live_out_last t hc0 hc1], after_out]
    rw [outsAt_last V c t h1]
    unfold outLast accLast; (try dsimp only)
    have hz : t.val ≠ 0 := by omega
    rw [Phi_castSucc V c t, PhiS_pos V c _ _ hz]
    iintro ⟨⟨⟨HS, HR⟩, Hg⟩, Ho, ⟨%d0, H0⟩, ⟨%d1, H1⟩, ⟨%d2, H2⟩⟩
    iapply ((runLast c (grid2.coords t) _ _ _ _ _ _ _ _ hc0 hc1 (blockIn V c 0 t) (blockIn V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (accLast_cover c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (outLast_cover c _ _ _ _ _ _ _ _ _ _ _ _ _ _)

/-- The body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : (Pipeline.ΦA spec2 c : sProp 𝕄) ⊢ (dat V c).Φ 0 := by
  rw [show (dat V c).Φ 0 = PhiS V c 0 (Nat.zero_le _) from rfl, PhiS_zero V c 0 _ rfl]
  try exact Idealize.SL.BI.Entails.refl _

/-- After the last point the invariant gives the launch's back: the accumulator's contents are forgotten. -/
theorem hout (c : Dev nD) : (dat V c).Φ (Fin.last cfg2.N) ⊢ (Pipeline.ΦA spec2 c : sProp 𝕄) := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 8 := N_2; omega), entry_eq]
  iintro ⟨⟨HS, HR⟩, Hg⟩
  isplitl [HS HR]
  · isplitl [HS]
    · iexists _; iexact HS
    iexact HR
  iexact Hg

end Region

end Cert.Kernel.R2

end
-- ==== Proof.K.Frame.lean ====
import proofs.«179627_j38019050504386_2_alg».proof.Proof.K.R0
import proofs.«179627_j38019050504386_2_alg».proof.Proof.K.R1
import proofs.«179627_j38019050504386_2_alg».proof.Proof.K.R2
import proofs.«179627_j38019050504386_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The whole run of the program: a reshape of the bias, the region that forms `q`, two more reshapes, the region that
forms the modulated keys, and the region that contracts `q` against them. Between two items every unscoped buffer is
held at a known valuation: the launch memory, then each reshape applied, then each region's arrays at what its
write-backs leave. The run ends with every unscoped buffer at the last valuation, from which both the unchanged
arguments and the result array are read. -/

set_option maxRecDepth 16384

noncomputable section

namespace Cert.Kernel.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the unscoped buffers between the items -/

/-- At launch. -/
abbrev W0 : Dev nD → Valuation τ sig (Elt F) := fun c b => m ((c : Dev nD), b)
/-- After the bias of the first projection is reshaped to a row. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its arrays at what its write-backs leave, every other buffer as before. -/
def W2 (c : Dev nD) : Valuation τ sig (Elt F) :=
  Pipeline.withArrays spec0 c (W1 m c) fun w => (R0.dat (V1 m) c).arrAt w cfg0.N
theorem W2_arr (c : Dev nD) (w : Fin cfg0.W) :
    W2 m c (Proc.devRef .tc (Pipeline.arrRef spec0 w)) = (R0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (R0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the two remaining biases are reshaped (a column and a row). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second region. -/
def W4 (c : Dev nD) : Valuation τ sig (Elt F) :=
  Pipeline.withArrays spec1 c (W3 m c) fun w => (R1.dat (V3 m) c).arrAt w cfg1.N
theorem W4_arr (c : Dev nD) (w : Fin cfg1.W) :
    W4 m c (Proc.devRef .tc (Pipeline.arrRef spec1 w)) = (R1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (R1.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third region. -/
def W5 (c : Dev nD) : Valuation τ sig (Elt F) :=
  Pipeline.withArrays spec2 c (W4 m c) fun w => (R2.dat (V4 m) c).arrAt w cfg2.N
theorem W5_arr (c : Dev nD) (w : Fin cfg2.W) :
    W5 m c (Proc.devRef .tc (Pipeline.arrRef spec2 w)) = (R2.dat (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (R2.dat (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-! ## The proof data of the three pipelines and what rides beside the buffers -/

/-- Each pipeline's proof data at its region's entry contents. -/
def pdats : (p : Fin 3) → (c : Dev nD) → Dat τ (Elt F) Unit ℕ (UR sig nD τ) ℕ (Pipeline.pin (pcfgs (F := F)) adm p) c
  | ⟨0, _⟩ => fun c => R0.dat (V1 m) c
  | ⟨1, _⟩ => fun c => R1.dat (V3 m) c
  | ⟨2, _⟩ => fun c => R2.dat (V4 m) c
abbrev 𝒱₀ : Variants := Variants.none
abbrev L : GSem nD τ sig → Finset Unit := fun _ => ∅
abbrev lv : GSem nD τ sig → Unit → ℕ := fun _ _ => 0
/-- Beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

set_option backward.isDefEq.respectTransparency.types false in
/-- Region 0 over the thread state: entered with every unscoped buffer at the contents before it, left with them at
    the contents after it. Its arrays are split out of the unscoped buffers and put back at their exit contents; the
    generator register goes into the region's invariant and comes back; nothing is owed; the kernel has no semaphore of
    its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m) c).loose
  hwaits := Pipeline.hwaits_of_owed_zero _ _ _ _ L lv 0 fun c t => R0.owed_zero (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    have e0 : (pdats m 0 c).owed 0 = 0 := R0.owed_zero (V1 m) c 0
    rw [Pipeline.ownSems0_none]
    have hsplit := Pipeline.arrays_of_unscopedBufs (p := 0) (pcfgs (F := F)) adm (pdats m) launch0.win launch0.arr_whole c
      ((pdats m 0 c).share_full fun w => R0.q_full (V1 m) c w) (V1 m c) fun w => R0.A_eq (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun x _ => Or.inl ((R0.recorded_univ (V1 m) c 0).symm ▸ Set.mem_univ x : x ∈ (R0.dat (V1 m) c).recorded 0)
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest spec0 c) : sProp 𝕄) ⊢ Pipeline.ΦA spec0 c := by
      unfold Pipeline.ΦA
      iintro ⟨Hp, -, Hr⟩
      isplitl [Hr]; · iexact Hr
      iexact Hp
    exact h.trans (R0.hin (V1 m) c)
  hout c := by
    rw [Pipeline.ownSems0_none]
    have h : (Pipeline.ΦA spec0 c : sProp 𝕄) ⊢ iprop((∃ r, prngReg c r) ∗ emp ∗ Pipeline.scopedRest spec0 c) := by
      unfold Pipeline.ΦA
      iintro ⟨Hr, Hp⟩
      isplitl [Hp]; · iexact Hp
      isplitr; · iempintro
      iexact Hr
    exact (R0.hout (V1 m) c).trans h
  hexit c := by
    have eN : (pdats m 0 c).owed (Fin.last _) = 0 := R0.owed_zero (V1 m) c _
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => R0.q_full (V1 m) c w)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

set_option backward.isDefEq.respectTransparency.types false in
/-- Region 1 over the thread state: entered with every unscoped buffer at the contents before it, left with them at
    the contents after it. Its arrays are split out of the unscoped buffers and put back at their exit contents; the
    generator register goes into the region's invariant and comes back; nothing is owed; the kernel has no semaphore of
    its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V3 m) c).loose
  hwaits := Pipeline.hwaits_of_owed_zero _ _ _ _ L lv 1 fun c t => R1.owed_zero (V3 m) c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    have e0 : (pdats m 1 c).owed 0 = 0 := R1.owed_zero (V3 m) c 0
    rw [Pipeline.ownSems0_none]
    have hsplit := Pipeline.arrays_of_unscopedBufs (p := 1) (pcfgs (F := F)) adm (pdats m) launch1.win launch1.arr_whole c
      ((pdats m 1 c).share_full fun w => R1.q_full (V3 m) c w) (V3 m c) fun w => R1.A_eq (V3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun x _ => Or.inl ((R1.recorded_univ (V3 m) c 0).symm ▸ Set.mem_univ x : x ∈ (R1.dat (V3 m) c).recorded 0)
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest spec1 c) : sProp 𝕄) ⊢ Pipeline.ΦA spec1 c := by
      unfold Pipeline.ΦA
      iintro ⟨Hp, -, Hr⟩
      isplitl [Hr]; · iexact Hr
      iexact Hp
    exact h.trans (R1.hin (V3 m) c)
  hout c := by
    rw [Pipeline.ownSems0_none]
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (R1.hout (V3 m) c).trans h
  hexit c := by
    have eN : (pdats m 1 c).owed (Fin.last _) = 0 := R1.owed_zero (V3 m) c _
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => R1.q_full (V3 m) c w)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

set_option backward.isDefEq.respectTransparency.types false in
/-- Region 2 over the thread state: entered with every unscoped buffer at the contents before it, left with them at
    the contents after it. Its arrays are split out of the unscoped buffers and put back at their exit contents; the
    generator register goes into the region's invariant and comes back; nothing is owed; the kernel has no semaphore of
    its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (V4 m) c).loose
  hwaits := Pipeline.hwaits_of_owed_zero _ _ _ _ L lv 2 fun c t => R2.owed_zero (V4 m) c t
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    have e0 : (pdats m 2 c).owed 0 = 0 := R2.owed_zero (V4 m) c 0
    rw [Pipeline.ownSems0_none]
    have hsplit := Pipeline.arrays_of_unscopedBufs (p := 2) (pcfgs (F := F)) adm (pdats m) launch2.win launch2.arr_whole c
      ((pdats m 2 c).share_full fun w => R2.q_full (V4 m) c w) (V4 m c) fun w => R2.A_eq (V4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun x _ => Or.inl ((R2.recorded_univ (V4 m) c 0).symm ▸ Set.mem_univ x : x ∈ (R2.dat (V4 m) c).recorded 0)
      iexact HO
    isplitl [Hp]; · iexact Hp
    iexact Hrest
  hin c := by
    have h : (iprop((∃ r, prngReg c r) ∗ Pipeline.prefHeld (pcfgs (F := F) 2).pre c (fun _ => fullShare) (adm (F := F) 2).1
        ∗ Pipeline.scopedRest spec2 c) : sProp 𝕄) ⊢ Pipeline.ΦA spec2 c := by
      unfold Pipeline.ΦA
      iintro ⟨Hp, -, Hr⟩
      isplitl [Hr]; · iexact Hr
      iexact Hp
    exact h.trans (R2.hin (V4 m) c)
  hout c := by
    rw [Pipeline.ownSems0_none]
    have h : (Pipeline.ΦA spec2 c : sProp 𝕄) ⊢ iprop((∃ r, prngReg c r) ∗ emp ∗ Pipeline.scopedRest spec2 c) := by
      unfold Pipeline.ΦA
      iintro ⟨Hr, Hp⟩
      isplitl [Hp]; · iexact Hp
      isplitr; · iempintro
      iexact Hr
    exact (R2.hout (V4 m) c).trans h
  hexit c := by
    have eN : (pdats m 2 c).owed (Fin.last _) = 0 := R2.owed_zero (V4 m) c _
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => R2.q_full (V4 m) c w)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

/-! ## @main as the run of its items -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m) ]
theorem main_run (c : Dev nD) : main (F := F) c = Pipeline.Seg.run (segs m) := (main_chain c).trans (by chain_rfl)

set_option backward.isDefEq.respectTransparency.types false in
/-- From any memory with zero counters every weakly fair execution of @main terminates without a fault, and in the
    final memory every unscoped buffer holds the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-! ## The arguments at every valuation: no reshape writes one, no region stores into one -/

theorem W1_main_arg0 (c : Dev nD) : W1 m c (Proc.devRef .tc main_arg0) = m ((c : Thread nD τ).loc main_arg0) :=
  StableHlo.after_of_writes_sub hostOps0 _ hostOps0_writes (by decide : main_arg0 ∉ hostOps0_W)
theorem W2_main_arg0 (c : Dev nD) : W2 m c (Proc.devRef .tc main_arg0) = m ((c : Thread nD τ).loc main_arg0) :=
  ((W2_arr m c 0).trans (((R0.dat (V1 m) c).arrAt_in 0 rfl _).trans (R0.A_eq (V1 m) c 0))).trans (W1_main_arg0 m c)
theorem W3_main_arg0 (c : Dev nD) : W3 m c (Proc.devRef .tc main_arg0) = m ((c : Thread nD τ).loc main_arg0) :=
  (StableHlo.after_of_writes_sub hostOps1 _ hostOps1_writes (by decide : main_arg0 ∉ hostOps1_W)).trans (W2_main_arg0 m c)
theorem W4_main_arg0 (c : Dev nD) : W4 m c (Proc.devRef .tc main_arg0) = m ((c : Thread nD τ).loc main_arg0) :=
  (W4_of_ne m c main_arg0 (by decide)).trans (W3_main_arg0 m c)
/-- `main_arg0` ends as launched: no reshape writes it and no region stores into it. -/
theorem W5_main_arg0 (c : Dev nD) : W5 m c (Proc.devRef .tc main_arg0) = m ((c : Thread nD τ).loc main_arg0) :=
  (W5_of_ne m c main_arg0 (by decide)).trans (W4_main_arg0 m c)

theorem W1_main_arg1 (c : Dev nD) : W1 m c (Proc.devRef .tc main_arg1) = m ((c : Thread nD τ).loc main_arg1) :=
  StableHlo.after_of_writes_sub hostOps0 _ hostOps0_writes (by decide : main_arg1 ∉ hostOps0_W)
theorem W2_main_arg1 (c : Dev nD) : W2 m c (Proc.devRef .tc main_arg1) = m ((c : Thread nD τ).loc main_arg1) :=
  (W2_of_ne m c main_arg1 (by decide)).trans (W1_main_arg1 m c)
theorem W3_main_arg1 (c : Dev nD) : W3 m c (Proc.devRef .tc main_arg1) = m ((c : Thread nD τ).loc main_arg1) :=
  (StableHlo.after_of_writes_sub hostOps1 _ hostOps1_writes (by decide : main_arg1 ∉ hostOps1_W)).trans (W2_main_arg1 m c)
theorem W4_main_arg1 (c : Dev nD) : W4 m c (Proc.devRef .tc main_arg1) = m ((c : Thread nD τ).loc main_arg1) :=
  ((W4_arr m c 3).trans (((R1.dat (V3 m) c).arrAt_in 3 rfl _).trans (R1.A_eq (V3 m) c 3))).trans (W3_main_arg1 m c)
/-- `main_arg1` ends as launched: no reshape writes it and no region stores into it. -/
theorem W5_main_arg1 (c : Dev nD) : W5 m c (Proc.devRef .tc main_arg1) = m ((c : Thread nD τ).loc main_arg1) :=
  (W5_of_ne m c main_arg1 (by decide)).trans (W4_main_arg1 m c)

theorem W1_main_arg2 (c : Dev nD) : W1 m c (Proc.devRef .tc main_arg2) = m ((c : Thread nD τ).loc main_arg2) :=
  StableHlo.after_of_writes_sub hostOps0 _ hostOps0_writes (by decide : main_arg2 ∉ hostOps0_W)
theorem W2_main_arg2 (c : Dev nD) : W2 m c (Proc.devRef .tc main_arg2) = m ((c : Thread nD τ).loc main_arg2) :=
  ((W2_arr m c 1).trans (((R0.dat (V1 m) c).arrAt_in 1 rfl _).trans (R0.A_eq (V1 m) c 1))).trans (W1_main_arg2 m c)
theorem W3_main_arg2 (c : Dev nD) : W3 m c (Proc.devRef .tc main_arg2) = m ((c : Thread nD τ).loc main_arg2) :=
  (StableHlo.after_of_writes_sub hostOps1 _ hostOps1_writes (by decide : main_arg2 ∉ hostOps1_W)).trans (W2_main_arg2 m c)
theorem W4_main_arg2 (c : Dev nD) : W4 m c (Proc.devRef .tc main_arg2) = m ((c : Thread nD τ).loc main_arg2) :=
  (W4_of_ne m c main_arg2 (by decide)).trans (W3_main_arg2 m c)
/-- `main_arg2` ends as launched: no reshape writes it and no region stores into it. -/
theorem W5_main_arg2 (c : Dev nD) : W5 m c (Proc.devRef .tc main_arg2) = m ((c : Thread nD τ).loc main_arg2) :=
  (W5_of_ne m c main_arg2 (by decide)).trans (W4_main_arg2 m c)

theorem W1_main_arg3 (c : Dev nD) : W1 m c (Proc.devRef .tc main_arg3) = m ((c : Thread nD τ).loc main_arg3) :=
  StableHlo.after_of_writes_sub hostOps0 _ hostOps0_writes (by decide : main_arg3 ∉ hostOps0_W)
theorem W2_main_arg3 (c : Dev nD) : W2 m c (Proc.devRef .tc main_arg3) = m ((c : Thread nD τ).loc main_arg3) :=
  (W2_of_ne m c main_arg3 (by decide)).trans (W1_main_arg3 m c)
theorem W3_main_arg3 (c : Dev nD) : W3 m c (Proc.devRef .tc main_arg3) = m ((c : Thread nD τ).loc main_arg3) :=
  (StableHlo.after_of_writes_sub hostOps1 _ hostOps1_writes (by decide : main_arg3 ∉ hostOps1_W)).trans (W2_main_arg3 m c)
theorem W4_main_arg3 (c : Dev nD) : W4 m c (Proc.devRef .tc main_arg3) = m ((c : Thread nD τ).loc main_arg3) :=
  (W4_of_ne m c main_arg3 (by decide)).trans (W3_main_arg3 m c)
/-- `main_arg3` ends as launched: no reshape writes it and no region stores into it. -/
theorem W5_main_arg3 (c : Dev nD) : W5 m c (Proc.devRef .tc main_arg3) = m ((c : Thread nD τ).loc main_arg3) :=
  (W5_of_ne m c main_arg3 (by decide)).trans (W4_main_arg3 m c)

theorem W1_main_arg4 (c : Dev nD) : W1 m c (Proc.devRef .tc main_arg4) = m ((c : Thread nD τ).loc main_arg4) :=
  StableHlo.after_of_writes_sub hostOps0 _ hostOps0_writes (by decide : main_arg4 ∉ hostOps0_W)
theorem W2_main_arg4 (c : Dev nD) : W2 m c (Proc.devRef .tc main_arg4) = m ((c : Thread nD τ).loc main_arg4) :=
  (W2_of_ne m c main_arg4 (by decide)).trans (W1_main_arg4 m c)
theorem W3_main_arg4 (c : Dev nD) : W3 m c (Proc.devRef .tc main_arg4) = m ((c : Thread nD τ).loc main_arg4) :=
  (StableHlo.after_of_writes_sub hostOps1 _ hostOps1_writes (by decide : main_arg4 ∉ hostOps1_W)).trans (W2_main_arg4 m c)
theorem W4_main_arg4 (c : Dev nD) : W4 m c (Proc.devRef .tc main_arg4) = m ((c : Thread nD τ).loc main_arg4) :=
  ((W4_arr m c 1).trans (((R1.dat (V3 m) c).arrAt_in 1 rfl _).trans (R1.A_eq (V3 m) c 1))).trans (W3_main_arg4 m c)
/-- `main_arg4` ends as launched: no reshape writes it and no region stores into it. -/
theorem W5_main_arg4 (c : Dev nD) : W5 m c (Proc.devRef .tc main_arg4) = m ((c : Thread nD τ).loc main_arg4) :=
  (W5_of_ne m c main_arg4 (by decide)).trans (W4_main_arg4 m c)

theorem W1_main_arg5 (c : Dev nD) : W1 m c (Proc.devRef .tc main_arg5) = m ((c : Thread nD τ).loc main_arg5) :=
  StableHlo.after_of_writes_sub hostOps0 _ hostOps0_writes (by decide : main_arg5 ∉ hostOps0_W)
theorem W2_main_arg5 (c : Dev nD) : W2 m c (Proc.devRef .tc main_arg5) = m ((c : Thread nD τ).loc main_arg5) :=
  (W2_of_ne m c main_arg5 (by decide)).trans (W1_main_arg5 m c)
theorem W3_main_arg5 (c : Dev nD) : W3 m c (Proc.devRef .tc main_arg5) = m ((c : Thread nD τ).loc main_arg5) :=
  (StableHlo.after_of_writes_sub hostOps1 _ hostOps1_writes (by decide : main_arg5 ∉ hostOps1_W)).trans (W2_main_arg5 m c)
theorem W4_main_arg5 (c : Dev nD) : W4 m c (Proc.devRef .tc main_arg5) = m ((c : Thread nD τ).loc main_arg5) :=
  (W4_of_ne m c main_arg5 (by decide)).trans (W3_main_arg5 m c)
/-- `main_arg5` ends as launched: no reshape writes it and no region stores into it. -/
theorem W5_main_arg5 (c : Dev nD) : W5 m c (Proc.devRef .tc main_arg5) = m ((c : Thread nD τ).loc main_arg5) :=
  (W5_of_ne m c main_arg5 (by decide)).trans (W4_main_arg5 m c)

theorem W1_main_arg6 (c : Dev nD) : W1 m c (Proc.devRef .tc main_arg6) = m ((c : Thread nD τ).loc main_arg6) :=
  StableHlo.after_of_writes_sub hostOps0 _ hostOps0_writes (by decide : main_arg6 ∉ hostOps0_W)
theorem W2_main_arg6 (c : Dev nD) : W2 m c (Proc.devRef .tc main_arg6) = m ((c : Thread nD τ).loc main_arg6) :=
  (W2_of_ne m c main_arg6 (by decide)).trans (W1_main_arg6 m c)
theorem W3_main_arg6 (c : Dev nD) : W3 m c (Proc.devRef .tc main_arg6) = m ((c : Thread nD τ).loc main_arg6) :=
  (StableHlo.after_of_writes_sub hostOps1 _ hostOps1_writes (by decide : main_arg6 ∉ hostOps1_W)).trans (W2_main_arg6 m c)
theorem W4_main_arg6 (c : Dev nD) : W4 m c (Proc.devRef .tc main_arg6) = m ((c : Thread nD τ).loc main_arg6) :=
  ((W4_arr m c 4).trans (((R1.dat (V3 m) c).arrAt_in 4 rfl _).trans (R1.A_eq (V3 m) c 4))).trans (W3_main_arg6 m c)
/-- `main_arg6` ends as launched: no reshape writes it and no region stores into it. -/
theorem W5_main_arg6 (c : Dev nD) : W5 m c (Proc.devRef .tc main_arg6) = m ((c : Thread nD τ).loc main_arg6) :=
  (W5_of_ne m c main_arg6 (by decide)).trans (W4_main_arg6 m c)

theorem W1_main_arg7 (c : Dev nD) : W1 m c (Proc.devRef .tc main_arg7) = m ((c : Thread nD τ).loc main_arg7) :=
  StableHlo.after_of_writes_sub hostOps0 _ hostOps0_writes (by decide : main_arg7 ∉ hostOps0_W)
theorem W2_main_arg7 (c : Dev nD) : W2 m c (Proc.devRef .tc main_arg7) = m ((c : Thread nD τ).loc main_arg7) :=
  (W2_of_ne m c main_arg7 (by decide)).trans (W1_main_arg7 m c)
theorem W3_main_arg7 (c : Dev nD) : W3 m c (Proc.devRef .tc main_arg7) = m ((c : Thread nD τ).loc main_arg7) :=
  (StableHlo.after_of_writes_sub hostOps1 _ hostOps1_writes (by decide : main_arg7 ∉ hostOps1_W)).trans (W2_main_arg7 m c)
theorem W4_main_arg7 (c : Dev nD) : W4 m c (Proc.devRef .tc main_arg7) = m ((c : Thread nD τ).loc main_arg7) :=
  (W4_of_ne m c main_arg7 (by decide)).trans (W3_main_arg7 m c)
/-- `main_arg7` ends as launched: no reshape writes it and no region stores into it. -/
theorem W5_main_arg7 (c : Dev nD) : W5 m c (Proc.devRef .tc main_arg7) = m ((c : Thread nD τ).loc main_arg7) :=
  (W5_of_ne m c main_arg7 (by decide)).trans (W4_main_arg7 m c)

/-! ## `q` after the first region, as the later regions find it -/

/-- The first region's output array is not written by the two reshapes after it. -/
theorem W3_main_v1 (c : Dev nD) : W3 m c (Proc.devRef .tc main_v1) = (R0.dat (V1 m) c).arrAt 3 cfg0.N :=
  (StableHlo.after_of_writes_sub hostOps1 _ hostOps1_writes (by decide : main_v1 ∉ hostOps1_W)).trans (W2_arr m c 3)
/-- The second region only reads it (its window 0). -/
theorem W4_main_v1 (c : Dev nD) : W4 m c (Proc.devRef .tc main_v1) = (R0.dat (V1 m) c).arrAt 3 cfg0.N :=
  ((W4_arr m c 0).trans (((R1.dat (V3 m) c).arrAt_in 0 rfl _).trans (R1.A_eq (V3 m) c 0))).trans (W3_main_v1 m c)
/-- The second region's output array after it. -/
theorem W4_main_v4 (c : Dev nD) : W4 m c (Proc.devRef .tc main_v4) = (R1.dat (V3 m) c).arrAt 6 cfg1.N := W4_arr m c 6

/-! ## The frame, and the run with the result named -/

/-- Every weakly fair execution terminates without a fault and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
      (h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c),
      (h c _ (mem_uc main_arg6 (by decide))).trans (W5_main_arg6 m c),
      (h c _ (mem_uc main_arg7 (by decide))).trans (W5_main_arg7 m c)⟩) (run_all m ρ)

/-- The same run with the result named: the result array ends at what the last region's write-backs leave. -/
theorem run_result : θ_run defs (onTc (τ := τ) (main (F := F))) ⟨m, fun _ => 0, ρ⟩ (fun r => ∀ c : Dev nD,
      r.2.mem ((c.tc : Thread nD τ).loc main_v5) = (R2.dat (V4 m) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v5 (by decide))).trans (W5_arr m c 2),
      (h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c),
      (h c _ (mem_uc main_arg6 (by decide))).trans (W5_main_arg6 m c),
      (h c _ (mem_uc main_arg7 (by decide))).trans (W5_main_arg7 m c)⟩) (run_all m ρ)

end Cert.Kernel.Asm

end
-- ==== Proof.KI.R0.Runs.lean ====
import proofs.«179627_j38019050504386_2_alg».proof.Proof.Gen.KernelIdeal.Launch
import proofs.«179627_j38019050504386_2_alg».proof.Proof.Gen.KernelIdeal.Skeleton
import proofs.«179627_j38019050504386_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the projection's operands -/

/-- The block of window `w` at grid point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The data block (window 0) is in its staging buffer at every point, for any proof data over `V` whose body
    leaves it in place. -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight block (window 1) likewise. -/
theorem before_w_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The bias row (window 2) likewise: it is fetched at the first reduction step only, and its block index does
    not move over the steps that follow. -/
theorem before_b_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two conditions on the reduction step -/

/-- The body's first conditional: the reduction step is the first one (the accumulator is zeroed). -/
abbrev firstStep (i : grid0.Coords) : Prop := (Scalar.cmpi .ne (Scalar.extui (Scalar.cmpi .eq (BitVec.ofNat 32 (i 2).val) 0#32)) 0#32) = 1#1
/-- It holds at the points ≡ 0 (mod 4). -/
theorem firstStep_iff : ∀ t : Fin cfg0.N, firstStep (grid0.coords t) ↔ t.val % 4 = 0 :=
  (by decide +kernel : ∀ t : Fin grid0.N, firstStep (grid0.coords t) ↔ t.val % 4 = 0)

/-- The body's second conditional: the reduction step is the last one (the bias is added, the result stored). -/
abbrev lastStep (i : grid0.Coords) : Prop := k0_cond2 i = 1#1
/-- It holds at the points ≡ 3 (mod 4). -/
theorem lastStep_iff : ∀ t : Fin cfg0.N, lastStep (grid0.coords t) ↔ t.val % 4 = 3 :=
  (by decide +kernel : ∀ t : Fin grid0.N, lastStep (grid0.coords t) ↔ t.val % 4 = 3)

/-! ## Where the windows are idle -/

theorem live_x : ∀ t : Fin cfg0.N, cfg0.idle 0 (grid0.coords t) = false := by decide +kernel
theorem live_w : ∀ t : Fin cfg0.N, cfg0.idle 1 (grid0.coords t) = false := by decide +kernel
theorem live_b : ∀ t : Fin cfg0.N, cfg0.idle 2 (grid0.coords t) = false := by decide +kernel
/-- Before the last reduction step the output window is idle: nothing is stored into it. -/
theorem idle_q : ∀ t : Fin cfg0.N, ¬lastStep (grid0.coords t) → cfg0.idle 3 (grid0.coords t) = true := by decide +kernel
/-- And it is not written back there. -/
theorem noFlush_q : ∀ t : Fin cfg0.N, ¬lastStep (grid0.coords t) → (cfg0.win 3).flush t = false := by decide +kernel
/-- At the last reduction step it is live. -/
theorem live_q : ∀ t : Fin cfg0.N, lastStep (grid0.coords t) → cfg0.idle 3 (grid0.coords t) = false := by decide +kernel

/-! ## The memrefs the body is called with -/

/-- One staging buffer of the output window, through which its contents are stated. -/
abbrev VO : View sig .tc .vmem S1024x1024 .bf16 := ((cfg0.win 3).stage (cfg0.slots ⟨0, by decide⟩ 3)).view
abbrev xM (t : Fin cfg0.N) : Memref sig .tc .vmem S1024x1024 .f32 := win0_0.stage (cfg0.slots t 0)
abbrev hxM (t : Fin cfg0.N) : (xM t).IsWhole := hstage0_0 ((cfg0.slots t 0).cast nbuf0_0)
abbrev wM (t : Fin cfg0.N) : Memref sig .tc .vmem S1024x1024 .f32 := win0_1.stage (cfg0.slots t 1)
abbrev hwM (t : Fin cfg0.N) : (wM t).IsWhole := hstage0_1 ((cfg0.slots t 1).cast nbuf0_1)
abbrev bM (t : Fin cfg0.N) : Memref sig .tc .vmem S1x1024 .f32 := win0_2.stage (cfg0.slots t 2)
abbrev hbM (t : Fin cfg0.N) : (bM t).IsWhole := hstage0_2 ((cfg0.slots t 2).cast nbuf0_2)
abbrev qM (t : Fin cfg0.N) : Memref sig .tc .vmem S1024x1024 .bf16 := win0_3.stage (cfg0.slots t 3)
abbrev hqM (t : Fin cfg0.N) : (qM t).IsWhole := hstage0_3 ((cfg0.slots t 3).cast nbuf0_3)
/-- The accumulator: a whole scoped buffer of the kernel's own, carried from one grid point to the next. -/
abbrev accM : Memref sig .tc .vmem S1024x1024 .f32 := Memref.whole cc0_scratch0
/-- The same as a view. -/
abbrev VS : View sig .tc .vmem S1024x1024 .f32 := (accM).view

/-- The region invariant as the launch hands it over, with the accumulator split off: the accumulator owned at some
    contents, every other scoped buffer unopened, the generator register at some state. -/
theorem PhiA_eq (c : Dev nD) :
    (Pipeline.ΦA spec0 c : sProp 𝕄)
      = iprop(iprop(iprop((∃ d, owns (c : Thread nD τ) accM fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [accM, owns_whole]; try rfl

end Cert.KernelIdeal.R0

end
-- ==== Proof.KI.R0.RunA.lean ====
import proofs.«179627_j38019050504386_2_alg».proof.Proof.KI.R0.Runs

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- THE FIRST REDUCTION STEP. On whole memrefs — the data block `x`, the weight block `w` and the bias row `b` in
    place, the output's buffer at contents `y` handed back untouched, the accumulator at anything — the body zeroes
    the accumulator and adds the product of the two blocks to it: the pieces it leaves in the accumulator are the
    witness. -/
noncomputable def runFirst (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : firstStep i) (hl : ¬lastStep i)
    (x : Vec F S1024x1024 .f32) (w : Vec F S1024x1024 .f32) (b : Vec F S1x1024 .f32) :
    Σ' (LQ : List (View.Piece (Elt F) S1024x1024 .bf16)), { LS : List (View.Piece (Elt F) S1024x1024 .f32) //
      ∀ (y : Vec F S1024x1024 .bf16) (E : Set ℕ) (K : PUnit → sProp 𝕄),
        iprop(owns (c : Thread nD τ) arg3 fullShare x ∗ owns (c : Thread nD τ) arg4 fullShare w ∗ owns (c : Thread nD τ) arg5 fullShare b ∗ owns (c : Thread nD τ) arg6 fullShare y ∗ (∃ d, owns (c : Thread nD τ) arg7 fullShare d)
            ∗ (iprop(owns (c : Thread nD τ) arg3 fullShare x ∗ owns (c : Thread nD τ) arg4 fullShare w ∗ owns (c : Thread nD τ) arg5 fullShare b ∗ owns (c : Thread nD τ) arg6 fullShare y ∗ (∃ f, arg7.view.loc (c : Thread nD τ) ↦[arg7.view.set]{fullShare} arg7.view.writes (Elt F) f LS)) -∗ K ⟨⟩))
          ⊢ wp frame (wpE (defs₀ (F := F)) Variants.none c none) E (cc0__qmm_kernel i arg3 harg3 arg4 harg4 arg5 harg5 arg6 harg6 arg7 harg7) K } := by
  refine ⟨[], ?_, fun y E K => ?run⟩
  case run =>
    simp only [cc0__qmm_kernel_eq_skeleton]; unfold cc0__qmm_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hz | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.R0

end
-- ==== Proof.KI.R0.RunB.lean ====
import proofs.«179627_j38019050504386_2_alg».proof.Proof.KI.R0.RunA

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- A MIDDLE REDUCTION STEP. The accumulator comes in at what the step before left (`a`); the body adds the product
    of the two blocks to it and stores nothing into the output, whose buffer is handed back untouched. -/
noncomputable def runMid (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : ¬firstStep i) (hl : ¬lastStep i)
    (x : Vec F S1024x1024 .f32) (w : Vec F S1024x1024 .f32) (b : Vec F S1x1024 .f32) (a : Vec F S1024x1024 .f32) :
    Σ' (LQ : List (View.Piece (Elt F) S1024x1024 .bf16)), { LS : List (View.Piece (Elt F) S1024x1024 .f32) //
      ∀ (y : Vec F S1024x1024 .bf16) (E : Set ℕ) (K : PUnit → sProp 𝕄),
        iprop(owns (c : Thread nD τ) arg3 fullShare x ∗ owns (c : Thread nD τ) arg4 fullShare w ∗ owns (c : Thread nD τ) arg5 fullShare b ∗ owns (c : Thread nD τ) arg6 fullShare y ∗ owns (c : Thread nD τ) arg7 fullShare a
            ∗ (iprop(owns (c : Thread nD τ) arg3 fullShare x ∗ owns (c : Thread nD τ) arg4 fullShare w ∗ owns (c : Thread nD τ) arg5 fullShare b ∗ owns (c : Thread nD τ) arg6 fullShare y ∗ (∃ f, arg7.view.loc (c : Thread nD τ) ↦[arg7.view.set]{fullShare} arg7.view.writes (Elt F) f LS)) -∗ K ⟨⟩))
          ⊢ wp frame (wpE (defs₀ (F := F)) Variants.none c none) E (cc0__qmm_kernel i arg3 harg3 arg4 harg4 arg5 harg5 arg6 harg6 arg7 harg7) K } := by
  refine ⟨[], ?_, fun y E K => ?run⟩
  case run =>
    simp only [cc0__qmm_kernel_eq_skeleton]; unfold cc0__qmm_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hz | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.R0

end
-- ==== Proof.KI.R0.RunC.lean ====
import proofs.«179627_j38019050504386_2_alg».proof.Proof.KI.R0.RunB

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- THE LAST REDUCTION STEP. The accumulator comes in at what the step before left (`a`), the output's buffer at
    anything; the body adds the last product to the accumulator, then the bias row to that, and stores the sum
    rounded to bf16 over the whole output block. -/
noncomputable def runLast (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : ¬firstStep i) (hl : lastStep i)
    (x : Vec F S1024x1024 .f32) (w : Vec F S1024x1024 .f32) (b : Vec F S1x1024 .f32) (a : Vec F S1024x1024 .f32) :
    Σ' (LQ : List (View.Piece (Elt F) S1024x1024 .bf16)), { LS : List (View.Piece (Elt F) S1024x1024 .f32) //
      ∀ (E : Set ℕ) (K : PUnit → sProp 𝕄),
        iprop(owns (c : Thread nD τ) arg3 fullShare x ∗ owns (c : Thread nD τ) arg4 fullShare w ∗ owns (c : Thread nD τ) arg5 fullShare b ∗ (∃ d, owns (c : Thread nD τ) arg6 fullShare d) ∗ owns (c : Thread nD τ) arg7 fullShare a
            ∗ (iprop(owns (c : Thread nD τ) arg3 fullShare x ∗ owns (c : Thread nD τ) arg4 fullShare w ∗ owns (c : Thread nD τ) arg5 fullShare b ∗ (∃ f, arg6.view.loc (c : Thread nD τ) ↦[arg6.view.set]{fullShare} arg6.view.writes (Elt F) f LQ) ∗ (∃ f, arg7.view.loc (c : Thread nD τ) ↦[arg7.view.set]{fullShare} arg7.view.writes (Elt F) f LS)) -∗ K ⟨⟩))
          ⊢ wp frame (wpE (defs₀ (F := F)) Variants.none c none) E (cc0__qmm_kernel i arg3 harg3 arg4 harg4 arg5 harg5 arg6 harg6 arg7 harg7) K } := by
  refine ⟨?_, ?_, fun E K => ?run⟩
  case run =>
    simp only [cc0__qmm_kernel_eq_skeleton]; unfold cc0__qmm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hz | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.R0

end
-- ==== Proof.KI.R0.lean ====
import proofs.«179627_j38019050504386_2_alg».proof.Proof.KI.R0.RunC

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each reduction step leaves -/

/-- The first step stores nothing into the output: no pieces, a placeholder nothing consults (the window is idle
    there and not written back). -/
def qFirst (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : firstStep i) (hl : ¬lastStep i) (x : Vec F S1024x1024 .f32) (w : Vec F S1024x1024 .f32) (b : Vec F S1x1024 .f32) : Vec F S1024x1024 .bf16 :=
  VO.read (Elt F) (VO.writes (Elt F) VO.junk (runFirst c i arg3 harg3 arg4 harg4 arg5 harg5 arg6 harg6 arg7 harg7 hz hl x w b).1)

/-- The first step's pieces cover the accumulator. -/
theorem accFirst_cover (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : firstStep i) (hl : ¬lastStep i) (x : Vec F S1024x1024 .f32) (w : Vec F S1024x1024 .f32) (b : Vec F S1x1024 .f32) (y : S1024x1024.Idx) :
    ∃ pc ∈ (runFirst c i arg3 harg3 arg4 harg4 arg5 harg5 arg6 harg6 arg7 harg7 hz hl x w b).2.1, y ∈ pc.1.set :=
  View.cover_of_tiledL (runFirst c i arg3 harg3 arg4 harg4 arg5 harg5 arg6 harg6 arg7 harg7 hz hl x w b).2.1 S1024x1024.size (by sl_kernel_rfl) y

/-- What the first step leaves in the accumulator. -/
def accFirst (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : firstStep i) (hl : ¬lastStep i) (x : Vec F S1024x1024 .f32) (w : Vec F S1024x1024 .f32) (b : Vec F S1x1024 .f32) : Vec F S1024x1024 .f32 :=
  VS.read (Elt F) (VS.writes (Elt F) VS.junk (runFirst c i arg3 harg3 arg4 harg4 arg5 harg5 arg6 harg6 arg7 harg7 hz hl x w b).2.1)

/-- A middle step stores nothing into the output either. -/
def qMid (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : ¬firstStep i) (hl : ¬lastStep i) (x : Vec F S1024x1024 .f32) (w : Vec F S1024x1024 .f32) (b : Vec F S1x1024 .f32) (a : Vec F S1024x1024 .f32) : Vec F S1024x1024 .bf16 :=
  VO.read (Elt F) (VO.writes (Elt F) VO.junk (runMid c i arg3 harg3 arg4 harg4 arg5 harg5 arg6 harg6 arg7 harg7 hz hl x w b a).1)

/-- A middle step's pieces cover the accumulator. -/
theorem accMid_cover (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : ¬firstStep i) (hl : ¬lastStep i) (x : Vec F S1024x1024 .f32) (w : Vec F S1024x1024 .f32) (b : Vec F S1x1024 .f32) (a : Vec F S1024x1024 .f32) (y : S1024x1024.Idx) :
    ∃ pc ∈ (runMid c i arg3 harg3 arg4 harg4 arg5 harg5 arg6 harg6 arg7 harg7 hz hl x w b a).2.1, y ∈ pc.1.set :=
  View.cover_of_tiledL (runMid c i arg3 harg3 arg4 harg4 arg5 harg5 arg6 harg6 arg7 harg7 hz hl x w b a).2.1 S1024x1024.size (by sl_kernel_rfl) y

/-- What a middle step leaves in the accumulator, from what the step before left (`a`). -/
def accMid (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : ¬firstStep i) (hl : ¬lastStep i) (x : Vec F S1024x1024 .f32) (w : Vec F S1024x1024 .f32) (b : Vec F S1x1024 .f32) (a : Vec F S1024x1024 .f32) : Vec F S1024x1024 .f32 :=
  VS.read (Elt F) (VS.writes (Elt F) VS.junk (runMid c i arg3 harg3 arg4 harg4 arg5 harg5 arg6 harg6 arg7 harg7 hz hl x w b a).2.1)

/-- The last step's store covers the output block. -/
theorem qLast_cover (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : ¬firstStep i) (hl : lastStep i) (x : Vec F S1024x1024 .f32) (w : Vec F S1024x1024 .f32) (b : Vec F S1x1024 .f32) (a : Vec F S1024x1024 .f32) (y : S1024x1024.Idx) :
    ∃ pc ∈ (runLast c i arg3 harg3 arg4 harg4 arg5 harg5 arg6 harg6 arg7 harg7 hz hl x w b a).1, y ∈ pc.1.set :=
  View.cover_of_tiledL (runLast c i arg3 harg3 arg4 harg4 arg5 harg5 arg6 harg6 arg7 harg7 hz hl x w b a).1 S1024x1024.size (by sl_kernel_rfl) y

/-- What the last step leaves in the output's staging buffer. -/
def qLast (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : ¬firstStep i) (hl : lastStep i) (x : Vec F S1024x1024 .f32) (w : Vec F S1024x1024 .f32) (b : Vec F S1x1024 .f32) (a : Vec F S1024x1024 .f32) : Vec F S1024x1024 .bf16 :=
  VO.read (Elt F) (VO.writes (Elt F) VO.junk (runLast c i arg3 harg3 arg4 harg4 arg5 harg5 arg6 harg6 arg7 harg7 hz hl x w b a).1)

/-- The last step's pieces cover the accumulator. -/
theorem accLast_cover (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : ¬firstStep i) (hl : lastStep i) (x : Vec F S1024x1024 .f32) (w : Vec F S1024x1024 .f32) (b : Vec F S1x1024 .f32) (a : Vec F S1024x1024 .f32) (y : S1024x1024.Idx) :
    ∃ pc ∈ (runLast c i arg3 harg3 arg4 harg4 arg5 harg5 arg6 harg6 arg7 harg7 hz hl x w b a).2.1, y ∈ pc.1.set :=
  View.cover_of_tiledL (runLast c i arg3 harg3 arg4 harg4 arg5 harg5 arg6 harg6 arg7 harg7 hz hl x w b a).2.1 S1024x1024.size (by sl_kernel_rfl) y

/-- What the last step leaves in the accumulator. -/
def accLast (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : ¬firstStep i) (hl : lastStep i) (x : Vec F S1024x1024 .f32) (w : Vec F S1024x1024 .f32) (b : Vec F S1x1024 .f32) (a : Vec F S1024x1024 .f32) : Vec F S1024x1024 .f32 :=
  VS.read (Elt F) (VS.writes (Elt F) VS.junk (runLast c i arg3 harg3 arg4 harg4 arg5 harg5 arg6 harg6 arg7 harg7 hz hl x w b a).2.1)

/-! ## The steps at a grid point: its memrefs, its blocks -/

theorem not_last_of_first (t : Fin cfg0.N) (h0 : t.val % 4 = 0) : ¬lastStep (grid0.coords t) :=
  fun h => by have := (lastStep_iff t).mp h; omega
theorem not_first_of_last (t : Fin cfg0.N) (h1 : t.val % 4 = 3) : ¬firstStep (grid0.coords t) :=
  fun h => by have := (firstStep_iff t).mp h; omega

/-- (output buffer, accumulator) after the body at a point of the first reduction step. -/
def firstAt (c : Dev nD) (t : Fin cfg0.N) (h0 : t.val % 4 = 0) : Vec F S1024x1024 .bf16 × Vec F S1024x1024 .f32 :=
  (qFirst c (grid0.coords t) (xM t) (hxM t) (wM t) (hwM t) (bM t) (hbM t) (qM t) (hqM t) accM (Memref.isWhole_whole _) ((firstStep_iff t).mpr h0) (not_last_of_first t h0) (iblk V c 0 t) (iblk V c 1 t) (iblk V c 2 t),
   accFirst c (grid0.coords t) (xM t) (hxM t) (wM t) (hwM t) (bM t) (hbM t) (qM t) (hqM t) accM (Memref.isWhole_whole _) ((firstStep_iff t).mpr h0) (not_last_of_first t h0) (iblk V c 0 t) (iblk V c 1 t) (iblk V c 2 t))

/-- The same at a point of a middle step, the accumulator coming in at `a`. -/
def midAt (c : Dev nD) (t : Fin cfg0.N) (h0 : ¬t.val % 4 = 0) (h1 : ¬t.val % 4 = 3) (a : Vec F S1024x1024 .f32) : Vec F S1024x1024 .bf16 × Vec F S1024x1024 .f32 :=
  (qMid c (grid0.coords t) (xM t) (hxM t) (wM t) (hwM t) (bM t) (hbM t) (qM t) (hqM t) accM (Memref.isWhole_whole _) (fun h => h0 ((firstStep_iff t).mp h)) (fun h => h1 ((lastStep_iff t).mp h)) (iblk V c 0 t) (iblk V c 1 t) (iblk V c 2 t) a,
   accMid c (grid0.coords t) (xM t) (hxM t) (wM t) (hwM t) (bM t) (hbM t) (qM t) (hqM t) accM (Memref.isWhole_whole _) (fun h => h0 ((firstStep_iff t).mp h)) (fun h => h1 ((lastStep_iff t).mp h)) (iblk V c 0 t) (iblk V c 1 t) (iblk V c 2 t) a)

/-- The same at a point of the last step. -/
def lastAt (c : Dev nD) (t : Fin cfg0.N) (h1 : t.val % 4 = 3) (a : Vec F S1024x1024 .f32) : Vec F S1024x1024 .bf16 × Vec F S1024x1024 .f32 :=
  (qLast c (grid0.coords t) (xM t) (hxM t) (wM t) (hwM t) (bM t) (hbM t) (qM t) (hqM t) accM (Memref.isWhole_whole _) (not_first_of_last t h1) ((lastStep_iff t).mpr h1) (iblk V c 0 t) (iblk V c 1 t) (iblk V c 2 t) a,
   accLast c (grid0.coords t) (xM t) (hxM t) (wM t) (hwM t) (bM t) (hbM t) (qM t) (hqM t) accM (Memref.isWhole_whole _) (not_first_of_last t h1) ((lastStep_iff t).mpr h1) (iblk V c 0 t) (iblk V c 1 t) (iblk V c 2 t) a)

/-- THE ACCUMULATION: what the output's staging buffer and the accumulator hold after the body at position `n` —
    the step the position is at, run on the point's blocks, the accumulator coming in at what position `n - 1` left. -/
def outsAt (c : Dev nD) : (n : ℕ) → n < cfg0.N → Vec F S1024x1024 .bf16 × Vec F S1024x1024 .f32
  | 0, hn => firstAt V c ⟨0, hn⟩ (Nat.zero_mod _)
  | n + 1, hn =>
    if h0 : (n + 1) % 4 = 0 then firstAt V c ⟨n + 1, hn⟩ h0
    else if h1 : (n + 1) % 4 = 3 then lastAt V c ⟨n + 1, hn⟩ h1 (outsAt c n (Nat.lt_of_succ_lt hn)).2
    else midAt V c ⟨n + 1, hn⟩ h0 h1 (outsAt c n (Nat.lt_of_succ_lt hn)).2

theorem outsAt_first (c : Dev nD) (t : Fin cfg0.N) (h0 : t.val % 4 = 0) :
    outsAt V c t.val t.isLt = firstAt V c t h0 := by
  obtain ⟨n, hn⟩ := t
  cases n with
  | zero => exact rfl
  | succ n => exact (dif_pos h0).trans rfl

theorem outsAt_mid (c : Dev nD) (t : Fin cfg0.N) (h0 : ¬t.val % 4 = 0) (h1 : ¬t.val % 4 = 3) :
    outsAt V c t.val t.isLt = midAt V c t h0 h1 (outsAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h1 : t.val % 4 = 3) :
    outsAt V c t.val t.isLt = lastAt V c t h1 (outsAt V c (t.val - 1) (Nat.lt_of_le_of_lt (Nat.sub_le _ _) t.isLt)).2 := by
  obtain ⟨n, hn⟩ := t
  cases n with
  | zero => exact (by exfalso; (try dsimp only at h1); omega)
  | succ n => exact (dif_neg (by (try dsimp only at h1); omega)).trans ((dif_pos h1).trans rfl)

/-! ## The region invariant -/

/-- Before position `n`: at 0 what the launch hands over; afterwards the accumulator owned at what position `n - 1`
    left in it, every other scoped buffer unopened, the generator register at some state. -/
def PhiS (c : Dev nD) : (n : ℕ) → n ≤ cfg0.N → sProp 𝕄
  | 0, _ => Pipeline.ΦA spec0 c
  | n + 1, hn => iprop(iprop(owns (c : Thread nD τ) accM fullShare ((outsAt V c n hn).2) ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare ((outsAt V c n hn).2) ∗ Pipeline.scopedRestBut (Ix := Unit) (Name := ℕ) (U := UR sig nD τ) (Lvl := ℕ) (Val := Elt F) spec0 c [cc0_scratch0]) ∗ (∃ r, prngReg c r)) := rfl

theorem PhiS_pos (c : Dev nD) (n : ℕ) (h : n ≤ cfg0.N) (hz : n ≠ 0) :
    PhiS V c n h = iprop(iprop(owns (c : Thread nD τ) accM fullShare ((outsAt V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- Region 0's proof data at the entry contents `V`: the arrays as the region finds them; after the body each input's
    buffer at its block, the output's at the accumulation's first component; the invariant above; nothing owed;
    full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem q_full (c : Dev nD) (w : Fin cfg0.W) : (dat V c).q w = fullShare := rfl
theorem owed_zero (c : Dev nD) (t : Fin (cfg0.N + 1)) : (dat V c).owed t = 0 := rfl
theorem recorded_univ (c : Dev nD) (t : Fin (cfg0.N + 1)) : (dat V c).recorded t = Set.univ := rfl
theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_x (c : Dev nD) (t : Fin cfg0.N) : (dat V c).after 0 t = iblk V c 0 t := by dsimp only [dat]
theorem after_w (c : Dev nD) (t : Fin cfg0.N) : (dat V c).after 1 t = iblk V c 1 t := by dsimp only [dat]
theorem after_b (c : Dev nD) (t : Fin cfg0.N) : (dat V c).after 2 t = iblk V c 2 t := by dsimp only [dat]
theorem after_q (c : Dev nD) (t : Fin cfg0.N) : (dat V c).after 3 t = (outsAt V c t.val t.isLt).1 := by dsimp only [dat]

theorem before_x (c : Dev nD) (t : Fin cfg0.N) (d) : (dat V c).before 0 t d = iblk V c 0 t :=
  before_x_of V (dat V c) (A_eq V c 0) (after_x V c) t d
theorem before_w (c : Dev nD) (t : Fin cfg0.N) (d) : (dat V c).before 1 t d = iblk V c 1 t :=
  before_w_of V (dat V c) (A_eq V c 1) (after_w V c) t d
theorem before_b (c : Dev nD) (t : Fin cfg0.N) (d) : (dat V c).before 2 t d = iblk V c 2 t :=
  before_b_of V (dat V c) (A_eq V c 2) (after_b V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (xM t) fullShare ((dat V c).before 0 t d))
    ∗ (∃ d, owns (c : Thread nD τ) (wM t) fullShare ((dat V c).before 1 t d))
    ∗ (∃ d, owns (c : Thread nD τ) (bM t) fullShare ((dat V c).before 2 t d))
    ∗ (∃ d, owns (c : Thread nD τ) (qM t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the inputs' buffers hold their blocks; the closed forms say which reduction step the
    point is at; that step's run applies, the invariant handing it the accumulator at what the point before left
    (at anything at the first point) and taking it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w, before_b]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  rw [show (dat V c).leavesExact 0 t = owns (c : Thread nD τ) (xM t) fullShare ((dat V c).after 0 t) from by
    unfold Dat.leavesExact; rw [live_x t], after_x]
  rw [show (dat V c).leavesExact 1 t = owns (c : Thread nD τ) (wM t) fullShare ((dat V c).after 1 t) from by
    unfold Dat.leavesExact; rw [live_w t], after_w]
  rw [show (dat V c).leavesExact 2 t = owns (c : Thread nD τ) (bM t) fullShare ((dat V c).after 2 t) from by
    unfold Dat.leavesExact; rw [live_b t], after_b]
  by_cases h0 : t.val % 4 = 0
  · have hl := not_last_of_first t h0
    rw [Dat.leavesExact_idle (dat V c) 3 t (idle_q t hl) (noFlush_q t hl)]
    rw [outsAt_first V c t h0]
    unfold firstAt accFirst; (try dsimp only)
    by_cases hz : t.val = 0
    · rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩⟩
      iapply ((runFirst c (grid0.coords t) _ _ _ _ _ _ _ _ _ _ ((firstStep_iff t).mpr h0) hl (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (accFirst_cover c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runFirst c (grid0.coords t) _ _ _ _ _ _ _ _ _ _ ((firstStep_iff t).mpr h0) hl (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (accFirst_cover c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat V c).leavesExact 3 t = owns (c : Thread nD τ) (qM t) fullShare ((dat V c).after 3 t) from by
        unfold Dat.leavesExact; rw [live_q t ((lastStep_iff t).mpr h1)], after_q]
      rw [outsAt_last V c t h1]
      unfold lastAt qLast accLast; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runLast c (grid0.coords t) _ _ _ _ _ _ _ _ _ _ (not_first_of_last t h1) ((lastStep_iff t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (accLast_cover c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (qLast_cover c _ _ _ _ _ _ _ _ _ _ _ _ _ _ _ _ _)
    · have hl : ¬lastStep (grid0.coords t) := fun h => h1 ((lastStep_iff t).mp h)
      rw [Dat.leavesExact_idle (dat V c) 3 t (idle_q t hl) (noFlush_q t hl)]
      rw [outsAt_mid V c t h0 h1]
      unfold midAt accMid; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runMid c (grid0.coords t) _ _ _ _ _ _ _ _ _ _ (fun h => h0 ((firstStep_iff t).mp h)) hl (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (accMid_cover c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : (Pipeline.ΦA spec0 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives that back: the accumulator's named contents are forgotten. -/
theorem Phi_out (c : Dev nD) (t : Fin (cfg0.N + 1)) (ht : t.val ≠ 0) : (dat V c).Φ t ⊢ (Pipeline.ΦA spec0 c : sProp 𝕄) := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

/-- The same after the last point. -/
theorem hout (c : Dev nD) : (dat V c).Φ (Fin.last cfg0.N) ⊢ (Pipeline.ΦA spec0 c : sProp 𝕄) :=
  Phi_out V c _ (by rw [Fin.val_last]; have : cfg0.N = 64 := N_0; omega)

end Cert.KernelIdeal.R0

end
-- ==== Proof.KI.R1.Runs.lean ====
import proofs.«179627_j38019050504386_2_alg».proof.Proof.Gen.KernelIdeal.Launch
import proofs.«179627_j38019050504386_2_alg».proof.Proof.Gen.KernelIdeal.Skeleton
import proofs.«179627_j38019050504386_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditions on the grid point -/

/-- The first conditional of the body: the reduction step is the first one (both accumulators are zeroed). -/
abbrev cond_0 (i : grid1.Coords) : Prop := (Scalar.cmpi .ne (Scalar.extui (Scalar.cmpi .eq (BitVec.ofNat 32 (i 1).val) 0#32)) 0#32) = 1#1
/-- It holds exactly at the points ≡ 0 (mod 8). -/
theorem hcond_0 : ∀ t : Fin cfg1.N, cond_0 (grid1.coords t) ↔ t.val % 8 = 0 :=
  (by decide +kernel : ∀ t : Fin grid1.N, cond_0 (grid1.coords t) ↔ t.val % 8 = 0)

/-- The second conditional of the body: the reduction step is the last one (the epilogue runs). -/
abbrev cond_1 (i : grid1.Coords) : Prop := k1_cond2 i = 1#1
/-- It holds exactly at the points ≡ 7 (mod 8). -/
theorem hcond_1 : ∀ t : Fin cfg1.N, cond_1 (grid1.coords t) ↔ t.val % 8 = 7 :=
  (by decide +kernel : ∀ t : Fin grid1.N, cond_1 (grid1.coords t) ↔ t.val % 8 = 7)

/-! ## Where the windows are idle -/

/-- Input window 0 is never idle. -/
theorem liveAt_0 : ∀ t : Fin cfg1.N, cfg1.idle 0 (grid1.coords t) = false := by decide +kernel
/-- Input window 1 is never idle. -/
theorem liveAt_1 : ∀ t : Fin cfg1.N, cfg1.idle 1 (grid1.coords t) = false := by decide +kernel
/-- Input window 2 is never idle. -/
theorem liveAt_2 : ∀ t : Fin cfg1.N, cfg1.idle 2 (grid1.coords t) = false := by decide +kernel
/-- Input window 3 is never idle. -/
theorem liveAt_3 : ∀ t : Fin cfg1.N, cfg1.idle 3 (grid1.coords t) = false := by decide +kernel
/-- Input window 4 is never idle. -/
theorem liveAt_4 : ∀ t : Fin cfg1.N, cfg1.idle 4 (grid1.coords t) = false := by decide +kernel
/-- Input window 5 is never idle. -/
theorem liveAt_5 : ∀ t : Fin cfg1.N, cfg1.idle 5 (grid1.coords t) = false := by decide +kernel
/-- At a first reduction step the output window is idle and not written back. -/
theorem idleAt_6_A : ∀ t : Fin cfg1.N, cond_0 (grid1.coords t) → ¬cond_1 (grid1.coords t) → cfg1.idle 6 (grid1.coords t) = true := by decide +kernel
theorem noFlush_6_A : ∀ t : Fin cfg1.N, cond_0 (grid1.coords t) → ¬cond_1 (grid1.coords t) → (cfg1.win 6).flush t = false := by decide +kernel
/-- At a middle reduction step the output window is idle and not written back. -/
theorem idleAt_6_B : ∀ t : Fin cfg1.N, ¬cond_0 (grid1.coords t) → ¬cond_1 (grid1.coords t) → cfg1.idle 6 (grid1.coords t) = true := by decide +kernel
theorem noFlush_6_B : ∀ t : Fin cfg1.N, ¬cond_0 (grid1.coords t) → ¬cond_1 (grid1.coords t) → (cfg1.win 6).flush t = false := by decide +kernel
/-- At a last reduction step the output window is live. -/
theorem liveAt_6_C : ∀ t : Fin cfg1.N, ¬cond_0 (grid1.coords t) → cond_1 (grid1.coords t) → cfg1.idle 6 (grid1.coords t) = false := by decide +kernel

/-! ## The staging and scratch memrefs -/

/-- One staging buffer of the output window, through which its contents are stated. -/
abbrev VO_6 : View sig .tc .vmem S6x2048 .bf16 := (Memref.whole cc1_stg6_0 : Memref sig .tc .vmem S6x2048 .bf16).view
abbrev ms_0 (t : Fin cfg1.N) : Memref sig .tc .vmem S512x2048 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S6x512 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S6x1 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S6x512 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S2048x512 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S1x2048 .f32 := win1_5.stage (cfg1.slots t 5)
abbrev hs_5 (t : Fin cfg1.N) : (ms_5 t).IsWhole := hstage1_5 ((cfg1.slots t 5).cast nbuf1_5)
abbrev ms_6 (t : Fin cfg1.N) : Memref sig .tc .vmem S6x2048 .bf16 := win1_6.stage (cfg1.slots t 6)
abbrev hs_6 (t : Fin cfg1.N) : (ms_6 t).IsWhole := hstage1_6 ((cfg1.slots t 6).cast nbuf1_6)
/-- The two accumulators carried between points: the context accumulator and the key accumulator. -/
abbrev scM_0 : Memref sig .tc .vmem S6x2048 .f32 := Memref.whole cc1_scratch0
abbrev scM_1 : Memref sig .tc .vmem S6x2048 .f32 := Memref.whole cc1_scratch1
abbrev VS_0 : View sig .tc .vmem S6x2048 .f32 := scM_0.view
abbrev VS_1 : View sig .tc .vmem S6x2048 .f32 := scM_1.view

/-- The scoped buffers that are neither a staging buffer of this region nor one of its two accumulators, unopened. -/
abbrev restBut (c : Dev nD) : sProp 𝕄 :=
  Pipeline.scopedRestBut (Ix := Unit) (Name := ℕ) (U := UR sig nD τ) (Lvl := ℕ) (Val := Elt F) spec1 c [cc1_scratch0, cc1_scratch1]

/-- The class's invariant with the two accumulators split off as memrefs owned at some contents. -/
theorem PhiA_eq (c : Dev nD) :
    (Pipeline.ΦA spec1 c : sProp 𝕄)
      = iprop(iprop(iprop((∃ d, owns (c : Thread nD τ) scM_0 fullShare d) ∗ (∃ d, owns (c : Thread nD τ) scM_1 fullShare d)) ∗ restBut c) ∗ (∃ r, prngReg c r)) := by
  unfold Pipeline.ΦA
  rw [Pipeline.scopedRest_split_of_list spec1 c [cc1_scratch0, cc1_scratch1] (by decide) (by decide)]
  simp only [scM_0, scM_1, owns_whole]; try rfl

/-! ## The windows' blocks, read off the arrays as the region finds them -/

variable (V : (c : Dev nD) → (b : Ref sig .tc) → Buf (Elt F) ((c : Thread nD τ).loc b))

/-- Window `w`'s block at point `t`, read off its array at the region-entry contents `V`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetches it or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetches it or not. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetches it or not. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the point fetches it or not. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the point fetches it or not. -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, whether the point fetches it or not. -/
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.R1

end
-- ==== Proof.KI.R1.RunA.lean ====
import proofs.«179627_j38019050504386_2_alg».proof.Proof.KI.R1.Runs

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a first reduction step (both accumulators zeroed, then one block product added to each; the output untouched): the pieces its stores leave in the output's staging memref and in the two accumulators
    (last first), with the proof that on whole memrefs — the inputs at their contents — the body runs to any continuation that takes the
    inputs as they were and each stored buffer with its pieces written. -/
noncomputable def kernelRun_A (c : Dev nD) (i : grid1.Coords) (arg2 : Memref sig .tc .vmem S512x2048 .bf16) (harg2 : arg2.IsWhole) (arg3 : Memref sig .tc .vmem S6x512 .f32) (harg3 : arg3.IsWhole) (arg4 : Memref sig .tc .vmem S6x1 .f32) (harg4 : arg4.IsWhole) (arg5 : Memref sig .tc .vmem S6x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S6x2048 .bf16) (harg8 : arg8.IsWhole) (arg9 : Memref sig .tc .vmem S6x2048 .f32) (harg9 : arg9.IsWhole) (arg10 : Memref sig .tc .vmem S6x2048 .f32) (harg10 : arg10.IsWhole) (hc0 : cond_0 i) (hc1 : ¬cond_1 i)
    (x0 : Vec F S512x2048 .bf16) (x1 : Vec F S6x512 .f32) (x2 : Vec F S6x1 .f32) (x3 : Vec F S6x512 .f32) (x4 : Vec F S2048x512 .f32) (x5 : Vec F S1x2048 .f32) :
    Σ' (L6 : List (View.Piece (Elt F) S6x2048 .bf16)) (LS0 : List (View.Piece (Elt F) S6x2048 .f32)), { LS1 : List (View.Piece (Elt F) S6x2048 .f32) //
      ∀ (xi6 : Vec F S6x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__kctx_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc1__kctx_kernel_eq_skeleton]; unfold cc1__kctx_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.R1

end
-- ==== Proof.KI.R1.RunB.lean ====
import proofs.«179627_j38019050504386_2_alg».proof.Proof.KI.R1.RunA

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a middle reduction step (one block product added to each accumulator; the output untouched): the pieces its stores leave in the output's staging memref and in the two accumulators
    (last first), with the proof that on whole memrefs — the inputs at their contents — the body runs to any continuation that takes the
    inputs as they were and each stored buffer with its pieces written. -/
noncomputable def kernelRun_B (c : Dev nD) (i : grid1.Coords) (arg2 : Memref sig .tc .vmem S512x2048 .bf16) (harg2 : arg2.IsWhole) (arg3 : Memref sig .tc .vmem S6x512 .f32) (harg3 : arg3.IsWhole) (arg4 : Memref sig .tc .vmem S6x1 .f32) (harg4 : arg4.IsWhole) (arg5 : Memref sig .tc .vmem S6x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S6x2048 .bf16) (harg8 : arg8.IsWhole) (arg9 : Memref sig .tc .vmem S6x2048 .f32) (harg9 : arg9.IsWhole) (arg10 : Memref sig .tc .vmem S6x2048 .f32) (harg10 : arg10.IsWhole) (hc0 : ¬cond_0 i) (hc1 : ¬cond_1 i)
    (x0 : Vec F S512x2048 .bf16) (x1 : Vec F S6x512 .f32) (x2 : Vec F S6x1 .f32) (x3 : Vec F S6x512 .f32) (x4 : Vec F S2048x512 .f32) (x5 : Vec F S1x2048 .f32) (xs0 : Vec F S6x2048 .f32) (xs1 : Vec F S6x2048 .f32) :
    Σ' (L6 : List (View.Piece (Elt F) S6x2048 .bf16)) (LS0 : List (View.Piece (Elt F) S6x2048 .f32)), { LS1 : List (View.Piece (Elt F) S6x2048 .f32) //
      ∀ (xi6 : Vec F S6x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__kctx_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc1__kctx_kernel_eq_skeleton]; unfold cc1__kctx_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.R1

end
-- ==== Proof.KI.R1.RunC.lean ====
import proofs.«179627_j38019050504386_2_alg».proof.Proof.KI.R1.RunB

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a last reduction step (one block product added to each accumulator, then the epilogue stored into the output): the pieces its stores leave in the output's staging memref and in the two accumulators
    (last first), with the proof that on whole memrefs — the inputs at their contents — the body runs to any continuation that takes the
    inputs as they were and each stored buffer with its pieces written. -/
noncomputable def kernelRun_C (c : Dev nD) (i : grid1.Coords) (arg2 : Memref sig .tc .vmem S512x2048 .bf16) (harg2 : arg2.IsWhole) (arg3 : Memref sig .tc .vmem S6x512 .f32) (harg3 : arg3.IsWhole) (arg4 : Memref sig .tc .vmem S6x1 .f32) (harg4 : arg4.IsWhole) (arg5 : Memref sig .tc .vmem S6x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S6x2048 .bf16) (harg8 : arg8.IsWhole) (arg9 : Memref sig .tc .vmem S6x2048 .f32) (harg9 : arg9.IsWhole) (arg10 : Memref sig .tc .vmem S6x2048 .f32) (harg10 : arg10.IsWhole) (hc0 : ¬cond_0 i) (hc1 : cond_1 i)
    (x0 : Vec F S512x2048 .bf16) (x1 : Vec F S6x512 .f32) (x2 : Vec F S6x1 .f32) (x3 : Vec F S6x512 .f32) (x4 : Vec F S2048x512 .f32) (x5 : Vec F S1x2048 .f32) (xs0 : Vec F S6x2048 .f32) (xs1 : Vec F S6x2048 .f32) :
    Σ' (L6 : List (View.Piece (Elt F) S6x2048 .bf16)) (LS0 : List (View.Piece (Elt F) S6x2048 .f32)), { LS1 : List (View.Piece (Elt F) S6x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__kctx_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc1__kctx_kernel_eq_skeleton]; unfold cc1__kctx_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.KernelIdeal.R1

end
-- ==== Proof.KI.R1.lean ====
import proofs.«179627_j38019050504386_2_alg».proof.Proof.KI.R1.RunC

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a point of the grid -/

/-- The body's run at a first reduction step `t`, on the point's staging memrefs, the two accumulators and the windows' blocks. -/
def atA (c : Dev nD) (t : Fin cfg1.N) (h0 : t.val % 8 = 0) :=
  kernelRun_A c (grid1.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) ((hcond_0 t).mpr h0) (fun h => by have := (hcond_1 t).mp h; omega) (iblk V c 0 t) (iblk V c 1 t) (iblk V c 2 t) (iblk V c 3 t) (iblk V c 4 t) (iblk V c 5 t)

/-- Its stores into the context accumulator cover it. -/
theorem scover_A_0 (c : Dev nD) (t : Fin cfg1.N) (h0 : t.val % 8 = 0) (y : S6x2048.Idx) :
    ∃ pc ∈ (atA V c t h0).2.1, y ∈ pc.1.set :=
  View.cover_of_tiledL (atA V c t h0).2.1 S6x2048.size (by sl_kernel_rfl) y

/-- Its stores into the key accumulator cover it. -/
theorem scover_A_1 (c : Dev nD) (t : Fin cfg1.N) (h0 : t.val % 8 = 0) (y : S6x2048.Idx) :
    ∃ pc ∈ (atA V c t h0).2.2.1, y ∈ pc.1.set :=
  View.cover_of_tiledL (atA V c t h0).2.2.1 S6x2048.size (by sl_kernel_rfl) y

/-- What a first reduction step leaves: in the output's staging buffer (nothing is stored there: a placeholder nobody reads), in the context accumulator and in the key
    accumulator — the pieces stored, read back. -/
def outA (c : Dev nD) (t : Fin cfg1.N) (h0 : t.val % 8 = 0) : Vec F S6x2048 .bf16 × Vec F S6x2048 .f32 × Vec F S6x2048 .f32 :=
  (VO_6.read (Elt F) (VO_6.writes (Elt F) VO_6.junk (atA V c t h0).1),
   VS_0.read (Elt F) (VS_0.writes (Elt F) VS_0.junk (atA V c t h0).2.1),
   VS_1.read (Elt F) (VS_1.writes (Elt F) VS_1.junk (atA V c t h0).2.2.1))

/-- The body's run at a middle reduction step `t`, on the point's staging memrefs, the two accumulators and the windows' blocks. -/
def atB (c : Dev nD) (t : Fin cfg1.N) (h0 : ¬t.val % 8 = 0) (h1 : ¬t.val % 8 = 7) (xs0 xs1 : Vec F S6x2048 .f32) :=
  kernelRun_B c (grid1.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) (iblk V c 5 t) xs0 xs1

/-- Its stores into the context accumulator cover it. -/
theorem scover_B_0 (c : Dev nD) (t : Fin cfg1.N) (h0 : ¬t.val % 8 = 0) (h1 : ¬t.val % 8 = 7) (xs0 xs1 : Vec F S6x2048 .f32) (y : S6x2048.Idx) :
    ∃ pc ∈ (atB V c t h0 h1 xs0 xs1).2.1, y ∈ pc.1.set :=
  View.cover_of_tiledL (atB V c t h0 h1 xs0 xs1).2.1 S6x2048.size (by sl_kernel_rfl) y

/-- Its stores into the key accumulator cover it. -/
theorem scover_B_1 (c : Dev nD) (t : Fin cfg1.N) (h0 : ¬t.val % 8 = 0) (h1 : ¬t.val % 8 = 7) (xs0 xs1 : Vec F S6x2048 .f32) (y : S6x2048.Idx) :
    ∃ pc ∈ (atB V c t h0 h1 xs0 xs1).2.2.1, y ∈ pc.1.set :=
  View.cover_of_tiledL (atB V c t h0 h1 xs0 xs1).2.2.1 S6x2048.size (by sl_kernel_rfl) y

/-- What a middle reduction step leaves: in the output's staging buffer (nothing is stored there: a placeholder nobody reads), in the context accumulator and in the key
    accumulator — the pieces stored, read back. -/
def outB (c : Dev nD) (t : Fin cfg1.N) (h0 : ¬t.val % 8 = 0) (h1 : ¬t.val % 8 = 7) (xs0 xs1 : Vec F S6x2048 .f32) : Vec F S6x2048 .bf16 × Vec F S6x2048 .f32 × Vec F S6x2048 .f32 :=
  (VO_6.read (Elt F) (VO_6.writes (Elt F) VO_6.junk (atB V c t h0 h1 xs0 xs1).1),
   VS_0.read (Elt F) (VS_0.writes (Elt F) VS_0.junk (atB V c t h0 h1 xs0 xs1).2.1),
   VS_1.read (Elt F) (VS_1.writes (Elt F) VS_1.junk (atB V c t h0 h1 xs0 xs1).2.2.1))

/-- The body's run at a last reduction step `t`, on the point's staging memrefs, the two accumulators and the windows' blocks. -/
def atC (c : Dev nD) (t : Fin cfg1.N) (h0 : ¬t.val % 8 = 0) (h1 : t.val % 8 = 7) (xs0 xs1 : Vec F S6x2048 .f32) :=
  kernelRun_C c (grid1.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) (iblk V c 5 t) xs0 xs1

/-- Its stores into the context accumulator cover it. -/
theorem scover_C_0 (c : Dev nD) (t : Fin cfg1.N) (h0 : ¬t.val % 8 = 0) (h1 : t.val % 8 = 7) (xs0 xs1 : Vec F S6x2048 .f32) (y : S6x2048.Idx) :
    ∃ pc ∈ (atC V c t h0 h1 xs0 xs1).2.1, y ∈ pc.1.set :=
  View.cover_of_tiledL (atC V c t h0 h1 xs0 xs1).2.1 S6x2048.size (by sl_kernel_rfl) y

/-- Its stores into the key accumulator cover it. -/
theorem scover_C_1 (c : Dev nD) (t : Fin cfg1.N) (h0 : ¬t.val % 8 = 0) (h1 : t.val % 8 = 7) (xs0 xs1 : Vec F S6x2048 .f32) (y : S6x2048.Idx) :
    ∃ pc ∈ (atC V c t h0 h1 xs0 xs1).2.2.1, y ∈ pc.1.set :=
  View.cover_of_tiledL (atC V c t h0 h1 xs0 xs1).2.2.1 S6x2048.size (by sl_kernel_rfl) y

/-- Its store into the output's staging buffer covers it. -/
theorem cover_C_6 (c : Dev nD) (t : Fin cfg1.N) (h0 : ¬t.val % 8 = 0) (h1 : t.val % 8 = 7) (xs0 xs1 : Vec F S6x2048 .f32) (y : S6x2048.Idx) :
    ∃ pc ∈ (atC V c t h0 h1 xs0 xs1).1, y ∈ pc.1.set :=
  View.cover_of_tiledL (atC V c t h0 h1 xs0 xs1).1 S6x2048.size (by sl_kernel_rfl) y

/-- What a last reduction step leaves: in the output's staging buffer, in the context accumulator and in the key
    accumulator — the pieces stored, read back. -/
def outC (c : Dev nD) (t : Fin cfg1.N) (h0 : ¬t.val % 8 = 0) (h1 : t.val % 8 = 7) (xs0 xs1 : Vec F S6x2048 .f32) : Vec F S6x2048 .bf16 × Vec F S6x2048 .f32 × Vec F S6x2048 .f32 :=
  (VO_6.read (Elt F) (VO_6.writes (Elt F) VO_6.junk (atC V c t h0 h1 xs0 xs1).1),
   VS_0.read (Elt F) (VS_0.writes (Elt F) VS_0.junk (atC V c t h0 h1 xs0 xs1).2.1),
   VS_1.read (Elt F) (VS_1.writes (Elt F) VS_1.junk (atC V c t h0 h1 xs0 xs1).2.2.1))

/-! ## What the output's buffer and the accumulators hold after each point -/

/-- After the body at position `n`: the case of `n`'s reduction step, the accumulators read at what position `n - 1` left. -/
def outsAt (c : Dev nD) : (n : ℕ) → n < cfg1.N → Vec F S6x2048 .bf16 × Vec F S6x2048 .f32 × Vec F S6x2048 .f32
  | 0, hn => outA V c ⟨0, hn⟩ (Nat.zero_mod _)
  | n + 1, hn =>
    if h0 : (n + 1) % 8 = 0 then outA V c ⟨n + 1, hn⟩ h0
    else if h1 : (n + 1) % 8 = 7 then
      outC V c ⟨n + 1, hn⟩ h0 h1 (outsAt c n (Nat.lt_of_succ_lt hn)).2.1 (outsAt c n (Nat.lt_of_succ_lt hn)).2.2
    else
      outB V c ⟨n + 1, hn⟩ h0 h1 (outsAt c n (Nat.lt_of_succ_lt hn)).2.1 (outsAt c n (Nat.lt_of_succ_lt hn)).2.2

theorem outsAt_A (c : Dev nD) (t : Fin cfg1.N) (h0 : t.val % 8 = 0) : outsAt V c t.val t.isLt = outA V c t h0 := by
  obtain ⟨n, hn⟩ := t
  cases n with
  | zero => rfl
  | succ n => exact dif_pos h0

theorem outsAt_B (c : Dev nD) (t : Fin cfg1.N) (h0 : ¬t.val % 8 = 0) (h1 : ¬t.val % 8 = 7) :
    outsAt V c t.val t.isLt = outB V c t h0 h1 (outsAt V c (t.val - 1) (Nat.lt_of_le_of_lt (Nat.sub_le _ _) t.isLt)).2.1
      (outsAt V c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_neg h1)

theorem outsAt_C (c : Dev nD) (t : Fin cfg1.N) (h0 : ¬t.val % 8 = 0) (h1 : t.val % 8 = 7) :
    outsAt V c t.val t.isLt = outC V c t h0 h1 (outsAt V c (t.val - 1) (Nat.lt_of_le_of_lt (Nat.sub_le _ _) t.isLt)).2.1
      (outsAt V c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_pos h1)

/-- The region's invariant before position `n`: at the start what the launch hands over; afterwards the two accumulators at
    what the point before left, the other scoped buffers unopened, and the generator register at some state. -/
def PhiS (c : Dev nD) : (n : ℕ) → n ≤ cfg1.N → sProp 𝕄
  | 0, _ => Pipeline.ΦA spec1 c
  | n + 1, hn => iprop(iprop(iprop(owns (c : Thread nD τ) scM_0 fullShare (outsAt V c n hn).2.1 ∗ owns (c : Thread nD τ) scM_1 fullShare (outsAt V c n hn).2.2) ∗ restBut c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM_0 fullShare (outsAt V c n hn).2.1 ∗ owns (c : Thread nD τ) scM_1 fullShare (outsAt V c n hn).2.2) ∗ restBut c) ∗ (∃ r, prngReg c r)) := rfl

theorem PhiS_pos (c : Dev nD) (n : ℕ) (h : n ≤ cfg1.N) (hz : n ≠ 0) :
    PhiS V c n h = iprop(iprop(iprop(owns (c : Thread nD τ) scM_0 fullShare (outsAt V c (n - 1) (by omega)).2.1 ∗ owns (c : Thread nD τ) scM_1 fullShare (outsAt V c (n - 1) (by omega)).2.2) ∗ restBut c) ∗ (∃ r, prngReg c r)) := by
  cases n with
  | zero => exact absurd rfl hz
  | succ n => rfl

/-! ## The region's proof data -/

/-- Region 1's proof data at the entry contents `V`: the arrays as the region finds them; after the body at a point each input's
    buffer at its block and the output's at `outsAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
  Φ t := PhiS V c t.val (Nat.le_of_lt_succ t.isLt)
  q _ := fullShare
  owed _ := 0

theorem q_full (c : Dev nD) (w : Fin cfg1.W) : (dat V c).q w = fullShare := rfl
theorem owed_zero (c : Dev nD) (t : Fin (cfg1.N + 1)) : (dat V c).owed t = 0 := rfl
theorem recorded_univ (c : Dev nD) (t : Fin (cfg1.N + 1)) : (dat V c).recorded t = Set.univ := rfl
theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 8000000 in
/-- The body at any point. The inputs' staging memrefs hold their blocks; the reduction step of the point says which of the three
    cases runs; the invariant hands the body the two accumulators — at what the point before left, or at anything before the first
    point — and takes them back at this point's contents; the other scoped buffers and the generator register pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg1.N = 16 from N_1)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  rw [show (dat V c).leavesExact 3 t = owns (c : Thread nD τ) (ms_3 t) fullShare ((dat V c).after 3 t) from by
    unfold Dat.leavesExact; rw [liveAt_3 t], after_3]
  rw [show (dat V c).leavesExact 4 t = owns (c : Thread nD τ) (ms_4 t) fullShare ((dat V c).after 4 t) from by
    unfold Dat.leavesExact; rw [liveAt_4 t], after_4]
  rw [show (dat V c).leavesExact 5 t = owns (c : Thread nD τ) (ms_5 t) fullShare ((dat V c).after 5 t) from by
    unfold Dat.leavesExact; rw [liveAt_5 t], after_5]
  by_cases h0 : t.val % 8 = 0
  · rw [Dat.leavesExact_idle (dat V c) 6 t (idleAt_6_A t ((hcond_0 t).mpr h0) (fun h => by have := (hcond_1 t).mp h; omega)) (noFlush_6_A t ((hcond_0 t).mpr h0) (fun h => by have := (hcond_1 t).mp h; omega))]
    rw [outsAt_A V c t h0]
    unfold outA; dsimp only
    by_cases hz : t.val = 0
    · rw [PhiS_castSucc V c t, PhiS_zero V c _ _ hz, PhiA_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((atA V c t h0).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover_A_0 V c t h0)
            · unfold owns; iexists _; isplitr
              swap; · iexact HS1
              ipureintro; exact View.read_writes_of_cover _ _ _ _ _ (scover_A_1 V c t h0)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc V c t, PhiS_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((atA V c t h0).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover_A_0 V c t h0)
            · unfold owns; iexists _; isplitr
              swap; · iexact HS1
              ipureintro; exact View.read_writes_of_cover _ _ _ _ _ (scover_A_1 V c t h0)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun hz => h0 (by rw [hz])
    by_cases h1 : t.val % 8 = 7
    · rw [show (dat V c).leavesExact 6 t = owns (c : Thread nD τ) (ms_6 t) fullShare ((dat V c).after 6 t) from by
        unfold Dat.leavesExact; rw [liveAt_6_C t (fun h => h0 ((hcond_0 t).mp h)) ((hcond_1 t).mpr h1)], after_6]
      rw [outsAt_C V c t h0 h1]
      unfold outC; dsimp only
      rw [PhiS_castSucc V c t, PhiS_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((atC V c t h0 h1 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover_C_0 V c t h0 h1 _ _)
            · unfold owns; iexists _; isplitr
              swap; · iexact HS1
              ipureintro; exact View.read_writes_of_cover _ _ _ _ _ (scover_C_1 V c t h0 h1 _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_C_6 V c t h0 h1 _ _)
    · rw [Dat.leavesExact_idle (dat V c) 6 t (idleAt_6_B t (fun h => h0 ((hcond_0 t).mp h)) (fun h => h1 ((hcond_1 t).mp h))) (noFlush_6_B t (fun h => h0 ((hcond_0 t).mp h)) (fun h => h1 ((hcond_1 t).mp h)))]
      rw [outsAt_B V c t h0 h1]
      unfold outB; dsimp only
      rw [PhiS_castSucc V c t, PhiS_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((atB V c t h0 h1 _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover_B_0 V c t h0 h1 _ _)
            · unfold owns; iexists _; isplitr
              swap; · iexact HS1
              ipureintro; exact View.read_writes_of_cover _ _ _ _ _ (scover_B_1 V c t h0 h1 _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives back what the launch handed over: the accumulators' contents are forgotten. -/
theorem Phi_out (c : Dev nD) (t : Fin (cfg1.N + 1)) (ht : t.val ≠ 0) : (dat V c).Φ t ⊢ (Pipeline.ΦA spec1 c : sProp 𝕄) := by
  rw [show (dat V c).Φ t = PhiS V c t.val (Nat.le_of_lt_succ t.isLt) from rfl, PhiS_pos V c _ _ ht, PhiA_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

/-- The same after the last point. -/
theorem hout (c : Dev nD) : (dat V c).Φ (Fin.last cfg1.N) ⊢ (Pipeline.ΦA spec1 c : sProp 𝕄) :=
  Phi_out V c _ (by rw [Fin.val_last]; have : cfg1.N = 16 := N_1; omega)

end Cert.KernelIdeal.R1

end
-- ==== Proof.KI.R2.Setup.lean ====
import proofs.«179627_j38019050504386_2_alg».proof.Proof.Gen.KernelIdeal.Launch
import proofs.«179627_j38019050504386_2_alg».proof.Proof.Gen.KernelIdeal.Skeleton
import proofs.«179627_j38019050504386_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The final product out = (q · kmodᵀ) · 2⁻⁶, accumulated over two halves of the contraction axis

The grid is (i, k) ∈ 4 × 2: i a band of 1024 rows of q, k a half (2048 columns) of the contraction axis.
At k = 0 the accumulator is zeroed and the first half-product added; at k = 1 the second half-product is
added, and the sum times 2⁻⁶ is stored as the band's output block. -/

section Blocks
variable (V : (c : Dev nD) → (b : Ref sig .tc) → Buf (Elt F) ((c : Thread nD τ).loc b))

/-- Window w's block at point t, read off its array at the entry contents V. -/
def blockIn (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The band of q (window 0) is in its current staging buffer at every point, for any proof data over V
    whose body leaves that block in place. -/
theorem before_q_of {c : Dev nD} (dat : Dat τ (Elt F) Unit ℕ (UR sig nD τ) ℕ cfg2 c) (hA : dat.A 0 = V c (Pipeline.arrRef spec2 0))
    (hafter : ∀ t, dat.after 0 t = blockIn V c 0 t) (t : Fin cfg2.N) (d) : dat.before 0 t d = blockIn V c 0 t :=
  (dat.before_in_eq_fetched 0 rfl (fun _ => rfl) (fun _ _ _ => rfl) (fun t => by rw [hafter]; unfold Dat.blockOf blockIn; rw [hA]; try rfl) t d).trans
    (by unfold Dat.fetched Dat.blockOf blockIn; rw [hA]; try rfl)

/-- The half of kmod (window 1) likewise. -/
theorem before_k_of {c : Dev nD} (dat : Dat τ (Elt F) Unit ℕ (UR sig nD τ) ℕ cfg2 c) (hA : dat.A 1 = V c (Pipeline.arrRef spec2 1))
    (hafter : ∀ t, dat.after 1 t = blockIn V c 1 t) (t : Fin cfg2.N) (d) : dat.before 1 t d = blockIn V c 1 t :=
  (dat.before_in_eq_fetched 1 rfl (fun _ => rfl) (fun _ _ _ => rfl) (fun t => by rw [hafter]; unfold Dat.blockOf blockIn; rw [hA]; try rfl) t d).trans
    (by unfold Dat.fetched Dat.blockOf blockIn; rw [hA]; try rfl)

end Blocks

/-! ## The two conditions on the half index -/

/-- "This is the first half" (k = 0), as the body computes it from the grid coordinates. -/
abbrev atFirstHalf (i : grid2.Coords) : Prop := (Scalar.cmpi .ne (Scalar.extui (Scalar.cmpi .eq (BitVec.ofNat 32 (i 1).val) 0#32)) 0#32) = 1#1
/-- It holds at the even points. -/
theorem atFirstHalf_iff : ∀ t : Fin cfg2.N, atFirstHalf (grid2.coords t) ↔ t.val % 2 = 0 :=
  (by decide +kernel : ∀ t : Fin grid2.N, atFirstHalf (grid2.coords t) ↔ t.val % 2 = 0)

/-- "This is the last half" (k = 1). -/
abbrev atLastHalf (i : grid2.Coords) : Prop := k2_cond2 i = 1#1
/-- It holds at the odd points. -/
theorem atLastHalf_iff : ∀ t : Fin cfg2.N, atLastHalf (grid2.coords t) ↔ t.val % 2 = 1 :=
  (by decide +kernel : ∀ t : Fin grid2.N, atLastHalf (grid2.coords t) ↔ t.val % 2 = 1)

/-! ## Where the windows are live -/

theorem live_q : ∀ t : Fin cfg2.N, cfg2.idle 0 (grid2.coords t) = false := by decide +kernel
theorem live_k : ∀ t : Fin cfg2.N, cfg2.idle 1 (grid2.coords t) = false := by decide +kernel
/-- At a first half the output block is not stored into, -/
theorem idle_out_first : ∀ t : Fin cfg2.N, atFirstHalf (grid2.coords t) → ¬atLastHalf (grid2.coords t) → cfg2.idle 2 (grid2.coords t) = true := by decide +kernel
/-- nor written back; -/
theorem noFlush_out_first : ∀ t : Fin cfg2.N, atFirstHalf (grid2.coords t) → ¬atLastHalf (grid2.coords t) → (cfg2.win 2).flush t = false := by decide +kernel
/-- at a last half it is stored. -/
theorem live_out_last : ∀ t : Fin cfg2.N, ¬atFirstHalf (grid2.coords t) → atLastHalf (grid2.coords t) → cfg2.idle 2 (grid2.coords t) = false := by decide +kernel

/-! ## The memrefs the body is called on -/

/-- One staging buffer of the output window, through which its contents are stated. -/
abbrev outView : View sig .tc .vmem S1024x6 .f32 := (Memref.whole cc2_stg2_0 : Memref sig .tc .vmem S1024x6 .f32).view
abbrev qM (t : Fin cfg2.N) : Memref sig .tc .vmem S1024x2048 .bf16 := win2_0.stage (cfg2.slots t 0)
abbrev qM_whole (t : Fin cfg2.N) : (qM t).IsWhole := hstage2_0 ((cfg2.slots t 0).cast nbuf2_0)
abbrev kM (t : Fin cfg2.N) : Memref sig .tc .vmem S6x2048 .bf16 := win2_1.stage (cfg2.slots t 1)
abbrev kM_whole (t : Fin cfg2.N) : (kM t).IsWhole := hstage2_1 ((cfg2.slots t 1).cast nbuf2_1)
abbrev outM (t : Fin cfg2.N) : Memref sig .tc .vmem S1024x6 .f32 := win2_2.stage (cfg2.slots t 2)
abbrev outM_whole (t : Fin cfg2.N) : (outM t).IsWhole := hstage2_2 ((cfg2.slots t 2).cast nbuf2_2)
/-- The accumulator: a whole scoped buffer of the kernel's own, carried from the first half to the last. -/
abbrev accM : Memref sig .tc .vmem S1024x6 .f32 := Memref.whole cc2_scratch0
abbrev accView : View sig .tc .vmem S1024x6 .f32 := accM.view

/-- The region's entry invariant with the accumulator split off as a memref owned at some contents; every other
    scoped buffer stays unopened. -/
theorem entry_eq (c : Dev nD) :
    (Pipeline.ΦA spec2 c : sProp 𝕄)
      = iprop(iprop(iprop((∃ d, owns (c : Thread nD τ) accM fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [accM, owns_whole]; try rfl

end Cert.KernelIdeal.R2

end
-- ==== Proof.KI.R2.RunFirst.lean ====
import proofs.«179627_j38019050504386_2_alg».proof.Proof.KI.R2.Setup

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a first half (k = 0). On whole memrefs — the band of q and the half of kmod at their contents xq, xk,
    the output block at contents xo handed back untouched, the accumulator at anything — the body runs to a
    continuation holding the inputs and the output block as they were and the accumulator with the pieces its two
    stores wrote (the zeros, then the zeros plus the first half-product): the pieces are the witness the run finds. -/
noncomputable def runFirst (c : Dev nD) (i : grid2.Coords) (arg2 : Memref sig .tc .vmem S1024x2048 .bf16) (harg2 : arg2.IsWhole) (arg3 : Memref sig .tc .vmem S6x2048 .bf16) (harg3 : arg3.IsWhole) (arg4 : Memref sig .tc .vmem S1024x6 .f32) (harg4 : arg4.IsWhole) (arg5 : Memref sig .tc .vmem S1024x6 .f32) (harg5 : arg5.IsWhole) (hc0 : atFirstHalf i) (hc1 : ¬atLastHalf i)
    (xq : Vec F S1024x2048 .bf16) (xk : Vec F S6x2048 .bf16) :
    Σ' (Lout : List (View.Piece (Elt F) S1024x6 .f32)), { Lacc : List (View.Piece (Elt F) S1024x6 .f32) //
      ∀ (xo : Vec F S1024x6 .f32) (E : Set ℕ) (K : PUnit → sProp 𝕄),
        iprop(owns (c : Thread nD τ) arg2 fullShare xq ∗ owns (c : Thread nD τ) arg3 fullShare xk ∗ owns (c : Thread nD τ) arg4 fullShare xo ∗ (∃ d, owns (c : Thread nD τ) arg5 fullShare d)
            ∗ (iprop(owns (c : Thread nD τ) arg2 fullShare xq ∗ owns (c : Thread nD τ) arg3 fullShare xk ∗ owns (c : Thread nD τ) arg4 fullShare xo ∗ (∃ f, arg5.view.loc (c : Thread nD τ) ↦[arg5.view.set]{fullShare} arg5.view.writes (Elt F) f Lacc)) -∗ K ⟨⟩))
          ⊢ wp frame (wpE (defs₀ (F := F)) Variants.none c none) E (cc2__finaldot_kernel i arg2 harg2 arg3 harg3 arg4 harg4 arg5 harg5) K } := by
  refine ⟨[], ?_, fun xo E K => ?run⟩
  case run =>
    simp only [cc2__finaldot_kernel_eq_skeleton]; unfold cc2__finaldot_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.R2

end
-- ==== Proof.KI.R2.RunLast.lean ====
import proofs.«179627_j38019050504386_2_alg».proof.Proof.KI.R2.RunFirst

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a last half (k = 1). On whole memrefs — the band of q and the half of kmod at their contents xq, xk,
    the accumulator at what the first half left (xacc), the output block at anything — the body runs to a
    continuation holding the inputs as they were, the accumulator with the piece its store wrote (xacc plus the
    second half-product) and the output block with the piece its store wrote (that sum times 2⁻⁶): the pieces are
    the witness the run finds. -/
noncomputable def runLast (c : Dev nD) (i : grid2.Coords) (arg2 : Memref sig .tc .vmem S1024x2048 .bf16) (harg2 : arg2.IsWhole) (arg3 : Memref sig .tc .vmem S6x2048 .bf16) (harg3 : arg3.IsWhole) (arg4 : Memref sig .tc .vmem S1024x6 .f32) (harg4 : arg4.IsWhole) (arg5 : Memref sig .tc .vmem S1024x6 .f32) (harg5 : arg5.IsWhole) (hc0 : ¬atFirstHalf i) (hc1 : atLastHalf i)
    (xq : Vec F S1024x2048 .bf16) (xk : Vec F S6x2048 .bf16) (xacc : Vec F S1024x6 .f32) :
    Σ' (Lout : List (View.Piece (Elt F) S1024x6 .f32)), { Lacc : List (View.Piece (Elt F) S1024x6 .f32) //
      ∀ (E : Set ℕ) (K : PUnit → sProp 𝕄),
        iprop(owns (c : Thread nD τ) arg2 fullShare xq ∗ owns (c : Thread nD τ) arg3 fullShare xk ∗ (∃ d, owns (c : Thread nD τ) arg4 fullShare d) ∗ owns (c : Thread nD τ) arg5 fullShare xacc
            ∗ (iprop(owns (c : Thread nD τ) arg2 fullShare xq ∗ owns (c : Thread nD τ) arg3 fullShare xk ∗ (∃ f, arg4.view.loc (c : Thread nD τ) ↦[arg4.view.set]{fullShare} arg4.view.writes (Elt F) f Lout) ∗ (∃ f, arg5.view.loc (c : Thread nD τ) ↦[arg5.view.set]{fullShare} arg5.view.writes (Elt F) f Lacc)) -∗ K ⟨⟩))
          ⊢ wp frame (wpE (defs₀ (F := F)) Variants.none c none) E (cc2__finaldot_kernel i arg2 harg2 arg3 harg3 arg4 harg4 arg5 harg5) K } := by
  refine ⟨?_, ?_, fun E K => ?run⟩
  case run =>
    simp only [cc2__finaldot_kernel_eq_skeleton]; unfold cc2__finaldot_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.R2

end
-- ==== Proof.KI.R2.lean ====
import proofs.«179627_j38019050504386_2_alg».proof.Proof.KI.R2.RunLast

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each half leaves, read back from the pieces the runs found -/

/-- A first half stores nothing into the output block: a placeholder that nothing consults (the block is neither
    written back there nor read at the next point). -/
def outFirst (c : Dev nD) (i : grid2.Coords) (arg2 : Memref sig .tc .vmem S1024x2048 .bf16) (harg2 : arg2.IsWhole) (arg3 : Memref sig .tc .vmem S6x2048 .bf16) (harg3 : arg3.IsWhole) (arg4 : Memref sig .tc .vmem S1024x6 .f32) (harg4 : arg4.IsWhole) (arg5 : Memref sig .tc .vmem S1024x6 .f32) (harg5 : arg5.IsWhole) (hc0 : atFirstHalf i) (hc1 : ¬atLastHalf i)
    (xq : Vec F S1024x2048 .bf16) (xk : Vec F S6x2048 .bf16) : Vec F S1024x6 .f32 :=
  outView.read (Elt F) (outView.writes (Elt F) outView.junk (runFirst c i arg2 harg2 arg3 harg3 arg4 harg4 arg5 harg5 hc0 hc1 xq xk).1)

/-- A first half's two stores into the accumulator each tile it, so they cover it. -/
theorem accFirst_cover (c : Dev nD) (i : grid2.Coords) (arg2 : Memref sig .tc .vmem S1024x2048 .bf16) (harg2 : arg2.IsWhole) (arg3 : Memref sig .tc .vmem S6x2048 .bf16) (harg3 : arg3.IsWhole) (arg4 : Memref sig .tc .vmem S1024x6 .f32) (harg4 : arg4.IsWhole) (arg5 : Memref sig .tc .vmem S1024x6 .f32) (harg5 : arg5.IsWhole) (hc0 : atFirstHalf i) (hc1 : ¬atLastHalf i)
    (xq : Vec F S1024x2048 .bf16) (xk : Vec F S6x2048 .bf16) (y : S1024x6.Idx) :
    ∃ pc ∈ (runFirst c i arg2 harg2 arg3 harg3 arg4 harg4 arg5 harg5 hc0 hc1 xq xk).2.1, y ∈ pc.1.set :=
  View.cover_of_tiledL (runFirst c i arg2 harg2 arg3 harg3 arg4 harg4 arg5 harg5 hc0 hc1 xq xk).2.1 S1024x6.size (by sl_kernel_rfl) y

/-- What a first half leaves in the accumulator: zero plus the first half-product. -/
def accFirst (c : Dev nD) (i : grid2.Coords) (arg2 : Memref sig .tc .vmem S1024x2048 .bf16) (harg2 : arg2.IsWhole) (arg3 : Memref sig .tc .vmem S6x2048 .bf16) (harg3 : arg3.IsWhole) (arg4 : Memref sig .tc .vmem S1024x6 .f32) (harg4 : arg4.IsWhole) (arg5 : Memref sig .tc .vmem S1024x6 .f32) (harg5 : arg5.IsWhole) (hc0 : atFirstHalf i) (hc1 : ¬atLastHalf i)
    (xq : Vec F S1024x2048 .bf16) (xk : Vec F S6x2048 .bf16) : Vec F S1024x6 .f32 :=
  accView.read (Elt F) (accView.writes (Elt F) accView.junk (runFirst c i arg2 harg2 arg3 harg3 arg4 harg4 arg5 harg5 hc0 hc1 xq xk).2.1)

/-- A last half's store into the output block tiles it, so it covers it. -/
theorem outLast_cover (c : Dev nD) (i : grid2.Coords) (arg2 : Memref sig .tc .vmem S1024x2048 .bf16) (harg2 : arg2.IsWhole) (arg3 : Memref sig .tc .vmem S6x2048 .bf16) (harg3 : arg3.IsWhole) (arg4 : Memref sig .tc .vmem S1024x6 .f32) (harg4 : arg4.IsWhole) (arg5 : Memref sig .tc .vmem S1024x6 .f32) (harg5 : arg5.IsWhole) (hc0 : ¬atFirstHalf i) (hc1 : atLastHalf i)
    (xq : Vec F S1024x2048 .bf16) (xk : Vec F S6x2048 .bf16) (xacc : Vec F S1024x6 .f32) (y : S1024x6.Idx) :
    ∃ pc ∈ (runLast c i arg2 harg2 arg3 harg3 arg4 harg4 arg5 harg5 hc0 hc1 xq xk xacc).1, y ∈ pc.1.set :=
  View.cover_of_tiledL (runLast c i arg2 harg2 arg3 harg3 arg4 harg4 arg5 harg5 hc0 hc1 xq xk xacc).1 S1024x6.size (by sl_kernel_rfl) y

/-- What a last half leaves in the output block: the accumulated product times 2⁻⁶. -/
def outLast (c : Dev nD) (i : grid2.Coords) (arg2 : Memref sig .tc .vmem S1024x2048 .bf16) (harg2 : arg2.IsWhole) (arg3 : Memref sig .tc .vmem S6x2048 .bf16) (harg3 : arg3.IsWhole) (arg4 : Memref sig .tc .vmem S1024x6 .f32) (harg4 : arg4.IsWhole) (arg5 : Memref sig .tc .vmem S1024x6 .f32) (harg5 : arg5.IsWhole) (hc0 : ¬atFirstHalf i) (hc1 : atLastHalf i)
    (xq : Vec F S1024x2048 .bf16) (xk : Vec F S6x2048 .bf16) (xacc : Vec F S1024x6 .f32) : Vec F S1024x6 .f32 :=
  outView.read (Elt F) (outView.writes (Elt F) outView.junk (runLast c i arg2 harg2 arg3 harg3 arg4 harg4 arg5 harg5 hc0 hc1 xq xk xacc).1)

/-- A last half's store into the accumulator tiles it, so it covers it. -/
theorem accLast_cover (c : Dev nD) (i : grid2.Coords) (arg2 : Memref sig .tc .vmem S1024x2048 .bf16) (harg2 : arg2.IsWhole) (arg3 : Memref sig .tc .vmem S6x2048 .bf16) (harg3 : arg3.IsWhole) (arg4 : Memref sig .tc .vmem S1024x6 .f32) (harg4 : arg4.IsWhole) (arg5 : Memref sig .tc .vmem S1024x6 .f32) (harg5 : arg5.IsWhole) (hc0 : ¬atFirstHalf i) (hc1 : atLastHalf i)
    (xq : Vec F S1024x2048 .bf16) (xk : Vec F S6x2048 .bf16) (xacc : Vec F S1024x6 .f32) (y : S1024x6.Idx) :
    ∃ pc ∈ (runLast c i arg2 harg2 arg3 harg3 arg4 harg4 arg5 harg5 hc0 hc1 xq xk xacc).2.1, y ∈ pc.1.set :=
  View.cover_of_tiledL (runLast c i arg2 harg2 arg3 harg3 arg4 harg4 arg5 harg5 hc0 hc1 xq xk xacc).2.1 S1024x6.size (by sl_kernel_rfl) y

/-- What a last half leaves in the accumulator: what the first half left plus the second half-product. -/
def accLast (c : Dev nD) (i : grid2.Coords) (arg2 : Memref sig .tc .vmem S1024x2048 .bf16) (harg2 : arg2.IsWhole) (arg3 : Memref sig .tc .vmem S6x2048 .bf16) (harg3 : arg3.IsWhole) (arg4 : Memref sig .tc .vmem S1024x6 .f32) (harg4 : arg4.IsWhole) (arg5 : Memref sig .tc .vmem S1024x6 .f32) (harg5 : arg5.IsWhole) (hc0 : ¬atFirstHalf i) (hc1 : atLastHalf i)
    (xq : Vec F S1024x2048 .bf16) (xk : Vec F S6x2048 .bf16) (xacc : Vec F S1024x6 .f32) : Vec F S1024x6 .f32 :=
  accView.read (Elt F) (accView.writes (Elt F) accView.junk (runLast c i arg2 harg2 arg3 harg3 arg4 harg4 arg5 harg5 hc0 hc1 xq xk xacc).2.1)

/-- An even point is no last half, -/
theorem notLast_of_even (t : Fin cfg2.N) (h0 : t.val % 2 = 0) : ¬atLastHalf (grid2.coords t) :=
  fun h => by have := (atLastHalf_iff t).mp h; omega
/-- an odd point no first half. -/
theorem notFirst_of_odd (t : Fin cfg2.N) (h1 : t.val % 2 = 1) : ¬atFirstHalf (grid2.coords t) :=
  fun h => by have := (atFirstHalf_iff t).mp h; omega

section Region
variable (V : (c : Dev nD) → (b : Ref sig .tc) → Buf (Elt F) ((c : Thread nD τ).loc b))

/-! ## The accumulation, point by point -/

/-- What the output block's staging buffer and the accumulator hold after the body at position n (in that order):
    at an even position a first half on the point's blocks, at an odd one a last half on them over the
    accumulator the position before left. -/
def outsAt (c : Dev nD) : (n : ℕ) → n < cfg2.N → Vec F S1024x6 .f32 × Vec F S1024x6 .f32
  | 0, hn => (outFirst c (grid2.coords ⟨0, hn⟩) (qM ⟨0, hn⟩) (qM_whole ⟨0, hn⟩) (kM ⟨0, hn⟩) (kM_whole ⟨0, hn⟩) (outM ⟨0, hn⟩) (outM_whole ⟨0, hn⟩) accM (Memref.isWhole_whole _) ((atFirstHalf_iff ⟨0, hn⟩).mpr (Nat.zero_mod 2)) (notLast_of_even ⟨0, hn⟩ (Nat.zero_mod 2)) (blockIn V c 0 ⟨0, hn⟩) (blockIn V c 1 ⟨0, hn⟩), accFirst c (grid2.coords ⟨0, hn⟩) (qM ⟨0, hn⟩) (qM_whole ⟨0, hn⟩) (kM ⟨0, hn⟩) (kM_whole ⟨0, hn⟩) (outM ⟨0, hn⟩) (outM_whole ⟨0, hn⟩) accM (Memref.isWhole_whole _) ((atFirstHalf_iff ⟨0, hn⟩).mpr (Nat.zero_mod 2)) (notLast_of_even ⟨0, hn⟩ (Nat.zero_mod 2)) (blockIn V c 0 ⟨0, hn⟩) (blockIn V c 1 ⟨0, hn⟩))
  | n + 1, hn =>
    if h0 : (n + 1) % 2 = 0 then
      (outFirst c (grid2.coords ⟨n + 1, hn⟩) (qM ⟨n + 1, hn⟩) (qM_whole ⟨n + 1, hn⟩) (kM ⟨n + 1, hn⟩) (kM_whole ⟨n + 1, hn⟩) (outM ⟨n + 1, hn⟩) (outM_whole ⟨n + 1, hn⟩) accM (Memref.isWhole_whole _) ((atFirstHalf_iff ⟨n + 1, hn⟩).mpr h0) (notLast_of_even ⟨n + 1, hn⟩ h0) (blockIn V c 0 ⟨n + 1, hn⟩) (blockIn V c 1 ⟨n + 1, hn⟩), accFirst c (grid2.coords ⟨n + 1, hn⟩) (qM ⟨n + 1, hn⟩) (qM_whole ⟨n + 1, hn⟩) (kM ⟨n + 1, hn⟩) (kM_whole ⟨n + 1, hn⟩) (outM ⟨n + 1, hn⟩) (outM_whole ⟨n + 1, hn⟩) accM (Memref.isWhole_whole _) ((atFirstHalf_iff ⟨n + 1, hn⟩).mpr h0) (notLast_of_even ⟨n + 1, hn⟩ h0) (blockIn V c 0 ⟨n + 1, hn⟩) (blockIn V c 1 ⟨n + 1, hn⟩))
    else
      (outLast c (grid2.coords ⟨n + 1, hn⟩) (qM ⟨n + 1, hn⟩) (qM_whole ⟨n + 1, hn⟩) (kM ⟨n + 1, hn⟩) (kM_whole ⟨n + 1, hn⟩) (outM ⟨n + 1, hn⟩) (outM_whole ⟨n + 1, hn⟩) accM (Memref.isWhole_whole _) (notFirst_of_odd ⟨n + 1, hn⟩ (Nat.mod_two_ne_zero.mp h0)) ((atLastHalf_iff ⟨n + 1, hn⟩).mpr (Nat.mod_two_ne_zero.mp h0)) (blockIn V c 0 ⟨n + 1, hn⟩) (blockIn V c 1 ⟨n + 1, hn⟩) (outsAt c n (Nat.lt_of_succ_lt hn)).2, accLast c (grid2.coords ⟨n + 1, hn⟩) (qM ⟨n + 1, hn⟩) (qM_whole ⟨n + 1, hn⟩) (kM ⟨n + 1, hn⟩) (kM_whole ⟨n + 1, hn⟩) (outM ⟨n + 1, hn⟩) (outM_whole ⟨n + 1, hn⟩) accM (Memref.isWhole_whole _) (notFirst_of_odd ⟨n + 1, hn⟩ (Nat.mod_two_ne_zero.mp h0)) ((atLastHalf_iff ⟨n + 1, hn⟩).mpr (Nat.mod_two_ne_zero.mp h0)) (blockIn V c 0 ⟨n + 1, hn⟩) (blockIn V c 1 ⟨n + 1, hn⟩) (outsAt c n (Nat.lt_of_succ_lt hn)).2)

/-- At a first half. -/
theorem outsAt_first (c : Dev nD) (t : Fin cfg2.N) (h0 : t.val % 2 = 0) :
    outsAt V c t.val t.isLt = (outFirst c (grid2.coords t) (qM t) (qM_whole t) (kM t) (kM_whole t) (outM t) (outM_whole t) accM (Memref.isWhole_whole _) ((atFirstHalf_iff t).mpr h0) (notLast_of_even t h0) (blockIn V c 0 t) (blockIn V c 1 t), accFirst c (grid2.coords t) (qM t) (qM_whole t) (kM t) (kM_whole t) (outM t) (outM_whole t) accM (Memref.isWhole_whole _) ((atFirstHalf_iff t).mpr h0) (notLast_of_even t h0) (blockIn V c 0 t) (blockIn V c 1 t)) := by
  obtain ⟨n, hn⟩ := t
  cases n with
  | zero => exact rfl
  | succ n => exact (dif_pos h0).trans rfl

/-- At a last half, over what the point before left. -/
theorem outsAt_last (c : Dev nD) (t : Fin cfg2.N) (h1 : t.val % 2 = 1) :
    outsAt V c t.val t.isLt = (outLast c (grid2.coords t) (qM t) (qM_whole t) (kM t) (kM_whole t) (outM t) (outM_whole t) accM (Memref.isWhole_whole _) (notFirst_of_odd t h1) ((atLastHalf_iff t).mpr h1) (blockIn V c 0 t) (blockIn V c 1 t) (outsAt V c (t.val - 1) (Nat.lt_of_le_of_lt (Nat.sub_le _ _) t.isLt)).2, accLast c (grid2.coords t) (qM t) (qM_whole t) (kM t) (kM_whole t) (outM t) (outM_whole t) accM (Memref.isWhole_whole _) (notFirst_of_odd t h1) ((atLastHalf_iff t).mpr h1) (blockIn V c 0 t) (blockIn V c 1 t) (outsAt V c (t.val - 1) (Nat.lt_of_le_of_lt (Nat.sub_le _ _) t.isLt)).2) := by
  obtain ⟨n, hn⟩ := t
  cases n with
  | zero => exact (by exfalso; (try dsimp only at h1); omega)
  | succ n => exact (dif_neg (by (try dsimp only at h1); omega)).trans rfl

/-- The region's invariant before position n: at the entry the launch's own; afterwards the accumulator at what the
    point before left, every other scoped buffer unopened, and the generator register at some state. -/
def PhiS (c : Dev nD) : (n : ℕ) → n ≤ cfg2.N → sProp 𝕄
  | 0, _ => Pipeline.ΦA spec2 c
  | n + 1, hn => iprop(iprop(iprop(owns (c : Thread nD τ) accM fullShare ((outsAt V c n hn).2)) ∗ Pipeline.scopedRestBut (Ix := Unit) (Name := ℕ) (U := UR sig nD τ) (Lvl := ℕ) (Val := Elt F) spec2 c [cc2_scratch0]) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(iprop(owns (c : Thread nD τ) accM fullShare ((outsAt V c n hn).2)) ∗ Pipeline.scopedRestBut (Ix := Unit) (Name := ℕ) (U := UR sig nD τ) (Lvl := ℕ) (Val := Elt F) spec2 c [cc2_scratch0]) ∗ (∃ r, prngReg c r)) := rfl

theorem PhiS_pos (c : Dev nD) (n : ℕ) (h : n ≤ cfg2.N) (hz : n ≠ 0) :
    PhiS V c n h = iprop(iprop(iprop(owns (c : Thread nD τ) accM fullShare ((outsAt V c (n - 1) (by omega)).2)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- Region 2's proof data at the entry contents V: the arrays as found; after the body each input's buffer at its
    block and the output's at the accumulation's first component; the invariant above; full shares, nothing owed. -/
def dat (c : Dev nD) : Dat τ (Elt F) Unit ℕ (UR sig nD τ) ℕ cfg2 c where
  A w := V c (Pipeline.arrRef spec2 w)
  after w t := match w with
    | ⟨0, _⟩ => blockIn V c 0 t
    | ⟨1, _⟩ => blockIn V c 1 t
    | ⟨2, _⟩ => (outsAt V c t.val t.isLt).1
  Φ t := PhiS V c t.val (Nat.le_of_lt_succ t.isLt)
  q _ := fullShare
  owed _ := 0

theorem q_full (c : Dev nD) (w : Fin cfg2.W) : (dat V c).q w = fullShare := rfl
theorem owed_zero (c : Dev nD) (t : Fin (cfg2.N + 1)) : (dat V c).owed t = 0 := rfl
theorem recorded_univ (c : Dev nD) (t : Fin (cfg2.N + 1)) : (dat V c).recorded t = Set.univ := rfl
theorem A_eq (c : Dev nD) (w : Fin cfg2.W) : (dat V c).A w = V c (Pipeline.arrRef spec2 w) := by
  dsimp only [dat]

theorem Phi_castSucc (c : Dev nD) (t : Fin cfg2.N) :
    (dat V c).Φ t.castSucc = PhiS V c t.val (Nat.le_of_lt t.isLt) := by
  dsimp only [dat]; simp only [Fin.coe_castSucc]

theorem after_q (c : Dev nD) (t : Fin cfg2.N) : (dat V c).after 0 t = blockIn V c 0 t := by dsimp only [dat]
theorem after_k (c : Dev nD) (t : Fin cfg2.N) : (dat V c).after 1 t = blockIn V c 1 t := by dsimp only [dat]
theorem after_out (c : Dev nD) (t : Fin cfg2.N) : (dat V c).after 2 t = (outsAt V c t.val t.isLt).1 := by dsimp only [dat]

theorem before_q (c : Dev nD) (t : Fin cfg2.N) (d) : (dat V c).before 0 t d = blockIn V c 0 t :=
  before_q_of V (dat V c) (A_eq V c 0) (after_q V c) t d
theorem before_k (c : Dev nD) (t : Fin cfg2.N) (d) : (dat V c).before 1 t d = blockIn V c 1 t :=
  before_k_of V (dat V c) (A_eq V c 1) (after_k V c) t d

/-! ## The body at a generic point -/

/-- What the body is called with at point t, the windows one by one, -/
def bodyPre (c : Dev nD) (t : Fin cfg2.N) : sProp 𝕄 :=
  iprop((dat V c).Φ t.castSucc ∗ (dat V c).owesAt () t.castSucc
    ∗ (∃ d, owns (c : Thread nD τ) (qM t) fullShare ((dat V c).before 0 t d))
    ∗ (∃ d, owns (c : Thread nD τ) (kM t) fullShare ((dat V c).before 1 t d))
    ∗ (∃ d, owns (c : Thread nD τ) (outM t) fullShare ((dat V c).before 2 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' memrefs hold their blocks; the parity of the point says which half it is.
    At a first half the accumulator is handed over at anything and taken back at zero plus the first half-product,
    the output block returned untouched; at a last half the accumulator is handed over at what the first half
    left and taken back with the second half-product added, the output block at that sum times 2⁻⁶. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_q, before_k]
  rw [show (dat V c).owesAt () t.succ = (dat V c).owesAt () t.castSucc from rfl]
  rw [show (dat V c).Φ t.succ = PhiS V c (t.val + 1) t.isLt from rfl, PhiS_succ]
  have hN : t.val < 8 := lt_of_lt_of_eq t.isLt (show cfg2.N = 8 from N_2)
  rw [show (dat V c).leavesExact 0 t = owns (c : Thread nD τ) (qM t) fullShare ((dat V c).after 0 t) from by
    unfold Dat.leavesExact; rw [live_q t], after_q]
  rw [show (dat V c).leavesExact 1 t = owns (c : Thread nD τ) (kM t) fullShare ((dat V c).after 1 t) from by
    unfold Dat.leavesExact; rw [live_k t], after_k]
  by_cases h0 : t.val % 2 = 0
  · have hc0 := (atFirstHalf_iff t).mpr h0
    have hc1 := notLast_of_even t h0
    rw [Dat.leavesExact_idle (dat V c) 2 t (idle_out_first t hc0 hc1) (noFlush_out_first t hc0 hc1)]
    rw [outsAt_first V c t h0]
    unfold accFirst; (try dsimp only)
    by_cases hz : t.val = 0
    · rw [Phi_castSucc V c t, PhiS_zero V c _ _ hz, entry_eq]
      iintro ⟨⟨⟨HS, HR⟩, Hg⟩, Ho, ⟨%d0, H0⟩, ⟨%d1, H1⟩, ⟨%d2, H2⟩⟩
      iapply ((runFirst c (grid2.coords t) _ _ _ _ _ _ _ _ hc0 hc1 (blockIn V c 0 t) (blockIn V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (accFirst_cover c _ _ _ _ _ _ _ _ _ _ _ _ _)
          iexact HR
        iexact Hg
      isplitl [Ho]; · iexact Ho
      isplitl [H0]; · iexact H0
      isplitl [H1]; · iexact H1
      iexists _; iexact H2
    · rw [Phi_castSucc V c t, PhiS_pos V c _ _ hz]
      iintro ⟨⟨⟨HS, HR⟩, Hg⟩, Ho, ⟨%d0, H0⟩, ⟨%d1, H1⟩, ⟨%d2, H2⟩⟩
      iapply ((runFirst c (grid2.coords t) _ _ _ _ _ _ _ _ hc0 hc1 (blockIn V c 0 t) (blockIn V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (accFirst_cover c _ _ _ _ _ _ _ _ _ _ _ _ _)
          iexact HR
        iexact Hg
      isplitl [Ho]; · iexact Ho
      isplitl [H0]; · iexact H0
      isplitl [H1]; · iexact H1
      iexists _; iexact H2
  · have h1 : t.val % 2 = 1 := Nat.mod_two_ne_zero.mp h0
    have hc0 := notFirst_of_odd t h1
    have hc1 := (atLastHalf_iff t).mpr h1
    rw [show (dat V c).leavesExact 2 t = owns (c : Thread nD τ) (outM t) fullShare ((dat V c).after 2 t) from by
      unfold Dat.leavesExact; rw [live_out_last t hc0 hc1], after_out]
    rw [outsAt_last V c t h1]
    unfold outLast accLast; (try dsimp only)
    have hz : t.val ≠ 0 := by omega
    rw [Phi_castSucc V c t, PhiS_pos V c _ _ hz]
    iintro ⟨⟨⟨HS, HR⟩, Hg⟩, Ho, ⟨%d0, H0⟩, ⟨%d1, H1⟩, ⟨%d2, H2⟩⟩
    iapply ((runLast c (grid2.coords t) _ _ _ _ _ _ _ _ hc0 hc1 (blockIn V c 0 t) (blockIn V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (accLast_cover c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (outLast_cover c _ _ _ _ _ _ _ _ _ _ _ _ _ _)

/-- The body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : (Pipeline.ΦA spec2 c : sProp 𝕄) ⊢ (dat V c).Φ 0 := by
  rw [show (dat V c).Φ 0 = PhiS V c 0 (Nat.zero_le _) from rfl, PhiS_zero V c 0 _ rfl]
  try exact Idealize.SL.BI.Entails.refl _

/-- After the last point the invariant gives the launch's back: the accumulator's contents are forgotten. -/
theorem hout (c : Dev nD) : (dat V c).Φ (Fin.last cfg2.N) ⊢ (Pipeline.ΦA spec2 c : sProp 𝕄) := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 8 := N_2; omega), entry_eq]
  iintro ⟨⟨HS, HR⟩, Hg⟩
  isplitl [HS HR]
  · isplitl [HS]
    · iexists _; iexact HS
    iexact HR
  iexact Hg

end Region

end Cert.KernelIdeal.R2

end
-- ==== Proof.KI.Frame.lean ====
import proofs.«179627_j38019050504386_2_alg».proof.Proof.KI.R0
import proofs.«179627_j38019050504386_2_alg».proof.Proof.KI.R1
import proofs.«179627_j38019050504386_2_alg».proof.Proof.KI.R2
import proofs.«179627_j38019050504386_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The whole run of the program: a reshape of the bias, the region that forms `q`, two more reshapes, the region that
forms the modulated keys, and the region that contracts `q` against them. Between two items every unscoped buffer is
held at a known valuation: the launch memory, then each reshape applied, then each region's arrays at what its
write-backs leave. The run ends with every unscoped buffer at the last valuation, from which both the unchanged
arguments and the result array are read. -/

set_option maxRecDepth 16384

noncomputable section

namespace Cert.KernelIdeal.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the unscoped buffers between the items -/

/-- At launch. -/
abbrev W0 : Dev nD → Valuation τ sig (Elt F) := fun c b => m ((c : Dev nD), b)
/-- After the bias of the first projection is reshaped to a row. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its arrays at what its write-backs leave, every other buffer as before. -/
def W2 (c : Dev nD) : Valuation τ sig (Elt F) :=
  Pipeline.withArrays spec0 c (W1 m c) fun w => (R0.dat (V1 m) c).arrAt w cfg0.N
theorem W2_arr (c : Dev nD) (w : Fin cfg0.W) :
    W2 m c (Proc.devRef .tc (Pipeline.arrRef spec0 w)) = (R0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (R0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the two remaining biases are reshaped (a column and a row). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second region. -/
def W4 (c : Dev nD) : Valuation τ sig (Elt F) :=
  Pipeline.withArrays spec1 c (W3 m c) fun w => (R1.dat (V3 m) c).arrAt w cfg1.N
theorem W4_arr (c : Dev nD) (w : Fin cfg1.W) :
    W4 m c (Proc.devRef .tc (Pipeline.arrRef spec1 w)) = (R1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (R1.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third region. -/
def W5 (c : Dev nD) : Valuation τ sig (Elt F) :=
  Pipeline.withArrays spec2 c (W4 m c) fun w => (R2.dat (V4 m) c).arrAt w cfg2.N
theorem W5_arr (c : Dev nD) (w : Fin cfg2.W) :
    W5 m c (Proc.devRef .tc (Pipeline.arrRef spec2 w)) = (R2.dat (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (R2.dat (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-! ## The proof data of the three pipelines and what rides beside the buffers -/

/-- Each pipeline's proof data at its region's entry contents. -/
def pdats : (p : Fin 3) → (c : Dev nD) → Dat τ (Elt F) Unit ℕ (UR sig nD τ) ℕ (Pipeline.pin (pcfgs (F := F)) adm p) c
  | ⟨0, _⟩ => fun c => R0.dat (V1 m) c
  | ⟨1, _⟩ => fun c => R1.dat (V3 m) c
  | ⟨2, _⟩ => fun c => R2.dat (V4 m) c
abbrev 𝒱₀ : Variants := Variants.none
abbrev L : GSem nD τ sig → Finset Unit := fun _ => ∅
abbrev lv : GSem nD τ sig → Unit → ℕ := fun _ _ => 0
/-- Beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

set_option backward.isDefEq.respectTransparency.types false in
/-- Region 0 over the thread state: entered with every unscoped buffer at the contents before it, left with them at
    the contents after it. Its arrays are split out of the unscoped buffers and put back at their exit contents; the
    generator register goes into the region's invariant and comes back; nothing is owed; the kernel has no semaphore of
    its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m) c).loose
  hwaits := Pipeline.hwaits_of_owed_zero _ _ _ _ L lv 0 fun c t => R0.owed_zero (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    have e0 : (pdats m 0 c).owed 0 = 0 := R0.owed_zero (V1 m) c 0
    rw [Pipeline.ownSems0_none]
    have hsplit := Pipeline.arrays_of_unscopedBufs (p := 0) (pcfgs (F := F)) adm (pdats m) launch0.win launch0.arr_whole c
      ((pdats m 0 c).share_full fun w => R0.q_full (V1 m) c w) (V1 m c) fun w => R0.A_eq (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun x _ => Or.inl ((R0.recorded_univ (V1 m) c 0).symm ▸ Set.mem_univ x : x ∈ (R0.dat (V1 m) c).recorded 0)
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest spec0 c) : sProp 𝕄) ⊢ Pipeline.ΦA spec0 c := by
      unfold Pipeline.ΦA
      iintro ⟨Hp, -, Hr⟩
      isplitl [Hr]; · iexact Hr
      iexact Hp
    exact h.trans (R0.hin (V1 m) c)
  hout c := by
    rw [Pipeline.ownSems0_none]
    have h : (Pipeline.ΦA spec0 c : sProp 𝕄) ⊢ iprop((∃ r, prngReg c r) ∗ emp ∗ Pipeline.scopedRest spec0 c) := by
      unfold Pipeline.ΦA
      iintro ⟨Hr, Hp⟩
      isplitl [Hp]; · iexact Hp
      isplitr; · iempintro
      iexact Hr
    exact (R0.hout (V1 m) c).trans h
  hexit c := by
    have eN : (pdats m 0 c).owed (Fin.last _) = 0 := R0.owed_zero (V1 m) c _
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => R0.q_full (V1 m) c w)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

set_option backward.isDefEq.respectTransparency.types false in
/-- Region 1 over the thread state: entered with every unscoped buffer at the contents before it, left with them at
    the contents after it. Its arrays are split out of the unscoped buffers and put back at their exit contents; the
    generator register goes into the region's invariant and comes back; nothing is owed; the kernel has no semaphore of
    its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V3 m) c).loose
  hwaits := Pipeline.hwaits_of_owed_zero _ _ _ _ L lv 1 fun c t => R1.owed_zero (V3 m) c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    have e0 : (pdats m 1 c).owed 0 = 0 := R1.owed_zero (V3 m) c 0
    rw [Pipeline.ownSems0_none]
    have hsplit := Pipeline.arrays_of_unscopedBufs (p := 1) (pcfgs (F := F)) adm (pdats m) launch1.win launch1.arr_whole c
      ((pdats m 1 c).share_full fun w => R1.q_full (V3 m) c w) (V3 m c) fun w => R1.A_eq (V3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun x _ => Or.inl ((R1.recorded_univ (V3 m) c 0).symm ▸ Set.mem_univ x : x ∈ (R1.dat (V3 m) c).recorded 0)
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest spec1 c) : sProp 𝕄) ⊢ Pipeline.ΦA spec1 c := by
      unfold Pipeline.ΦA
      iintro ⟨Hp, -, Hr⟩
      isplitl [Hr]; · iexact Hr
      iexact Hp
    exact h.trans (R1.hin (V3 m) c)
  hout c := by
    rw [Pipeline.ownSems0_none]
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (R1.hout (V3 m) c).trans h
  hexit c := by
    have eN : (pdats m 1 c).owed (Fin.last _) = 0 := R1.owed_zero (V3 m) c _
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => R1.q_full (V3 m) c w)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

set_option backward.isDefEq.respectTransparency.types false in
/-- Region 2 over the thread state: entered with every unscoped buffer at the contents before it, left with them at
    the contents after it. Its arrays are split out of the unscoped buffers and put back at their exit contents; the
    generator register goes into the region's invariant and comes back; nothing is owed; the kernel has no semaphore of
    its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (V4 m) c).loose
  hwaits := Pipeline.hwaits_of_owed_zero _ _ _ _ L lv 2 fun c t => R2.owed_zero (V4 m) c t
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    have e0 : (pdats m 2 c).owed 0 = 0 := R2.owed_zero (V4 m) c 0
    rw [Pipeline.ownSems0_none]
    have hsplit := Pipeline.arrays_of_unscopedBufs (p := 2) (pcfgs (F := F)) adm (pdats m) launch2.win launch2.arr_whole c
      ((pdats m 2 c).share_full fun w => R2.q_full (V4 m) c w) (V4 m c) fun w => R2.A_eq (V4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun x _ => Or.inl ((R2.recorded_univ (V4 m) c 0).symm ▸ Set.mem_univ x : x ∈ (R2.dat (V4 m) c).recorded 0)
      iexact HO
    isplitl [Hp]; · iexact Hp
    iexact Hrest
  hin c := by
    have h : (iprop((∃ r, prngReg c r) ∗ Pipeline.prefHeld (pcfgs (F := F) 2).pre c (fun _ => fullShare) (adm (F := F) 2).1
        ∗ Pipeline.scopedRest spec2 c) : sProp 𝕄) ⊢ Pipeline.ΦA spec2 c := by
      unfold Pipeline.ΦA
      iintro ⟨Hp, -, Hr⟩
      isplitl [Hr]; · iexact Hr
      iexact Hp
    exact h.trans (R2.hin (V4 m) c)
  hout c := by
    rw [Pipeline.ownSems0_none]
    have h : (Pipeline.ΦA spec2 c : sProp 𝕄) ⊢ iprop((∃ r, prngReg c r) ∗ emp ∗ Pipeline.scopedRest spec2 c) := by
      unfold Pipeline.ΦA
      iintro ⟨Hr, Hp⟩
      isplitl [Hp]; · iexact Hp
      isplitr; · iempintro
      iexact Hr
    exact (R2.hout (V4 m) c).trans h
  hexit c := by
    have eN : (pdats m 2 c).owed (Fin.last _) = 0 := R2.owed_zero (V4 m) c _
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => R2.q_full (V4 m) c w)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

/-! ## @main as the run of its items -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m) ]
theorem main_run (c : Dev nD) : main (F := F) c = Pipeline.Seg.run (segs m) := (main_chain c).trans (by chain_rfl)

set_option backward.isDefEq.respectTransparency.types false in
/-- From any memory with zero counters every weakly fair execution of @main terminates without a fault, and in the
    final memory every unscoped buffer holds the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-! ## The arguments at every valuation: no reshape writes one, no region stores into one -/

theorem W1_main_arg0 (c : Dev nD) : W1 m c (Proc.devRef .tc main_arg0) = m ((c : Thread nD τ).loc main_arg0) :=
  StableHlo.after_of_writes_sub hostOps0 _ hostOps0_writes (by decide : main_arg0 ∉ hostOps0_W)
theorem W2_main_arg0 (c : Dev nD) : W2 m c (Proc.devRef .tc main_arg0) = m ((c : Thread nD τ).loc main_arg0) :=
  ((W2_arr m c 0).trans (((R0.dat (V1 m) c).arrAt_in 0 rfl _).trans (R0.A_eq (V1 m) c 0))).trans (W1_main_arg0 m c)
theorem W3_main_arg0 (c : Dev nD) : W3 m c (Proc.devRef .tc main_arg0) = m ((c : Thread nD τ).loc main_arg0) :=
  (StableHlo.after_of_writes_sub hostOps1 _ hostOps1_writes (by decide : main_arg0 ∉ hostOps1_W)).trans (W2_main_arg0 m c)
theorem W4_main_arg0 (c : Dev nD) : W4 m c (Proc.devRef .tc main_arg0) = m ((c : Thread nD τ).loc main_arg0) :=
  (W4_of_ne m c main_arg0 (by decide)).trans (W3_main_arg0 m c)
/-- `main_arg0` ends as launched: no reshape writes it and no region stores into it. -/
theorem W5_main_arg0 (c : Dev nD) : W5 m c (Proc.devRef .tc main_arg0) = m ((c : Thread nD τ).loc main_arg0) :=
  (W5_of_ne m c main_arg0 (by decide)).trans (W4_main_arg0 m c)

theorem W1_main_arg1 (c : Dev nD) : W1 m c (Proc.devRef .tc main_arg1) = m ((c : Thread nD τ).loc main_arg1) :=
  StableHlo.after_of_writes_sub hostOps0 _ hostOps0_writes (by decide : main_arg1 ∉ hostOps0_W)
theorem W2_main_arg1 (c : Dev nD) : W2 m c (Proc.devRef .tc main_arg1) = m ((c : Thread nD τ).loc main_arg1) :=
  (W2_of_ne m c main_arg1 (by decide)).trans (W1_main_arg1 m c)
theorem W3_main_arg1 (c : Dev nD) : W3 m c (Proc.devRef .tc main_arg1) = m ((c : Thread nD τ).loc main_arg1) :=
  (StableHlo.after_of_writes_sub hostOps1 _ hostOps1_writes (by decide : main_arg1 ∉ hostOps1_W)).trans (W2_main_arg1 m c)
theorem W4_main_arg1 (c : Dev nD) : W4 m c (Proc.devRef .tc main_arg1) = m ((c : Thread nD τ).loc main_arg1) :=
  ((W4_arr m c 3).trans (((R1.dat (V3 m) c).arrAt_in 3 rfl _).trans (R1.A_eq (V3 m) c 3))).trans (W3_main_arg1 m c)
/-- `main_arg1` ends as launched: no reshape writes it and no region stores into it. -/
theorem W5_main_arg1 (c : Dev nD) : W5 m c (Proc.devRef .tc main_arg1) = m ((c : Thread nD τ).loc main_arg1) :=
  (W5_of_ne m c main_arg1 (by decide)).trans (W4_main_arg1 m c)

theorem W1_main_arg2 (c : Dev nD) : W1 m c (Proc.devRef .tc main_arg2) = m ((c : Thread nD τ).loc main_arg2) :=
  StableHlo.after_of_writes_sub hostOps0 _ hostOps0_writes (by decide : main_arg2 ∉ hostOps0_W)
theorem W2_main_arg2 (c : Dev nD) : W2 m c (Proc.devRef .tc main_arg2) = m ((c : Thread nD τ).loc main_arg2) :=
  ((W2_arr m c 1).trans (((R0.dat (V1 m) c).arrAt_in 1 rfl _).trans (R0.A_eq (V1 m) c 1))).trans (W1_main_arg2 m c)
theorem W3_main_arg2 (c : Dev nD) : W3 m c (Proc.devRef .tc main_arg2) = m ((c : Thread nD τ).loc main_arg2) :=
  (StableHlo.after_of_writes_sub hostOps1 _ hostOps1_writes (by decide : main_arg2 ∉ hostOps1_W)).trans (W2_main_arg2 m c)
theorem W4_main_arg2 (c : Dev nD) : W4 m c (Proc.devRef .tc main_arg2) = m ((c : Thread nD τ).loc main_arg2) :=
  (W4_of_ne m c main_arg2 (by decide)).trans (W3_main_arg2 m c)
/-- `main_arg2` ends as launched: no reshape writes it and no region stores into it. -/
theorem W5_main_arg2 (c : Dev nD) : W5 m c (Proc.devRef .tc main_arg2) = m ((c : Thread nD τ).loc main_arg2) :=
  (W5_of_ne m c main_arg2 (by decide)).trans (W4_main_arg2 m c)

theorem W1_main_arg3 (c : Dev nD) : W1 m c (Proc.devRef .tc main_arg3) = m ((c : Thread nD τ).loc main_arg3) :=
  StableHlo.after_of_writes_sub hostOps0 _ hostOps0_writes (by decide : main_arg3 ∉ hostOps0_W)
theorem W2_main_arg3 (c : Dev nD) : W2 m c (Proc.devRef .tc main_arg3) = m ((c : Thread nD τ).loc main_arg3) :=
  (W2_of_ne m c main_arg3 (by decide)).trans (W1_main_arg3 m c)
theorem W3_main_arg3 (c : Dev nD) : W3 m c (Proc.devRef .tc main_arg3) = m ((c : Thread nD τ).loc main_arg3) :=
  (StableHlo.after_of_writes_sub hostOps1 _ hostOps1_writes (by decide : main_arg3 ∉ hostOps1_W)).trans (W2_main_arg3 m c)
theorem W4_main_arg3 (c : Dev nD) : W4 m c (Proc.devRef .tc main_arg3) = m ((c : Thread nD τ).loc main_arg3) :=
  (W4_of_ne m c main_arg3 (by decide)).trans (W3_main_arg3 m c)
/-- `main_arg3` ends as launched: no reshape writes it and no region stores into it. -/
theorem W5_main_arg3 (c : Dev nD) : W5 m c (Proc.devRef .tc main_arg3) = m ((c : Thread nD τ).loc main_arg3) :=
  (W5_of_ne m c main_arg3 (by decide)).trans (W4_main_arg3 m c)

theorem W1_main_arg4 (c : Dev nD) : W1 m c (Proc.devRef .tc main_arg4) = m ((c : Thread nD τ).loc main_arg4) :=
  StableHlo.after_of_writes_sub hostOps0 _ hostOps0_writes (by decide : main_arg4 ∉ hostOps0_W)
theorem W2_main_arg4 (c : Dev nD) : W2 m c (Proc.devRef .tc main_arg4) = m ((c : Thread nD τ).loc main_arg4) :=
  (W2_of_ne m c main_arg4 (by decide)).trans (W1_main_arg4 m c)
theorem W3_main_arg4 (c : Dev nD) : W3 m c (Proc.devRef .tc main_arg4) = m ((c : Thread nD τ).loc main_arg4) :=
  (StableHlo.after_of_writes_sub hostOps1 _ hostOps1_writes (by decide : main_arg4 ∉ hostOps1_W)).trans (W2_main_arg4 m c)
theorem W4_main_arg4 (c : Dev nD) : W4 m c (Proc.devRef .tc main_arg4) = m ((c : Thread nD τ).loc main_arg4) :=
  ((W4_arr m c 1).trans (((R1.dat (V3 m) c).arrAt_in 1 rfl _).trans (R1.A_eq (V3 m) c 1))).trans (W3_main_arg4 m c)
/-- `main_arg4` ends as launched: no reshape writes it and no region stores into it. -/
theorem W5_main_arg4 (c : Dev nD) : W5 m c (Proc.devRef .tc main_arg4) = m ((c : Thread nD τ).loc main_arg4) :=
  (W5_of_ne m c main_arg4 (by decide)).trans (W4_main_arg4 m c)

theorem W1_main_arg5 (c : Dev nD) : W1 m c (Proc.devRef .tc main_arg5) = m ((c : Thread nD τ).loc main_arg5) :=
  StableHlo.after_of_writes_sub hostOps0 _ hostOps0_writes (by decide : main_arg5 ∉ hostOps0_W)
theorem W2_main_arg5 (c : Dev nD) : W2 m c (Proc.devRef .tc main_arg5) = m ((c : Thread nD τ).loc main_arg5) :=
  (W2_of_ne m c main_arg5 (by decide)).trans (W1_main_arg5 m c)
theorem W3_main_arg5 (c : Dev nD) : W3 m c (Proc.devRef .tc main_arg5) = m ((c : Thread nD τ).loc main_arg5) :=
  (StableHlo.after_of_writes_sub hostOps1 _ hostOps1_writes (by decide : main_arg5 ∉ hostOps1_W)).trans (W2_main_arg5 m c)
theorem W4_main_arg5 (c : Dev nD) : W4 m c (Proc.devRef .tc main_arg5) = m ((c : Thread nD τ).loc main_arg5) :=
  (W4_of_ne m c main_arg5 (by decide)).trans (W3_main_arg5 m c)
/-- `main_arg5` ends as launched: no reshape writes it and no region stores into it. -/
theorem W5_main_arg5 (c : Dev nD) : W5 m c (Proc.devRef .tc main_arg5) = m ((c : Thread nD τ).loc main_arg5) :=
  (W5_of_ne m c main_arg5 (by decide)).trans (W4_main_arg5 m c)

theorem W1_main_arg6 (c : Dev nD) : W1 m c (Proc.devRef .tc main_arg6) = m ((c : Thread nD τ).loc main_arg6) :=
  StableHlo.after_of_writes_sub hostOps0 _ hostOps0_writes (by decide : main_arg6 ∉ hostOps0_W)
theorem W2_main_arg6 (c : Dev nD) : W2 m c (Proc.devRef .tc main_arg6) = m ((c : Thread nD τ).loc main_arg6) :=
  (W2_of_ne m c main_arg6 (by decide)).trans (W1_main_arg6 m c)
theorem W3_main_arg6 (c : Dev nD) : W3 m c (Proc.devRef .tc main_arg6) = m ((c : Thread nD τ).loc main_arg6) :=
  (StableHlo.after_of_writes_sub hostOps1 _ hostOps1_writes (by decide : main_arg6 ∉ hostOps1_W)).trans (W2_main_arg6 m c)
theorem W4_main_arg6 (c : Dev nD) : W4 m c (Proc.devRef .tc main_arg6) = m ((c : Thread nD τ).loc main_arg6) :=
  ((W4_arr m c 4).trans (((R1.dat (V3 m) c).arrAt_in 4 rfl _).trans (R1.A_eq (V3 m) c 4))).trans (W3_main_arg6 m c)
/-- `main_arg6` ends as launched: no reshape writes it and no region stores into it. -/
theorem W5_main_arg6 (c : Dev nD) : W5 m c (Proc.devRef .tc main_arg6) = m ((c : Thread nD τ).loc main_arg6) :=
  (W5_of_ne m c main_arg6 (by decide)).trans (W4_main_arg6 m c)

theorem W1_main_arg7 (c : Dev nD) : W1 m c (Proc.devRef .tc main_arg7) = m ((c : Thread nD τ).loc main_arg7) :=
  StableHlo.after_of_writes_sub hostOps0 _ hostOps0_writes (by decide : main_arg7 ∉ hostOps0_W)
theorem W2_main_arg7 (c : Dev nD) : W2 m c (Proc.devRef .tc main_arg7) = m ((c : Thread nD τ).loc main_arg7) :=
  (W2_of_ne m c main_arg7 (by decide)).trans (W1_main_arg7 m c)
theorem W3_main_arg7 (c : Dev nD) : W3 m c (Proc.devRef .tc main_arg7) = m ((c : Thread nD τ).loc main_arg7) :=
  (StableHlo.after_of_writes_sub hostOps1 _ hostOps1_writes (by decide : main_arg7 ∉ hostOps1_W)).trans (W2_main_arg7 m c)
theorem W4_main_arg7 (c : Dev nD) : W4 m c (Proc.devRef .tc main_arg7) = m ((c : Thread nD τ).loc main_arg7) :=
  (W4_of_ne m c main_arg7 (by decide)).trans (W3_main_arg7 m c)
/-- `main_arg7` ends as launched: no reshape writes it and no region stores into it. -/
theorem W5_main_arg7 (c : Dev nD) : W5 m c (Proc.devRef .tc main_arg7) = m ((c : Thread nD τ).loc main_arg7) :=
  (W5_of_ne m c main_arg7 (by decide)).trans (W4_main_arg7 m c)

/-! ## `q` after the first region, as the later regions find it -/

/-- The first region's output array is not written by the two reshapes after it. -/
theorem W3_main_v1 (c : Dev nD) : W3 m c (Proc.devRef .tc main_v1) = (R0.dat (V1 m) c).arrAt 3 cfg0.N :=
  (StableHlo.after_of_writes_sub hostOps1 _ hostOps1_writes (by decide : main_v1 ∉ hostOps1_W)).trans (W2_arr m c 3)
/-- The second region only reads it (its window 0). -/
theorem W4_main_v1 (c : Dev nD) : W4 m c (Proc.devRef .tc main_v1) = (R0.dat (V1 m) c).arrAt 3 cfg0.N :=
  ((W4_arr m c 0).trans (((R1.dat (V3 m) c).arrAt_in 0 rfl _).trans (R1.A_eq (V3 m) c 0))).trans (W3_main_v1 m c)
/-- The second region's output array after it. -/
theorem W4_main_v4 (c : Dev nD) : W4 m c (Proc.devRef .tc main_v4) = (R1.dat (V3 m) c).arrAt 6 cfg1.N := W4_arr m c 6

/-! ## The frame, and the run with the result named -/

/-- Every weakly fair execution terminates without a fault and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
      (h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c),
      (h c _ (mem_uc main_arg6 (by decide))).trans (W5_main_arg6 m c),
      (h c _ (mem_uc main_arg7 (by decide))).trans (W5_main_arg7 m c)⟩) (run_all m ρ)

/-- The same run with the result named: the result array ends at what the last region's write-backs leave. -/
theorem run_result : θ_run defs (onTc (τ := τ) (main (F := F))) ⟨m, fun _ => 0, ρ⟩ (fun r => ∀ c : Dev nD,
      r.2.mem ((c.tc : Thread nD τ).loc main_v5) = (R2.dat (V4 m) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v5 (by decide))).trans (W5_arr m c 2),
      (h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c),
      (h c _ (mem_uc main_arg6 (by decide))).trans (W5_main_arg6 m c),
      (h c _ (mem_uc main_arg7 (by decide))).trans (W5_main_arg7 m c)⟩) (run_all m ρ)

end Cert.KernelIdeal.Asm

end
-- ==== Proof.KI.R0VPieces.lean ====
import proofs.«179627_j38019050504386_2_alg».proof.Proof.KI.R0
import Idealize.ShloMosaic.Lib.Pipeline.Value
import Idealize.ShloMosaic.Lib.ValueIdx
import Idealize.ShloMosaic.Lib.Tactic

set_option maxRecDepth 16384

noncomputable section

namespace Cert.KernelIdeal.R0

open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen

variable {F : FTy → Type} [FloatOps F]

theorem zero_off : (![0, 0] : Fin 2 → Nat) = fun _ => 0 := funext fun a => by fin_cases a <;> rfl

/-- A middle step leaves in the accumulator what came in plus the product of the two blocks. -/
theorem accMid_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : ¬firstStep i) (hl : ¬lastStep i) (x : Vec F S1024x1024 .f32) (w : Vec F S1024x1024 .f32) (b : Vec F S1x1024 .f32) (a : Vec F S1024x1024 .f32) :
    accMid c i arg3 harg3 arg4 harg4 arg5 harg5 arg6 harg6 arg7 harg7 hz hl x w b a = k0_pay2 x w a := by
  unfold accMid
  rw [View.read_writes_eq_canon _ _ _ (accMid_cover c i arg3 harg3 arg4 harg4 arg5 harg5 arg6 harg6 arg7 harg7 hz hl x w b a)]
  unfold runMid
  dsimp only
  sl_unfold_words
  rw [View.canon_unit_zero zero_off]
  simp only [View.readAt_eq_ld, harg3.read_unread, harg4.read_unread, harg7.read_unread, View.ld_unit_zero (S := S1024x1024) zero_off]

/-- The last step leaves the same in the accumulator. -/
theorem accLast_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : ¬firstStep i) (hl : lastStep i) (x : Vec F S1024x1024 .f32) (w : Vec F S1024x1024 .f32) (b : Vec F S1x1024 .f32) (a : Vec F S1024x1024 .f32) :
    accLast c i arg3 harg3 arg4 harg4 arg5 harg5 arg6 harg6 arg7 harg7 hz hl x w b a = k0_pay2 x w a := by
  unfold accLast
  rw [View.read_writes_eq_canon _ _ _ (accLast_cover c i arg3 harg3 arg4 harg4 arg5 harg5 arg6 harg6 arg7 harg7 hz hl x w b a)]
  unfold runLast
  dsimp only
  sl_unfold_words
  rw [View.canon_unit_zero zero_off]
  simp only [View.readAt_eq_ld, harg3.read_unread, harg4.read_unread, harg7.read_unread, View.ld_unit_zero (S := S1024x1024) zero_off]

/-- The first step leaves the product of the two blocks added to the zero block. -/
theorem accFirst_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : firstStep i) (hl : ¬lastStep i) (x : Vec F S1024x1024 .f32) (w : Vec F S1024x1024 .f32) (b : Vec F S1x1024 .f32) :
    accFirst c i arg3 harg3 arg4 harg4 arg5 harg5 arg6 harg6 arg7 harg7 hz hl x w b = k0_pay2 x w (k0_pay1 (F := F)) := by
  unfold accFirst
  rw [View.read_writes_eq_canon _ _ _ (accFirst_cover c i arg3 harg3 arg4 harg4 arg5 harg5 arg6 harg6 arg7 harg7 hz hl x w b)]
  unfold runFirst
  dsimp only
  sl_unfold_words
  rw [View.canon_cons_unit_zero (S := S1024x1024) zero_off, View.readCov_unit_zero (S := S1024x1024) _ zero_off]
  simp only [View.readAt_eq_ld, harg3.read_unread, harg4.read_unread, View.ld_unit_zero (S := S1024x1024) zero_off]

/-- The last step leaves in the output block the accumulator it has just completed plus the bias row, rounded. -/
theorem qLast_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hz : ¬firstStep i) (hl : lastStep i) (x : Vec F S1024x1024 .f32) (w : Vec F S1024x1024 .f32) (b : Vec F S1x1024 .f32) (a : Vec F S1024x1024 .f32) :
    qLast c i arg3 harg3 arg4 harg4 arg5 harg5 arg6 harg6 arg7 harg7 hz hl x w b a = k0_pay3 (k0_pay2 x w a) b := by
  unfold qLast
  rw [View.read_writes_eq_canon _ _ _ (qLast_cover c i arg3 harg3 arg4 harg4 arg5 harg5 arg6 harg6 arg7 harg7 hz hl x w b a)]
  unfold runLast
  dsimp only
  sl_unfold_words
  rw [View.canon_unit_zero zero_off, View.readCov_unit_zero (S := S1024x1024) _ zero_off]
  simp only [View.readAt_eq_ld, harg3.read_unread, harg4.read_unread, harg5.read_unread, harg7.read_unread, View.ld_unit_zero (S := S1024x1024) zero_off, View.ld_unit_zero (S := S1x1024) zero_off]

end Cert.KernelIdeal.R0
end
-- ==== Proof.LibBlockSum.lean ====
import Mathlib.Algebra.BigOperators.Fin
import Mathlib.Tactic.Ring

/-! A finite sum over `K·B` consecutive positions, regrouped into `K` blocks of `B`. -/

namespace Cert.Lib

/-- A sum over `K·B` consecutive positions is the sum over the `K` blocks of the sums inside each block of
    `B` positions (position `k·B + d` is position `d` of block `k`), in any commutative additive monoid. -/
theorem sum_blocks {M : Type*} [AddCommMonoid M] (K B : ℕ) (f : Fin (K * B) → M) :
    ∑ i : Fin (K * B), f i
      = ∑ k : Fin K, ∑ d : Fin B, f ⟨k.val * B + d.val, by
          calc k.val * B + d.val < k.val * B + B := Nat.add_lt_add_left d.isLt _
            _ = (k.val + 1) * B := by ring
            _ ≤ K * B := Nat.mul_le_mul_right B k.isLt⟩ := by
  rw [← Finset.sum_product', ← (finProdFinEquiv (m := K) (n := B)).sum_comp, Finset.univ_product_univ]
  refine Finset.sum_congr rfl fun x _ => congrArg f (Fin.ext ?_)
  simp only [finProdFinEquiv, Equiv.coe_fn_mk]
  ring

end Cert.Lib
-- ==== Proof.Spec.lean ====
import Idealize.ShloMosaic.PureOps.Ideal
import proofs.«179627_j38019050504386_2_alg».proof.Proof.LibBlockSum

/-! The scalar formula of the modulated key, over the extended reals. -/

noncomputable section
namespace Cert.Spec

open Idealize.ShloMosaic

/-- An array over the extended reals, presented at its shape (the identity: it only fixes the type at which an
    entry is read). -/
abbrev arr (S : Shape) (x : S.Idx → EReal) : S.Idx → EReal := x

/-- The modulated key entry from the context entry `ctx` and the key entry `kv`:
    `min 6 (max 0 ((kv·kv + 2·kv) + ctx·(1 + |kv|)))`, the literals as their binary words. -/
def kmodS (ctx kv : EReal) : EReal :=
  min (Ideal.ofBits .f32 0x40C00000#32)
    (max (Ideal.ofBits .f32 0x00000000#32)
      ((kv * kv + Ideal.ofBits .f32 0x40000000#32 * kv)
        + ctx * (Ideal.ofBits .f32 0x3F800000#32 + FloatOps.absf (F := Ideal) (φ := .f32) kv)))

end Cert.Spec
end
-- ==== Proof.KI.R0VPay.lean ====
import proofs.«179627_j38019050504386_2_alg».proof.Proof.KI.R0VPieces
import proofs.«179627_j38019050504386_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0

open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen

/-- The dimension record of the body's product: both operands contracted along their second axis. -/
abbrev qDot : DotDims S1024x1024 S1024x1024 S1024x1024 := dot_S1024x1024_S1024x1024_S1024x1024_1_1_0_0_n_n

/-! ## The product's operand indices: both operands are contracted along their second axis -/

theorem lhs_row (j : S1024x1024.Idx) (q : qDot.contr.Idx) : (qDot.lhsIdx j q 0).val = (j 0).val := by
  unfold DotDims.lhsIdx
  rw [dif_neg (show ¬(0 : Fin S1024x1024.rank) ∈ qDot.lhsBatch by decide), dif_pos (show (0 : Fin S1024x1024.rank) ∈ qDot.lhsNonContracting by decide)]
  rfl
theorem lhs_col (j : S1024x1024.Idx) (q : qDot.contr.Idx) : (qDot.lhsIdx j q 1).val = (q ⟨0, by decide⟩).val :=
  qDot.lhsIdx_val_of_single rfl j q
theorem rhs_row (j : S1024x1024.Idx) (q : qDot.contr.Idx) : (qDot.rhsIdx j q 0).val = (j 1).val := by
  unfold DotDims.rhsIdx
  rw [dif_neg (show ¬(0 : Fin S1024x1024.rank) ∈ qDot.rhsBatch by decide), dif_pos (show (0 : Fin S1024x1024.rank) ∈ qDot.rhsNonContracting by decide)]
  rfl
theorem rhs_col (j : S1024x1024.Idx) (q : qDot.contr.Idx) : (qDot.rhsIdx j q 1).val = (q ⟨0, by decide⟩).val :=
  qDot.rhsIdx_val_of_single rfl j q

/-! ## The three payloads at an entry, over the extended reals -/

/-- The zero block. -/
theorem pay1_apply (r s : Fin 1024) : k0_pay1 (F := Ideal) (ix2 r s) = 0 := by
  unfold k0_pay1
  refine (congrFun (shapeCast_self _ _) (ix2 r s)).trans ?_
  exact Ideal.ofBits_zero_f32

/-- One accumulation step: entry (r, s) gains the inner product of row r of the data block and row s of the
    weight block. -/
theorem pay2_apply (x w a : Vec Ideal S1024x1024 .f32) (r s : Fin 1024) :
    k0_pay2 (F := Ideal) x w a (ix2 r s) = a (ix2 r s) + ∑ d : Fin 1024, x (ix2 r d) * w (ix2 s d) := by
  unfold k0_pay2
  refine (congrFun (shapeCast_self _ _) (ix2 r s)).trans ?_
  refine congrArg (a (ix2 r s) + ·) ?_
  refine (Ideal.matmul_constant_zero_apply qDot none _ _ (ix2 r s)).trans ?_
  rw [← Equiv.sum_comp (contrEquiv1 qDot 1024 rfl rfl).symm]
  refine Finset.sum_congr rfl fun k _ => ?_
  have hk := contrEquiv1_symm_val qDot 1024 rfl rfl k
  have el : qDot.lhsIdx (ix2 r s) ((contrEquiv1 qDot 1024 rfl rfl).symm k) = ix2 r k := funext fun a => Fin.ext (by
    match a with
    | ⟨0, _⟩ => exact lhs_row _ _
    | ⟨1, _⟩ => exact (lhs_col _ _).trans hk)
  have er : qDot.rhsIdx (ix2 r s) ((contrEquiv1 qDot 1024 rfl rfl).symm k) = ix2 s k := funext fun a => Fin.ext (by
    match a with
    | ⟨0, _⟩ => exact rhs_row _ _
    | ⟨1, _⟩ => exact (rhs_col _ _).trans hk)
  rw [el, er]
  rfl

/-- The last step's store: the accumulator plus the bias row's entry of the column. -/
theorem pay3_apply (acc : Vec Ideal S1024x1024 .f32) (b : Vec Ideal S1x1024 .f32) (r s : Fin 1024) :
    k0_pay3 (F := Ideal) acc b (ix2 r s) = acc (ix2 r s) + b (ix2 (0 : Fin 1) s) := by
  unfold k0_pay3
  refine congrArg (acc (ix2 r s) + ·) ?_
  refine (broadcastTo_1b_ab_apply _ _ r s).trans ?_
  exact congrFun (shapeCast_self _ _) _

end Cert.KernelIdeal.R0
end
-- ==== Proof.KI.R0VAcc.lean ====
import proofs.«179627_j38019050504386_2_alg».proof.Proof.KI.R0VPay
import proofs.«179627_j38019050504386_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.R0

open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## Where the blocks sit in their arrays -/

/-- Position `p` of block `b` (taken mod 4) along an axis of four blocks of 1024. -/
def pos (b : ℕ) (p : Fin 1024) : Fin 4096 :=
  ⟨b % 4 * 1024 + p.val, by have := p.isLt; have := Nat.mod_lt b (by decide : 0 < 4); omega⟩

/-- The block indices of the four windows at grid point `t`: the point is (row block, column block, reduction
    step) in row-major order. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

theorem lt64 (t : Fin cfg0.N) : t.val < 64 := lt_of_lt_of_eq t.isLt (show cfg0.N = 64 from N_0)

/-- An entry of the data block at point `t` is the data array's entry at the block's place. -/
theorem iblk_x (c : Dev nD) (t : Fin cfg0.N) (r d : Fin 1024) :
    (iblk V c 0 t : Vec Ideal S1024x1024 .f32) (ix2 r d)
      = Cert.Spec.arr S4096x4096 (V c main_arg0) (ix2 (pos (t.val / 16) r) (pos (t.val % 4) d)) := by
  obtain ⟨e0, e1, -⟩ := idx_facts t
  have ht := lt64 t
  show V c main_arg0 (((cfg0.win 0).blk t).view.emb (ix2 r d)) = V c main_arg0 (ix2 (pos (t.val / 16) r) (pos (t.val % 4) d))
  refine congrArg (V c main_arg0) (funext fun a => Fin.ext ?_)
  match a with
  | ⟨0, _⟩ => show win0_0.index t (0 : Fin 2) * 1024 + 1 * r.val = t.val / 16 % 4 * 1024 + r.val; rw [e0]; omega
  | ⟨1, _⟩ => show win0_0.index t (1 : Fin 2) * 1024 + 1 * d.val = t.val % 4 % 4 * 1024 + d.val; rw [e1]; omega

/-- The same for the weight block. -/
theorem iblk_w (c : Dev nD) (t : Fin cfg0.N) (s d : Fin 1024) :
    (iblk V c 1 t : Vec Ideal S1024x1024 .f32) (ix2 s d)
      = Cert.Spec.arr S4096x4096 (V c main_arg2) (ix2 (pos (t.val / 4 % 4) s) (pos (t.val % 4) d)) := by
  obtain ⟨-, -, e2, e3, -⟩ := idx_facts t
  have ht := lt64 t
  show V c main_arg2 (((cfg0.win 1).blk t).view.emb (ix2 s d)) = V c main_arg2 (ix2 (pos (t.val / 4 % 4) s) (pos (t.val % 4) d))
  refine congrArg (V c main_arg2) (funext fun a => Fin.ext ?_)
  match a with
  | ⟨0, _⟩ => show win0_1.index t (0 : Fin 2) * 1024 + 1 * s.val = t.val / 4 % 4 % 4 * 1024 + s.val; rw [e2]; omega
  | ⟨1, _⟩ => show win0_1.index t (1 : Fin 2) * 1024 + 1 * d.val = t.val % 4 % 4 * 1024 + d.val; rw [e3]; omega

/-- The same for the bias row. -/
theorem iblk_b (c : Dev nD) (t : Fin cfg0.N) (s : Fin 1024) :
    (iblk V c 2 t : Vec Ideal S1x1024 .f32) (ix2 (0 : Fin 1) s)
      = Cert.Spec.arr S1x4096 (V c main_v0) (ix2 (0 : Fin 1) (pos (t.val / 4 % 4) s)) := by
  obtain ⟨-, -, -, -, e4, e5, -⟩ := idx_facts t
  have ht := lt64 t
  show V c main_v0 (((cfg0.win 2).blk t).view.emb (ix2 (0 : Fin 1) s)) = V c main_v0 (ix2 (0 : Fin 1) (pos (t.val / 4 % 4) s))
  refine congrArg (V c main_v0) (funext fun a => Fin.ext ?_)
  match a with
  | ⟨0, _⟩ => show win0_2.index t (0 : Fin 2) * 1 + 1 * 0 = 0; rw [e4]
  | ⟨1, _⟩ => show win0_2.index t (1 : Fin 2) * 1024 + 1 * s.val = t.val / 4 % 4 % 4 * 1024 + s.val; rw [e5]; omega

/-! ## The accumulation, entry by entry -/

/-- The inner product of row `r` of data row-block `I` and row `s` of weight row-block `J`, over reduction
    block `k`. -/
def blockDot (c : Dev nD) (I J k : ℕ) (r s : Fin 1024) : EReal :=
  ∑ d : Fin 1024, Cert.Spec.arr S4096x4096 (V c main_arg0) (ix2 (pos I r) (pos k d))
    * Cert.Spec.arr S4096x4096 (V c main_arg2) (ix2 (pos J s) (pos k d))

/-- The inner products over the reduction blocks `0, …, k`. -/
def partialDot (c : Dev nD) (I J k : ℕ) (r s : Fin 1024) : EReal :=
  ∑ k' ∈ Finset.range (k + 1), blockDot V c I J k' r s

theorem partialDot_zero (c : Dev nD) (I J : ℕ) (r s : Fin 1024) : partialDot V c I J 0 r s = blockDot V c I J 0 r s := by
  unfold partialDot; rw [Finset.sum_range_one]

theorem partialDot_succ (c : Dev nD) (I J k : ℕ) (r s : Fin 1024) :
    partialDot V c I J (k + 1) r s = partialDot V c I J k r s + blockDot V c I J (k + 1) r s := by
  unfold partialDot; rw [Finset.sum_range_succ]

/-- One accumulation step at point `t`: the accumulator's entry gains the point's block inner product. -/
theorem acc_step (c : Dev nD) (t : Fin cfg0.N) (a : Vec Ideal S1024x1024 .f32) (r s : Fin 1024) :
    k0_pay2 (F := Ideal) (iblk V c 0 t) (iblk V c 1 t) a (ix2 r s)
      = a (ix2 r s) + blockDot V c (t.val / 16) (t.val / 4 % 4) (t.val % 4) r s := by
  refine (pay2_apply (iblk V c 0 t) (iblk V c 1 t) a r s).trans ?_
  refine congrArg (a (ix2 r s) + ·) ?_
  unfold blockDot
  refine Finset.sum_congr rfl fun d _ => ?_
  rw [iblk_x V c t r d, iblk_w V c t s d]

/-- After a point of the first reduction step the accumulator holds the point's block inner product. -/
theorem firstAt_acc (c : Dev nD) (t : Fin cfg0.N) (h0 : t.val % 4 = 0) (r s : Fin 1024) :
    (firstAt V c t h0).2 (ix2 r s) = blockDot V c (t.val / 16) (t.val / 4 % 4) (t.val % 4) r s := by
  unfold firstAt; dsimp only
  refine (congrFun (accFirst_eq c (grid0.coords t) (xM t) (hxM t) (wM t) (hwM t) (bM t) (hbM t) (qM t) (hqM t) accM (Memref.isWhole_whole _) ((firstStep_iff t).mpr h0) (not_last_of_first t h0) (iblk V c 0 t) (iblk V c 1 t) (iblk V c 2 t)) (ix2 r s)).trans ?_
  refine (acc_step V c t (k0_pay1 (F := Ideal)) r s).trans ?_
  rw [pay1_apply, zero_add]

/-- After a point of a middle step it has gained the point's block inner product. -/
theorem midAt_acc (c : Dev nD) (t : Fin cfg0.N) (h0 : ¬t.val % 4 = 0) (h1 : ¬t.val % 4 = 3) (a : Vec Ideal S1024x1024 .f32) (r s : Fin 1024) :
    (midAt V c t h0 h1 a).2 (ix2 r s) = a (ix2 r s) + blockDot V c (t.val / 16) (t.val / 4 % 4) (t.val % 4) r s := by
  unfold midAt; dsimp only
  refine (congrFun (accMid_eq c (grid0.coords t) (xM t) (hxM t) (wM t) (hwM t) (bM t) (hbM t) (qM t) (hqM t) accM (Memref.isWhole_whole _) (fun h => h0 ((firstStep_iff t).mp h)) (fun h => h1 ((lastStep_iff t).mp h)) (iblk V c 0 t) (iblk V c 1 t) (iblk V c 2 t) a) (ix2 r s)).trans ?_
  exact acc_step V c t a r s

/-- Likewise after a point of the last step. -/
theorem lastAt_acc (c : Dev nD) (t : Fin cfg0.N) (h1 : t.val % 4 = 3) (a : Vec Ideal S1024x1024 .f32) (r s : Fin 1024) :
    (lastAt V c t h1 a).2 (ix2 r s) = a (ix2 r s) + blockDot V c (t.val / 16) (t.val / 4 % 4) (t.val % 4) r s := by
  unfold lastAt; dsimp only
  refine (congrFun (accLast_eq c (grid0.coords t) (xM t) (hxM t) (wM t) (hwM t) (bM t) (hbM t) (qM t) (hqM t) accM (Memref.isWhole_whole _) (not_first_of_last t h1) ((lastStep_iff t).mpr h1) (iblk V c 0 t) (iblk V c 1 t) (iblk V c 2 t) a) (ix2 r s)).trans ?_
  exact acc_step V c t a r s

/-- And the output block then holds the completed accumulator plus the bias entry of the column. -/
theorem lastAt_q (c : Dev nD) (t : Fin cfg0.N) (h1 : t.val % 4 = 3) (a : Vec Ideal S1024x1024 .f32) (r s : Fin 1024) :
    (lastAt V c t h1 a).1 (ix2 r s)
      = (a (ix2 r s) + blockDot V c (t.val / 16) (t.val / 4 % 4) (t.val % 4) r s)
        + Cert.Spec.arr S1x4096 (V c main_v0) (ix2 (0 : Fin 1) (pos (t.val / 4 % 4) s)) := by
  unfold lastAt; dsimp only
  refine (congrFun (qLast_eq c (grid0.coords t) (xM t) (hxM t) (wM t) (hwM t) (bM t) (hbM t) (qM t) (hqM t) accM (Memref.isWhole_whole _) (not_first_of_last t h1) ((lastStep_iff t).mpr h1) (iblk V c 0 t) (iblk V c 1 t) (iblk V c 2 t) a) (ix2 r s)).trans ?_
  refine (pay3_apply (k0_pay2 (F := Ideal) (iblk V c 0 t) (iblk V c 1 t) a) (iblk V c 2 t) r s).trans ?_
  rw [acc_step V c t a r s, iblk_b V c t s]

/-- THE INVARIANT: after position `n` = (row block I, column block J, step k) the accumulator's entry (r, s) is the
    inner product over the reduction blocks `0, …, k`. By induction on the position. -/
theorem acc_eq (c : Dev nD) : ∀ (n : ℕ) (hn : n < cfg0.N) (r s : Fin 1024),
    (outsAt V c n hn).2 (ix2 r s) = partialDot V c (n / 16) (n / 4 % 4) (n % 4) r s := by
  intro n
  induction n with
  | zero =>
    intro hn r s
    rw [outsAt_first V c ⟨0, hn⟩ (Nat.zero_mod _), firstAt_acc V c ⟨0, hn⟩ (Nat.zero_mod _) r s]
    exact (partialDot_zero V c _ _ r s).symm
  | succ n ih =>
    intro hn r s
    have hN : n + 1 < 64 := lt_of_lt_of_eq hn (show cfg0.N = 64 from N_0)
    by_cases h0 : (n + 1) % 4 = 0
    · rw [outsAt_first V c ⟨n + 1, hn⟩ h0, firstAt_acc V c ⟨n + 1, hn⟩ h0 r s]
      show blockDot V c ((n + 1) / 16) ((n + 1) / 4 % 4) ((n + 1) % 4) r s = _
      rw [h0]
      exact (partialDot_zero V c _ _ r s).symm
    · have e1 : (n + 1) / 16 = n / 16 := by omega
      have e2 : (n + 1) / 4 % 4 = n / 4 % 4 := by omega
      have e3 : (n + 1) % 4 = n % 4 + 1 := by omega
      by_cases h1 : (n + 1) % 4 = 3
      · rw [outsAt_last V c ⟨n + 1, hn⟩ h1, lastAt_acc V c ⟨n + 1, hn⟩ h1 _ r s]
        show (outsAt V c n _).2 (ix2 r s) + blockDot V c ((n + 1) / 16) ((n + 1) / 4 % 4) ((n + 1) % 4) r s = _
        rw [ih _ r s, e1, e2, e3, partialDot_succ]
      · rw [outsAt_mid V c ⟨n + 1, hn⟩ h0 h1, midAt_acc V c ⟨n + 1, hn⟩ h0 h1 _ r s]
        show (outsAt V c n _).2 (ix2 r s) + blockDot V c ((n + 1) / 16) ((n + 1) / 4 % 4) ((n + 1) % 4) r s = _
        rw [ih _ r s, e1, e2, e3, partialDot_succ]

end Cert.KernelIdeal.R0
end
-- ==== Proof.KI.R0Value.lean ====
import proofs.«179627_j38019050504386_2_alg».proof.Proof.KI.R0VAcc
import proofs.«179627_j38019050504386_2_alg».proof.Proof.KI.R0
import proofs.«179627_j38019050504386_2_alg».proof.Proof.Spec
import Idealize.ShloMosaic.Lib.Pipeline.Value
import Idealize.ShloMosaic.Lib.ValueIdx
import Idealize.ShloMosaic.PureOps.Ideal.Laws

set_option maxRecDepth 16384
noncomputable section
namespace Cert.KernelIdeal.R0
open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The projection, entry by entry -/

/-- Entry (n, j) of the projection: row n of the data against row j of the weights, plus the bias of column j. -/
def entry (c : Dev nD) (n j : Fin 4096) : EReal :=
  (∑ d : Fin 4096, Cert.Spec.arr S4096x4096 (V c main_arg0) (ix2 n d) * Cert.Spec.arr S4096x4096 (V c main_arg2) (ix2 j d))
    + Cert.Spec.arr S1x4096 (V c main_v0) (ix2 (0 : Fin 1) j)

/-- The projection as contents of the output array. -/
def G (c : Dev nD) : Buf (Elt Ideal) ((c : Thread nD τ).loc main_v1) :=
  fun i => entry V c ⟨(i 0).val, (i 0).isLt⟩ ⟨(i 1).val, (i 1).isLt⟩

/-- A sum over the 4096 positions of an axis, regrouped by its four blocks of 1024. -/
theorem sum_by_blocks (f : Fin 4096 → EReal) :
    ∑ d : Fin 4096, f d = ∑ k ∈ Finset.range 4, ∑ d : Fin 1024, f (pos k d) := by
  rw [Finset.sum_range]
  refine (Cert.Lib.sum_blocks 4 1024 f).trans ?_
  refine Finset.sum_congr rfl fun k _ => Finset.sum_congr rfl fun d _ => congrArg f (Fin.ext ?_)
  show k.val * 1024 + d.val = k.val % 4 * 1024 + d.val
  rw [Nat.mod_eq_of_lt k.isLt]

/-- An entry inside block (I, J) is the inner product over the four reduction blocks plus the bias. -/
theorem entry_blocks (c : Dev nD) (I J : ℕ) (r s : Fin 1024) :
    entry V c (pos I r) (pos J s)
      = partialDot V c I J 3 r s + Cert.Spec.arr S1x4096 (V c main_v0) (ix2 (0 : Fin 1) (pos J s)) := by
  unfold entry partialDot blockDot
  rw [sum_by_blocks]

/-! ## From the blocks to the array -/

/-- After a point of the last step the output block's entry (r, s) is the projection's entry at the block's place. -/
theorem last_block_entry (c : Dev nD) (t : Fin cfg0.N) (h1 : t.val % 4 = 3) (r s : Fin 1024) :
    (outsAt V c t.val t.isLt).1 (ix2 r s) = entry V c (pos (t.val / 16) r) (pos (t.val / 4 % 4) s) := by
  have ht := lt64 t
  have e1 : (t.val - 1) / 16 = t.val / 16 := by omega
  have e2 : (t.val - 1) / 4 % 4 = t.val / 4 % 4 := by omega
  have e3 : (t.val - 1) % 4 = 2 := by omega
  rw [outsAt_last V c t h1]
  refine (lastAt_q V c t h1 _ r s).trans ?_
  rw [acc_eq V c (t.val - 1) _ r s, e1, e2, e3, h1, entry_blocks V c (t.val / 16) (t.val / 4 % 4) r s]
  exact congrArg (· + _) (partialDot_succ V c (t.val / 16) (t.val / 4 % 4) 2 r s).symm

/-- The projection read at entry (r, s) of the output block of point `t`. -/
theorem G_at_block (c : Dev nD) (t : Fin cfg0.N) (r s : Fin 1024) :
    G V c (((cfg0.win 3).blk t).view.emb (ix2 r s)) = entry V c (pos (t.val / 16) r) (pos (t.val / 4 % 4) s) := by
  obtain ⟨-, -, -, -, -, -, e6, e7⟩ := idx_facts t
  have ht := lt64 t
  unfold G
  refine congrArg₂ (entry V c) (Fin.ext ?_) (Fin.ext ?_)
  · show win0_3.index t (0 : Fin 2) * 1024 + 1 * r.val = t.val / 16 % 4 * 1024 + r.val
    rw [e6]; omega
  · show win0_3.index t (1 : Fin 2) * 1024 + 1 * s.val = t.val / 4 % 4 % 4 * 1024 + s.val
    rw [e7]; omega

/-! ## From the blocks to the array -/

/-- WHAT A POINT OF THE LAST STEP WRITES BACK is its block of the projection. -/
theorem flushed_eq (c : Dev nD) (t : Fin cfg0.N) (hf : (cfg0.win 3).flush t = true) :
    (dat V c).flushed 3 t = ((cfg0.win 3).blk t).view.read (Elt Ideal) (G V c) := by
  have h1 : t.val % 4 = 3 := (flush0_3 t).mp hf
  show (cfg0.win 3).cut (grid0.coords t) ((dat V c).after 3 t) = _
  rw [after_q]
  funext y
  show (outsAt V c t.val t.isLt).1 y = G V c (((cfg0.win 3).blk t).view.emb y)
  obtain ⟨r, s, rfl⟩ : ∃ r s : Fin 1024, y = ix2 r s := ⟨y 0, y 1, eq_ix2 y⟩
  exact (last_block_entry V c t h1 r s).trans (G_at_block V c t r s).symm

/-- An index of the array is in point `t`'s block iff each coordinate is in the block's range on its axis. -/
theorem mem_blk (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- Every entry is in the block of the last-step point of its row block and column block. -/
theorem cover (c : Dev nD) (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 64 := N_0
  have hlt : 16 * ((i 0).val / 1024) + 4 * ((i 1).val / 1024) + 3 < cfg0.N := by rw [hN]; omega
  refine ⟨⟨16 * ((i 0).val / 1024) + 4 * ((i 1).val / 1024) + 3, hlt⟩, (flush0_3 _).mpr (by dsimp only; omega), ?_⟩
  rw [mem_blk]
  obtain ⟨-, -, -, -, -, -, e6, e7⟩ := idx_facts ⟨16 * ((i 0).val / 1024) + 4 * ((i 1).val / 1024) + 3, hlt⟩
  intro a
  match a with
  | ⟨0, _⟩ =>
    show win0_3.index ⟨16 * ((i 0).val / 1024) + 4 * ((i 1).val / 1024) + 3, hlt⟩ (0 : Fin 2) * 1024 ≤ (i 0).val ∧ (i 0).val < win0_3.index ⟨16 * ((i 0).val / 1024) + 4 * ((i 1).val / 1024) + 3, hlt⟩ (0 : Fin 2) * 1024 + 1024
    rw [e6]; dsimp only; omega
  | ⟨1, _⟩ =>
    show win0_3.index ⟨16 * ((i 0).val / 1024) + 4 * ((i 1).val / 1024) + 3, hlt⟩ (1 : Fin 2) * 1024 ≤ (i 1).val ∧ (i 1).val < win0_3.index ⟨16 * ((i 0).val / 1024) + 4 * ((i 1).val / 1024) + 3, hlt⟩ (1 : Fin 2) * 1024 + 1024
    rw [e7]; dsimp only; omega

/-- The output array after the region is the projection. -/
theorem arrAt_q (c : Dev nD) : (dat V c).arrAt 3 cfg0.N = G V c :=
  (dat V c).arrAt_eq_of_cover 3 (G V c) (flushed_eq V c) (cover c)

/-- What region 0 leaves in its output array (window 3), entry by entry, over the extended reals: row n of the
    data against row j of the weights, summed over the 4096 positions, plus the bias of column j. -/
theorem final (c : Dev nD) (n j : Fin 4096) :
    Cert.Spec.arr S4096x4096 ((dat (F := Ideal) V c).arrAt 3 cfg0.N) (ix2 n j)
      = (∑ d : Fin 4096, Cert.Spec.arr S4096x4096 (V c main_arg0) (ix2 n d) * Cert.Spec.arr S4096x4096 (V c main_arg2) (ix2 j d))
        + Cert.Spec.arr S1x4096 (V c main_v0) (ix2 0 j) := by
  rw [arrAt_q V c]
  rfl

end Cert.KernelIdeal.R0
end
-- ==== Proof.KI.R1V1.lean ====
import proofs.«179627_j38019050504386_2_alg».proof.Proof.KI.R1
import Idealize.ShloMosaic.Lib.Pipeline.Value
import Idealize.ShloMosaic.Lib.ValueIdx

set_option maxRecDepth 16384

noncomputable section

namespace Cert.KernelIdeal.R1

open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen

variable {F : FTy → Type} [FloatOps F]

/-! ## What each case's stores leave, as the payloads of the blocks -/

theorem hz : (![0, 0] : Fin 2 → Nat) = fun _ => 0 := funext fun a => by fin_cases a <;> rfl

theorem kcover_A_0 (c : Dev nD) (i : grid1.Coords) (arg2 : Memref sig .tc .vmem S512x2048 .bf16) (harg2 : arg2.IsWhole) (arg3 : Memref sig .tc .vmem S6x512 .f32) (harg3 : arg3.IsWhole) (arg4 : Memref sig .tc .vmem S6x1 .f32) (harg4 : arg4.IsWhole) (arg5 : Memref sig .tc .vmem S6x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S6x2048 .bf16) (harg8 : arg8.IsWhole) (arg9 : Memref sig .tc .vmem S6x2048 .f32) (harg9 : arg9.IsWhole) (arg10 : Memref sig .tc .vmem S6x2048 .f32) (harg10 : arg10.IsWhole) (hc0 : cond_0 i) (hc1 : ¬cond_1 i) (x0 : Vec F S512x2048 .bf16) (x1 : Vec F S6x512 .f32) (x2 : Vec F S6x1 .f32) (x3 : Vec F S6x512 .f32) (x4 : Vec F S2048x512 .f32) (x5 : Vec F S1x2048 .f32) (y : S6x2048.Idx) : ∃ pc ∈ (kernelRun_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun_A c i arg2 harg2 arg3 harg3 arg4 harg4 arg5 harg5 arg6 harg6 arg7 harg7 arg8 harg8 arg9 harg9 arg10 harg10 hc0 hc1 x0 x1 x2 x3 x4 x5).2.1 S6x2048.size (by sl_kernel_rfl) y

theorem kcover_A_1 (c : Dev nD) (i : grid1.Coords) (arg2 : Memref sig .tc .vmem S512x2048 .bf16) (harg2 : arg2.IsWhole) (arg3 : Memref sig .tc .vmem S6x512 .f32) (harg3 : arg3.IsWhole) (arg4 : Memref sig .tc .vmem S6x1 .f32) (harg4 : arg4.IsWhole) (arg5 : Memref sig .tc .vmem S6x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S6x2048 .bf16) (harg8 : arg8.IsWhole) (arg9 : Memref sig .tc .vmem S6x2048 .f32) (harg9 : arg9.IsWhole) (arg10 : Memref sig .tc .vmem S6x2048 .f32) (harg10 : arg10.IsWhole) (hc0 : cond_0 i) (hc1 : ¬cond_1 i) (x0 : Vec F S512x2048 .bf16) (x1 : Vec F S6x512 .f32) (x2 : Vec F S6x1 .f32) (x3 : Vec F S6x512 .f32) (x4 : Vec F S2048x512 .f32) (x5 : Vec F S1x2048 .f32) (y : S6x2048.Idx) : ∃ pc ∈ (kernelRun_A c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun_A c i arg2 harg2 arg3 harg3 arg4 harg4 arg5 harg5 arg6 harg6 arg7 harg7 arg8 harg8 arg9 harg9 arg10 harg10 hc0 hc1 x0 x1 x2 x3 x4 x5).2.2.1 S6x2048.size (by sl_kernel_rfl) y

theorem kcover_B_0 (c : Dev nD) (i : grid1.Coords) (arg2 : Memref sig .tc .vmem S512x2048 .bf16) (harg2 : arg2.IsWhole) (arg3 : Memref sig .tc .vmem S6x512 .f32) (harg3 : arg3.IsWhole) (arg4 : Memref sig .tc .vmem S6x1 .f32) (harg4 : arg4.IsWhole) (arg5 : Memref sig .tc .vmem S6x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S6x2048 .bf16) (harg8 : arg8.IsWhole) (arg9 : Memref sig .tc .vmem S6x2048 .f32) (harg9 : arg9.IsWhole) (arg10 : Memref sig .tc .vmem S6x2048 .f32) (harg10 : arg10.IsWhole) (hc0 : ¬cond_0 i) (hc1 : ¬cond_1 i) (x0 : Vec F S512x2048 .bf16) (x1 : Vec F S6x512 .f32) (x2 : Vec F S6x1 .f32) (x3 : Vec F S6x512 .f32) (x4 : Vec F S2048x512 .f32) (x5 : Vec F S1x2048 .f32) (xs0 xs1 : Vec F S6x2048 .f32) (y : S6x2048.Idx) : ∃ pc ∈ (kernelRun_B c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun_B c i arg2 harg2 arg3 harg3 arg4 harg4 arg5 harg5 arg6 harg6 arg7 harg7 arg8 harg8 arg9 harg9 arg10 harg10 hc0 hc1 x0 x1 x2 x3 x4 x5 xs0 xs1).2.1 S6x2048.size (by sl_kernel_rfl) y

theorem kcover_B_1 (c : Dev nD) (i : grid1.Coords) (arg2 : Memref sig .tc .vmem S512x2048 .bf16) (harg2 : arg2.IsWhole) (arg3 : Memref sig .tc .vmem S6x512 .f32) (harg3 : arg3.IsWhole) (arg4 : Memref sig .tc .vmem S6x1 .f32) (harg4 : arg4.IsWhole) (arg5 : Memref sig .tc .vmem S6x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S6x2048 .bf16) (harg8 : arg8.IsWhole) (arg9 : Memref sig .tc .vmem S6x2048 .f32) (harg9 : arg9.IsWhole) (arg10 : Memref sig .tc .vmem S6x2048 .f32) (harg10 : arg10.IsWhole) (hc0 : ¬cond_0 i) (hc1 : ¬cond_1 i) (x0 : Vec F S512x2048 .bf16) (x1 : Vec F S6x512 .f32) (x2 : Vec F S6x1 .f32) (x3 : Vec F S6x512 .f32) (x4 : Vec F S2048x512 .f32) (x5 : Vec F S1x2048 .f32) (xs0 xs1 : Vec F S6x2048 .f32) (y : S6x2048.Idx) : ∃ pc ∈ (kernelRun_B c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun_B c i arg2 harg2 arg3 harg3 arg4 harg4 arg5 harg5 arg6 harg6 arg7 harg7 arg8 harg8 arg9 harg9 arg10 harg10 hc0 hc1 x0 x1 x2 x3 x4 x5 xs0 xs1).2.2.1 S6x2048.size (by sl_kernel_rfl) y

theorem kcover_C_0 (c : Dev nD) (i : grid1.Coords) (arg2 : Memref sig .tc .vmem S512x2048 .bf16) (harg2 : arg2.IsWhole) (arg3 : Memref sig .tc .vmem S6x512 .f32) (harg3 : arg3.IsWhole) (arg4 : Memref sig .tc .vmem S6x1 .f32) (harg4 : arg4.IsWhole) (arg5 : Memref sig .tc .vmem S6x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S6x2048 .bf16) (harg8 : arg8.IsWhole) (arg9 : Memref sig .tc .vmem S6x2048 .f32) (harg9 : arg9.IsWhole) (arg10 : Memref sig .tc .vmem S6x2048 .f32) (harg10 : arg10.IsWhole) (hc0 : ¬cond_0 i) (hc1 : cond_1 i) (x0 : Vec F S512x2048 .bf16) (x1 : Vec F S6x512 .f32) (x2 : Vec F S6x1 .f32) (x3 : Vec F S6x512 .f32) (x4 : Vec F S2048x512 .f32) (x5 : Vec F S1x2048 .f32) (xs0 xs1 : Vec F S6x2048 .f32) (y : S6x2048.Idx) : ∃ pc ∈ (kernelRun_C c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 x4 x5 xs0 xs1).2.1 S6x2048.size (by sl_kernel_rfl) y

theorem kcover_C_1 (c : Dev nD) (i : grid1.Coords) (arg2 : Memref sig .tc .vmem S512x2048 .bf16) (harg2 : arg2.IsWhole) (arg3 : Memref sig .tc .vmem S6x512 .f32) (harg3 : arg3.IsWhole) (arg4 : Memref sig .tc .vmem S6x1 .f32) (harg4 : arg4.IsWhole) (arg5 : Memref sig .tc .vmem S6x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S6x2048 .bf16) (harg8 : arg8.IsWhole) (arg9 : Memref sig .tc .vmem S6x2048 .f32) (harg9 : arg9.IsWhole) (arg10 : Memref sig .tc .vmem S6x2048 .f32) (harg10 : arg10.IsWhole) (hc0 : ¬cond_0 i) (hc1 : cond_1 i) (x0 : Vec F S512x2048 .bf16) (x1 : Vec F S6x512 .f32) (x2 : Vec F S6x1 .f32) (x3 : Vec F S6x512 .f32) (x4 : Vec F S2048x512 .f32) (x5 : Vec F S1x2048 .f32) (xs0 xs1 : Vec F S6x2048 .f32) (y : S6x2048.Idx) : ∃ pc ∈ (kernelRun_C c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 x4 x5 xs0 xs1).2.2.1 S6x2048.size (by sl_kernel_rfl) y

theorem kcover_C_6 (c : Dev nD) (i : grid1.Coords) (arg2 : Memref sig .tc .vmem S512x2048 .bf16) (harg2 : arg2.IsWhole) (arg3 : Memref sig .tc .vmem S6x512 .f32) (harg3 : arg3.IsWhole) (arg4 : Memref sig .tc .vmem S6x1 .f32) (harg4 : arg4.IsWhole) (arg5 : Memref sig .tc .vmem S6x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S6x2048 .bf16) (harg8 : arg8.IsWhole) (arg9 : Memref sig .tc .vmem S6x2048 .f32) (harg9 : arg9.IsWhole) (arg10 : Memref sig .tc .vmem S6x2048 .f32) (harg10 : arg10.IsWhole) (hc0 : ¬cond_0 i) (hc1 : cond_1 i) (x0 : Vec F S512x2048 .bf16) (x1 : Vec F S6x512 .f32) (x2 : Vec F S6x1 .f32) (x3 : Vec F S6x512 .f32) (x4 : Vec F S2048x512 .f32) (x5 : Vec F S1x2048 .f32) (xs0 xs1 : Vec F S6x2048 .f32) (y : S6x2048.Idx) : ∃ pc ∈ (kernelRun_C c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 x4 x5 xs0 xs1).1 S6x2048.size (by sl_kernel_rfl) y

/-- A first step leaves, in the context accumulator, the first block product added to the zero block; -/
theorem piece_A_0 (c : Dev nD) (i : grid1.Coords) (arg2 : Memref sig .tc .vmem S512x2048 .bf16) (harg2 : arg2.IsWhole) (arg3 : Memref sig .tc .vmem S6x512 .f32) (harg3 : arg3.IsWhole) (arg4 : Memref sig .tc .vmem S6x1 .f32) (harg4 : arg4.IsWhole) (arg5 : Memref sig .tc .vmem S6x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S6x2048 .bf16) (harg8 : arg8.IsWhole) (arg9 : Memref sig .tc .vmem S6x2048 .f32) (harg9 : arg9.IsWhole) (arg10 : Memref sig .tc .vmem S6x2048 .f32) (harg10 : arg10.IsWhole) (hc0 : cond_0 i) (hc1 : ¬cond_1 i) (x0 : Vec F S512x2048 .bf16) (x1 : Vec F S6x512 .f32) (x2 : Vec F S6x1 .f32) (x3 : Vec F S6x512 .f32) (x4 : Vec F S2048x512 .f32) (x5 : Vec F S1x2048 .f32) :
    VS_0.read (Elt F) (VS_0.writes (Elt F) VS_0.junk (kernelRun_A c i arg2 harg2 arg3 harg3 arg4 harg4 arg5 harg5 arg6 harg6 arg7 harg7 arg8 harg8 arg9 harg9 arg10 harg10 hc0 hc1 x0 x1 x2 x3 x4 x5).2.1) = k1_pay3 x1 (k1_pay1 (F := F)) x0 := by
  rw [View.read_writes_eq_canon _ _ _ (kcover_A_0 c i arg2 harg2 arg3 harg3 arg4 harg4 arg5 harg5 arg6 harg6 arg7 harg7 arg8 harg8 arg9 harg9 arg10 harg10 hc0 hc1 x0 x1 x2 x3 x4 x5)]
  unfold kernelRun_A
  dsimp only
  sl_unfold_words
  rw [View.canon_cons_unit_zero (S := S6x2048) hz, View.readCov_unit_zero (S := S6x2048) _ hz]
  simp only [View.readAt_eq_ld, harg2.read_unread, harg3.read_unread, harg4.read_unread, harg5.read_unread, harg6.read_unread, harg7.read_unread, harg9.read_unread, harg10.read_unread, View.ld_unit_zero (S := S6x512) hz, View.ld_unit_zero (S := S512x2048) hz, View.ld_unit_zero (S := S2048x512) hz, View.ld_unit_zero (S := S6x2048) hz, View.ld_unit_zero (S := S6x1) hz, View.ld_unit_zero (S := S1x2048) hz]

/-- and in the key accumulator likewise. -/
theorem piece_A_1 (c : Dev nD) (i : grid1.Coords) (arg2 : Memref sig .tc .vmem S512x2048 .bf16) (harg2 : arg2.IsWhole) (arg3 : Memref sig .tc .vmem S6x512 .f32) (harg3 : arg3.IsWhole) (arg4 : Memref sig .tc .vmem S6x1 .f32) (harg4 : arg4.IsWhole) (arg5 : Memref sig .tc .vmem S6x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S6x2048 .bf16) (harg8 : arg8.IsWhole) (arg9 : Memref sig .tc .vmem S6x2048 .f32) (harg9 : arg9.IsWhole) (arg10 : Memref sig .tc .vmem S6x2048 .f32) (harg10 : arg10.IsWhole) (hc0 : cond_0 i) (hc1 : ¬cond_1 i) (x0 : Vec F S512x2048 .bf16) (x1 : Vec F S6x512 .f32) (x2 : Vec F S6x1 .f32) (x3 : Vec F S6x512 .f32) (x4 : Vec F S2048x512 .f32) (x5 : Vec F S1x2048 .f32) :
    VS_1.read (Elt F) (VS_1.writes (Elt F) VS_1.junk (kernelRun_A c i arg2 harg2 arg3 harg3 arg4 harg4 arg5 harg5 arg6 harg6 arg7 harg7 arg8 harg8 arg9 harg9 arg10 harg10 hc0 hc1 x0 x1 x2 x3 x4 x5).2.2.1) = k1_pay4 x3 x4 (k1_pay2 (F := F)) := by
  rw [View.read_writes_eq_canon _ _ _ (kcover_A_1 c i arg2 harg2 arg3 harg3 arg4 harg4 arg5 harg5 arg6 harg6 arg7 harg7 arg8 harg8 arg9 harg9 arg10 harg10 hc0 hc1 x0 x1 x2 x3 x4 x5)]
  unfold kernelRun_A
  dsimp only
  sl_unfold_words
  rw [View.canon_cons_unit_zero (S := S6x2048) hz, View.readCov_unit_zero (S := S6x2048) _ hz]
  simp only [View.readAt_eq_ld, harg2.read_unread, harg3.read_unread, harg4.read_unread, harg5.read_unread, harg6.read_unread, harg7.read_unread, harg9.read_unread, harg10.read_unread, View.ld_unit_zero (S := S6x512) hz, View.ld_unit_zero (S := S512x2048) hz, View.ld_unit_zero (S := S2048x512) hz, View.ld_unit_zero (S := S6x2048) hz, View.ld_unit_zero (S := S6x1) hz, View.ld_unit_zero (S := S1x2048) hz]

/-- A middle step adds the point's block product to each accumulator. -/
theorem piece_B_0 (c : Dev nD) (i : grid1.Coords) (arg2 : Memref sig .tc .vmem S512x2048 .bf16) (harg2 : arg2.IsWhole) (arg3 : Memref sig .tc .vmem S6x512 .f32) (harg3 : arg3.IsWhole) (arg4 : Memref sig .tc .vmem S6x1 .f32) (harg4 : arg4.IsWhole) (arg5 : Memref sig .tc .vmem S6x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S6x2048 .bf16) (harg8 : arg8.IsWhole) (arg9 : Memref sig .tc .vmem S6x2048 .f32) (harg9 : arg9.IsWhole) (arg10 : Memref sig .tc .vmem S6x2048 .f32) (harg10 : arg10.IsWhole) (hc0 : ¬cond_0 i) (hc1 : ¬cond_1 i) (x0 : Vec F S512x2048 .bf16) (x1 : Vec F S6x512 .f32) (x2 : Vec F S6x1 .f32) (x3 : Vec F S6x512 .f32) (x4 : Vec F S2048x512 .f32) (x5 : Vec F S1x2048 .f32) (xs0 xs1 : Vec F S6x2048 .f32) :
    VS_0.read (Elt F) (VS_0.writes (Elt F) VS_0.junk (kernelRun_B c i arg2 harg2 arg3 harg3 arg4 harg4 arg5 harg5 arg6 harg6 arg7 harg7 arg8 harg8 arg9 harg9 arg10 harg10 hc0 hc1 x0 x1 x2 x3 x4 x5 xs0 xs1).2.1) = k1_pay3 x1 xs0 x0 := by
  rw [View.read_writes_eq_canon _ _ _ (kcover_B_0 c i arg2 harg2 arg3 harg3 arg4 harg4 arg5 harg5 arg6 harg6 arg7 harg7 arg8 harg8 arg9 harg9 arg10 harg10 hc0 hc1 x0 x1 x2 x3 x4 x5 xs0 xs1)]
  unfold kernelRun_B
  dsimp only
  rw [View.canon_unit_zero hz]
  simp only [View.readAt_eq_ld, harg2.read_unread, harg3.read_unread, harg4.read_unread, harg5.read_unread, harg6.read_unread, harg7.read_unread, harg9.read_unread, harg10.read_unread, View.ld_unit_zero (S := S6x512) hz, View.ld_unit_zero (S := S512x2048) hz, View.ld_unit_zero (S := S2048x512) hz, View.ld_unit_zero (S := S6x2048) hz, View.ld_unit_zero (S := S6x1) hz, View.ld_unit_zero (S := S1x2048) hz]

theorem piece_B_1 (c : Dev nD) (i : grid1.Coords) (arg2 : Memref sig .tc .vmem S512x2048 .bf16) (harg2 : arg2.IsWhole) (arg3 : Memref sig .tc .vmem S6x512 .f32) (harg3 : arg3.IsWhole) (arg4 : Memref sig .tc .vmem S6x1 .f32) (harg4 : arg4.IsWhole) (arg5 : Memref sig .tc .vmem S6x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S6x2048 .bf16) (harg8 : arg8.IsWhole) (arg9 : Memref sig .tc .vmem S6x2048 .f32) (harg9 : arg9.IsWhole) (arg10 : Memref sig .tc .vmem S6x2048 .f32) (harg10 : arg10.IsWhole) (hc0 : ¬cond_0 i) (hc1 : ¬cond_1 i) (x0 : Vec F S512x2048 .bf16) (x1 : Vec F S6x512 .f32) (x2 : Vec F S6x1 .f32) (x3 : Vec F S6x512 .f32) (x4 : Vec F S2048x512 .f32) (x5 : Vec F S1x2048 .f32) (xs0 xs1 : Vec F S6x2048 .f32) :
    VS_1.read (Elt F) (VS_1.writes (Elt F) VS_1.junk (kernelRun_B c i arg2 harg2 arg3 harg3 arg4 harg4 arg5 harg5 arg6 harg6 arg7 harg7 arg8 harg8 arg9 harg9 arg10 harg10 hc0 hc1 x0 x1 x2 x3 x4 x5 xs0 xs1).2.2.1) = k1_pay4 x3 x4 xs1 := by
  rw [View.read_writes_eq_canon _ _ _ (kcover_B_1 c i arg2 harg2 arg3 harg3 arg4 harg4 arg5 harg5 arg6 harg6 arg7 harg7 arg8 harg8 arg9 harg9 arg10 harg10 hc0 hc1 x0 x1 x2 x3 x4 x5 xs0 xs1)]
  unfold kernelRun_B
  dsimp only
  rw [View.canon_unit_zero hz]
  simp only [View.readAt_eq_ld, harg2.read_unread, harg3.read_unread, harg4.read_unread, harg5.read_unread, harg6.read_unread, harg7.read_unread, harg9.read_unread, harg10.read_unread, View.ld_unit_zero (S := S6x512) hz, View.ld_unit_zero (S := S512x2048) hz, View.ld_unit_zero (S := S2048x512) hz, View.ld_unit_zero (S := S6x2048) hz, View.ld_unit_zero (S := S6x1) hz, View.ld_unit_zero (S := S1x2048) hz]

/-- A last step does the same, -/
theorem piece_C_0 (c : Dev nD) (i : grid1.Coords) (arg2 : Memref sig .tc .vmem S512x2048 .bf16) (harg2 : arg2.IsWhole) (arg3 : Memref sig .tc .vmem S6x512 .f32) (harg3 : arg3.IsWhole) (arg4 : Memref sig .tc .vmem S6x1 .f32) (harg4 : arg4.IsWhole) (arg5 : Memref sig .tc .vmem S6x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S6x2048 .bf16) (harg8 : arg8.IsWhole) (arg9 : Memref sig .tc .vmem S6x2048 .f32) (harg9 : arg9.IsWhole) (arg10 : Memref sig .tc .vmem S6x2048 .f32) (harg10 : arg10.IsWhole) (hc0 : ¬cond_0 i) (hc1 : cond_1 i) (x0 : Vec F S512x2048 .bf16) (x1 : Vec F S6x512 .f32) (x2 : Vec F S6x1 .f32) (x3 : Vec F S6x512 .f32) (x4 : Vec F S2048x512 .f32) (x5 : Vec F S1x2048 .f32) (xs0 xs1 : Vec F S6x2048 .f32) :
    VS_0.read (Elt F) (VS_0.writes (Elt F) VS_0.junk (kernelRun_C c i arg2 harg2 arg3 harg3 arg4 harg4 arg5 harg5 arg6 harg6 arg7 harg7 arg8 harg8 arg9 harg9 arg10 harg10 hc0 hc1 x0 x1 x2 x3 x4 x5 xs0 xs1).2.1) = k1_pay3 x1 xs0 x0 := by
  rw [View.read_writes_eq_canon _ _ _ (kcover_C_0 c i arg2 harg2 arg3 harg3 arg4 harg4 arg5 harg5 arg6 harg6 arg7 harg7 arg8 harg8 arg9 harg9 arg10 harg10 hc0 hc1 x0 x1 x2 x3 x4 x5 xs0 xs1)]
  unfold kernelRun_C
  dsimp only
  sl_unfold_words
  rw [View.canon_unit_zero hz]
  simp only [View.readAt_eq_ld, harg2.read_unread, harg3.read_unread, harg4.read_unread, harg5.read_unread, harg6.read_unread, harg7.read_unread, harg9.read_unread, harg10.read_unread, View.ld_unit_zero (S := S6x512) hz, View.ld_unit_zero (S := S512x2048) hz, View.ld_unit_zero (S := S2048x512) hz, View.ld_unit_zero (S := S6x2048) hz, View.ld_unit_zero (S := S6x1) hz, View.ld_unit_zero (S := S1x2048) hz]

theorem piece_C_1 (c : Dev nD) (i : grid1.Coords) (arg2 : Memref sig .tc .vmem S512x2048 .bf16) (harg2 : arg2.IsWhole) (arg3 : Memref sig .tc .vmem S6x512 .f32) (harg3 : arg3.IsWhole) (arg4 : Memref sig .tc .vmem S6x1 .f32) (harg4 : arg4.IsWhole) (arg5 : Memref sig .tc .vmem S6x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S6x2048 .bf16) (harg8 : arg8.IsWhole) (arg9 : Memref sig .tc .vmem S6x2048 .f32) (harg9 : arg9.IsWhole) (arg10 : Memref sig .tc .vmem S6x2048 .f32) (harg10 : arg10.IsWhole) (hc0 : ¬cond_0 i) (hc1 : cond_1 i) (x0 : Vec F S512x2048 .bf16) (x1 : Vec F S6x512 .f32) (x2 : Vec F S6x1 .f32) (x3 : Vec F S6x512 .f32) (x4 : Vec F S2048x512 .f32) (x5 : Vec F S1x2048 .f32) (xs0 xs1 : Vec F S6x2048 .f32) :
    VS_1.read (Elt F) (VS_1.writes (Elt F) VS_1.junk (kernelRun_C c i arg2 harg2 arg3 harg3 arg4 harg4 arg5 harg5 arg6 harg6 arg7 harg7 arg8 harg8 arg9 harg9 arg10 harg10 hc0 hc1 x0 x1 x2 x3 x4 x5 xs0 xs1).2.2.1) = k1_pay4 x3 x4 xs1 := by
  rw [View.read_writes_eq_canon _ _ _ (kcover_C_1 c i arg2 harg2 arg3 harg3 arg4 harg4 arg5 harg5 arg6 harg6 arg7 harg7 arg8 harg8 arg9 harg9 arg10 harg10 hc0 hc1 x0 x1 x2 x3 x4 x5 xs0 xs1)]
  unfold kernelRun_C
  dsimp only
  sl_unfold_words
  rw [View.canon_unit_zero hz]
  simp only [View.readAt_eq_ld, harg2.read_unread, harg3.read_unread, harg4.read_unread, harg5.read_unread, harg6.read_unread, harg7.read_unread, harg9.read_unread, harg10.read_unread, View.ld_unit_zero (S := S6x512) hz, View.ld_unit_zero (S := S512x2048) hz, View.ld_unit_zero (S := S2048x512) hz, View.ld_unit_zero (S := S6x2048) hz, View.ld_unit_zero (S := S6x1) hz, View.ld_unit_zero (S := S1x2048) hz]

/-- and stores the epilogue of the two finished accumulators and the two bias blocks into the output's buffer. -/
theorem piece_C_6 (c : Dev nD) (i : grid1.Coords) (arg2 : Memref sig .tc .vmem S512x2048 .bf16) (harg2 : arg2.IsWhole) (arg3 : Memref sig .tc .vmem S6x512 .f32) (harg3 : arg3.IsWhole) (arg4 : Memref sig .tc .vmem S6x1 .f32) (harg4 : arg4.IsWhole) (arg5 : Memref sig .tc .vmem S6x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S6x2048 .bf16) (harg8 : arg8.IsWhole) (arg9 : Memref sig .tc .vmem S6x2048 .f32) (harg9 : arg9.IsWhole) (arg10 : Memref sig .tc .vmem S6x2048 .f32) (harg10 : arg10.IsWhole) (hc0 : ¬cond_0 i) (hc1 : cond_1 i) (x0 : Vec F S512x2048 .bf16) (x1 : Vec F S6x512 .f32) (x2 : Vec F S6x1 .f32) (x3 : Vec F S6x512 .f32) (x4 : Vec F S2048x512 .f32) (x5 : Vec F S1x2048 .f32) (xs0 xs1 : Vec F S6x2048 .f32) :
    VO_6.read (Elt F) (VO_6.writes (Elt F) VO_6.junk (kernelRun_C c i arg2 harg2 arg3 harg3 arg4 harg4 arg5 harg5 arg6 harg6 arg7 harg7 arg8 harg8 arg9 harg9 arg10 harg10 hc0 hc1 x0 x1 x2 x3 x4 x5 xs0 xs1).1) = k1_pay5 (k1_pay3 x1 xs0 x0) x2 (k1_pay4 x3 x4 xs1) x5 := by
  rw [View.read_writes_eq_canon _ _ _ (kcover_C_6 c i arg2 harg2 arg3 harg3 arg4 harg4 arg5 harg5 arg6 harg6 arg7 harg7 arg8 harg8 arg9 harg9 arg10 harg10 hc0 hc1 x0 x1 x2 x3 x4 x5 xs0 xs1)]
  unfold kernelRun_C
  dsimp only
  sl_unfold_words
  rw [View.canon_unit_zero hz]
  simp only [View.readAt_eq_ld, harg2.read_unread, harg3.read_unread, harg4.read_unread, harg5.read_unread, harg6.read_unread, harg7.read_unread, harg9.read_unread, harg10.read_unread, View.ld_unit_zero (S := S6x512) hz, View.ld_unit_zero (S := S512x2048) hz, View.ld_unit_zero (S := S2048x512) hz, View.ld_unit_zero (S := S6x2048) hz, View.ld_unit_zero (S := S6x1) hz, View.ld_unit_zero (S := S1x2048) hz]
  rw [View.readCov_unit_zero (S := S6x2048) _ hz, View.readCov_unit_zero (S := S6x2048) _ hz]

end Cert.KernelIdeal.R1
end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.KI.R1V2.lean ====
import proofs.«179627_j38019050504386_2_alg».proof.Proof.Gen.KernelIdeal.Skeleton
import proofs.«179627_j38019050504386_2_alg».proof.Proof.Spec
import proofs.«179627_j38019050504386_2_alg».proof.Proof.LibColumnForms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1

open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen

open Idealize.ShloMosaic.ValueLayout

/-! ## The payloads at the ideal values, entry by entry -/

/-- The zero block. -/
theorem pay1_apply (a : Fin 6) (l : Fin 2048) : (k1_pay1 (F := Ideal) (ix2 a l) : EReal) = 0 := by
  unfold k1_pay1
  show shapeCast S6x2048 (broadcast S6x2048 (Ideal.ofBits .f32 0x00000000#32)) shapeCasts_S6x2048_S6x2048 (ix2 a l) = 0
  exact (congrFun (shapeCast_self _ _) _).trans Ideal.ofBits_zero_f32

theorem pay2_apply (a : Fin 6) (l : Fin 2048) : (k1_pay2 (F := Ideal) (ix2 a l) : EReal) = 0 := by
  unfold k1_pay2
  show shapeCast S6x2048 (broadcast S6x2048 (Ideal.ofBits .f32 0x00000000#32)) shapeCasts_S6x2048_S6x2048 (ix2 a l) = 0
  exact (congrFun (shapeCast_self _ _) _).trans Ideal.ofBits_zero_f32

/-- The left operand's index in the context product: row of the output, contraction position. -/
theorem lhs3 (a : Fin 6) (l : Fin 2048) (n : Fin 512) :
    dot_S6x512_S512x2048_S6x2048_1_0_0_1_n_n.lhsIdx (ix2 a l) ((contrEquiv1 dot_S6x512_S512x2048_S6x2048_1_0_0_1_n_n 512 rfl rfl).symm n) = ix2 a n :=
  funext fun ax => Fin.ext (by
    match ax with
    | ⟨0, _⟩ =>
      show (dot_S6x512_S512x2048_S6x2048_1_0_0_1_n_n.lhsIdx (ix2 a l) _ 0).val = a.val
      unfold DotDims.lhsIdx
      rw [dif_neg (show ¬(0 : Fin S6x512.rank) ∈ dot_S6x512_S512x2048_S6x2048_1_0_0_1_n_n.lhsBatch by decide), dif_pos (show (0 : Fin S6x512.rank) ∈ dot_S6x512_S512x2048_S6x2048_1_0_0_1_n_n.lhsNonContracting by decide)]
      rfl
    | ⟨1, _⟩ => exact (dot_S6x512_S512x2048_S6x2048_1_0_0_1_n_n.lhsIdx_val_of_single rfl _ _).trans (contrEquiv1_symm_val dot_S6x512_S512x2048_S6x2048_1_0_0_1_n_n 512 rfl rfl n))

/-- The right operand's index there: contraction position, column of the output. -/
theorem rhs3 (a : Fin 6) (l : Fin 2048) (n : Fin 512) :
    dot_S6x512_S512x2048_S6x2048_1_0_0_1_n_n.rhsIdx (ix2 a l) ((contrEquiv1 dot_S6x512_S512x2048_S6x2048_1_0_0_1_n_n 512 rfl rfl).symm n) = ix2 n l :=
  funext fun ax => Fin.ext (by
    match ax with
    | ⟨0, _⟩ => exact (dot_S6x512_S512x2048_S6x2048_1_0_0_1_n_n.rhsIdx_val_of_single rfl _ _).trans (contrEquiv1_symm_val dot_S6x512_S512x2048_S6x2048_1_0_0_1_n_n 512 rfl rfl n)
    | ⟨1, _⟩ =>
      show (dot_S6x512_S512x2048_S6x2048_1_0_0_1_n_n.rhsIdx (ix2 a l) _ 1).val = l.val
      unfold DotDims.rhsIdx
      rw [dif_neg (show ¬(1 : Fin S512x2048.rank) ∈ dot_S6x512_S512x2048_S6x2048_1_0_0_1_n_n.rhsBatch by decide), dif_pos (show (1 : Fin S512x2048.rank) ∈ dot_S6x512_S512x2048_S6x2048_1_0_0_1_n_n.rhsNonContracting by decide)]
      rfl)

/-- The context accumulator's update: the accumulator plus the block product, the contraction over the block's 512 positions. -/
theorem pay3_apply (v3 : Vec Ideal S6x512 .f32) (v5 : Vec Ideal S6x2048 .f32) (v6 : Vec Ideal S512x2048 .bf16) (a : Fin 6) (l : Fin 2048) :
    (k1_pay3 v3 v5 v6 (ix2 a l) : EReal) = (v5 (ix2 a l) : EReal) + ∑ n : Fin 512, (v3 (ix2 a n) : EReal) * (v6 (ix2 n l) : EReal) := by
  unfold k1_pay3
  show shapeCast S6x2048 (addf v5 (matmul (F := Ideal) dot_S6x512_S512x2048_S6x2048_1_0_0_1_n_n none (truncf (F := Ideal) .bf16 v3 bitsLt_bf16_f32) (shapeCast S512x2048 (v6 : S512x2048.Idx → Ideal .bf16) shapeCasts_S512x2048_S512x2048) (constant (F := Ideal) S6x2048 .f32 0x00000000#32))) shapeCasts_S6x2048_S6x2048 (ix2 a l) = _
  refine (congrFun (shapeCast_self _ _) _).trans ?_
  show (v5 (ix2 a l) : EReal) + FloatOps.matmul dot_S6x512_S512x2048_S6x2048_1_0_0_1_n_n none (truncf (F := Ideal) .bf16 v3 bitsLt_bf16_f32) (shapeCast S512x2048 (v6 : S512x2048.Idx → Ideal .bf16) shapeCasts_S512x2048_S512x2048) (constant (F := Ideal) S6x2048 .f32 0x00000000#32) (ix2 a l) = _
  refine congrArg ((v5 (ix2 a l) : EReal) + ·) ?_
  refine (Ideal.matmul_constant_zero_apply dot_S6x512_S512x2048_S6x2048_1_0_0_1_n_n none _ _ (ix2 a l)).trans ?_
  refine (Equiv.sum_comp (contrEquiv1 dot_S6x512_S512x2048_S6x2048_1_0_0_1_n_n 512 rfl rfl).symm _).symm.trans ?_
  refine Finset.sum_congr rfl fun n _ => ?_
  show (v3 (dot_S6x512_S512x2048_S6x2048_1_0_0_1_n_n.lhsIdx (ix2 a l) ((contrEquiv1 dot_S6x512_S512x2048_S6x2048_1_0_0_1_n_n 512 rfl rfl).symm n)) : EReal) * (shapeCast S512x2048 v6 shapeCasts_S512x2048_S512x2048 (dot_S6x512_S512x2048_S6x2048_1_0_0_1_n_n.rhsIdx (ix2 a l) ((contrEquiv1 dot_S6x512_S512x2048_S6x2048_1_0_0_1_n_n 512 rfl rfl).symm n)) : EReal) = _
  rw [lhs3, rhs3, shapeCast_self]

theorem lhs4 (a : Fin 6) (l : Fin 2048) (d : Fin 512) :
    dot_S6x512_S2048x512_S6x2048_1_1_0_0_n_n.lhsIdx (ix2 a l) ((contrEquiv1 dot_S6x512_S2048x512_S6x2048_1_1_0_0_n_n 512 rfl rfl).symm d) = ix2 a d :=
  funext fun ax => Fin.ext (by
    match ax with
    | ⟨0, _⟩ =>
      show (dot_S6x512_S2048x512_S6x2048_1_1_0_0_n_n.lhsIdx (ix2 a l) _ 0).val = a.val
      unfold DotDims.lhsIdx
      rw [dif_neg (show ¬(0 : Fin S6x512.rank) ∈ dot_S6x512_S2048x512_S6x2048_1_1_0_0_n_n.lhsBatch by decide), dif_pos (show (0 : Fin S6x512.rank) ∈ dot_S6x512_S2048x512_S6x2048_1_1_0_0_n_n.lhsNonContracting by decide)]
      rfl
    | ⟨1, _⟩ => exact (dot_S6x512_S2048x512_S6x2048_1_1_0_0_n_n.lhsIdx_val_of_single rfl _ _).trans (contrEquiv1_symm_val dot_S6x512_S2048x512_S6x2048_1_1_0_0_n_n 512 rfl rfl d))

theorem rhs4 (a : Fin 6) (l : Fin 2048) (d : Fin 512) :
    dot_S6x512_S2048x512_S6x2048_1_1_0_0_n_n.rhsIdx (ix2 a l) ((contrEquiv1 dot_S6x512_S2048x512_S6x2048_1_1_0_0_n_n 512 rfl rfl).symm d) = ix2 l d :=
  funext fun ax => Fin.ext (by
    match ax with
    | ⟨0, _⟩ =>
      show (dot_S6x512_S2048x512_S6x2048_1_1_0_0_n_n.rhsIdx (ix2 a l) _ 0).val = l.val
      unfold DotDims.rhsIdx
      rw [dif_neg (show ¬(0 : Fin S2048x512.rank) ∈ dot_S6x512_S2048x512_S6x2048_1_1_0_0_n_n.rhsBatch by decide), dif_pos (show (0 : Fin S2048x512.rank) ∈ dot_S6x512_S2048x512_S6x2048_1_1_0_0_n_n.rhsNonContracting by decide)]
      rfl
    | ⟨1, _⟩ => exact (dot_S6x512_S2048x512_S6x2048_1_1_0_0_n_n.rhsIdx_val_of_single rfl _ _).trans (contrEquiv1_symm_val dot_S6x512_S2048x512_S6x2048_1_1_0_0_n_n 512 rfl rfl d))

/-- The key accumulator's update: the accumulator plus the block product, both operands contracted along their second axis. -/
theorem pay4_apply (v13 : Vec Ideal S6x512 .f32) (v15 : Vec Ideal S2048x512 .f32) (v17 : Vec Ideal S6x2048 .f32) (a : Fin 6) (l : Fin 2048) :
    (k1_pay4 v13 v15 v17 (ix2 a l) : EReal) = (v17 (ix2 a l) : EReal) + ∑ d : Fin 512, (v13 (ix2 a d) : EReal) * (v15 (ix2 l d) : EReal) := by
  unfold k1_pay4
  show shapeCast S6x2048 (addf v17 (matmul (F := Ideal) dot_S6x512_S2048x512_S6x2048_1_1_0_0_n_n none (truncf (F := Ideal) .bf16 v13 bitsLt_bf16_f32) (truncf (F := Ideal) .bf16 v15 bitsLt_bf16_f32) (constant (F := Ideal) S6x2048 .f32 0x00000000#32))) shapeCasts_S6x2048_S6x2048 (ix2 a l) = _
  refine (congrFun (shapeCast_self _ _) _).trans ?_
  show (v17 (ix2 a l) : EReal) + FloatOps.matmul dot_S6x512_S2048x512_S6x2048_1_1_0_0_n_n none (truncf (F := Ideal) .bf16 v13 bitsLt_bf16_f32) (truncf (F := Ideal) .bf16 v15 bitsLt_bf16_f32) (constant (F := Ideal) S6x2048 .f32 0x00000000#32) (ix2 a l) = _
  refine congrArg ((v17 (ix2 a l) : EReal) + ·) ?_
  refine (Ideal.matmul_constant_zero_apply dot_S6x512_S2048x512_S6x2048_1_1_0_0_n_n none _ _ (ix2 a l)).trans ?_
  refine (Equiv.sum_comp (contrEquiv1 dot_S6x512_S2048x512_S6x2048_1_1_0_0_n_n 512 rfl rfl).symm _).symm.trans ?_
  refine Finset.sum_congr rfl fun d _ => ?_
  show (v13 (dot_S6x512_S2048x512_S6x2048_1_1_0_0_n_n.lhsIdx (ix2 a l) ((contrEquiv1 dot_S6x512_S2048x512_S6x2048_1_1_0_0_n_n 512 rfl rfl).symm d)) : EReal) * (v15 (dot_S6x512_S2048x512_S6x2048_1_1_0_0_n_n.rhsIdx (ix2 a l) ((contrEquiv1 dot_S6x512_S2048x512_S6x2048_1_1_0_0_n_n 512 rfl rfl).symm d)) : EReal) = _
  rw [lhs4, rhs4]

/-- The epilogue: the modulated key of the context entry plus its row's bias and the key entry plus its column's bias. -/
theorem pay5_apply (v26 : Vec Ideal S6x2048 .f32) (v27 : Vec Ideal S6x1 .f32) (v31 : Vec Ideal S6x2048 .f32) (v32 : Vec Ideal S1x2048 .f32) (a : Fin 6) (l : Fin 2048) :
    (k1_pay5 v26 v27 v31 v32 (ix2 a l) : EReal)
      = Cert.Spec.kmodS ((v26 (ix2 a l) : EReal) + (v27 (ix2 a (0 : Fin 1)) : EReal)) ((v31 (ix2 a l) : EReal) + (v32 (ix2 (0 : Fin 1) l) : EReal)) := by
  have e1 : (broadcastTo S6x2048 (shapeCast S6x1 (v27 : S6x1.Idx → Ideal .f32) shapeCasts_S6x1_S6x1) broadcasts_S6x1_S6x2048 (ix2 a l) : EReal) = v27 (ix2 a (0 : Fin 1)) :=
    (broadcastTo_a1_ab_apply _ _ a l).trans (congrFun (shapeCast_self v27 _) _)
  have e2 : (broadcastTo S6x2048 (shapeCast S1x2048 (v32 : S1x2048.Idx → Ideal .f32) shapeCasts_S1x2048_S1x2048) broadcasts_S1x2048_S6x2048 (ix2 a l) : EReal) = v32 (ix2 (0 : Fin 1) l) :=
    (broadcastTo_1b_ab_apply _ _ a l).trans (congrFun (shapeCast_self v32 _) _)
  unfold k1_pay5
  show Cert.Spec.kmodS ((v26 (ix2 a l) : EReal) + broadcastTo S6x2048 (shapeCast S6x1 (v27 : S6x1.Idx → Ideal .f32) shapeCasts_S6x1_S6x1) broadcasts_S6x1_S6x2048 (ix2 a l))
      ((v31 (ix2 a l) : EReal) + broadcastTo S6x2048 (shapeCast S1x2048 (v32 : S1x2048.Idx → Ideal .f32) shapeCasts_S1x2048_S1x2048) broadcasts_S1x2048_S6x2048 (ix2 a l)) = _
  rw [e1, e2]

end Cert.KernelIdeal.R1
end
-- ==== Proof.KI.R1V3.lean ====
import proofs.«179627_j38019050504386_2_alg».proof.Proof.KI.R1V1
import proofs.«179627_j38019050504386_2_alg».proof.Proof.KI.R1V2

set_option maxRecDepth 16384

noncomputable section

namespace Cert.KernelIdeal.R1

open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen

open Idealize.ShloMosaic.ValueLayout

/-! ## The cases' contents at a point, as payloads of the windows' blocks (any float instance) -/

section Generic
variable {F : FTy → Type} [FloatOps F]
variable (V : (c : Dev nD) → (b : Ref sig .tc) → Buf (Elt F) ((c : Thread nD τ).loc b))

theorem outA_ctx (c : Dev nD) (t : Fin cfg1.N) (h0 : t.val % 8 = 0) :
    (outA V c t h0).2.1 = k1_pay3 (iblk V c 1 t) (k1_pay1 (F := F)) (iblk V c 0 t) := by
  have e := piece_A_0 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) ((hcond_0 t).mpr h0) (fun h => by have := (hcond_1 t).mp h; omega) (iblk V c 0 t) (iblk V c 1 t) (iblk V c 2 t) (iblk V c 3 t) (iblk V c 4 t) (iblk V c 5 t)
  unfold outA; dsimp only
  exact e
theorem outA_key (c : Dev nD) (t : Fin cfg1.N) (h0 : t.val % 8 = 0) :
    (outA V c t h0).2.2 = k1_pay4 (iblk V c 3 t) (iblk V c 4 t) (k1_pay2 (F := F)) := by
  have e := piece_A_1 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) ((hcond_0 t).mpr h0) (fun h => by have := (hcond_1 t).mp h; omega) (iblk V c 0 t) (iblk V c 1 t) (iblk V c 2 t) (iblk V c 3 t) (iblk V c 4 t) (iblk V c 5 t)
  unfold outA; dsimp only
  exact e
theorem outB_ctx (c : Dev nD) (t : Fin cfg1.N) (h0 : ¬t.val % 8 = 0) (h1 : ¬t.val % 8 = 7) (xs0 xs1 : Vec F S6x2048 .f32) :
    (outB V c t h0 h1 xs0 xs1).2.1 = k1_pay3 (iblk V c 1 t) xs0 (iblk V c 0 t) := by
  have e := piece_B_0 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) (iblk V c 5 t) xs0 xs1
  unfold outB; dsimp only
  exact e
theorem outB_key (c : Dev nD) (t : Fin cfg1.N) (h0 : ¬t.val % 8 = 0) (h1 : ¬t.val % 8 = 7) (xs0 xs1 : Vec F S6x2048 .f32) :
    (outB V c t h0 h1 xs0 xs1).2.2 = k1_pay4 (iblk V c 3 t) (iblk V c 4 t) xs1 := by
  have e := piece_B_1 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) (iblk V c 5 t) xs0 xs1
  unfold outB; dsimp only
  exact e
theorem outC_ctx (c : Dev nD) (t : Fin cfg1.N) (h0 : ¬t.val % 8 = 0) (h1 : t.val % 8 = 7) (xs0 xs1 : Vec F S6x2048 .f32) :
    (outC V c t h0 h1 xs0 xs1).2.1 = k1_pay3 (iblk V c 1 t) xs0 (iblk V c 0 t) := by
  have e := piece_C_0 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) (iblk V c 5 t) xs0 xs1
  unfold outC; dsimp only
  exact e
theorem outC_key (c : Dev nD) (t : Fin cfg1.N) (h0 : ¬t.val % 8 = 0) (h1 : t.val % 8 = 7) (xs0 xs1 : Vec F S6x2048 .f32) :
    (outC V c t h0 h1 xs0 xs1).2.2 = k1_pay4 (iblk V c 3 t) (iblk V c 4 t) xs1 := by
  have e := piece_C_1 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) (iblk V c 5 t) xs0 xs1
  unfold outC; dsimp only
  exact e
theorem outC_out (c : Dev nD) (t : Fin cfg1.N) (h0 : ¬t.val % 8 = 0) (h1 : t.val % 8 = 7) (xs0 xs1 : Vec F S6x2048 .f32) :
    (outC V c t h0 h1 xs0 xs1).1 = k1_pay5 (k1_pay3 (iblk V c 1 t) xs0 (iblk V c 0 t)) (iblk V c 2 t) (k1_pay4 (iblk V c 3 t) (iblk V c 4 t) xs1) (iblk V c 5 t) := by
  have e := piece_C_6 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) (iblk V c 5 t) xs0 xs1
  unfold outC; dsimp only
  exact e

/-- After a last reduction step the output's buffer holds the epilogue of what the two accumulators hold then. -/
theorem out_rel (c : Dev nD) (t : Fin cfg1.N) (h0 : ¬t.val % 8 = 0) (h1 : t.val % 8 = 7) :
    (outsAt V c t.val t.isLt).1 = k1_pay5 (outsAt V c t.val t.isLt).2.1 (iblk V c 2 t) (outsAt V c t.val t.isLt).2.2 (iblk V c 5 t) := by
  rw [outsAt_C V c t h0 h1, outC_out, outC_ctx, outC_key]

end Generic

end Cert.KernelIdeal.R1
end
-- ==== Proof.KI.R1V4.lean ====
import proofs.«179627_j38019050504386_2_alg».proof.Proof.KI.R1V3

set_option maxRecDepth 16384

noncomputable section

namespace Cert.KernelIdeal.R1

open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen

open Idealize.ShloMosaic.ValueLayout

variable (V : (c : Dev nD) → (b : Ref sig .tc) → Buf (Elt Ideal) ((c : Thread nD τ).loc b))

/-! ## Where each window's block sits in its array -/

/-- The block indices of the seven windows at a point `t`: the reduction step is `t % 8`, the column half `t / 8`. -/
theorem idx_facts : ∀ t : Fin cfg1.N,
    win1_0.index t (0 : Fin 2) = t.val % 8 ∧ win1_0.index t (1 : Fin 2) = t.val / 8
    ∧ win1_1.index t (0 : Fin 2) = 0 ∧ win1_1.index t (1 : Fin 2) = t.val % 8
    ∧ win1_2.index t (0 : Fin 2) = 0 ∧ win1_2.index t (1 : Fin 2) = 0
    ∧ win1_3.index t (0 : Fin 2) = 0 ∧ win1_3.index t (1 : Fin 2) = t.val % 8
    ∧ win1_4.index t (0 : Fin 2) = t.val / 8 ∧ win1_4.index t (1 : Fin 2) = t.val % 8
    ∧ win1_5.index t (0 : Fin 2) = 0 ∧ win1_5.index t (1 : Fin 2) = t.val / 8
    ∧ win1_6.index t (0 : Fin 2) = 0 ∧ win1_6.index t (1 : Fin 2) = t.val / 8 :=
  (by decide +kernel : ∀ t : Fin grid1.N, _)

/-! ## The arrays at natural-number positions (zero outside their extents) -/

/-- The query matrix `q` (4096 × 4096) at row `n`, column `j`. -/
def Qn (c : Dev nD) (n j : ℕ) : EReal :=
  if h : n < 4096 ∧ j < 4096 then Cert.Spec.arr S4096x4096 (V c main_v1) (ix2 ⟨n, h.1⟩ ⟨j, h.2⟩) else 0
/-- The context projection's weight (6 × 4096) at row `a`, column `n`. -/
def Ln (c : Dev nD) (a : Fin 6) (n : ℕ) : EReal :=
  if h : n < 4096 then Cert.Spec.arr S6x4096 (V c main_arg4) (ix2 a ⟨n, h⟩) else 0
/-- The key data (6 × 4096) at row `a`, column `d`. -/
def Dn (c : Dev nD) (a : Fin 6) (d : ℕ) : EReal :=
  if h : d < 4096 then Cert.Spec.arr S6x4096 (V c main_arg1) (ix2 a ⟨d, h⟩) else 0
/-- The key weight (4096 × 4096) at row `j`, column `d`. -/
def Kn (c : Dev nD) (j d : ℕ) : EReal :=
  if h : j < 4096 ∧ d < 4096 then Cert.Spec.arr S4096x4096 (V c main_arg6) (ix2 ⟨j, h.1⟩ ⟨d, h.2⟩) else 0
/-- The key bias row (1 × 4096) at column `j`. -/
def Bn (c : Dev nD) (j : ℕ) : EReal :=
  if h : j < 4096 then Cert.Spec.arr S1x4096 (V c main_v3) (ix2 (0 : Fin 1) ⟨j, h⟩) else 0

/-- The query block of point `t`: rows of reduction step `t % 8`, columns of half `t / 8`. -/
theorem blk0_apply (c : Dev nD) (t : Fin cfg1.N) (p : Fin 512) (q : Fin 2048) :
    ((iblk V c 0 t : Vec Ideal S512x2048 .bf16) (ix2 p q) : EReal) = Qn V c (512 * (t.val % 8) + p.val) (2048 * (t.val / 8) + q.val) := by
  obtain ⟨e00, e01, e10, e11, e20, e21, e30, e31, e40, e41, e50, e51, e60, e61⟩ := idx_facts t
  have hN : t.val < 16 := lt_of_lt_of_eq t.isLt N_1
  have hp := p.isLt
  have hq := q.isLt
  unfold iblk
  rw [View.read_apply]
  unfold Qn
  rw [dif_pos ⟨by omega, by omega⟩]
  show V c main_v1 _ = V c main_v1 _
  refine congrArg _ (funext fun ax => Fin.ext ?_)
  match ax with
  | ⟨0, _⟩ => show win1_0.index t (0 : Fin 2) * 512 + 1 * p.val = 512 * (t.val % 8) + p.val; rw [e00]; omega
  | ⟨1, _⟩ => show win1_0.index t (1 : Fin 2) * 2048 + 1 * q.val = 2048 * (t.val / 8) + q.val; rw [e01]; omega

/-- The context weight's block of point `t`: columns of reduction step `t % 8`. -/
theorem blk1_apply (c : Dev nD) (t : Fin cfg1.N) (p : Fin 6) (q : Fin 512) :
    ((iblk V c 1 t : Vec Ideal S6x512 .f32) (ix2 p q) : EReal) = Ln V c p (512 * (t.val % 8) + q.val) := by
  obtain ⟨e00, e01, e10, e11, e20, e21, e30, e31, e40, e41, e50, e51, e60, e61⟩ := idx_facts t
  have hN : t.val < 16 := lt_of_lt_of_eq t.isLt N_1
  have hp := p.isLt
  have hq := q.isLt
  unfold iblk
  rw [View.read_apply]
  unfold Ln
  rw [dif_pos (by omega)]
  show V c main_arg4 _ = V c main_arg4 _
  refine congrArg _ (funext fun ax => Fin.ext ?_)
  match ax with
  | ⟨0, _⟩ => show win1_1.index t (0 : Fin 2) * 6 + 1 * p.val = p.val; rw [e10]; omega
  | ⟨1, _⟩ => show win1_1.index t (1 : Fin 2) * 512 + 1 * q.val = 512 * (t.val % 8) + q.val; rw [e11]; omega

/-- The context bias column is staged whole. -/
theorem blk2_apply (c : Dev nD) (t : Fin cfg1.N) (p : Fin 6) (q : Fin 1) :
    ((iblk V c 2 t : Vec Ideal S6x1 .f32) (ix2 p q) : EReal) = Cert.Spec.arr S6x1 (V c main_v2) (ix2 p q) := by
  obtain ⟨e00, e01, e10, e11, e20, e21, e30, e31, e40, e41, e50, e51, e60, e61⟩ := idx_facts t
  have hN : t.val < 16 := lt_of_lt_of_eq t.isLt N_1
  have hp := p.isLt
  have hq := q.isLt
  unfold iblk
  rw [View.read_apply]
  show V c main_v2 _ = V c main_v2 _
  refine congrArg _ (funext fun ax => Fin.ext ?_)
  match ax with
  | ⟨0, _⟩ => show win1_2.index t (0 : Fin 2) * 6 + 1 * p.val = p.val; rw [e20]; omega
  | ⟨1, _⟩ => show win1_2.index t (1 : Fin 2) * 1 + 1 * q.val = q.val; rw [e21]; omega

/-- The key data's block of point `t`: columns of reduction step `t % 8`. -/
theorem blk3_apply (c : Dev nD) (t : Fin cfg1.N) (p : Fin 6) (q : Fin 512) :
    ((iblk V c 3 t : Vec Ideal S6x512 .f32) (ix2 p q) : EReal) = Dn V c p (512 * (t.val % 8) + q.val) := by
  obtain ⟨e00, e01, e10, e11, e20, e21, e30, e31, e40, e41, e50, e51, e60, e61⟩ := idx_facts t
  have hN : t.val < 16 := lt_of_lt_of_eq t.isLt N_1
  have hp := p.isLt
  have hq := q.isLt
  unfold iblk
  rw [View.read_apply]
  unfold Dn
  rw [dif_pos (by omega)]
  show V c main_arg1 _ = V c main_arg1 _
  refine congrArg _ (funext fun ax => Fin.ext ?_)
  match ax with
  | ⟨0, _⟩ => show win1_3.index t (0 : Fin 2) * 6 + 1 * p.val = p.val; rw [e30]; omega
  | ⟨1, _⟩ => show win1_3.index t (1 : Fin 2) * 512 + 1 * q.val = 512 * (t.val % 8) + q.val; rw [e31]; omega

/-- The key weight's block of point `t`: rows of half `t / 8`, columns of reduction step `t % 8`. -/
theorem blk4_apply (c : Dev nD) (t : Fin cfg1.N) (p : Fin 2048) (q : Fin 512) :
    ((iblk V c 4 t : Vec Ideal S2048x512 .f32) (ix2 p q) : EReal) = Kn V c (2048 * (t.val / 8) + p.val) (512 * (t.val % 8) + q.val) := by
  obtain ⟨e00, e01, e10, e11, e20, e21, e30, e31, e40, e41, e50, e51, e60, e61⟩ := idx_facts t
  have hN : t.val < 16 := lt_of_lt_of_eq t.isLt N_1
  have hp := p.isLt
  have hq := q.isLt
  unfold iblk
  rw [View.read_apply]
  unfold Kn
  rw [dif_pos ⟨by omega, by omega⟩]
  show V c main_arg6 _ = V c main_arg6 _
  refine congrArg _ (funext fun ax => Fin.ext ?_)
  match ax with
  | ⟨0, _⟩ => show win1_4.index t (0 : Fin 2) * 2048 + 1 * p.val = 2048 * (t.val / 8) + p.val; rw [e40]; omega
  | ⟨1, _⟩ => show win1_4.index t (1 : Fin 2) * 512 + 1 * q.val = 512 * (t.val % 8) + q.val; rw [e41]; omega

/-- The key bias row's block of point `t`: columns of half `t / 8`. -/
theorem blk5_apply (c : Dev nD) (t : Fin cfg1.N) (p : Fin 1) (q : Fin 2048) :
    ((iblk V c 5 t : Vec Ideal S1x2048 .f32) (ix2 p q) : EReal) = Bn V c (2048 * (t.val / 8) + q.val) := by
  obtain ⟨e00, e01, e10, e11, e20, e21, e30, e31, e40, e41, e50, e51, e60, e61⟩ := idx_facts t
  have hN : t.val < 16 := lt_of_lt_of_eq t.isLt N_1
  have hp := p.isLt
  have hq := q.isLt
  unfold iblk
  rw [View.read_apply]
  unfold Bn
  rw [dif_pos (by omega)]
  show V c main_v3 _ = V c main_v3 _
  refine congrArg _ (funext fun ax => Fin.ext ?_)
  match ax with
  | ⟨0, _⟩ => show win1_5.index t (0 : Fin 2) * 1 + 1 * p.val = 0; rw [e50]; omega
  | ⟨1, _⟩ => show win1_5.index t (1 : Fin 2) * 2048 + 1 * q.val = 2048 * (t.val / 8) + q.val; rw [e51]; omega

/-! ## The two accumulators are partial sums of the two products -/

/-- The context product over the first `K` reduction blocks, at row `a` and column `l` of half `m`. -/
def ctxSum (c : Dev nD) (m K : ℕ) (a : Fin 6) (l : ℕ) : EReal :=
  ∑ s ∈ Finset.range K, ∑ p : Fin 512, Ln V c a (512 * s + p.val) * Qn V c (512 * s + p.val) (2048 * m + l)
/-- The key product over the first `K` reduction blocks, at row `a` and column `l` of half `m`. -/
def keySum (c : Dev nD) (m K : ℕ) (a : Fin 6) (l : ℕ) : EReal :=
  ∑ s ∈ Finset.range K, ∑ d : Fin 512, Dn V c a (512 * s + d.val) * Kn V c (2048 * m + l) (512 * s + d.val)

/-- One update of the context accumulator at point `t`: the accumulator plus block `t % 8` of the product. -/
theorem ctx_step (c : Dev nD) (t : Fin cfg1.N) (acc : Vec Ideal S6x2048 .f32) (a : Fin 6) (l : Fin 2048) :
    (k1_pay3 (iblk V c 1 t) acc (iblk V c 0 t) (ix2 a l) : EReal)
      = (acc (ix2 a l) : EReal) + ∑ p : Fin 512, Ln V c a (512 * (t.val % 8) + p.val) * Qn V c (512 * (t.val % 8) + p.val) (2048 * (t.val / 8) + l.val) :=
  (pay3_apply (iblk V c 1 t) acc (iblk V c 0 t) a l).trans
    (congrArg ((acc (ix2 a l) : EReal) + ·) (Finset.sum_congr rfl fun p _ => by rw [blk1_apply V c t a p, blk0_apply V c t p l]))

/-- One update of the key accumulator at point `t`. -/
theorem key_step (c : Dev nD) (t : Fin cfg1.N) (acc : Vec Ideal S6x2048 .f32) (a : Fin 6) (l : Fin 2048) :
    (k1_pay4 (iblk V c 3 t) (iblk V c 4 t) acc (ix2 a l) : EReal)
      = (acc (ix2 a l) : EReal) + ∑ d : Fin 512, Dn V c a (512 * (t.val % 8) + d.val) * Kn V c (2048 * (t.val / 8) + l.val) (512 * (t.val % 8) + d.val) :=
  (pay4_apply (iblk V c 3 t) (iblk V c 4 t) acc a l).trans
    (congrArg ((acc (ix2 a l) : EReal) + ·) (Finset.sum_congr rfl fun d _ => by rw [blk3_apply V c t a d, blk4_apply V c t l d]))

/-- At a first reduction step the accumulators hold the first block of each product. -/
theorem acc_first (c : Dev nD) (t : Fin cfg1.N) (h0 : t.val % 8 = 0) (a : Fin 6) (l : Fin 2048) :
    ((outsAt V c t.val t.isLt).2.1 (ix2 a l) : EReal) = ctxSum V c (t.val / 8) 1 a l.val
    ∧ ((outsAt V c t.val t.isLt).2.2 (ix2 a l) : EReal) = keySum V c (t.val / 8) 1 a l.val := by
  rw [outsAt_A V c t h0, outA_ctx, outA_key]
  constructor
  · refine (ctx_step V c t _ a l).trans ?_
    rw [pay1_apply, zero_add, h0]
    unfold ctxSum
    rw [Finset.sum_range_one]
  · refine (key_step V c t _ a l).trans ?_
    rw [pay2_apply, zero_add, h0]
    unfold keySum
    rw [Finset.sum_range_one]

/-- At a later reduction step each accumulator is what the point before left plus the step's block. -/
theorem acc_next (c : Dev nD) (n : ℕ) (h : n + 1 < cfg1.N) (h0 : ¬(n + 1) % 8 = 0) (a : Fin 6) (l : Fin 2048) :
    ((outsAt V c (n + 1) h).2.1 (ix2 a l) : EReal)
        = ((outsAt V c n (Nat.lt_of_succ_lt h)).2.1 (ix2 a l) : EReal)
          + ∑ p : Fin 512, Ln V c a (512 * ((n + 1) % 8) + p.val) * Qn V c (512 * ((n + 1) % 8) + p.val) (2048 * ((n + 1) / 8) + l.val)
    ∧ ((outsAt V c (n + 1) h).2.2 (ix2 a l) : EReal)
        = ((outsAt V c n (Nat.lt_of_succ_lt h)).2.2 (ix2 a l) : EReal)
          + ∑ d : Fin 512, Dn V c a (512 * ((n + 1) % 8) + d.val) * Kn V c (2048 * ((n + 1) / 8) + l.val) (512 * ((n + 1) % 8) + d.val) := by
  by_cases h1 : (n + 1) % 8 = 7
  · have e : outsAt V c (n + 1) h = outC V c ⟨n + 1, h⟩ h0 h1 (outsAt V c n (Nat.lt_of_succ_lt h)).2.1 (outsAt V c n (Nat.lt_of_succ_lt h)).2.2 :=
      outsAt_C V c ⟨n + 1, h⟩ h0 h1
    rw [e, outC_ctx, outC_key]
    exact ⟨ctx_step V c ⟨n + 1, h⟩ _ a l, key_step V c ⟨n + 1, h⟩ _ a l⟩
  · have e : outsAt V c (n + 1) h = outB V c ⟨n + 1, h⟩ h0 h1 (outsAt V c n (Nat.lt_of_succ_lt h)).2.1 (outsAt V c n (Nat.lt_of_succ_lt h)).2.2 :=
      outsAt_B V c ⟨n + 1, h⟩ h0 h1
    rw [e, outB_ctx, outB_key]
    exact ⟨ctx_step V c ⟨n + 1, h⟩ _ a l, key_step V c ⟨n + 1, h⟩ _ a l⟩

/-- THE ACCUMULATION: after point `n` (reduction step `n % 8` of column half `n / 8`) the context accumulator holds the first
    `n % 8 + 1` blocks of the context product and the key accumulator the first `n % 8 + 1` blocks of the key product. -/
theorem acc_eq (c : Dev nD) : ∀ (n : ℕ) (h : n < cfg1.N) (a : Fin 6) (l : Fin 2048),
    ((outsAt V c n h).2.1 (ix2 a l) : EReal) = ctxSum V c (n / 8) (n % 8 + 1) a l.val
    ∧ ((outsAt V c n h).2.2 (ix2 a l) : EReal) = keySum V c (n / 8) (n % 8 + 1) a l.val := by
  intro n
  induction n with
  | zero => intro h a l; exact acc_first V c ⟨0, h⟩ rfl a l
  | succ n ih =>
    intro h a l
    have hN : n + 1 < 16 := lt_of_lt_of_eq h N_1
    by_cases h0 : (n + 1) % 8 = 0
    · have e := acc_first V c ⟨n + 1, h⟩ h0 a l
      rw [h0]
      exact e
    · obtain ⟨s1, s2⟩ := acc_next V c n h h0 a l
      obtain ⟨i1, i2⟩ := ih (Nat.lt_of_succ_lt h) a l
      have hd : (n + 1) / 8 = n / 8 := by omega
      have hm : (n + 1) % 8 = n % 8 + 1 := by omega
      constructor
      · rw [s1, i1, hd, hm]; unfold ctxSum; rw [Finset.sum_range_succ (n := n % 8 + 1)]
      · rw [s2, i2, hd, hm]; unfold keySum; rw [Finset.sum_range_succ (n := n % 8 + 1)]

/-- After a last reduction step the output's buffer holds, entry by entry, the modulated key of the finished context and key
    entries with their biases added. -/
theorem out_last (c : Dev nD) (t : Fin cfg1.N) (h7 : t.val % 8 = 7) (a : Fin 6) (l : Fin 2048) :
    ((outsAt V c t.val t.isLt).1 (ix2 a l) : EReal)
      = Cert.Spec.kmodS (ctxSum V c (t.val / 8) 8 a l.val + Cert.Spec.arr S6x1 (V c main_v2) (ix2 a (0 : Fin 1)))
          (keySum V c (t.val / 8) 8 a l.val + Bn V c (2048 * (t.val / 8) + l.val)) := by
  have h0 : ¬t.val % 8 = 0 := by omega
  have e8 : t.val % 8 + 1 = 8 := by omega
  rw [out_rel V c t h0 h7]
  refine (pay5_apply _ (iblk V c 2 t) _ (iblk V c 5 t) a l).trans ?_
  rw [(acc_eq V c t.val t.isLt a l).1, (acc_eq V c t.val t.isLt a l).2, blk2_apply V c t a 0, blk5_apply V c t 0 l, e8]

end Cert.KernelIdeal.R1
end
-- ==== Proof.KI.R1V5.lean ====
import proofs.«179627_j38019050504386_2_alg».proof.Proof.KI.R1V4

set_option maxRecDepth 16384

noncomputable section

namespace Cert.KernelIdeal.R1

open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen

open Idealize.ShloMosaic.ValueLayout

variable (V : (c : Dev nD) → (b : Ref sig .tc) → Buf (Elt Ideal) ((c : Thread nD τ).loc b))

/-! ## From the written-back blocks to the output array -/

/-- The entry the region leaves at row `a`, column `j` of its output: the modulated key of the full context and key products
    with their biases. -/
def Gfun (c : Dev nD) (a : Fin 6) (j : ℕ) : EReal :=
  Cert.Spec.kmodS (ctxSum V c (j / 2048) 8 a (j % 2048) + Cert.Spec.arr S6x1 (V c main_v2) (ix2 a (0 : Fin 1)))
    (keySum V c (j / 2048) 8 a (j % 2048) + Bn V c j)

/-- The same as contents of the output array. -/
def G (c : Dev nD) : S6x4096.Idx → EReal := fun i => Gfun V c ⟨(i 0).val, (i 0).isLt⟩ (i 1).val

theorem G_of (c : Dev nD) (i : S6x4096.Idx) (a : Fin 6) (j : ℕ) (h0 : (i 0).val = a.val) (h1 : (i 1).val = j) :
    G V c i = Gfun V c a j := by
  unfold G; subst h1; exact congrArg (fun x => Gfun V c x (i 1).val) (Fin.ext h0)

/-- What a last reduction step writes back is its block of `G`. -/
theorem flushed_eq (c : Dev nD) (t : Fin cfg1.N) (hf : (cfg1.win 6).flush t = true) :
    (dat V c).flushed 6 t = ((cfg1.win 6).blk t).view.read (Elt Ideal) (G V c) := by
  have h7 : t.val % 8 = 7 := (flush1_6 t).mp hf
  obtain ⟨-, -, -, -, -, -, -, -, -, -, -, -, e60, e61⟩ := idx_facts t
  have hN : t.val < 16 := lt_of_lt_of_eq t.isLt N_1
  show (cfg1.win 6).cut (grid1.coords t) ((dat V c).after 6 t) = _
  rw [after_6]
  funext y
  obtain ⟨a, l, rfl⟩ : ∃ (a : Fin 6) (l : Fin 2048), y = ix2 a l := ⟨_, _, eq_ix2 (n0 := 6) (n1 := 2048) y⟩
  have ha := a.isLt
  have hl := l.isLt
  rw [View.read_apply]
  show ((outsAt V c t.val t.isLt).1 (ix2 a l) : EReal) = G V c (((cfg1.win 6).blk t).view.emb (ix2 a l))
  rw [out_last V c t h7 a l, G_of V c _ a (2048 * (t.val / 8) + l.val)
    (by show win1_6.index t (0 : Fin 2) * 6 + 1 * a.val = a.val; rw [e60]; omega)
    (by show win1_6.index t (1 : Fin 2) * 2048 + 1 * l.val = _; rw [e61]; omega)]
  unfold Gfun
  rw [show (2048 * (t.val / 8) + l.val) / 2048 = t.val / 8 from by omega, show (2048 * (t.val / 8) + l.val) % 2048 = l.val from by omega]

/-- An index of the output array is in point `t`'s block iff each coordinate is in the block's range on its axis. -/
theorem mem_blk (t : Fin cfg1.N) (i : S6x4096.Idx) :
    i ∈ ((cfg1.win 6).blk t).view.set ↔ ∀ ax : Fin 2, win1_6.index t ax * S6x2048.size ax ≤ (i ax).val ∧ (i ax).val < win1_6.index t ax * S6x2048.size ax + S6x2048.size ax := by
  show i ∈ ((View.whole main_v4).slice (win1_6.rect t)).set ↔ _
  rw [View.set_slice_whole, Rect.mem_set_unit]
  exact Iff.rfl

/-- Every entry of the output array is written back by the last reduction step of its column half. -/
theorem cover (i : S6x4096.Idx) : ∃ t : Fin cfg1.N, (cfg1.win 6).flush t = true ∧ i ∈ ((cfg1.win 6).blk t).view.set := by
  have h0 : (i 0).val < 6 := (i 0).isLt
  have h1 : (i 1).val < 4096 := (i 1).isLt
  have hN : cfg1.N = 16 := N_1
  have hlt : 8 * ((i 1).val / 2048) + 7 < cfg1.N := by rw [hN]; omega
  obtain ⟨-, -, -, -, -, -, -, -, -, -, -, -, e60, e61⟩ := idx_facts ⟨8 * ((i 1).val / 2048) + 7, hlt⟩
  refine ⟨⟨8 * ((i 1).val / 2048) + 7, hlt⟩, (flush1_6 _).mpr (by show (8 * ((i 1).val / 2048) + 7) % 8 = 7; omega), ?_⟩
  rw [mem_blk]
  intro ax
  match ax with
  | ⟨0, _⟩ =>
    show win1_6.index ⟨8 * ((i 1).val / 2048) + 7, hlt⟩ (0 : Fin 2) * 6 ≤ (i 0).val ∧ (i 0).val < win1_6.index ⟨8 * ((i 1).val / 2048) + 7, hlt⟩ (0 : Fin 2) * 6 + 6
    rw [e60]; omega
  | ⟨1, _⟩ =>
    show win1_6.index ⟨8 * ((i 1).val / 2048) + 7, hlt⟩ (1 : Fin 2) * 2048 ≤ (i 1).val ∧ (i 1).val < win1_6.index ⟨8 * ((i 1).val / 2048) + 7, hlt⟩ (1 : Fin 2) * 2048 + 2048
    rw [e61]
    show (8 * ((i 1).val / 2048) + 7) / 8 * 2048 ≤ (i 1).val ∧ (i 1).val < (8 * ((i 1).val / 2048) + 7) / 8 * 2048 + 2048
    omega

/-- So the output array ends holding `G`. -/
theorem arr_eq (c : Dev nD) : (dat V c).arrAt 6 cfg1.N = G V c :=
  (dat V c).arrAt_eq_of_cover 6 (G V c) (flushed_eq V c) cover

/-! ## The eight blocks of a product are the whole product -/

/-- A sum over the 8 blocks of 512 consecutive positions is the sum over all 4096 positions. -/
theorem sum_all (f : ℕ → EReal) : ∑ s ∈ Finset.range 8, ∑ p : Fin 512, f (512 * s + p.val) = ∑ n : Fin 4096, f n.val := by
  rw [Finset.sum_range]
  refine Eq.trans ?_ (Cert.Lib.sum_blocks 8 512 (fun i : Fin (8 * 512) => f i.val)).symm
  refine Finset.sum_congr rfl fun k _ => Finset.sum_congr rfl fun d _ => ?_
  show f (512 * k.val + d.val) = f (k.val * 512 + d.val)
  rw [Nat.mul_comm]

/-- The finished context entry is the whole context product. -/
theorem ctx_full (c : Dev nD) (a : Fin 6) (j : Fin 4096) :
    ctxSum V c (j.val / 2048) 8 a (j.val % 2048)
      = ∑ n : Fin 4096, Cert.Spec.arr S6x4096 (V c main_arg4) (ix2 a n) * Cert.Spec.arr S4096x4096 (V c main_v1) (ix2 n j) := by
  have hj := j.isLt
  have hd : 2048 * (j.val / 2048) + j.val % 2048 = j.val := Nat.div_add_mod _ _
  unfold ctxSum
  refine (sum_all (fun n => Ln V c a n * Qn V c n (2048 * (j.val / 2048) + j.val % 2048))).trans ?_
  refine Finset.sum_congr rfl fun n _ => ?_
  show Ln V c a n.val * Qn V c n.val (2048 * (j.val / 2048) + j.val % 2048) = _
  rw [hd]
  unfold Ln Qn
  rw [dif_pos n.isLt, dif_pos ⟨n.isLt, hj⟩]

/-- The finished key entry is the whole key product. -/
theorem key_full (c : Dev nD) (a : Fin 6) (j : Fin 4096) :
    keySum V c (j.val / 2048) 8 a (j.val % 2048)
      = ∑ d : Fin 4096, Cert.Spec.arr S6x4096 (V c main_arg1) (ix2 a d) * Cert.Spec.arr S4096x4096 (V c main_arg6) (ix2 j d) := by
  have hj := j.isLt
  have hd : 2048 * (j.val / 2048) + j.val % 2048 = j.val := Nat.div_add_mod _ _
  unfold keySum
  refine (sum_all (fun n => Dn V c a n * Kn V c (2048 * (j.val / 2048) + j.val % 2048) n)).trans ?_
  refine Finset.sum_congr rfl fun d _ => ?_
  show Dn V c a d.val * Kn V c (2048 * (j.val / 2048) + j.val % 2048) d.val = _
  rw [hd]
  unfold Dn Kn
  rw [dif_pos d.isLt, dif_pos ⟨hj, d.isLt⟩]

end Cert.KernelIdeal.R1
end
-- ==== Proof.KI.R1Value.lean ====
import proofs.«179627_j38019050504386_2_alg».proof.Proof.KI.R1
import proofs.«179627_j38019050504386_2_alg».proof.Proof.KI.R1V5
import proofs.«179627_j38019050504386_2_alg».proof.Proof.Spec
import Idealize.ShloMosaic.Lib.Pipeline.Value
import Idealize.ShloMosaic.Lib.ValueIdx
import Idealize.ShloMosaic.PureOps.Ideal.Laws

set_option maxRecDepth 16384
noncomputable section
namespace Cert.KernelIdeal.R1
open Idealize.ShloMosaic Idealize.ShloMosaic.TcCoe Idealize.SL.Sem Idealize.ShloMosaic.ValueIdx
open Cert.KernelIdeal Cert.KernelIdeal.Gen

/-- What region 1 leaves in its output array (window 6, main_v4), entry by entry, at Ideal. -/
theorem final (V : (c : Dev nD) → (b : Ref sig .tc) → Buf (Elt Ideal) ((c : Thread nD τ).loc b)) (c : Dev nD) (a : Fin 6) (j : Fin 4096) :
    Cert.Spec.arr S6x4096 ((dat (F := Ideal) V c).arrAt 6 cfg1.N) (ix2 a j)
      = Cert.Spec.kmodS
          ((∑ n : Fin 4096, Cert.Spec.arr S6x4096 (V c main_arg4) (ix2 a n) * Cert.Spec.arr S4096x4096 (V c main_v1) (ix2 n j))
            + Cert.Spec.arr S6x1 (V c main_v2) (ix2 a 0))
          ((∑ d : Fin 4096, Cert.Spec.arr S6x4096 (V c main_arg1) (ix2 a d) * Cert.Spec.arr S4096x4096 (V c main_arg6) (ix2 j d))
            + Cert.Spec.arr S1x4096 (V c main_v3) (ix2 0 j)) := by
  show (dat V c).arrAt 6 cfg1.N (ix2 a j) = _
  rw [arr_eq V c, G_of V c (ix2 a j) a j.val rfl rfl]
  unfold Gfun
  rw [ctx_full V c a j, key_full V c a j]
  unfold Bn
  rw [dif_pos j.isLt]

end Cert.KernelIdeal.R1
end
-- ==== Proof.KI.R2VPieces.lean ====
import proofs.«179627_j38019050504386_2_alg».proof.Proof.KI.R2
import Idealize.ShloMosaic.Lib.Pipeline.Value

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # What each half leaves, as the body's arithmetic of the blocks it was handed -/

theorem origin2 : (![0, 0] : Fin 2 → Nat) = fun _ => 0 := funext fun a => by fin_cases a <;> rfl

/-- A last half leaves in the accumulator what it found plus the second half-product. -/
theorem accLast_eq (c : Dev nD) (i : grid2.Coords) (arg2 : Memref sig .tc .vmem S1024x2048 .bf16) (harg2 : arg2.IsWhole) (arg3 : Memref sig .tc .vmem S6x2048 .bf16) (harg3 : arg3.IsWhole) (arg4 : Memref sig .tc .vmem S1024x6 .f32) (harg4 : arg4.IsWhole) (arg5 : Memref sig .tc .vmem S1024x6 .f32) (harg5 : arg5.IsWhole) (hc0 : ¬atFirstHalf i) (hc1 : atLastHalf i)
    (xq : Vec F S1024x2048 .bf16) (xk : Vec F S6x2048 .bf16) (xacc : Vec F S1024x6 .f32) :
    accLast c i arg2 harg2 arg3 harg3 arg4 harg4 arg5 harg5 hc0 hc1 xq xk xacc = k2_pay2 xacc xq xk := by
  unfold accLast
  rw [View.read_writes_eq_canon _ _ _ (accLast_cover c i arg2 harg2 arg3 harg3 arg4 harg4 arg5 harg5 hc0 hc1 xq xk xacc)]
  unfold runLast
  dsimp only
  sl_unfold_words
  rw [View.canon_unit_zero (S := S1024x6) origin2]
  simp only [View.readAt_eq_ld, harg2.read_unread, harg3.read_unread, harg5.read_unread, View.ld_unit_zero (S := S1024x6) origin2, View.ld_unit_zero (S := S1024x2048) origin2, View.ld_unit_zero (S := S6x2048) origin2]

/-- A last half leaves in the output block the new accumulator times 2⁻⁶. -/
theorem outLast_eq (c : Dev nD) (i : grid2.Coords) (arg2 : Memref sig .tc .vmem S1024x2048 .bf16) (harg2 : arg2.IsWhole) (arg3 : Memref sig .tc .vmem S6x2048 .bf16) (harg3 : arg3.IsWhole) (arg4 : Memref sig .tc .vmem S1024x6 .f32) (harg4 : arg4.IsWhole) (arg5 : Memref sig .tc .vmem S1024x6 .f32) (harg5 : arg5.IsWhole) (hc0 : ¬atFirstHalf i) (hc1 : atLastHalf i)
    (xq : Vec F S1024x2048 .bf16) (xk : Vec F S6x2048 .bf16) (xacc : Vec F S1024x6 .f32) :
    outLast c i arg2 harg2 arg3 harg3 arg4 harg4 arg5 harg5 hc0 hc1 xq xk xacc = k2_pay3 (k2_pay2 xacc xq xk) := by
  unfold outLast
  rw [View.read_writes_eq_canon _ _ _ (outLast_cover c i arg2 harg2 arg3 harg3 arg4 harg4 arg5 harg5 hc0 hc1 xq xk xacc)]
  unfold runLast
  dsimp only
  sl_unfold_words
  rw [View.canon_unit_zero (S := S1024x6) origin2, View.readCov_unit_zero (S := S1024x6) _ origin2]
  simp only [View.readAt_eq_ld, harg2.read_unread, harg3.read_unread, harg5.read_unread, View.ld_unit_zero (S := S1024x6) origin2, View.ld_unit_zero (S := S1024x2048) origin2, View.ld_unit_zero (S := S6x2048) origin2]

/-- A first half leaves in the accumulator the zero block plus the first half-product. -/
theorem accFirst_eq (c : Dev nD) (i : grid2.Coords) (arg2 : Memref sig .tc .vmem S1024x2048 .bf16) (harg2 : arg2.IsWhole) (arg3 : Memref sig .tc .vmem S6x2048 .bf16) (harg3 : arg3.IsWhole) (arg4 : Memref sig .tc .vmem S1024x6 .f32) (harg4 : arg4.IsWhole) (arg5 : Memref sig .tc .vmem S1024x6 .f32) (harg5 : arg5.IsWhole) (hc0 : atFirstHalf i) (hc1 : ¬atLastHalf i)
    (xq : Vec F S1024x2048 .bf16) (xk : Vec F S6x2048 .bf16) :
    accFirst c i arg2 harg2 arg3 harg3 arg4 harg4 arg5 harg5 hc0 hc1 xq xk = k2_pay2 (k2_pay1 (F := F)) xq xk := by
  unfold accFirst
  rw [View.read_writes_eq_canon _ _ _ (accFirst_cover c i arg2 harg2 arg3 harg3 arg4 harg4 arg5 harg5 hc0 hc1 xq xk)]
  unfold runFirst
  dsimp only
  sl_unfold_words
  rw [View.canon_cons_unit_zero (S := S1024x6) origin2, View.readCov_unit_zero (S := S1024x6) _ origin2]
  simp only [View.readAt_eq_ld, harg2.read_unread, harg3.read_unread, View.ld_unit_zero (S := S1024x2048) origin2, View.ld_unit_zero (S := S6x2048) origin2]

end Cert.KernelIdeal.R2

end
-- ==== Proof.KI.R2VPay.lean ====
import proofs.«179627_j38019050504386_2_alg».proof.Proof.Gen.KernelIdeal.Skeleton
import Idealize.ShloMosaic.Lib.ValueIdx
import Idealize.ShloMosaic.Lib.Pipeline.Value
import Idealize.ShloMosaic.PureOps.Ideal.Laws

set_option maxRecDepth 16384
noncomputable section
namespace Cert.KernelIdeal.R2
open Idealize.ShloMosaic Idealize.ShloMosaic.TcCoe Idealize.SL.Sem Idealize.ShloMosaic.ValueIdx
open Cert.KernelIdeal Cert.KernelIdeal.Gen

/-! # The body's arithmetic over the extended reals, entry by entry

The product contracts the second axis of both operands: entry (r, a) of q_blk · kmod_blkᵀ is the sum over the
2048 columns k of q_blk (r, k) · kmod_blk (a, k). -/

/-- The left operand is read at (output row, contraction position), -/
theorem lhs_row (j : S1024x6.Idx) (p : dot_S1024x2048_S6x2048_S1024x6_1_1_0_0_n_n.contr.Idx) : (dot_S1024x2048_S6x2048_S1024x6_1_1_0_0_n_n.lhsIdx j p 0).val = (j 0).val := by
  unfold DotDims.lhsIdx
  rw [dif_neg (show ¬(0 : Fin S1024x2048.rank) ∈ dot_S1024x2048_S6x2048_S1024x6_1_1_0_0_n_n.lhsBatch by decide), dif_pos (show (0 : Fin S1024x2048.rank) ∈ dot_S1024x2048_S6x2048_S1024x6_1_1_0_0_n_n.lhsNonContracting by decide)]
  rfl
theorem lhs_col (j : S1024x6.Idx) (p : dot_S1024x2048_S6x2048_S1024x6_1_1_0_0_n_n.contr.Idx) : (dot_S1024x2048_S6x2048_S1024x6_1_1_0_0_n_n.lhsIdx j p 1).val = (p ⟨0, by decide⟩).val :=
  dot_S1024x2048_S6x2048_S1024x6_1_1_0_0_n_n.lhsIdx_val_of_single rfl j p
/-- the right operand at (output column, contraction position). -/
theorem rhs_row (j : S1024x6.Idx) (p : dot_S1024x2048_S6x2048_S1024x6_1_1_0_0_n_n.contr.Idx) : (dot_S1024x2048_S6x2048_S1024x6_1_1_0_0_n_n.rhsIdx j p 0).val = (j 1).val := by
  unfold DotDims.rhsIdx
  rw [dif_neg (show ¬(0 : Fin S6x2048.rank) ∈ dot_S1024x2048_S6x2048_S1024x6_1_1_0_0_n_n.rhsBatch by decide), dif_pos (show (0 : Fin S6x2048.rank) ∈ dot_S1024x2048_S6x2048_S1024x6_1_1_0_0_n_n.rhsNonContracting by decide)]
  rfl
theorem rhs_col (j : S1024x6.Idx) (p : dot_S1024x2048_S6x2048_S1024x6_1_1_0_0_n_n.contr.Idx) : (dot_S1024x2048_S6x2048_S1024x6_1_1_0_0_n_n.rhsIdx j p 1).val = (p ⟨0, by decide⟩).val :=
  dot_S1024x2048_S6x2048_S1024x6_1_1_0_0_n_n.rhsIdx_val_of_single rfl j p

/-- The half-product into the zero block, at an entry. -/
theorem halfProduct_apply (x : FVec Ideal S1024x2048 .bf16) (y : FVec Ideal S6x2048 .bf16) (r : Fin 1024) (a : Fin 6) :
    FloatOps.matmul dot_S1024x2048_S6x2048_S1024x6_1_1_0_0_n_n none x y (constant (F := Ideal) S1024x6 .f32 0x00000000#32) (ix2 r a)
      = ∑ k : Fin 2048, x (ix2 r k) * y (ix2 a k) := by
  refine (Ideal.matmul_constant_zero_apply dot_S1024x2048_S6x2048_S1024x6_1_1_0_0_n_n none x y (ix2 r a)).trans ?_
  rw [← Equiv.sum_comp (contrEquiv1 dot_S1024x2048_S6x2048_S1024x6_1_1_0_0_n_n 2048 rfl rfl).symm]
  refine Finset.sum_congr rfl fun k _ => ?_
  have hk := contrEquiv1_symm_val dot_S1024x2048_S6x2048_S1024x6_1_1_0_0_n_n 2048 rfl rfl k
  have el : dot_S1024x2048_S6x2048_S1024x6_1_1_0_0_n_n.lhsIdx (ix2 r a) ((contrEquiv1 dot_S1024x2048_S6x2048_S1024x6_1_1_0_0_n_n 2048 rfl rfl).symm k) = ix2 r k := funext fun b => Fin.ext (by
    match b with
    | ⟨0, _⟩ => exact lhs_row _ _
    | ⟨1, _⟩ => exact (lhs_col _ _).trans hk)
  have er : dot_S1024x2048_S6x2048_S1024x6_1_1_0_0_n_n.rhsIdx (ix2 r a) ((contrEquiv1 dot_S1024x2048_S6x2048_S1024x6_1_1_0_0_n_n 2048 rfl rfl).symm k) = ix2 a k := funext fun b => Fin.ext (by
    match b with
    | ⟨0, _⟩ => exact rhs_row _ _
    | ⟨1, _⟩ => exact (rhs_col _ _).trans hk)
  rw [el, er]

/-- The zero block is zero everywhere. -/
theorem pay1_apply (r : Fin 1024) (a : Fin 6) : k2_pay1 (F := Ideal) (ix2 r a) = 0 := by
  unfold k2_pay1
  exact Ideal.ofBits_zero_f32

/-- The accumulation step at an entry: what the accumulator held plus the half-product. -/
theorem pay2_apply (v3 : Vec Ideal S1024x6 .f32) (v4 : Vec Ideal S1024x2048 .bf16) (v6 : Vec Ideal S6x2048 .bf16) (r : Fin 1024) (a : Fin 6) :
    k2_pay2 (F := Ideal) v3 v4 v6 (ix2 r a) = v3 (ix2 r a) + ∑ k : Fin 2048, v4 (ix2 r k) * v6 (ix2 a k) := by
  unfold k2_pay2
  simp only [shapeCast_self]
  exact congrArg (v3 (ix2 r a) + ·) (halfProduct_apply v4 v6 r a)

/-- The scaling step at an entry: times the literal 2⁻⁶. -/
theorem pay3_apply (v16 : Vec Ideal S1024x6 .f32) (r : Fin 1024) (a : Fin 6) :
    k2_pay3 (F := Ideal) v16 (ix2 r a) = v16 (ix2 r a) * Ideal.ofBits .f32 0x3C800000#32 := by
  unfold k2_pay3
  rfl

end Cert.KernelIdeal.R2
end
-- ==== Proof.KI.R2Value.lean ====
import proofs.«179627_j38019050504386_2_alg».proof.Proof.KI.R2VPieces
import proofs.«179627_j38019050504386_2_alg».proof.Proof.KI.R2VPay
import proofs.«179627_j38019050504386_2_alg».proof.Proof.Spec
import Idealize.ShloMosaic.Lib.Pipeline.Value
import Idealize.ShloMosaic.Lib.ValueIdx
import Idealize.ShloMosaic.PureOps.Ideal.Laws

set_option maxRecDepth 16384
noncomputable section
namespace Cert.KernelIdeal.R2
open Idealize.ShloMosaic Idealize.ShloMosaic.TcCoe Idealize.SL.Sem Idealize.ShloMosaic.ValueIdx
open Idealize.ShloMosaic.Pipeline (Dat)
open Cert.KernelIdeal Cert.KernelIdeal.Gen

/-! # The output array: every entry is the full-length product of a row of q with a row of kmod, times 2⁻⁶ -/

/-! ## Where the blocks sit: the index maps over the grid, point t = 2 i + k -/

/-- The band of q at point t is block (t / 2, t % 2), the half of kmod block (0, t % 2), the output block (t / 2, 0). -/
theorem block_indices : ∀ t : Fin cfg2.N, win2_0.index t (0 : Fin 2) = t.val / 2 ∧ win2_0.index t (1 : Fin 2) = t.val % 2
    ∧ win2_1.index t (0 : Fin 2) = 0 ∧ win2_1.index t (1 : Fin 2) = t.val % 2
    ∧ win2_2.index t (0 : Fin 2) = t.val / 2 ∧ win2_2.index t (1 : Fin 2) = 0 :=
  (by decide +kernel : ∀ t : Fin grid2.N, _)

/-- The point before t. -/
abbrev before (t : Fin cfg2.N) : Fin cfg2.N := ⟨t.val - 1, Nat.lt_of_le_of_lt (Nat.sub_le _ _) t.isLt⟩

section Generic
variable {F : FTy → Type} [FloatOps F]
variable (V : (c : Dev nD) → (b : Ref sig .tc) → Buf (Elt F) ((c : Thread nD τ).loc b))

/-- What a first half leaves in the accumulator, as the body's arithmetic of its two blocks. -/
theorem acc_at_first (c : Dev nD) (s : Fin cfg2.N) (h0 : s.val % 2 = 0) :
    (outsAt V c s.val s.isLt).2 = k2_pay2 (k2_pay1 (F := F)) (blockIn V c 0 s) (blockIn V c 1 s) := by
  rw [outsAt_first V c s h0]
  dsimp only
  exact accFirst_eq c (grid2.coords s) (qM s) (qM_whole s) (kM s) (kM_whole s) (outM s) (outM_whole s) accM (Memref.isWhole_whole _) ((atFirstHalf_iff s).mpr h0) (notLast_of_even s h0) (blockIn V c 0 s) (blockIn V c 1 s)

/-- What a last half leaves in the output block, as the body's arithmetic of the four blocks of its band: the
    zero block, plus the first half-product, plus the second, times 2⁻⁶. -/
theorem out_at_last (c : Dev nD) (t : Fin cfg2.N) (h1 : t.val % 2 = 1) :
    (outsAt V c t.val t.isLt).1
      = k2_pay3 (k2_pay2 (k2_pay2 (k2_pay1 (F := F)) (blockIn V c 0 (before t)) (blockIn V c 1 (before t))) (blockIn V c 0 t) (blockIn V c 1 t)) := by
  have h0 : (before t).val % 2 = 0 := by show (t.val - 1) % 2 = 0; omega
  have e := acc_at_first V c (before t) h0
  rw [outsAt_last V c t h1]
  dsimp only
  rw [outLast_eq c (grid2.coords t) (qM t) (qM_whole t) (kM t) (kM_whole t) (outM t) (outM_whole t) accM (Memref.isWhole_whole _) (notFirst_of_odd t h1) ((atLastHalf_iff t).mpr h1) (blockIn V c 0 t) (blockIn V c 1 t)]
  exact congrArg (fun z => k2_pay3 (k2_pay2 z (blockIn V c 0 t) (blockIn V c 1 t))) e

/-- An entry of the band of q at point t, in the array. -/
theorem q_read (c : Dev nD) (t : Fin cfg2.N) (r : Fin 1024) (k : Fin 2048) (R K : Fin 4096)
    (hR : R.val = 1024 * (t.val / 2) + r.val) (hK : K.val = 2048 * (t.val % 2) + k.val) :
    blockIn V c 0 t (ix2 r k) = V c main_v1 (ix2 R K) := by
  unfold blockIn
  rw [View.read_apply]
  show V c main_v1 (((cfg2.win 0).blk t).view.emb (ix2 r k)) = V c main_v1 (ix2 R K)
  obtain ⟨e0, e1, -⟩ := block_indices t
  refine congrArg (V c main_v1) (funext fun b => Fin.ext ?_)
  match b with
  | ⟨0, _⟩ => show win2_0.index t (0 : Fin 2) * 1024 + 1 * r.val = R.val; rw [e0, hR]; omega
  | ⟨1, _⟩ => show win2_0.index t (1 : Fin 2) * 2048 + 1 * k.val = K.val; rw [e1, hK]; omega

/-- An entry of the half of kmod at point t, in the array. -/
theorem k_read (c : Dev nD) (t : Fin cfg2.N) (a : Fin 6) (k : Fin 2048) (K : Fin 4096)
    (hK : K.val = 2048 * (t.val % 2) + k.val) :
    blockIn V c 1 t (ix2 a k) = V c main_v4 (ix2 a K) := by
  unfold blockIn
  rw [View.read_apply]
  show V c main_v4 (((cfg2.win 1).blk t).view.emb (ix2 a k)) = V c main_v4 (ix2 a K)
  obtain ⟨-, -, e2, e3, -⟩ := block_indices t
  refine congrArg (V c main_v4) (funext fun b => Fin.ext ?_)
  match b with
  | ⟨0, _⟩ => show win2_1.index t (0 : Fin 2) * 6 + 1 * a.val = a.val; rw [e2]; omega
  | ⟨1, _⟩ => show win2_1.index t (1 : Fin 2) * 2048 + 1 * k.val = K.val; rw [e3, hK]; omega

end Generic

/-! ## The arithmetic -/

/-- Zero, plus the sum over the first 2048 positions, plus the sum over the last 2048, is the sum over all 4096. -/
theorem two_halves (f : Fin 4096 → EReal) :
    (0 + ∑ k : Fin 2048, f ⟨k.val, by have := k.isLt; omega⟩) + ∑ k : Fin 2048, f ⟨2048 + k.val, by have := k.isLt; omega⟩
      = ∑ j : Fin 4096, f j := by
  rw [zero_add]
  refine Eq.symm ((Cert.Lib.sum_blocks 2 2048 f).trans ?_)
  rw [Fin.sum_univ_two]
  refine congrArg₂ (· + ·) (Finset.sum_congr rfl fun d _ => congrArg f (Fin.ext ?_)) (Finset.sum_congr rfl fun d _ => congrArg f (Fin.ext ?_))
  · show 0 * 2048 + d.val = d.val; omega
  · show 1 * 2048 + d.val = 2048 + d.val; omega

/-- The four payloads composed, at an entry. -/
theorem band_entry (xq0 xq1 : Vec Ideal S1024x2048 .bf16) (xk0 xk1 : Vec Ideal S6x2048 .bf16) (r : Fin 1024) (a : Fin 6) :
    k2_pay3 (F := Ideal) (k2_pay2 (k2_pay2 (k2_pay1 (F := Ideal)) xq0 xk0) xq1 xk1) (ix2 r a)
      = ((0 + ∑ k : Fin 2048, xq0 (ix2 r k) * xk0 (ix2 a k)) + ∑ k : Fin 2048, xq1 (ix2 r k) * xk1 (ix2 a k))
          * Ideal.ofBits .f32 0x3C800000#32 := by
  rw [pay3_apply, pay2_apply, pay2_apply, pay1_apply]

section AtIdeal
variable (V : (c : Dev nD) → (b : Ref sig .tc) → Buf (Elt Ideal) ((c : Thread nD τ).loc b))

/-- Entry (n, a) of the result: row n of q against row a of kmod over all 4096 positions, times 2⁻⁶. -/
def outEntry (c : Dev nD) (n : Fin 4096) (a : Fin 6) : EReal :=
  (∑ j : Fin 4096, Cert.Spec.arr S4096x4096 (V c main_v1) (ix2 n j) * Cert.Spec.arr S6x4096 (V c main_v4) (ix2 a j))
    * Ideal.ofBits .f32 0x3C800000#32

/-- The result array. -/
def outArray (c : Dev nD) : Buf (Elt Ideal) ((c : Thread nD τ).loc main_v5) := fun i => outEntry V c (i 0) (i 1)

/-- What a last half leaves at entry (r, a) of the output block is entry (1024 (t / 2) + r, a) of the result. -/
theorem out_entry (c : Dev nD) (t : Fin cfg2.N) (h1 : t.val % 2 = 1) (r : Fin 1024) (a : Fin 6) (R : Fin 4096)
    (hR : R.val = 1024 * (t.val / 2) + r.val) :
    (outsAt V c t.val t.isLt).1 (ix2 r a) = outEntry V c R a := by
  have hN : t.val < 8 := lt_of_lt_of_eq t.isLt (show cfg2.N = 8 from N_2)
  rw [out_at_last V c t h1]
  refine (band_entry (blockIn V c 0 (before t)) (blockIn V c 0 t) (blockIn V c 1 (before t)) (blockIn V c 1 t) r a).trans ?_
  unfold outEntry
  refine congrArg (· * Ideal.ofBits .f32 0x3C800000#32) ?_
  refine Eq.trans ?_ (two_halves fun j => Cert.Spec.arr S4096x4096 (V c main_v1) (ix2 R j) * Cert.Spec.arr S6x4096 (V c main_v4) (ix2 a j))
  have hb : (before t).val = t.val - 1 := rfl
  refine congrArg₂ (· + ·) (congrArg (0 + ·) (Finset.sum_congr rfl fun k _ => ?_)) (Finset.sum_congr rfl fun k _ => ?_)
  · exact congrArg₂ (· * ·)
      (q_read V c (before t) r k R ⟨k.val, by have := k.isLt; omega⟩ (by rw [hR, hb]; omega) (by rw [hb]; show k.val = _; omega))
      (k_read V c (before t) a k ⟨k.val, by have := k.isLt; omega⟩ (by rw [hb]; show k.val = _; omega))
  · exact congrArg₂ (· * ·)
      (q_read V c t r k R ⟨2048 + k.val, by have := k.isLt; omega⟩ hR (by show 2048 + k.val = _; omega))
      (k_read V c t a k ⟨2048 + k.val, by have := k.isLt; omega⟩ (by show 2048 + k.val = _; omega))

/-- An index of the array is in point t's output block iff each coordinate is in the block's range. -/
theorem mem_block (t : Fin cfg2.N) (i : S4096x6.Idx) :
    i ∈ ((cfg2.win 2).blk t).view.set ↔ ∀ b : Fin 2, win2_2.index t b * S1024x6.size b ≤ (i b).val ∧ (i b).val < win2_2.index t b * S1024x6.size b + S1024x6.size b := by
  show i ∈ ((View.whole main_v5).slice (win2_2.rect t)).set ↔ _
  rw [View.set_slice_whole, Rect.mem_set_unit]
  exact Iff.rfl

/-- What a last half writes back is its block of the result array. -/
theorem flushed_eq (c : Dev nD) (t : Fin cfg2.N) (hf : (cfg2.win 2).flush t = true) :
    (dat V c).flushed 2 t = ((cfg2.win 2).blk t).view.read (Elt Ideal) (outArray V c) := by
  have h1 : t.val % 2 = 1 := (flush2_2 t).mp hf
  obtain ⟨-, -, -, -, e4, e5⟩ := block_indices t
  show (cfg2.win 2).cut (grid2.coords t) ((dat V c).after 2 t) = _
  rw [after_out]
  refine funext fun (y : S1024x6.Idx) => ?_
  obtain ⟨r, a, rfl⟩ : ∃ (r : Fin 1024) (a : Fin 6), y = ix2 r a := ⟨y 0, y 1, eq_ix2 y⟩
  rw [View.read_apply]
  show (outsAt V c t.val t.isLt).1 (ix2 r a) = outEntry V c ((((cfg2.win 2).blk t).view.emb (ix2 r a)) 0) ((((cfg2.win 2).blk t).view.emb (ix2 r a)) 1)
  have ha : (((cfg2.win 2).blk t).view.emb (ix2 r a)) 1 = a :=
    Fin.ext (by show win2_2.index t (1 : Fin 2) * 6 + 1 * a.val = a.val; rw [e5]; omega)
  rw [ha]
  exact out_entry V c t h1 r a _ (by show win2_2.index t (0 : Fin 2) * 1024 + 1 * r.val = _; rw [e4]; omega)

/-- Every row of the array is in the output block of the last half of its band. -/
theorem covered (i : S4096x6.Idx) :
    ∃ t : Fin cfg2.N, (cfg2.win 2).flush t = true ∧ i ∈ ((cfg2.win 2).blk t).view.set := by
  have hi0 : (i 0).val < 4096 := (i 0).isLt
  have hi1 : (i 1).val < 6 := (i 1).isLt
  have hN : cfg2.N = 8 := N_2
  let t : Fin cfg2.N := ⟨2 * ((i 0).val / 1024) + 1, by rw [hN]; omega⟩
  have ht : t.val = 2 * ((i 0).val / 1024) + 1 := rfl
  obtain ⟨-, -, -, -, e4, e5⟩ := block_indices t
  refine ⟨t, (flush2_2 t).mpr (by rw [ht]; omega), ?_⟩
  rw [mem_block]
  intro b
  match b with
  | ⟨0, _⟩ => show win2_2.index t (0 : Fin 2) * 1024 ≤ (i 0).val ∧ (i 0).val < win2_2.index t (0 : Fin 2) * 1024 + 1024
              rw [e4, ht]; omega
  | ⟨1, _⟩ => show win2_2.index t (1 : Fin 2) * 6 ≤ (i 1).val ∧ (i 1).val < win2_2.index t (1 : Fin 2) * 6 + 6
              rw [e5]; omega

/-- The output array after the region. -/
theorem final_array (c : Dev nD) : (dat (F := Ideal) V c).arrAt 2 cfg2.N = outArray V c :=
  (dat V c).arrAt_eq_of_cover 2 (outArray V c) (flushed_eq V c) covered

end AtIdeal

/-- What region 2 leaves in its output array (window 2, main_v5), entry by entry, at the ideal values. -/
theorem final (V : (c : Dev nD) → (b : Ref sig .tc) → Buf (Elt Ideal) ((c : Thread nD τ).loc b)) (c : Dev nD) (n : Fin 4096) (a : Fin 6) :
    Cert.Spec.arr S4096x6 ((dat (F := Ideal) V c).arrAt 2 cfg2.N) (ix2 n a)
      = (∑ j : Fin 4096, Cert.Spec.arr S4096x4096 (V c main_v1) (ix2 n j) * Cert.Spec.arr S6x4096 (V c main_v4) (ix2 a j))
          * Ideal.ofBits .f32 0x3C800000#32 := by
  rw [final_array V c]
  rfl

end Cert.KernelIdeal.R2
end
-- ==== Proof.SpecWhole.lean ====
import proofs.«179627_j38019050504386_2_alg».proof.Proof.Spec
import Idealize.ShloMosaic.Lib.ValueIdx

/-! The whole computation as ONE function of the eight argument arrays, entry by entry, over the extended reals:
`q = data_q · W_qᵀ + b_q`; the context `W_lin · q + b_lin` and the key `data_k · W_kᵀ + b_k`, both `[6, 4096]`; the
modulated key `kmodS`; and the result `(q · kmodᵀ) · 2⁻⁶`, `[4096, 6]`. -/

noncomputable section
namespace Cert.Spec

open Idealize.ShloMosaic Idealize.ShloMosaic.ValueIdx

abbrev M4096 : Type := (⟨2, ![4096, 4096]⟩ : Shape).Idx → EReal
abbrev M6 : Type := (⟨2, ![6, 4096]⟩ : Shape).Idx → EReal
abbrev V4096 : Type := (⟨1, ![4096]⟩ : Shape).Idx → EReal
abbrev V6 : Type := (⟨1, ![6]⟩ : Shape).Idx → EReal

/-- `q` at row `n`, column `j`: the row of `data_q` against the row of `W_q`, plus the bias. -/
def qS (x0 x2 : M4096) (x3 : V4096) (n j : Fin 4096) : EReal :=
  (∑ d : Fin 4096, x0 (ix2 n d) * x2 (ix2 j d)) + x3 (ix1 j)

/-- The context at `(a, j)`: row `a` of `W_lin` against column `j` of `q`, plus the bias of row `a`. -/
def ctxS (x4 : M6) (x5 : V6) (q : Fin 4096 → Fin 4096 → EReal) (a : Fin 6) (j : Fin 4096) : EReal :=
  (∑ n : Fin 4096, x4 (ix2 a n) * q n j) + x5 (ix1 a)

/-- The key at `(a, j)`: row `a` of `data_k` against row `j` of `W_k`, plus the bias of column `j`. -/
def kvS (x1 : M6) (x6 : M4096) (x7 : V4096) (a : Fin 6) (j : Fin 4096) : EReal :=
  (∑ d : Fin 4096, x1 (ix2 a d) * x6 (ix2 j d)) + x7 (ix1 j)

/-- The result at `(n, a)`: row `n` of `q` against row `a` of the modulated keys, scaled by `2⁻⁶`. -/
def outS (x0 : M4096) (x1 : M6) (x2 : M4096) (x3 : V4096) (x4 : M6) (x5 : V6) (x6 : M4096) (x7 : V4096)
    (n : Fin 4096) (a : Fin 6) : EReal :=
  (∑ j : Fin 4096, qS x0 x2 x3 n j * kmodS (ctxS x4 x5 (qS x0 x2 x3) a j) (kvS x1 x6 x7 a j))
    * Ideal.ofBits .f32 0x3C800000#32

/-- The result array. -/
def G (x0 : M4096) (x1 : M6) (x2 : M4096) (x3 : V4096) (x4 : M6) (x5 : V6) (x6 : M4096) (x7 : V4096) :
    (⟨2, ![4096, 6]⟩ : Shape).Idx → EReal :=
  fun i => outS x0 x1 x2 x3 x4 x5 x6 x7 (i 0) (i 1)

theorem G_apply (x0 : M4096) (x1 : M6) (x2 : M4096) (x3 : V4096) (x4 : M6) (x5 : V6) (x6 : M4096) (x7 : V4096)
    (n : Fin 4096) (a : Fin 6) : G x0 x1 x2 x3 x4 x5 x6 x7 (ix2 n a) = outS x0 x1 x2 x3 x4 x5 x6 x7 n a := rfl

end Cert.Spec
end
-- ==== Proof.KI.KValue.lean ====
import proofs.«179627_j38019050504386_2_alg».proof.Proof.KI.Frame
import proofs.«179627_j38019050504386_2_alg».proof.Proof.KI.R0Value
import proofs.«179627_j38019050504386_2_alg».proof.Proof.KI.R1Value
import proofs.«179627_j38019050504386_2_alg».proof.Proof.KI.R2Value
import proofs.«179627_j38019050504386_2_alg».proof.Proof.SpecWhole
import Idealize.ShloMosaic.Lib.ValueLayout
import Idealize.ShloMosaic.Lib.StableHlo.Run
import proofs.«179627_j38019050504386_2_alg».proof.Proof.LibColumnForms

/-! What the kernel program leaves in its result array, at the ideal instance, as the specification `Cert.Spec.G` of
the eight launch arguments: the last region's array is `(q · kmodᵀ) · 2⁻⁶` of the arrays it finds; `kmod` is the second
region's array, the clip of the context and the key formed from `q`, the arguments and the two reshaped biases;
`q` is the first region's array, formed from two arguments and the first reshaped bias; a reshaped bias read at
`(0, j)` or `(a, 0)` is the bias at `j` or `a`. -/

set_option maxRecDepth 16384

noncomputable section

namespace Cert.KernelIdeal.KValue

open Idealize.ShloMosaic Idealize.ShloMosaic.TcCoe Idealize.SL.Sem Idealize.ShloMosaic.StableHlo Idealize.ShloMosaic.ValueIdx
open Cert.KernelIdeal Cert.Spec
open Cert.KernelIdeal.Gen (hostOps0 hostOps1)

variable (m : (ℓ : Loc nD τ sig) → Buf (Elt Ideal) ℓ) (c : Dev nD)

/-- The launch arguments, as arrays over the extended reals. -/
abbrev a0 : M4096 := m ((c : Thread nD τ).loc main_arg0)
abbrev a1 : M6 := m ((c : Thread nD τ).loc main_arg1)
abbrev a2 : M4096 := m ((c : Thread nD τ).loc main_arg2)
abbrev a3 : V4096 := m ((c : Thread nD τ).loc main_arg3)
abbrev a4 : M6 := m ((c : Thread nD τ).loc main_arg4)
abbrev a5 : V6 := m ((c : Thread nD τ).loc main_arg5)
abbrev a6 : M4096 := m ((c : Thread nD τ).loc main_arg6)
abbrev a7 : V4096 := m ((c : Thread nD τ).loc main_arg7)

/-- The first bias reshaped to a row, read at `(0, j)`. -/
theorem bq_at (j : Fin 4096) : arr S1x4096 (Asm.V1 m c main_v0) (ix2 0 j) = a3 m c (ix1 j) := by
  have e : (Asm.V1 m c main_v0 : S1x4096.Idx → EReal)
      = shapeCast S1x4096 (a3 m c) Facts₀.shapeCasts_S4096_S1x4096 := by
    show StableHlo.after hostOps0 (Asm.W0 m c) (Proc.devRef .tc main_v0) = _
    after_results; rfl
  show (Asm.V1 m c main_v0 : S1x4096.Idx → EReal) (ix2 0 j) = _
  rw [e]; exact ValueIdx.shapeCast_a_1a_apply _ _ 0 j

/-- The second bias reshaped to a column, read at `(a, 0)`. -/
theorem blin_at (a : Fin 6) : arr S6x1 (Asm.V3 m c main_v2) (ix2 a 0) = a5 m c (ix1 a) := by
  have e : (Asm.V3 m c main_v2 : S6x1.Idx → EReal)
      = shapeCast S6x1 (Asm.W2 m c (Proc.devRef .tc main_arg5) : S6.Idx → EReal) Facts₀.shapeCasts_S6_S6x1 := by
    show StableHlo.after hostOps1 (Asm.W2 m c) (Proc.devRef .tc main_v2) = _
    after_results; rfl
  show (Asm.V3 m c main_v2 : S6x1.Idx → EReal) (ix2 a 0) = _
  rw [e, Asm.W2_main_arg5 m c]; exact ValueLayout.shapeCast_a_a1_apply _ _ a 0

/-- The third bias reshaped to a row, read at `(0, j)`. -/
theorem bk_at (j : Fin 4096) : arr S1x4096 (Asm.V3 m c main_v3) (ix2 0 j) = a7 m c (ix1 j) := by
  have e : (Asm.V3 m c main_v3 : S1x4096.Idx → EReal)
      = shapeCast S1x4096 (Asm.W2 m c (Proc.devRef .tc main_arg7) : S4096.Idx → EReal) Facts₀.shapeCasts_S4096_S1x4096 := by
    show StableHlo.after hostOps1 (Asm.W2 m c) (Proc.devRef .tc main_v3) = _
    after_results; rfl
  show (Asm.V3 m c main_v3 : S1x4096.Idx → EReal) (ix2 0 j) = _
  rw [e, Asm.W2_main_arg7 m c]; exact ValueIdx.shapeCast_a_1a_apply _ _ 0 j

/-- The first region's array is `q` of the arguments. -/
theorem q_at (n j : Fin 4096) :
    arr S4096x4096 ((R0.dat (F := Ideal) (Asm.V1 m) c).arrAt 3 cfg0.N) (ix2 n j) = qS (a0 m c) (a2 m c) (a3 m c) n j := by
  rw [R0.final (Asm.V1 m) c n j, bq_at m c j]
  show (∑ d : Fin 4096, arr S4096x4096 (Asm.W1 m c (Proc.devRef .tc main_arg0)) (ix2 n d)
      * arr S4096x4096 (Asm.W1 m c (Proc.devRef .tc main_arg2)) (ix2 j d)) + _ = _
  rw [Asm.W1_main_arg0 m c, Asm.W1_main_arg2 m c]; rfl

/-- The second region's array is the modulated key of the arguments. -/
theorem kmod_at (a : Fin 6) (j : Fin 4096) :
    arr S6x4096 ((R1.dat (F := Ideal) (Asm.V3 m) c).arrAt 6 cfg1.N) (ix2 a j)
      = kmodS (ctxS (a4 m c) (a5 m c) (qS (a0 m c) (a2 m c) (a3 m c)) a j) (kvS (a1 m c) (a6 m c) (a7 m c) a j) := by
  rw [R1.final (Asm.V3 m) c a j, blin_at m c a, bk_at m c j]
  show kmodS ((∑ n : Fin 4096, arr S6x4096 (Asm.W3 m c (Proc.devRef .tc main_arg4)) (ix2 a n)
        * arr S4096x4096 (Asm.W3 m c (Proc.devRef .tc main_v1)) (ix2 n j)) + _)
      ((∑ d : Fin 4096, arr S6x4096 (Asm.W3 m c (Proc.devRef .tc main_arg1)) (ix2 a d)
        * arr S4096x4096 (Asm.W3 m c (Proc.devRef .tc main_arg6)) (ix2 j d)) + _) = _
  rw [Asm.W3_main_arg4 m c, Asm.W3_main_arg1 m c, Asm.W3_main_arg6 m c, Asm.W3_main_v1 m c]
  have hq : ∀ n : Fin 4096, arr S4096x4096 ((R0.dat (F := Ideal) (Asm.V1 m) c).arrAt 3 cfg0.N) (ix2 n j)
      = qS (a0 m c) (a2 m c) (a3 m c) n j := fun n => q_at m c n j
  simp only [hq]
  rfl

/-- The result array is the specification of the launch arguments. -/
theorem result_eq :
    ((R2.dat (F := Ideal) (Asm.V4 m) c).arrAt 2 cfg2.N : S4096x6.Idx → EReal)
      = G (a0 m c) (a1 m c) (a2 m c) (a3 m c) (a4 m c) (a5 m c) (a6 m c) (a7 m c) := by
  funext i
  obtain ⟨n, a, rfl⟩ : ∃ (n : Fin 4096) (a : Fin 6), i = ix2 n a := ⟨i 0, i 1, eq_ix2 i⟩
  rw [G_apply]
  refine (R2.final (Asm.V4 m) c n a).trans ?_
  show (∑ j : Fin 4096, arr S4096x4096 (Asm.W4 m c (Proc.devRef .tc main_v1)) (ix2 n j)
      * arr S6x4096 (Asm.W4 m c (Proc.devRef .tc main_v4)) (ix2 a j)) * _ = _
  rw [Asm.W4_main_v1 m c, Asm.W4_main_v4 m c]
  have hq : ∀ j : Fin 4096, arr S4096x4096 ((R0.dat (F := Ideal) (Asm.V1 m) c).arrAt 3 cfg0.N) (ix2 n j)
      = qS (a0 m c) (a2 m c) (a3 m c) n j := fun j => q_at m c n j
  have hk : ∀ j : Fin 4096, arr S6x4096 ((R1.dat (F := Ideal) (Asm.V3 m) c).arrAt 6 cfg1.N) (ix2 a j)
      = kmodS (ctxS (a4 m c) (a5 m c) (qS (a0 m c) (a2 m c) (a3 m c)) a j) (kvS (a1 m c) (a6 m c) (a7 m c) a j) :=
    fun j => kmod_at m c a j
  simp only [hq, hk]
  rfl

end Cert.KernelIdeal.KValue

end
-- ==== Proof.Consts.lean ====
import Idealize.ShloMosaic.PureOps.Ideal

/-! The two float constants of the final scaling, as the extended reals their binary words denote: the kernel
multiplies by `2⁻⁶` where the reference divides by `64`. -/

noncomputable section

namespace Cert.Consts

open Idealize.ShloMosaic

/-- The word of `64.0` denotes the real `64`. -/
theorem ofBits_64 : Ideal.ofBits .f32 0x42800000#32 = ((64 : ℝ) : EReal) := by
  simp [Ideal.ofBits, Ideal.ieee, -EReal.coe_mul]; norm_num

/-- The word of `0.015625` denotes the real `1/64`: the scale is an exact power of two. -/
theorem ofBits_inv64 : Ideal.ofBits .f32 0x3C800000#32 = ((1 / 64 : ℝ) : EReal) := by
  simp [Ideal.ofBits, Ideal.ieee, -EReal.coe_mul]; norm_num

/-- On every extended real, multiplying by `2⁻⁶` is dividing by `64`. -/
theorem mul_inv64_eq_div_64 (x : EReal) :
    x * Ideal.ofBits .f32 0x3C800000#32 = Ideal.div x (Ideal.ofBits .f32 0x42800000#32) := by
  rw [ofBits_64, ofBits_inv64, Ideal.div_coe (by norm_num : (64 : ℝ) ≠ 0)]

end Cert.Consts

end
-- ==== Proof.RefValue.lean ====
import proofs.«179627_j38019050504386_2_alg».proof.Proof.Gen.ReferenceIdeal.Read
import proofs.«179627_j38019050504386_2_alg».proof.Proof.SpecWhole
import proofs.«179627_j38019050504386_2_alg».proof.Proof.Consts

/-! The reference, read entry by entry at the ideal instance, is the specification `Cert.Spec.G` of its eight
arguments: its transposes only rename coordinates, its two matrix products with a transposed operand are the row-against-row
sums of the specification, its clip is `min 6 (max 0 ·)`, and its final division by `64` is the product with `2⁻⁶`.
The one rearrangement is in the context: the reference multiplies `q` by `W_lin` where the specification multiplies
`W_lin` by `q`, and the product of extended reals is commutative. -/

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx
open Cert.Spec

local macro "idx2" : tactic => `(tactic| (funext a; match a with | ⟨0, _⟩ => rfl | ⟨1, _⟩ => rfl))
local macro "idx1" : tactic => `(tactic| (funext a; match a with | ⟨0, _⟩ => rfl))

variable (x0 x2 x6 : (⟨S4096x4096, .f32⟩ : BufTy).Contents (Elt Ideal)) (x1 x4 : (⟨S6x4096, .f32⟩ : BufTy).Contents (Elt Ideal))
  (x3 x7 : (⟨S4096, .f32⟩ : BufTy).Contents (Elt Ideal)) (x5 : (⟨S6, .f32⟩ : BufTy).Contents (Elt Ideal))

/-- `q` as the reference forms it, at `(n, k)`. -/
theorem v4_at (n k : Fin 4096) : val_main_v4 (F := Ideal) x0 x2 x3 (ix2 n k) = qS x0 x2 x3 n k := by
  rw [val_main_v4_apply, val_main_v1_apply, val_main_v3_apply, val_main_v2_apply]
  simp only [val_main_v0_apply]
  have e1 : ∀ d : Fin 4096, lidx_main_v1 (ix2 n k) d = ix2 n d := fun d => by idx2
  have e2 : ∀ d : Fin 4096, idx_main_v0 (ridx_main_v1 (ix2 n k) d) = ix2 k d := fun d => by idx2
  have e3 : idx_main_v2 (idx_main_v3 (ix2 n k)) = ix1 k := by idx1
  simp only [e1, e2, e3, Ideal.addf_def]
  rfl

/-- The key as the reference forms it, at `(a, k)`. -/
theorem v15_at (a : Fin 6) (k : Fin 4096) : val_main_v15 (F := Ideal) x1 x6 x7 (ix2 a k) = kvS x1 x6 x7 a k := by
  rw [val_main_v15_apply, val_main_v12_apply, val_main_v14_apply, val_main_v13_apply]
  simp only [val_main_v11_apply]
  have e1 : ∀ d : Fin 4096, lidx_main_v12 (ix2 a k) d = ix2 a d := fun d => by idx2
  have e2 : ∀ d : Fin 4096, idx_main_v11 (ridx_main_v12 (ix2 a k) d) = ix2 k d := fun d => by idx2
  have e3 : idx_main_v13 (idx_main_v14 (ix2 a k)) = ix1 k := by idx1
  simp only [e1, e2, e3, Ideal.addf_def]
  rfl

/-- The context as the reference forms it (a product with the transposed `q`, then transposed back), at `(a, k)`. -/
theorem v16_at (a : Fin 6) (k : Fin 4096) :
    val_main_v16 (F := Ideal) x0 x2 x3 x4 x5 (ix2 a k) = ctxS x4 x5 (qS x0 x2 x3) a k := by
  rw [val_main_v16_apply, val_main_v10_apply, val_main_v7_apply, val_main_v9_apply, val_main_v8_apply]
  simp only [val_main_v5_apply, val_main_v6_apply]
  have e1 : ∀ n : Fin 4096, idx_main_v5 (lidx_main_v7 (idx_main_v16 (ix2 a k)) n) = ix2 n k := fun n => by idx2
  have e2 : ∀ n : Fin 4096, idx_main_v6 (ridx_main_v7 (idx_main_v16 (ix2 a k)) n) = ix2 a n := fun n => by idx2
  have e3 : idx_main_v8 (idx_main_v9 (idx_main_v16 (ix2 a k))) = ix1 a := by idx1
  simp only [e1, e2, e3, Ideal.addf_def, v4_at]
  unfold ctxS
  congr 1
  exact Finset.sum_congr rfl fun n _ => mul_comm _ _

/-- The modulated key as the reference forms it, at `(a, k)`. -/
theorem v26_at (a : Fin 6) (k : Fin 4096) :
    val_main_v26 (F := Ideal) x0 x1 x2 x3 x4 x5 x6 x7 (ix2 a k)
      = kmodS (ctxS x4 x5 (qS x0 x2 x3) a k) (kvS x1 x6 x7 a k) := by
  simp only [val_main_v26_apply, val_main_call0_v4_apply, val_main_call0_v3_apply, val_main_cst_2_apply,
    val_main_call0_v2_apply, val_main_call0_v1_apply, val_main_call0_v0_apply, val_main_cst_1_apply,
    val_main_v25_apply, val_main_v20_apply, val_main_v17_apply, val_main_v19_apply, val_main_v18_apply, val_main_cst_apply,
    val_main_v24_apply, val_main_v23_apply, val_main_v22_apply, val_main_cst_0_apply, val_main_v21_apply,
    v15_at, v16_at, Ideal.minimumf_def, Ideal.maximumf_def, Ideal.addf_def, Ideal.mulf_def, Ideal.hostAbsf_def, Ideal.ofBits_def]
  rfl

/-- The reference's result at `(n, a)`. -/
theorem v30_at (n : Fin 4096) (a : Fin 6) :
    val_main_v30 (F := Ideal) x0 x1 x2 x3 x4 x5 x6 x7 (ix2 n a) = outS x0 x1 x2 x3 x4 x5 x6 x7 n a := by
  rw [val_main_v30_apply, val_main_v28_apply, val_main_v29_apply, val_main_cst_3_apply]
  simp only [val_main_v27_apply]
  have e1 : ∀ j : Fin 4096, lidx_main_v28 (ix2 n a) j = ix2 n j := fun j => by idx2
  have e2 : ∀ j : Fin 4096, idx_main_v27 (ridx_main_v28 (ix2 n a) j) = ix2 a j := fun j => by idx2
  simp only [e1, e2, v4_at, v26_at, Ideal.hostDivf_def, Ideal.ofBits_def]
  unfold outS
  exact (Cert.Consts.mul_inv64_eq_div_64 _).symm

/-- The reference's result array is the specification of its arguments. -/
theorem ref_eq : val_main_v30 (F := Ideal) x0 x1 x2 x3 x4 x5 x6 x7 = G x0 x1 x2 x3 x4 x5 x6 x7 := by
  funext i
  obtain ⟨n, a, rfl⟩ : ∃ (n : Fin 4096) (a : Fin 6), i = ix2 n a := ⟨i 0, i 1, eq_ix2 i⟩
  rw [G_apply]
  exact v30_at x0 x2 x6 x1 x4 x3 x7 x5 n a

end Cert.ReferenceIdeal.RefValue

end
-- ==== Proof.lean ====
/-
  The kernel computes, in three grid-tiled regions with an accumulator carried from one reduction step to the next,
  `q = data_q · W_qᵀ + b_q` (4 steps of 1024 along the contracted axis), then the context `W_lin · q + b_lin` and the key
  `data_k · W_kᵀ + b_k` (8 steps of 512) clipped to `kmod = min 6 (max 0 (k² + 2k + context · (1 + |k|)))`, then
  `(q · kmodᵀ) · 2⁻⁶` (2 steps of 2048). The reference computes the same with whole matrix products, transposes, and a
  final division by `64`. Over the extended reals every format change is the identity, addition and multiplication
  are commutative and associative (so a sum accumulated block by block is the whole sum, and `q · W_lin = W_lin · q`
  entry by entry), and `2⁻⁶` is exactly `1/64`: both result arrays are the one function `Cert.Spec.G` of the eight
  arguments. No law used needs finiteness, so the precondition is never opened.
  Frames: each region's body is run once per control case (first step, middle step, last step) on whole staging
  buffers, the accumulator's contents after each point named, and the three regions are chained through the contents
  of the unscoped buffers between them; the reference's frame is its run with the result dropped. The ideal pass
  rewrote nothing, so `preserves` is `True`.
-/
import proofs.«179627_j38019050504386_2_alg».proof.Defs
import proofs.«179627_j38019050504386_2_alg».proof.Proof.Gen.Kernel
import proofs.«179627_j38019050504386_2_alg».proof.Proof.Gen.KernelIdeal
import proofs.«179627_j38019050504386_2_alg».proof.Proof.Gen.ReferenceIdeal
import proofs.«179627_j38019050504386_2_alg».proof.Proof.Gen.Pre_finite_inputs
import proofs.«179627_j38019050504386_2_alg».proof.Proof.K.Frame
import proofs.«179627_j38019050504386_2_alg».proof.Proof.KI.Frame
import proofs.«179627_j38019050504386_2_alg».proof.Proof.KI.KValue
import proofs.«179627_j38019050504386_2_alg».proof.Proof.RefValue
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.Asm.frame m ρ

/-- So does the idealized program. -/
theorem frame_kernel_ideal : Cert.frame_KernelIdeal := fun m ρ _ => Cert.KernelIdeal.Asm.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the specification `Cert.Spec.G` of their (agreeing) arguments in their result array. -/
theorem algebraic : Cert.algebraic_KernelIdeal_ReferenceIdeal := by
  intro m ρ m' ρ' _ hagree
  refine ⟨fun c => Cert.Spec.G (Cert.KernelIdeal.KValue.a0 m c) (Cert.KernelIdeal.KValue.a1 m c) (Cert.KernelIdeal.KValue.a2 m c)
      (Cert.KernelIdeal.KValue.a3 m c) (Cert.KernelIdeal.KValue.a4 m c) (Cert.KernelIdeal.KValue.a5 m c)
      (Cert.KernelIdeal.KValue.a6 m c) (Cert.KernelIdeal.KValue.a7 m c), ?_, ?_⟩
  · exact (θ_run Cert.KernelIdeal.defs _ _).mono
      (fun r h c => ⟨(h c).1.trans (Cert.KernelIdeal.KValue.result_eq m c), (h c).2⟩)
      (Cert.KernelIdeal.Asm.run_result m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7⟩ := hagree c
    rw [(h c).1, Cert.ReferenceIdeal.Read.val_main_v30_eq, Cert.ReferenceIdeal.RefValue.ref_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
